-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : IVec S16384x4096 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_c_0 : IVec S_ 32 := constantI S_ 32 0#32
  let main_v4 : IVec S16384x4096 32 := broadcastInDim S16384x4096 ![] bcast_S_S16384x4096 main_c_0
  let main_v5 : IVec S16384x4096 1 := cmpi .sge main_arg1 main_v4
  let main_c_1 : IVec S_ 32 := constantI S_ 32 1#32
  let main_v6 : IVec S16384x4096 32 := broadcastInDim S16384x4096 ![] bcast_S_S16384x4096 main_c_1
  let main_v7 : IVec S16384x4096 1 := cmpi .sle main_arg1 main_v6
  let main_v8 : IVec S16384x4096 1 := andi main_v5 main_v7
  let main_c_2 : IVec S_ 1 := constantI S_ 1 1#1
  let main_v9 : IVec S_ 1 := (fun x v => Host.reduce IntOp.andi x v reducesTo_S16384x4096_S_d0_1 h_S_) main_v8 main_c_2
  let main_v10 : IVec S_ 1 := andi main_v3 main_v9
  main_v10
-- ==== Kernel.lean ====
abbrev S16384x4096 : Shape := ⟨2, ![16384, 4096]⟩
abbrev S32x16 : Shape := ⟨2, ![32, 16]⟩
abbrev S4x4096 : Shape := ⟨2, ![4, 4096]⟩
abbrev S16 : Shape := ⟨1, ![16]⟩
abbrev S_ : Shape := ⟨0, ![]⟩
abbrev S1x16 : Shape := ⟨2, ![1, 16]⟩
abbrev S1x1 : Shape := ⟨2, ![1, 1]⟩
abbrev S512x4096 : Shape := ⟨2, ![512, 4096]⟩
abbrev S1 : Shape := ⟨1, ![1]⟩
abbrev S1x512x4096 : Shape := ⟨3, ![1, 512, 4096]⟩
abbrev S1x1x1 : Shape := ⟨3, ![1, 1, 1]⟩

abbrev nBuf : Table → Nat
  | .hbm => 18
  | .local .tc .vmem => 4
  | .local .tc .smem => 4
  | .local .scVector .vmem => 6
  | _ => 0

abbrev bufTy : (tb : Table) → Fin (nBuf tb) → BufTy
  | .hbm, ⟨0, _⟩ => ⟨S16384x4096, .f32⟩
  | .hbm, ⟨1, _⟩ => ⟨S16384x4096, .i32⟩
  | .hbm, ⟨2, _⟩ => ⟨S32x16, .f32⟩
  | .hbm, ⟨3, _⟩ => ⟨S32x16, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local .tc .vmem, ⟨0, _⟩ => ⟨S512x4096, .f32⟩
  | .local .tc .vmem, ⟨1, _⟩ => ⟨S512x4096, .f32⟩
  | .local .tc .vmem, ⟨2, _⟩ => ⟨S512x4096, .i32⟩
  | .local .tc .vmem, ⟨3, _⟩ => ⟨S512x4096, .i32⟩
  | .local .tc .smem, ⟨0, _⟩ => ⟨S1x1, .f32⟩
  | .local .tc .smem, ⟨1, _⟩ => ⟨S1x1, .f32⟩
  | .local .tc .smem, ⟨2, _⟩ => ⟨S1, .f32⟩
  | .local .tc .smem, ⟨3, _⟩ => ⟨S1, .f32⟩
  | .local .scVector .vmem, ⟨0, _⟩ => ⟨S4x4096, .f32⟩
  | .local .scVector .vmem, ⟨1, _⟩ => ⟨S4x4096, .i32⟩
  | .local .scVector .vmem, ⟨2, _⟩ => ⟨S4x4096, .f32⟩
  | .local .scVector .vmem, ⟨3, _⟩ => ⟨S4x4096, .i32⟩
  | .local .scVector .vmem, ⟨4, _⟩ => ⟨S16, .f32⟩
  | .local .scVector .vmem, ⟨5, _⟩ => ⟨S16, .i32⟩
  | _, _ => ⟨S16384x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | .smem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_arg0_scv : Ref sig .scVector := ⟨.hbm, 0, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.smem, 0, rfl⟩
abbrev cc1_stg3_0 : Ref sig .tc := ⟨.smem, 1, rfl⟩
abbrev cc1_scratch0 : Ref sig .tc := ⟨.smem, 2, rfl⟩
abbrev cc1_scratch1 : Ref sig .tc := ⟨.smem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c13312_i32 : BitVec 32 := 13312#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let v3 : BitVec 32 := Scalar.addi c13312_i32 v2
  let c0_i32 : BitVec 32 := 0#32
  let v4 : BitVec 32 := Scalar.addi v3 c0_i32
  let c0_i32_0 : BitVec 32 := 0#32
  ![v4.toNat, 0]
@[reducible] def k0_t1_loop : Scf.Loop 32 :=
  let c0_i32_19 : BitVec 32 := 0#32
  let c12_i32 : BitVec 32 := 12#32
  let v25 : BitVec 32 := Scalar.addi c0_i32_19 c12_i32
  let c1_i32 : BitVec 32 := 1#32
  ⟨c0_i32_19, v25, c1_i32⟩
def k0_off2 (i : grid0.Coords) (k0_t1 : Fin k0_t1_loop.trips) : Fin 2 → Nat :=
  let c13312_i32 : BitVec 32 := 13312#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let v3 : BitVec 32 := Scalar.addi c13312_i32 v2
  let c0_i32_19 : BitVec 32 := 0#32
  let c1_i32 : BitVec 32 := 1#32
  let arg16 : BitVec 32 := Scf.iv c0_i32_19 c1_i32 k0_t1
  let c2_i32_22 : BitVec 32 := 2#32
  let v47 : BitVec 32 := Scalar.muli arg16 c2_i32_22
  let c1_i32_23 : BitVec 32 := 1#32
  let v48 : BitVec 32 := Scalar.addi v47 c1_i32_23
  let c4_i32 : BitVec 32 := 4#32
  let v49 : BitVec 32 := Scalar.muli v48 c4_i32
  let v50 : BitVec 32 := Scalar.addi v3 v49
  let c0_i32_24 : BitVec 32 := 0#32
  ![v50.toNat, 0]
@[reducible] def k0_t2_loop : Scf.Loop 32 :=
  let c0_i32_36 : BitVec 32 := 0#32
  let c16_i32 : BitVec 32 := 16#32
  let v59 : BitVec 32 := Scalar.addi c0_i32_36 c16_i32
  let c1_i32_37 : BitVec 32 := 1#32
  ⟨c0_i32_36, v59, c1_i32_37⟩
def k0_off3 (k0_t2 : Fin k0_t2_loop.trips) (c0_i32_52 : BitVec 32) : Fin 2 → Nat :=
  let c0_i32_53 : BitVec 32 := 0#32
  let v72 : Index := Scalar.indexCast c0_i32_53
  let c0_i32_36 : BitVec 32 := 0#32
  let c1_i32_37 : BitVec 32 := 1#32
  let arg33 : BitVec 32 := Scf.iv c0_i32_36 c1_i32_37 k0_t2
  let c256_i32 : BitVec 32 := 256#32
  let v70 : BitVec 32 := Scalar.muli arg33 c256_i32
  let v71 : BitVec 32 := Scalar.addi v70 c0_i32_52
  let v73 : Index := Scalar.indexCast v71
  ![0, v73.toNat]
def k0_off4 (k0_t2 : Fin k0_t2_loop.trips) (c0_i32_119 : BitVec 32) : Fin 2 → Nat :=
  let c1_i32_120 : BitVec 32 := 1#32
  let v344 : Index := Scalar.indexCast c1_i32_120
  let c0_i32_36 : BitVec 32 := 0#32
  let c1_i32_37 : BitVec 32 := 1#32
  let arg33 : BitVec 32 := Scf.iv c0_i32_36 c1_i32_37 k0_t2
  let c256_i32 : BitVec 32 := 256#32
  let v70 : BitVec 32 := Scalar.muli arg33 c256_i32
  let v343 : BitVec 32 := Scalar.addi v70 c0_i32_119
  let v345 : Index := Scalar.indexCast v343
  ![1, v345.toNat]
def k0_off5 (k0_t2 : Fin k0_t2_loop.trips) (c0_i32_199 : BitVec 32) : Fin 2 → Nat :=
  let c2_i32_200 : BitVec 32 := 2#32
  let v616 : Index := Scalar.indexCast c2_i32_200
  let c0_i32_36 : BitVec 32 := 0#32
  let c1_i32_37 : BitVec 32 := 1#32
  let arg33 : BitVec 32 := Scf.iv c0_i32_36 c1_i32_37 k0_t2
  let c256_i32 : BitVec 32 := 256#32
  let v70 : BitVec 32 := Scalar.muli arg33 c256_i32
  let v615 : BitVec 32 := Scalar.addi v70 c0_i32_199
  let v617 : Index := Scalar.indexCast v615
  ![2, v617.toNat]
def k0_off6 (k0_t2 : Fin k0_t2_loop.trips) (c0_i32_279 : BitVec 32) : Fin 2 → Nat :=
  let c3_i32 : BitVec 32 := 3#32
  let v888 : Index := Scalar.indexCast c3_i32
  let c0_i32_36 : BitVec 32 := 0#32
  let c1_i32_37 : BitVec 32 := 1#32
  let arg33 : BitVec 32 := Scf.iv c0_i32_36 c1_i32_37 k0_t2
  let c256_i32 : BitVec 32 := 256#32
  let v70 : BitVec 32 := Scalar.muli arg33 c256_i32
  let v887 : BitVec 32 := Scalar.addi v70 c0_i32_279
  let v889 : Index := Scalar.indexCast v887
  ![3, v889.toNat]
def k0_cond1 (k0_t1 : Fin k0_t1_loop.trips) : BitVec 1 :=
  let c0_i32_19 : BitVec 32 := 0#32
  let c1_i32 : BitVec 32 := 1#32
  let arg16 : BitVec 32 := Scf.iv c0_i32_19 c1_i32 k0_t1
  let c11_i32 : BitVec 32 := 11#32
  let v61 : BitVec 1 := Scalar.cmpi .slt arg16 c11_i32
  let v62 : BitVec 32 := Scalar.extui v61
  let c0_i32_39 : BitVec 32 := 0#32
  let v63 : BitVec 1 := Scalar.cmpi .ne v62 c0_i32_39
  v63

def k0_off7 (i : grid0.Coords) (k0_t1 : Fin k0_t1_loop.trips) : Fin 2 → Nat :=
  let c13312_i32 : BitVec 32 := 13312#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let v3 : BitVec 32 := Scalar.addi c13312_i32 v2
  let c0_i32_19 : BitVec 32 := 0#32
  let c1_i32 : BitVec 32 := 1#32
  let arg16 : BitVec 32 := Scf.iv c0_i32_19 c1_i32 k0_t1
  let c2_i32_22 : BitVec 32 := 2#32
  let v47 : BitVec 32 := Scalar.muli arg16 c2_i32_22
  let c2_i32_52 : BitVec 32 := 2#32
  let v70 : BitVec 32 := Scalar.addi v47 c2_i32_52
  let c4_i32_53 : BitVec 32 := 4#32
  let v71 : BitVec 32 := Scalar.muli v70 c4_i32_53
  let v72 : BitVec 32 := Scalar.addi v3 v71
  let c0_i32_54 : BitVec 32 := 0#32
  ![v72.toNat, 0]
@[reducible] def k0_t3_loop : Scf.Loop 32 :=
  let c0_i32_48 : BitVec 32 := 0#32
  let c16_i32_49 : BitVec 32 := 16#32
  let v68 : BitVec 32 := Scalar.addi c0_i32_48 c16_i32_49
  let c1_i32_50 : BitVec 32 := 1#32
  ⟨c0_i32_48, v68, c1_i32_50⟩
def k0_off8 (k0_t3 : Fin k0_t3_loop.trips) (c0_i32_52 : BitVec 32) : Fin 2 → Nat :=
  let c0_i32_53 : BitVec 32 := 0#32
  let v72 : Index := Scalar.indexCast c0_i32_53
  let c0_i32_48 : BitVec 32 := 0#32
  let c1_i32_50 : BitVec 32 := 1#32
  let arg33 : BitVec 32 := Scf.iv c0_i32_48 c1_i32_50 k0_t3
  let c256_i32 : BitVec 32 := 256#32
  let v70 : BitVec 32 := Scalar.muli arg33 c256_i32
  let v71 : BitVec 32 := Scalar.addi v70 c0_i32_52
  let v73 : Index := Scalar.indexCast v71
  ![0, v73.toNat]
def k0_off9 (k0_t3 : Fin k0_t3_loop.trips) (c0_i32_119 : BitVec 32) : Fin 2 → Nat :=
  let c1_i32_120 : BitVec 32 := 1#32
  let v344 : Index := Scalar.indexCast c1_i32_120
  let c0_i32_48 : BitVec 32 := 0#32
  let c1_i32_50 : BitVec 32 := 1#32
  let arg33 : BitVec 32 := Scf.iv c0_i32_48 c1_i32_50 k0_t3
  let c256_i32 : BitVec 32 := 256#32
  let v70 : BitVec 32 := Scalar.muli arg33 c256_i32
  let v343 : BitVec 32 := Scalar.addi v70 c0_i32_119
  let v345 : Index := Scalar.indexCast v343
  ![1, v345.toNat]
def k0_off10 (k0_t3 : Fin k0_t3_loop.trips) (c0_i32_199 : BitVec 32) : Fin 2 → Nat :=
  let c2_i32_200 : BitVec 32 := 2#32
  let v616 : Index := Scalar.indexCast c2_i32_200
  let c0_i32_48 : BitVec 32 := 0#32
  let c1_i32_50 : BitVec 32 := 1#32
  let arg33 : BitVec 32 := Scf.iv c0_i32_48 c1_i32_50 k0_t3
  let c256_i32 : BitVec 32 := 256#32
  let v70 : BitVec 32 := Scalar.muli arg33 c256_i32
  let v615 : BitVec 32 := Scalar.addi v70 c0_i32_199
  let v617 : Index := Scalar.indexCast v615
  ![2, v617.toNat]
def k0_off11 (k0_t3 : Fin k0_t3_loop.trips) (c0_i32_279 : BitVec 32) : Fin 2 → Nat :=
  let c3_i32 : BitVec 32 := 3#32
  let v888 : Index := Scalar.indexCast c3_i32
  let c0_i32_48 : BitVec 32 := 0#32
  let c1_i32_50 : BitVec 32 := 1#32
  let arg33 : BitVec 32 := Scf.iv c0_i32_48 c1_i32_50 k0_t3
  let c256_i32 : BitVec 32 := 256#32
  let v70 : BitVec 32 := Scalar.muli arg33 c256_i32
  let v887 : BitVec 32 := Scalar.addi v70 c0_i32_279
  let v889 : Index := Scalar.indexCast v887
  ![3, v889.toNat]
def k0_off12 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_22_r0 : BitVec 32 := 0#32
  ![v1.toNat, 0]
abbrev grid1 : Pipeline.Grid := ⟨1, ![26], ![false]⟩

def k1_cond2 (i : grid1.Coords) : BitVec 1 :=
  let arg0 : BitVec 32 := BitVec.ofNat 32 (i 0).val
  let c25_i32 : BitVec 32 := 25#32
  let v28 : BitVec 1 := Scalar.cmpi .eq arg0 c25_i32
  let v29 : BitVec 32 := Scalar.extui v28
  let c0_i32_11 : BitVec 32 := 0#32
  let v30 : BitVec 1 := Scalar.cmpi .ne v29 c0_i32_11
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .smem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S16384x4096_S4x4096_0_0 : ∀ a, (![0, 0] : Fin 2 → Nat) a + S4x4096.size a ≤ S16384x4096.size a
  h_S1x16 : 0 < S1x16.numel
  shapeCasts_S1x16_S16 : S1x16.ShapeCasts S16
  inb_S16_S16_0 : ∀ a, (![0] : Fin 1 → Nat) a + S16.size a ≤ S16.size a
  h_S16 : 0 < S16.numel
  shapeCasts_S16_S16 : S16.ShapeCasts S16
  squeezes_S1x16_S16 : S1x16.Squeezes S16
  inb_S1_S1_0 : ∀ a, (![0] : Fin 1 → Nat) a + S1.size a ≤ S1.size a
  numel1_S1 : S1.numel = 1
  inb_S512x4096_S512x4096_0_0 : ∀ a, (![0, 0] : Fin 2 → Nat) a + S512x4096.size a ≤ S512x4096.size a
  h_S512x4096 : 0 < S512x4096.numel
  shapeCasts_S512x4096_S1x512x4096 : S512x4096.ShapeCasts S1x512x4096
  reduces_S1x512x4096_S1 : S1x512x4096.Reduces [1, 2] S1
  shapeCasts_S1_S1x1x1 : S1.ShapeCasts S1x1x1
  inpos_S1x1x1_p0_0_0 : ∀ a, (![0, 0, 0] : Fin 3 → Nat) a < S1x1x1.size a
  natLt_1_32 : 1 < 32
  inb_S1x1_S1x1_0_0 : ∀ a, (![0, 0] : Fin 2 → Nat) a + S1x1.size a ≤ S1x1.size a
  numel1_S1x1 : S1x1.numel = 1
  shapeCasts_S1x1_S_ : S1x1.ShapeCasts S_
  reducesTo_S32x16_S_d0_1 : S32x16.ReducesTo [0, 1] S_
  h_S_ : 0 < S_.numel
  hcc0_scratch6 : 0 + S_.numel ≤ 12
  hcc0_scratch7 : 1 + S_.numel ≤ 12
  hcc0_scratch8 : 2 + S_.numel ≤ 12
  hcc0_scratch9 : 3 + S_.numel ≤ 12
  hcc0_scoped0 : 4 + S_.numel ≤ 12
  hcc0_scoped1 : 5 + S_.numel ≤ 12
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S4x4096.size a ≤ S16384x4096.size a
  k0_t1_ok : k0_t1_loop.OK
  k0_off2_inb : ∀ (i : grid0.Coords) (k0_t1 : Fin k0_t1_loop.trips), ∀ a, (k0_off2 i k0_t1) a + S4x4096.size a ≤ S16384x4096.size a
  k0_t2_ok : k0_t2_loop.OK
  k0_off3_inb : ∀ k0_t2 : Fin k0_t2_loop.trips, ∀ (r : Fin 16), ∀ a, (k0_off3 k0_t2 (BitVec.ofNat 32 (16 * r.val))) a + S1x16.size a ≤ S4x4096.size a
  k0_off4_inb : ∀ k0_t2 : Fin k0_t2_loop.trips, ∀ (r : Fin 16), ∀ a, (k0_off4 k0_t2 (BitVec.ofNat 32 (16 * r.val))) a + S1x16.size a ≤ S4x4096.size a
  k0_off5_inb : ∀ k0_t2 : Fin k0_t2_loop.trips, ∀ (r : Fin 16), ∀ a, (k0_off5 k0_t2 (BitVec.ofNat 32 (16 * r.val))) a + S1x16.size a ≤ S4x4096.size a
  k0_off6_inb : ∀ k0_t2 : Fin k0_t2_loop.trips, ∀ (r : Fin 16), ∀ a, (k0_off6 k0_t2 (BitVec.ofNat 32 (16 * r.val))) a + S1x16.size a ≤ S4x4096.size a
  k0_off7_inb : ∀ (i : grid0.Coords) (k0_t1 : Fin k0_t1_loop.trips), ∀ (k0_h1 : k0_cond1 k0_t1 = 1#1), ∀ a, (k0_off7 i k0_t1) a + S4x4096.size a ≤ S16384x4096.size a
  k0_t3_ok : k0_t3_loop.OK
  k0_off8_inb : ∀ k0_t3 : Fin k0_t3_loop.trips, ∀ (r : Fin 16), ∀ a, (k0_off8 k0_t3 (BitVec.ofNat 32 (16 * r.val))) a + S1x16.size a ≤ S4x4096.size a
  k0_off9_inb : ∀ k0_t3 : Fin k0_t3_loop.trips, ∀ (r : Fin 16), ∀ a, (k0_off9 k0_t3 (BitVec.ofNat 32 (16 * r.val))) a + S1x16.size a ≤ S4x4096.size a
  k0_off10_inb : ∀ k0_t3 : Fin k0_t3_loop.trips, ∀ (r : Fin 16), ∀ a, (k0_off10 k0_t3 (BitVec.ofNat 32 (16 * r.val))) a + S1x16.size a ≤ S4x4096.size a
  k0_off11_inb : ∀ k0_t3 : Fin k0_t3_loop.trips, ∀ (r : Fin 16), ∀ a, (k0_off11 k0_t3 (BitVec.ofNat 32 (16 * r.val))) a + S1x16.size a ≤ S4x4096.size a
  k0_off12_inb : ∀ i : grid0.Coords, ∀ a, (k0_off12 i) a + S1x16.size a ≤ S32x16.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .i32 = 32 ∨ (Rect.block (s := S16384x4096) S512x4096.size (cc1_transform_1 i) (hinb1_1 i)).WholeWords (EltTy.packing .i32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)

variable [Facts₀]

abbrev cc0_scratch6 : DmaSems sig S_ := SemArray.consecutive 0 S_ hcc0_scratch6
abbrev cc0_scratch7 : DmaSems sig S_ := SemArray.consecutive 1 S_ hcc0_scratch7
abbrev cc0_scratch8 : DmaSems sig S_ := SemArray.consecutive 2 S_ hcc0_scratch8
abbrev cc0_scratch9 : DmaSems sig S_ := SemArray.consecutive 3 S_ hcc0_scratch9
abbrev cc0_scoped0 : DmaSems sig S_ := SemArray.consecutive 4 S_ hcc0_scoped0
abbrev cc0_scoped1 : DmaSems sig S_ := SemArray.consecutive 5 S_ hcc0_scoped1

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_0) S1x1.size cc1_transform_2 reads1_2 true false 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x1.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .i32⟩
  | .hbm, ⟨2, _⟩ => ⟨S_, .i32⟩
  | .hbm, ⟨3, _⟩ => ⟨S16384x4096, .i32⟩
  | .hbm, ⟨4, _⟩ => ⟨S16384x4096, .i1⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S_, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S_, .f32⟩
  | .hbm, ⟨20, _⟩ => ⟨S16384x4096, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_c_4 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  natLt_1_32 : 1 < 32

variable [Facts₀]

class Facts : Prop extends Facts₀ where

variable [Facts]
-- ==== Proof.KBAmbient.lean ====
/-
  The kernel's program as the SparseCore launch theorem reads it: its label signature (one TensorCore
  pipeline beside the subcore kernel), the launch configuration, the body table, the variants, the configuration's
  side facts, and the ghost state — the launch handshakes' rounds, the TensorCore pipeline's staging cells' rounds,
  and the local transfers' counters.
-/
import proofs.«207598_g57604101374094_cont_9to1_m_955_21_alg».proof.Defs
import Idealize.ShloMosaic.Lib.SparseCore.Launch
import Idealize.ShloMosaic.Lib.StableHlo.Run
import Idealize.ShloMosaic.Lib.Pipeline.Kit
import Idealize.ShloMosaic.Lib.Tactic
import proofs.«207598_g57604101374094_cont_9to1_m_955_21_alg».proof.Proof.Gen.Kernel

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels: the kernels' two, and the one pipeline's region and loop. -/
abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging cells' rounds, the transfers' counters. -/
abbrev UH : Type := URounds (GSem nD τ sig) ℕ
abbrev UP : Type := URounds (GSem nD τ sig) Unit
abbrev UU : Type := UH × (UP × Counters)

/-- The handshakes' rounds library is the left factor. -/
abbrev EH : Emb UH (MT nD τ sig (HIx 1) (Elt F) ℕ UU ℕ) := embL

end Cert.Proof.KB

end
-- ==== Proof.KBTileDefs.lean ====
/-
  One vector subcore's task of the subcore kernel: its place, its buffers, the chunks of four rows it copies in, and
  the 1 x 16 groups its loads read.
-/
import proofs.«207598_g57604101374094_cont_9to1_m_955_21_alg».proof.Proof.KBAmbient
import proofs.«207598_g57604101374094_cont_9to1_m_955_21_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

abbrev xLoc (d : Dev nD) : Loc nD τ sig := (SparseCore.T d).loc main_arg0
abbrev tLoc (d : Dev nD) : Loc nD τ sig := (SparseCore.T d).loc main_arg1
abbrev sLoc (d : Dev nD) : Loc nD τ sig := (SparseCore.T d).loc main_v0_0
abbrev cLoc (d : Dev nD) : Loc nD τ sig := (SparseCore.T d).loc main_v0_1

variable [FloatOps F]

abbrev xV : Memref sig .scVector .hbm S16384x4096 .f32 := Memref.whole main_arg0_scv
abbrev tV : Memref sig .scVector .hbm S16384x4096 .i32 := Memref.whole main_arg1_scv
abbrev sV : Memref sig .scVector .hbm S32x16 .f32 := Memref.whole main_v0_0_scv
abbrev cV' : Memref sig .scVector .hbm S32x16 .i32 := Memref.whole main_v0_1_scv
abbrev b0 : Memref sig .scVector .vmem S4x4096 .f32 := Memref.whole cc0_scratch0
abbrev b1 : Memref sig .scVector .vmem S4x4096 .i32 := Memref.whole cc0_scratch1
abbrev b2 : Memref sig .scVector .vmem S4x4096 .f32 := Memref.whole cc0_scratch2
abbrev b3 : Memref sig .scVector .vmem S4x4096 .i32 := Memref.whole cc0_scratch3
abbrev oF : Memref sig .scVector .vmem S16 .f32 := Memref.whole cc0_scratch4
abbrev oI : Memref sig .scVector .vmem S16 .i32 := Memref.whole cc0_scratch5

section Tile

variable (d : Dev nD) (L : grid0.Coords)

abbrev cC (L : grid0.Coords) : Fin τ.nSC := (L 0).castLE hcore0
abbrev jC (L : grid0.Coords) : Fin τ.nSub := (L 1).castLE hsub0
abbrev thrV (d : Dev nD) (L : grid0.Coords) : Thread nD τ := V d (cC L) (jC L)

/-- The row of the two result tables this subcore writes, as the kernel slices it. -/
abbrev sRow (L : grid0.Coords) : Memref sig .scVector .hbm S16 .f32 :=
  ((sV : Memref sig .scVector .hbm S32x16 .f32).slice (Rect.unit (s := S32x16) (k0_off12 L) S1x16.size (k0_off12_inb L)) (fun _ => rfl)).squeeze S16 squeezes_S1x16_S16
abbrev cRow (L : grid0.Coords) : Memref sig .scVector .hbm S16 .i32 :=
  ((cV' : Memref sig .scVector .hbm S32x16 .i32).slice (Rect.unit (s := S32x16) (k0_off12 L) S1x16.size (k0_off12_inb L)) (fun _ => rfl)).squeeze S16 squeezes_S1x16_S16

/-! ## The chunks: four rows at a time, twenty-four per subcore -/

omit [FloatOps F] in
theorem bound0 : grid0.bound 0 = 2 := rfl
omit [FloatOps F] in
theorem bound1 : grid0.bound 1 = 16 := rfl

/-- Chunk n of this subcore starts at row 13312 + 96 (2 s + c) + 4 n. -/
abbrev chunkOff (L : grid0.Coords) (n : ℕ) : Fin 2 → ℕ := ![192 * (L 1).val + 96 * (L 0).val + 13312 + 4 * n, 0]

omit [FloatOps F] in
theorem chunk_inb (L : grid0.Coords) (n : ℕ) (hn : n < 24) : ∀ a, (chunkOff L n) a + S4x4096.size a ≤ S16384x4096.size a := by
  have h0 : (L 0).val < 2 := (L 0).isLt
  have h1 : (L 1).val < 16 := (L 1).isLt
  intro a
  match a with
  | ⟨0, _⟩ => show 192 * (L 1).val + 96 * (L 0).val + 13312 + 4 * n + 4 ≤ 16384; omega
  | ⟨1, _⟩ => show 0 + 4096 ≤ 4096; omega

abbrev xChunk (L : grid0.Coords) (n : ℕ) (hn : n < 24) : Memref sig .scVector .hbm S4x4096 .f32 :=
  (xV : Memref sig .scVector .hbm S16384x4096 .f32).slice (Rect.unit (s := S16384x4096) (chunkOff L n) S4x4096.size (chunk_inb L n hn)) (fun _ => rfl)
abbrev tChunk (L : grid0.Coords) (n : ℕ) (hn : n < 24) : Memref sig .scVector .hbm S4x4096 .i32 :=
  (tV : Memref sig .scVector .hbm S16384x4096 .i32).slice (Rect.unit (s := S16384x4096) (chunkOff L n) S4x4096.size (chunk_inb L n hn)) (fun _ => rfl)

omit [FloatOps F] in
theorem xslice_congr {o o' : Fin 2 → ℕ} (e : o = o') (h : ∀ a, o a + S4x4096.size a ≤ S16384x4096.size a) (h' : ∀ a, o' a + S4x4096.size a ≤ S16384x4096.size a) :
    (xV : Memref sig .scVector .hbm S16384x4096 .f32).slice (Rect.unit (s := S16384x4096) o S4x4096.size h) (fun _ => rfl)
      = (xV : Memref sig .scVector .hbm S16384x4096 .f32).slice (Rect.unit (s := S16384x4096) o' S4x4096.size h') (fun _ => rfl) := by
  subst e; rfl
omit [FloatOps F] in
theorem tslice_congr {o o' : Fin 2 → ℕ} (e : o = o') (h : ∀ a, o a + S4x4096.size a ≤ S16384x4096.size a) (h' : ∀ a, o' a + S4x4096.size a ≤ S16384x4096.size a) :
    (tV : Memref sig .scVector .hbm S16384x4096 .i32).slice (Rect.unit (s := S16384x4096) o S4x4096.size h) (fun _ => rfl)
      = (tV : Memref sig .scVector .hbm S16384x4096 .i32).slice (Rect.unit (s := S16384x4096) o' S4x4096.size h') (fun _ => rfl) := by
  subst e; rfl

omit [FloatOps F] in
theorem xset_congr {o o' : Fin 2 → ℕ} (e : o = o') (h : ∀ a, o a + S4x4096.size a ≤ S16384x4096.size a) (h' : ∀ a, o' a + S4x4096.size a ≤ S16384x4096.size a) :
    ((xV : Memref sig .scVector .hbm S16384x4096 .f32).slice (Rect.unit (s := S16384x4096) o S4x4096.size h) (fun _ => rfl)).view.set
      = ((xV : Memref sig .scVector .hbm S16384x4096 .f32).slice (Rect.unit (s := S16384x4096) o' S4x4096.size h') (fun _ => rfl)).view.set := by
  subst e; rfl
omit [FloatOps F] in
theorem tset_congr {o o' : Fin 2 → ℕ} (e : o = o') (h : ∀ a, o a + S4x4096.size a ≤ S16384x4096.size a) (h' : ∀ a, o' a + S4x4096.size a ≤ S16384x4096.size a) :
    ((tV : Memref sig .scVector .hbm S16384x4096 .i32).slice (Rect.unit (s := S16384x4096) o S4x4096.size h) (fun _ => rfl)).view.set
      = ((tV : Memref sig .scVector .hbm S16384x4096 .i32).slice (Rect.unit (s := S16384x4096) o' S4x4096.size h') (fun _ => rfl)).view.set := by
  subst e; rfl

omit [FloatOps F] in
theorem off1_chunk (L : grid0.Coords) : k0_off1 L = chunkOff L 0 := by
  rw [k0_off1_eq]
omit [FloatOps F] in
theorem off2_chunk (L : grid0.Coords) (k : Fin k0_t1_loop.trips) : k0_off2 L k = chunkOff L (2 * k.val + 1) := by
  rw [k0_off2_eq]; show ![_, 0] = ![_, 0]; congr 1; omega
omit [FloatOps F] in
theorem off7_chunk (L : grid0.Coords) (k : Fin k0_t1_loop.trips) : k0_off7 L k = chunkOff L (2 * (k.val + 1)) := by
  rw [k0_off7_eq]; show ![_, 0] = ![_, 0]; congr 1; omega

/-! ## The task's resources and the outer loop's invariant -/

omit [FloatOps F] in
theorem trips1 : k0_t1_loop.trips = 12 := by decide
omit [FloatOps F] in
theorem cond1_iff : ∀ k : Fin k0_t1_loop.trips, k0_cond1 k = 1#1 ↔ k.val + 1 < 12 := by decide +kernel

abbrev sem6 : SemLoc sig := SemLoc.dma cc0_scratch6.sem
abbrev sem7 : SemLoc sig := SemLoc.dma cc0_scratch7.sem
abbrev sem8 : SemLoc sig := SemLoc.dma cc0_scratch8.sem
abbrev sem9 : SemLoc sig := SemLoc.dma cc0_scratch9.sem

/-- Four rows of x, of t, from the row offsets o, as the kernel slices them. -/
abbrev xAt (o : Fin 2 → ℕ) (h : ∀ a, o a + S4x4096.size a ≤ S16384x4096.size a) : Memref sig .scVector .hbm S4x4096 .f32 :=
  (xV : Memref sig .scVector .hbm S16384x4096 .f32).slice (Rect.unit (s := S16384x4096) o S4x4096.size h) (fun _ => rfl)
abbrev tAt (o : Fin 2 → ℕ) (h : ∀ a, o a + S4x4096.size a ≤ S16384x4096.size a) : Memref sig .scVector .hbm S4x4096 .i32 :=
  (tV : Memref sig .scVector .hbm S16384x4096 .i32).slice (Rect.unit (s := S16384x4096) o S4x4096.size h) (fun _ => rfl)

/-- Those rows' values as the copy engine reads them off the launch memory. -/
abbrev xVal (o : Fin 2 → ℕ) (h : ∀ a, o a + S4x4096.size a ≤ S16384x4096.size a) : S4x4096.Idx → Elt F .f32 :=
  ReadAs.same.apply (View.read (Elt F) (xAt o h).view (m (xLoc d)))
abbrev tVal (o : Fin 2 → ℕ) (h : ∀ a, o a + S4x4096.size a ≤ S16384x4096.size a) : S4x4096.Idx → Elt F .i32 :=
  ReadAs.same.apply (View.read (Elt F) (tAt o h).view (m (tLoc d)))

/-! ## The groups a trip loads -/

omit [FloatOps F] in
theorem trips2 : k0_t2_loop.trips = 16 := by decide
omit [FloatOps F] in
theorem trips3 : k0_t3_loop.trips = 16 := by decide

/-- Where trip j of an inner loop reads group u of row r of its pair of buffers: the first pair's loop, the second's. -/
def ldOffA (r : Fin 4) (j : Fin k0_t2_loop.trips) (u : Fin 16) : Fin 2 → ℕ :=
  match r with
  | 0 => k0_off3 j (BitVec.ofNat 32 (16 * u.val))
  | 1 => k0_off4 j (BitVec.ofNat 32 (16 * u.val))
  | 2 => k0_off5 j (BitVec.ofNat 32 (16 * u.val))
  | 3 => k0_off6 j (BitVec.ofNat 32 (16 * u.val))
def ldOffB (r : Fin 4) (j : Fin k0_t3_loop.trips) (u : Fin 16) : Fin 2 → ℕ :=
  match r with
  | 0 => k0_off8 j (BitVec.ofNat 32 (16 * u.val))
  | 1 => k0_off9 j (BitVec.ofNat 32 (16 * u.val))
  | 2 => k0_off10 j (BitVec.ofNat 32 (16 * u.val))
  | 3 => k0_off11 j (BitVec.ofNat 32 (16 * u.val))

omit [FloatOps F] in
theorem ldOffA_inb (r : Fin 4) (j : Fin k0_t2_loop.trips) (u : Fin 16) : ∀ a, (ldOffA r j u) a + S1x16.size a ≤ S4x4096.size a := by
  match r with
  | 0 => exact k0_off3_inb j u
  | 1 => exact k0_off4_inb j u
  | 2 => exact k0_off5_inb j u
  | 3 => exact k0_off6_inb j u
omit [FloatOps F] in
theorem ldOffB_inb (r : Fin 4) (j : Fin k0_t3_loop.trips) (u : Fin 16) : ∀ a, (ldOffB r j u) a + S1x16.size a ≤ S4x4096.size a := by
  match r with
  | 0 => exact k0_off8_inb j u
  | 1 => exact k0_off9_inb j u
  | 2 => exact k0_off10_inb j u
  | 3 => exact k0_off11_inb j u

omit [FloatOps F] in
/-- The closed form: row r, columns 256 j + 16 u onward. -/
theorem ldOffA_eq (r : Fin 4) (j : Fin k0_t2_loop.trips) (u : Fin 16) : ldOffA r j u = ![r.val, 256 * j.val + 16 * u.val] := by
  match r with
  | 0 => exact k0_off3_eq j u
  | 1 => exact k0_off4_eq j u
  | 2 => exact k0_off5_eq j u
  | 3 => exact k0_off6_eq j u
omit [FloatOps F] in
theorem ldOffB_eq (r : Fin 4) (j : Fin k0_t3_loop.trips) (u : Fin 16) : ldOffB r j u = ![r.val, 256 * j.val + 16 * u.val] := by
  match r with
  | 0 => exact k0_off8_eq j u
  | 1 => exact k0_off9_eq j u
  | 2 => exact k0_off10_eq j u
  | 3 => exact k0_off11_eq j u

/-- The 1 x 16 group a load returns from a buffer bx at contents fx. -/
abbrev ldA {e : EltTy} (bx : Memref sig .scVector .vmem S4x4096 e) (fx : Buf (Elt F) (View.loc (thrV d L) bx.view))
    (r : Fin 4) (j : Fin k0_t2_loop.trips) (u : Fin 16) : S1x16.Idx → Elt F e :=
  View.readAt (Elt F) bx.view (Rect.unit (s := S4x4096) (ldOffA r j u) S1x16.size (ldOffA_inb r j u)).toLoadRect fx
abbrev ldB {e : EltTy} (bx : Memref sig .scVector .vmem S4x4096 e) (fx : Buf (Elt F) (View.loc (thrV d L) bx.view))
    (r : Fin 4) (j : Fin k0_t3_loop.trips) (u : Fin 16) : S1x16.Idx → Elt F e :=
  View.readAt (Elt F) bx.view (Rect.unit (s := S4x4096) (ldOffB r j u) S1x16.size (ldOffB_inb r j u)).toLoadRect fx

end Tile

end Cert.Proof.KB

end
-- ==== Proof.KBLayout.lean ====
/-
  What a subcore's loads read. A chunk's copy leaves a 4 × 4096 buffer holding rows o₀ … o₀ + 3 of the array (whatever the
  buffer held before: the copy writes every element), and a load of the 1 × 16 group at offsets (r, c) of that buffer reads,
  at entry (0, l), the buffer's entry (r, c + l), which is the array's entry (o₀ + r, c + l). For chunk n of the subcore
  at grid point L the first row is 13312 + 192 L₁ + 96 L₀ + 4 n, and group u of trip j of row r sits at column
  256 j + 16 u.
-/
import proofs.«207598_g57604101374094_cont_9to1_m_955_21_alg».proof.Proof.KBTileDefs
import Idealize.ShloMosaic.Lib.ValueIdx

noncomputable section

namespace Cert.Proof.KB

open Cert.Kernel Cert.Kernel.Gen
open Idealize.ShloMosaic

variable {F : FTy → Type} [FloatOps F]
variable (m : (ℓ : Loc nD τ sig) → Buf (Elt F) ℓ) (d : Dev nD) (L : grid0.Coords)

/-! ## Any buffer, any offsets -/

/-- A float buffer after a copy of four rows of x from row offsets o, loaded at offsets o', entry (0, l): the array's
    entry (o₀ + o'₀, o₁ + o'₁ + l). -/
theorem ld_gen_x (bx : Memref sig .scVector .vmem S4x4096 .f32)
    (o : Fin 2 → ℕ) (h : ∀ a, o a + S4x4096.size a ≤ S16384x4096.size a)
    (o' : Fin 2 → ℕ) (h' : ∀ a, o' a + S1x16.size a ≤ S4x4096.size a)
    (g : Buf (Elt F) (View.loc (thrV d L) bx.view)) (l : Fin 16)
    (R : Fin 16384) (C : Fin 4096) (hR : R.val = o 0 + o' 0) (hC : C.val = o 1 + (o' 1 + l.val)) :
    View.readAt (Elt F) bx.view (Rect.unit (s := S4x4096) o' S1x16.size h').toLoadRect
        (View.write (Elt F) bx.view g (xVal m d o h) Finset.univ) (ValueIdx.ix2 (0 : Fin 1) l)
      = m (xLoc d) (ValueIdx.ix2 R C) := by
  rw [View.readAt_apply, View.read_write_univ]
  show View.read (Elt F) (xAt o h).view (m (xLoc d)) _ = _
  rw [View.read_apply]
  have key : (xAt o h).view.emb ((Rect.unit (s := S4x4096) o' S1x16.size h').idx (ValueIdx.ix2 (0 : Fin 1) l))
      = (ValueIdx.ix2 R C : S16384x4096.Idx) := by
    funext a
    match a with
    | ⟨0, _⟩ =>
      refine Fin.ext ?_
      show o 0 + 1 * (o' 0 + 1 * 0) = R.val
      omega
    | ⟨1, _⟩ =>
      refine Fin.ext ?_
      show o 1 + 1 * (o' 1 + 1 * l.val) = C.val
      omega
  rw [key]
  rfl

/-- The same for an integer buffer and four rows of t. -/
theorem ld_gen_t (bx : Memref sig .scVector .vmem S4x4096 .i32)
    (o : Fin 2 → ℕ) (h : ∀ a, o a + S4x4096.size a ≤ S16384x4096.size a)
    (o' : Fin 2 → ℕ) (h' : ∀ a, o' a + S1x16.size a ≤ S4x4096.size a)
    (g : Buf (Elt F) (View.loc (thrV d L) bx.view)) (l : Fin 16)
    (R : Fin 16384) (C : Fin 4096) (hR : R.val = o 0 + o' 0) (hC : C.val = o 1 + (o' 1 + l.val)) :
    View.readAt (Elt F) bx.view (Rect.unit (s := S4x4096) o' S1x16.size h').toLoadRect
        (View.write (Elt F) bx.view g (tVal m d o h) Finset.univ) (ValueIdx.ix2 (0 : Fin 1) l)
      = m (tLoc d) (ValueIdx.ix2 R C) := by
  rw [View.readAt_apply, View.read_write_univ]
  show View.read (Elt F) (tAt o h).view (m (tLoc d)) _ = _
  rw [View.read_apply]
  have key : (tAt o h).view.emb ((Rect.unit (s := S4x4096) o' S1x16.size h').idx (ValueIdx.ix2 (0 : Fin 1) l))
      = (ValueIdx.ix2 R C : S16384x4096.Idx) := by
    funext a
    match a with
    | ⟨0, _⟩ =>
      refine Fin.ext ?_
      show o 0 + 1 * (o' 0 + 1 * 0) = R.val
      omega
    | ⟨1, _⟩ =>
      refine Fin.ext ?_
      show o 1 + 1 * (o' 1 + 1 * l.val) = C.val
      omega
  rw [key]
  rfl

/-! ## The subcore's rows and a trip's columns -/

omit [FloatOps F] in
/-- Row r of chunk n of the subcore at L is a row of the array. -/
theorem rowIdx_lt (n : ℕ) (hn : n < 24) (r : Fin 4) :
    192 * (L 1).val + 96 * (L 0).val + 13312 + 4 * n + r.val < 16384 := by
  have h0 : (L 0).val < 2 := (L 0).isLt
  have h1 : (L 1).val < 16 := (L 1).isLt
  omega

omit [FloatOps F] in
/-- Lane l of group u of trip j is a column of the array: the first pair of buffers' loop. -/
theorem colIdxA_lt (j : Fin k0_t2_loop.trips) (u l : Fin 16) : 256 * j.val + 16 * u.val + l.val < 4096 := by
  have hj : j.val < 16 := lt_of_lt_of_eq j.isLt trips2
  omega

omit [FloatOps F] in
/-- The same for the second pair of buffers' loop. -/
theorem colIdxB_lt (j : Fin k0_t3_loop.trips) (u l : Fin 16) : 256 * j.val + 16 * u.val + l.val < 4096 := by
  have hj : j.val < 16 := lt_of_lt_of_eq j.isLt trips3
  omega

omit [FloatOps F] in
theorem ldOffA_row (r : Fin 4) (j : Fin k0_t2_loop.trips) (u : Fin 16) : ldOffA r j u 0 = r.val := by
  rw [ldOffA_eq]
  rfl
omit [FloatOps F] in
theorem ldOffA_col (r : Fin 4) (j : Fin k0_t2_loop.trips) (u : Fin 16) :
    ldOffA r j u 1 = 256 * j.val + 16 * u.val := by
  rw [ldOffA_eq]
  rfl
omit [FloatOps F] in
theorem ldOffB_row (r : Fin 4) (j : Fin k0_t3_loop.trips) (u : Fin 16) : ldOffB r j u 0 = r.val := by
  rw [ldOffB_eq]
  rfl
omit [FloatOps F] in
theorem ldOffB_col (r : Fin 4) (j : Fin k0_t3_loop.trips) (u : Fin 16) :
    ldOffB r j u 1 = 256 * j.val + 16 * u.val := by
  rw [ldOffB_eq]
  rfl

/-! ## The four loads -/

/-- First float buffer, after chunk n's copy of x has landed: group u of trip j of row r, entry (0, l). -/
theorem ldA_x (n : ℕ) (hn : n < 24)
    (g : Buf (Elt F) (View.loc (thrV d L) (b0 : Memref sig .scVector .vmem S4x4096 .f32).view))
    (r : Fin 4) (j : Fin k0_t2_loop.trips) (u l : Fin 16) :
    ldA d L b0 (View.write (Elt F) (b0 : Memref sig .scVector .vmem S4x4096 .f32).view g
        (xVal m d (chunkOff L n) (chunk_inb L n hn)) Finset.univ) r j u (ValueIdx.ix2 0 l)
      = m (xLoc d) (ValueIdx.ix2 ⟨192 * (L 1).val + 96 * (L 0).val + 13312 + 4 * n + r.val, rowIdx_lt L n hn r⟩
          ⟨256 * j.val + 16 * u.val + l.val, colIdxA_lt j u l⟩) :=
  ld_gen_x m d L b0 (chunkOff L n) (chunk_inb L n hn) (ldOffA r j u) (ldOffA_inb r j u) g l _ _
    (by
      show _ = (192 * (L 1).val + 96 * (L 0).val + 13312 + 4 * n) + ldOffA r j u 0
      rw [ldOffA_row])
    (by
      show _ = 0 + (ldOffA r j u 1 + l.val)
      rw [ldOffA_col, Nat.zero_add])

/-- First integer buffer, after chunk n's copy of t has landed. -/
theorem ldA_t (n : ℕ) (hn : n < 24)
    (g : Buf (Elt F) (View.loc (thrV d L) (b1 : Memref sig .scVector .vmem S4x4096 .i32).view))
    (r : Fin 4) (j : Fin k0_t2_loop.trips) (u l : Fin 16) :
    ldA d L b1 (View.write (Elt F) (b1 : Memref sig .scVector .vmem S4x4096 .i32).view g
        (tVal m d (chunkOff L n) (chunk_inb L n hn)) Finset.univ) r j u (ValueIdx.ix2 0 l)
      = m (tLoc d) (ValueIdx.ix2 ⟨192 * (L 1).val + 96 * (L 0).val + 13312 + 4 * n + r.val, rowIdx_lt L n hn r⟩
          ⟨256 * j.val + 16 * u.val + l.val, colIdxA_lt j u l⟩) :=
  ld_gen_t m d L b1 (chunkOff L n) (chunk_inb L n hn) (ldOffA r j u) (ldOffA_inb r j u) g l _ _
    (by
      show _ = (192 * (L 1).val + 96 * (L 0).val + 13312 + 4 * n) + ldOffA r j u 0
      rw [ldOffA_row])
    (by
      show _ = 0 + (ldOffA r j u 1 + l.val)
      rw [ldOffA_col, Nat.zero_add])

/-- Second float buffer, after chunk n's copy of x has landed. -/
theorem ldB_x (n : ℕ) (hn : n < 24)
    (g : Buf (Elt F) (View.loc (thrV d L) (b2 : Memref sig .scVector .vmem S4x4096 .f32).view))
    (r : Fin 4) (j : Fin k0_t3_loop.trips) (u l : Fin 16) :
    ldB d L b2 (View.write (Elt F) (b2 : Memref sig .scVector .vmem S4x4096 .f32).view g
        (xVal m d (chunkOff L n) (chunk_inb L n hn)) Finset.univ) r j u (ValueIdx.ix2 0 l)
      = m (xLoc d) (ValueIdx.ix2 ⟨192 * (L 1).val + 96 * (L 0).val + 13312 + 4 * n + r.val, rowIdx_lt L n hn r⟩
          ⟨256 * j.val + 16 * u.val + l.val, colIdxB_lt j u l⟩) :=
  ld_gen_x m d L b2 (chunkOff L n) (chunk_inb L n hn) (ldOffB r j u) (ldOffB_inb r j u) g l _ _
    (by
      show _ = (192 * (L 1).val + 96 * (L 0).val + 13312 + 4 * n) + ldOffB r j u 0
      rw [ldOffB_row])
    (by
      show _ = 0 + (ldOffB r j u 1 + l.val)
      rw [ldOffB_col, Nat.zero_add])

/-- Second integer buffer, after chunk n's copy of t has landed. -/
theorem ldB_t (n : ℕ) (hn : n < 24)
    (g : Buf (Elt F) (View.loc (thrV d L) (b3 : Memref sig .scVector .vmem S4x4096 .i32).view))
    (r : Fin 4) (j : Fin k0_t3_loop.trips) (u l : Fin 16) :
    ldB d L b3 (View.write (Elt F) (b3 : Memref sig .scVector .vmem S4x4096 .i32).view g
        (tVal m d (chunkOff L n) (chunk_inb L n hn)) Finset.univ) r j u (ValueIdx.ix2 0 l)
      = m (tLoc d) (ValueIdx.ix2 ⟨192 * (L 1).val + 96 * (L 0).val + 13312 + 4 * n + r.val, rowIdx_lt L n hn r⟩
          ⟨256 * j.val + 16 * u.val + l.val, colIdxB_lt j u l⟩) :=
  ld_gen_t m d L b3 (chunkOff L n) (chunk_inb L n hn) (ldOffB r j u) (ldOffB_inb r j u) g l _ _
    (by
      show _ = (192 * (L 1).val + 96 * (L 0).val + 13312 + 4 * n) + ldOffB r j u 0
      rw [ldOffB_row])
    (by
      show _ = 0 + (ldOffB r j u 1 + l.val)
      rw [ldOffB_col, Nat.zero_add])

end Cert.Proof.KB

end
-- ==== Proof.SpecF.lean ====
/-
  One vector subcore's accumulation, in the program's own order of operations, for any float values.

  A subcore works through 24 chunks of 4 rows by 4096 columns. A chunk is consumed in 16 trips; a trip reads, from each of
  the chunk's 4 rows, 16 groups of 16 consecutive lanes (group u of trip k starts at column 256 k + 16 u) of x and of t,
  and adds the group's term to accumulator u mod 8: (float t · (1 − x))² to the float accumulator, t to the count.
  So within a trip accumulator j receives, in this order, the groups (row 0, j), (row 0, j + 8), (row 1, j), … ,
  (row 3, j + 8). At the end the eight accumulators are added up, 0 and 1 first.
  The loaded groups are parameters here (what a load returns is the program's business): ldx n r k u and ldt n r k u are
  the 1 × 16 blocks of chunk n, row r, trip k, group u.
-/
import Idealize.ShloMosaic.PureOps
import Idealize.ShloMosaic.Lib.ValueIdx

noncomputable section

namespace Cert.Proof.SpecF

open Idealize.ShloMosaic

variable {F : FTy → Type} [FloatOps F]

abbrev S16 : Shape := ⟨1, ![16]⟩
abbrev S1x16 : Shape := ⟨2, ![1, 16]⟩

theorem casts : S1x16.ShapeCasts S16 := by decide
theorem casts16 : S16.ShapeCasts S16 := by decide

/-- The float accumulator's step on one group. -/
def stepF (a : FVec F S16 .f32) (xv : Vec F S1x16 .f32) (tv : Vec F S1x16 .i32) : FVec F S16 .f32 :=
  addf a (mulf (mulf (sitofp .f32 (shapeCast S16 tv casts)) (subf (broadcast S16 (Scalar.ofBits .f32 0x3F800000#32)) (shapeCast S16 xv casts)))
    (mulf (sitofp .f32 (shapeCast S16 tv casts)) (subf (broadcast S16 (Scalar.ofBits .f32 0x3F800000#32)) (shapeCast S16 xv casts))))

/-- The count's step on one group. -/
def stepI (c : IVec S16 32) (tv : Vec F S1x16 .i32) : IVec S16 32 := addi c (shapeCast S16 tv casts)

/-- The eight float and eight integer accumulators. -/
abbrev Carry (F : FTy → Type) : Type :=
  FVec F S16 .f32 × FVec F S16 .f32 × FVec F S16 .f32 × FVec F S16 .f32 × FVec F S16 .f32 × FVec F S16 .f32 × FVec F S16 .f32 × FVec F S16 .f32
    × IVec S16 32 × IVec S16 32 × IVec S16 32 × IVec S16 32 × IVec S16 32 × IVec S16 32 × IVec S16 32 × IVec S16 32

section Trip

-- One trip's loads: row r, group u.
variable (lx : Fin 4 → Fin 16 → Vec F S1x16 .f32) (lt : Fin 4 → Fin 16 → Vec F S1x16 .i32)

/-- Accumulator j over one trip: its two groups of each of the four rows, rows in order. -/
def accF (j j' : Fin 16) (a : FVec F S16 .f32) : FVec F S16 .f32 :=
  stepF (stepF (stepF (stepF (stepF (stepF (stepF (stepF a (lx 0 j) (lt 0 j)) (lx 0 j') (lt 0 j')) (lx 1 j) (lt 1 j)) (lx 1 j') (lt 1 j'))
    (lx 2 j) (lt 2 j)) (lx 2 j') (lt 2 j')) (lx 3 j) (lt 3 j)) (lx 3 j') (lt 3 j')
def accI (j j' : Fin 16) (c : IVec S16 32) : IVec S16 32 :=
  stepI (stepI (stepI (stepI (stepI (stepI (stepI (stepI c (lt 0 j)) (lt 0 j')) (lt 1 j)) (lt 1 j')) (lt 2 j)) (lt 2 j')) (lt 3 j)) (lt 3 j')

/-- One trip on all sixteen accumulators. -/
def tripF : Carry F → Carry F
  | (a0, a1, a2, a3, a4, a5, a6, a7, c0, c1, c2, c3, c4, c5, c6, c7) =>
    (accF lx lt 0 8 a0, accF lx lt 1 9 a1, accF lx lt 2 10 a2, accF lx lt 3 11 a3, accF lx lt 4 12 a4, accF lx lt 5 13 a5, accF lx lt 6 14 a6, accF lx lt 7 15 a7,
      accI lt 0 8 c0, accI lt 1 9 c1, accI lt 2 10 c2, accI lt 3 11 c3, accI lt 4 12 c4, accI lt 5 13 c5, accI lt 6 14 c6, accI lt 7 15 c7)

end Trip

/-- A chunk: its first k trips, in order (k = 16 is the whole chunk). -/
def chunkF (lx : Fin 4 → Fin 16 → Fin 16 → Vec F S1x16 .f32) (lt : Fin 4 → Fin 16 → Fin 16 → Vec F S1x16 .i32) : ℕ → Carry F → Carry F
  | 0, c => c
  | k + 1, c => if h : k < 16 then tripF (fun r u => lx r ⟨k, h⟩ u) (fun r u => lt r ⟨k, h⟩ u) (chunkF lx lt k c) else chunkF lx lt k c

/-- The subcore's first n chunks, in order, from the zero accumulators (n = 24 is the whole task). -/
def zeroC : Carry F :=
  (constant S16 .f32 0x00000000#32, constant S16 .f32 0x00000000#32, constant S16 .f32 0x00000000#32, constant S16 .f32 0x00000000#32,
    constant S16 .f32 0x00000000#32, constant S16 .f32 0x00000000#32, constant S16 .f32 0x00000000#32, constant S16 .f32 0x00000000#32,
    constantI S16 32 0#32, constantI S16 32 0#32, constantI S16 32 0#32, constantI S16 32 0#32, constantI S16 32 0#32, constantI S16 32 0#32, constantI S16 32 0#32, constantI S16 32 0#32)

def tileF (lx : Fin 24 → Fin 4 → Fin 16 → Fin 16 → Vec F S1x16 .f32) (lt : Fin 24 → Fin 4 → Fin 16 → Fin 16 → Vec F S1x16 .i32) : ℕ → Carry F
  | 0 => zeroC
  | n + 1 => if h : n < 24 then chunkF (lx ⟨n, h⟩) (lt ⟨n, h⟩) 16 (tileF lx lt n) else tileF lx lt n

/-- The eight accumulators added up: 0 and 1 first, then 2, … , 7. -/
def sumF : Carry F → FVec F S16 .f32
  | (a0, a1, a2, a3, a4, a5, a6, a7, _) =>
    shapeCast S16 (addf (addf (addf (addf (addf (addf (addf a0 a1) a2) a3) a4) a5) a6) a7) casts16
def sumI : Carry F → IVec S16 32
  | (_, _, _, _, _, _, _, _, c0, c1, c2, c3, c4, c5, c6, c7) =>
    shapeCast S16 (addi (addi (addi (addi (addi (addi (addi c0 c1) c2) c3) c4) c5) c6) c7) casts16

end Cert.Proof.SpecF

end
-- ==== Proof.KBTileSpec.lean ====
/-
  What one vector subcore's task computes, named: the 1 x 16 groups of x and t its trips read, as entries of the two argument
  arrays (chunk n, row r, trip k, group u is row 13312 + 96 (2 s + c) + 4 n + r, columns 256 k + 16 u onward); the same
  groups as its loads return them from a buffer holding a landed chunk; and the vector its last copy sends out.
-/
import proofs.«207598_g57604101374094_cont_9to1_m_955_21_alg».proof.Proof.KBTileDefs
import proofs.«207598_g57604101374094_cont_9to1_m_955_21_alg».proof.Proof.KBLayout
import proofs.«207598_g57604101374094_cont_9to1_m_955_21_alg».proof.Proof.SpecF

noncomputable section

namespace Cert.Proof.KB

open Cert.Kernel Cert.Kernel.Gen
open Idealize.ShloMosaic
open Idealize.ShloMosaic.SparseCore (S V T)

variable {F : FTy → Type}
variable (m : (ℓ : Loc nD τ sig) → Buf (Elt F) ℓ) (d : Dev nD) (L : grid0.Coords)

theorem col_lt (k u l : Fin 16) : 256 * k.val + 16 * u.val + l.val < 4096 := by omega

/-- Chunk n, row r, trip k, group u of x and of t: sixteen consecutive entries of a row. -/
def LX (n : Fin 24) (r : Fin 4) (k u : Fin 16) : Vec F S1x16 .f32 :=
  fun i => m (xLoc d) (ValueIdx.ix2 ⟨192 * (L 1).val + 96 * (L 0).val + 13312 + 4 * n.val + r.val, rowIdx_lt L n.val n.isLt r⟩
    ⟨256 * k.val + 16 * u.val + (i 1).val, col_lt k u (i 1)⟩)
def LT (n : Fin 24) (r : Fin 4) (k u : Fin 16) : Vec F S1x16 .i32 :=
  fun i => m (tLoc d) (ValueIdx.ix2 ⟨192 * (L 1).val + 96 * (L 0).val + 13312 + 4 * n.val + r.val, rowIdx_lt L n.val n.isLt r⟩
    ⟨256 * k.val + 16 * u.val + (i 1).val, col_lt k u (i 1)⟩)

variable [FloatOps F]

/-- The groups as the first and the second inner loop load them from their buffers. -/
def lxA (fx : Buf (Elt F) (View.loc (thrV d L) (b0 : Memref sig .scVector .vmem S4x4096 .f32).view)) : Fin 4 → Fin 16 → Fin 16 → Vec F S1x16 .f32 :=
  fun r k u => ldA d L b0 fx r (Fin.cast trips2.symm k) u
def ltA (ft : Buf (Elt F) (View.loc (thrV d L) (b1 : Memref sig .scVector .vmem S4x4096 .i32).view)) : Fin 4 → Fin 16 → Fin 16 → Vec F S1x16 .i32 :=
  fun r k u => ldA d L b1 ft r (Fin.cast trips2.symm k) u
def lxB (fx : Buf (Elt F) (View.loc (thrV d L) (b2 : Memref sig .scVector .vmem S4x4096 .f32).view)) : Fin 4 → Fin 16 → Fin 16 → Vec F S1x16 .f32 :=
  fun r k u => ldB d L b2 fx r (Fin.cast trips3.symm k) u
def ltB (ft : Buf (Elt F) (View.loc (thrV d L) (b3 : Memref sig .scVector .vmem S4x4096 .i32).view)) : Fin 4 → Fin 16 → Fin 16 → Vec F S1x16 .i32 :=
  fun r k u => ldB d L b3 ft r (Fin.cast trips3.symm k) u

theorem idx_1x16 (i : S1x16.Idx) : i = ValueIdx.ix2 (0 : Fin 1) (i 1) := by
  refine (ValueIdx.eq_ix2 i).trans ?_
  congr 1
  exact Fin.ext (Nat.lt_one_iff.mp (i 0).isLt)

/-- From a buffer where chunk n has landed, the loads return the chunk's groups, whatever the buffer held before. -/
theorem lxA_eq (n : Fin 24) (o : Fin 2 → ℕ) (h : ∀ a, o a + S4x4096.size a ≤ S16384x4096.size a) (ho : o = chunkOff L n.val)
    (g : Buf (Elt F) (View.loc (thrV d L) (b0 : Memref sig .scVector .vmem S4x4096 .f32).view)) :
    lxA d L (View.write (Elt F) b0.view g (xVal m d o h) Finset.univ) = LX m d L n := by
  subst ho
  funext r k u i
  rw [idx_1x16 i]
  exact ldA_x m d L n.val n.isLt g r (Fin.cast trips2.symm k) u (i 1)
theorem ltA_eq (n : Fin 24) (o : Fin 2 → ℕ) (h : ∀ a, o a + S4x4096.size a ≤ S16384x4096.size a) (ho : o = chunkOff L n.val)
    (g : Buf (Elt F) (View.loc (thrV d L) (b1 : Memref sig .scVector .vmem S4x4096 .i32).view)) :
    ltA d L (View.write (Elt F) b1.view g (tVal m d o h) Finset.univ) = LT m d L n := by
  subst ho
  funext r k u i
  rw [idx_1x16 i]
  exact ldA_t m d L n.val n.isLt g r (Fin.cast trips2.symm k) u (i 1)
theorem lxB_eq (n : Fin 24) (o : Fin 2 → ℕ) (h : ∀ a, o a + S4x4096.size a ≤ S16384x4096.size a) (ho : o = chunkOff L n.val)
    (g : Buf (Elt F) (View.loc (thrV d L) (b2 : Memref sig .scVector .vmem S4x4096 .f32).view)) :
    lxB d L (View.write (Elt F) b2.view g (xVal m d o h) Finset.univ) = LX m d L n := by
  subst ho
  funext r k u i
  rw [idx_1x16 i]
  exact ldB_x m d L n.val n.isLt g r (Fin.cast trips3.symm k) u (i 1)
theorem ltB_eq (n : Fin 24) (o : Fin 2 → ℕ) (h : ∀ a, o a + S4x4096.size a ≤ S16384x4096.size a) (ho : o = chunkOff L n.val)
    (g : Buf (Elt F) (View.loc (thrV d L) (b3 : Memref sig .scVector .vmem S4x4096 .i32).view)) :
    ltB d L (View.write (Elt F) b3.view g (tVal m d o h) Finset.univ) = LT m d L n := by
  subst ho
  funext r k u i
  rw [idx_1x16 i]
  exact ldB_t m d L n.val n.isLt g r (Fin.cast trips3.symm k) u (i 1)

/-- The fold's recursion, one step at a time. -/
theorem chunkF_succ (lx : Fin 4 → Fin 16 → Fin 16 → Vec F SpecF.S1x16 .f32) (lt : Fin 4 → Fin 16 → Fin 16 → Vec F SpecF.S1x16 .i32)
    (k : ℕ) (hk : k < 16) (c : SpecF.Carry F) :
    SpecF.chunkF lx lt (k + 1) c = SpecF.tripF (fun r u => lx r ⟨k, hk⟩ u) (fun r u => lt r ⟨k, hk⟩ u) (SpecF.chunkF lx lt k c) := by
  rw [SpecF.chunkF, dif_pos hk]
theorem tileF_succ (lx : Fin 24 → Fin 4 → Fin 16 → Fin 16 → Vec F SpecF.S1x16 .f32) (lt : Fin 24 → Fin 4 → Fin 16 → Fin 16 → Vec F SpecF.S1x16 .i32)
    (n : ℕ) (hn : n < 24) :
    SpecF.tileF lx lt (n + 1) = SpecF.chunkF (lx ⟨n, hn⟩) (lt ⟨n, hn⟩) 16 (SpecF.tileF lx lt n) := by
  rw [SpecF.tileF, dif_pos hn]

/-- What the copy out of a 16-word scratch sends once the vector v has been stored to it. -/
abbrev outF (f4 : Buf (Elt F) (View.loc (thrV d L) (oF : Memref sig .scVector .vmem S16 .f32).view)) (v : FVec F S16 .f32) : S16.Idx → Elt F .f32 :=
  ReadAs.same.apply (View.read (Elt F) (oF : Memref sig .scVector .vmem S16 .f32).view
    ((oF : Memref sig .scVector .vmem S16 .f32).view.writes (Elt F) f4 [⟨Rect.unit (s := S16) ![0] S16.size inb_S16_S16_0, v⟩]))
abbrev outI (f5 : Buf (Elt F) (View.loc (thrV d L) (oI : Memref sig .scVector .vmem S16 .i32).view)) (v : IVec S16 32) : S16.Idx → Elt F .i32 :=
  ReadAs.same.apply (View.read (Elt F) (oI : Memref sig .scVector .vmem S16 .i32).view
    ((oI : Memref sig .scVector .vmem S16 .i32).view.writes (Elt F) f5 [⟨Rect.unit (s := S16) ![0] S16.size inb_S16_S16_0, v⟩]))

end Cert.Proof.KB

end
-- ==== Proof.KBTile.lean ====
/-
  One vector subcore's task of the subcore kernel, run once at a symbolic place.

  The task copies its 96 rows of x and of t in 24 chunks of four rows, two pairs of buffers alternating: while the
  loads consume one pair, the next chunk is on its way into the other, each buffer's copy counted on a semaphore of its
  own, so a wait is passed only by the copy it waits for and no buffer is read between its copy's start and that wait.
  Two copies out of x (and of t) are outstanding at once, so each array is held under two read shares, one per pair.
  The sixteen accumulators are carried through both loops as the fold of the chunks consumed so far, over the entries of
  x and t themselves; at the end their sums are stored, and copied out to the subcore's row of each result table.
-/
import proofs.«207598_g57604101374094_cont_9to1_m_955_21_alg».proof.Proof.KBTileSpec
import proofs.«207598_g57604101374094_cont_9to1_m_955_21_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-! ## The resources in flight and the loops' invariants -/

/-- The rows at o of x on their way into the buffer b, counted on the semaphore sm: the buffer already at the rows'
    values, the rows of x lent at the share q — and the rest of x beside it. -/
def flX (q : PosShare TreeShare) (sm : SemLoc sig) (b : Memref sig .scVector .vmem S4x4096 .f32)
    (o : Fin 2 → ℕ) (h : ∀ a, o a + S4x4096.size a ≤ S16384x4096.size a) (g : Buf (Elt F) (View.loc (thrV d L) b.view)) : sProp 𝕄 :=
  iprop(Transfers.Flight countersEmb (thrV d L) sm default 524288
      iprop((b.view.loc (thrV d L) ↦{fullShare} View.write (Elt F) b.view g (xVal m d o h) Finset.univ)
        ∗ (xV).view.loc (thrV d L) ↦[(xAt o h).view.set]{q} m (xLoc d))
    ∗ ((xV).view.loc (thrV d L) ↦[Finset.univ \ (xAt o h).view.set]{q} m (xLoc d)))
def flT (q : PosShare TreeShare) (sm : SemLoc sig) (b : Memref sig .scVector .vmem S4x4096 .i32)
    (o : Fin 2 → ℕ) (h : ∀ a, o a + S4x4096.size a ≤ S16384x4096.size a) (g : Buf (Elt F) (View.loc (thrV d L) b.view)) : sProp 𝕄 :=
  iprop(Transfers.Flight countersEmb (thrV d L) sm default 524288
      iprop((b.view.loc (thrV d L) ↦{fullShare} View.write (Elt F) b.view g (tVal m d o h) Finset.univ)
        ∗ (tV).view.loc (thrV d L) ↦[(tAt o h).view.set]{q} m (tLoc d))
    ∗ ((tV).view.loc (thrV d L) ↦[Finset.univ \ (tAt o h).view.set]{q} m (tLoc d)))

/-- The sixteen carried accumulators. -/
abbrev Carry (F : FTy → Type) : Type :=
  FVec F S16 .f32 × FVec F S16 .f32 × FVec F S16 .f32 × FVec F S16 .f32 × FVec F S16 .f32 × FVec F S16 .f32 × FVec F S16 .f32 × FVec F S16 .f32
    × IVec S16 32 × IVec S16 32 × IVec S16 32 × IVec S16 32 × IVec S16 32 × IVec S16 32 × IVec S16 32 × IVec S16 32

variable (qx0 qx1 qt0 qt1 : PosShare TreeShare)

/-- Before trip k of the outer loop: chunk 2k is on its way into the first pair of buffers (or, after the last
    trip, those buffers are idle); the second pair is idle; x and t are held under two read shares each, the first
    lending chunk 2k's rows; the accumulators have consumed the first 2k chunks. -/
def inv (O : CellTallies nD τ sig (HIx 1)) (W : Waits sig (HIx 1)) (k : ℕ) (acc : Carry F) : sProp 𝕄 :=
  iprop(Transfers.MayWaits (thrV d L) (none : HIx 1) O
    ∗ (if k < 12 then
        iprop((∃ o h g, ⌜o = chunkOff L (2 * k)⌝ ∗ flX m d L qx0 sem6 b0 o h g)
          ∗ (∃ o h g, ⌜o = chunkOff L (2 * k)⌝ ∗ flT m d L qt0 sem7 b1 o h g))
      else
        iprop((∃ g, (b0).view.loc (thrV d L) ↦{fullShare} g) ∗ ((xV).view.loc (thrV d L) ↦{qx0} m (xLoc d))
          ∗ (∃ g, (b1).view.loc (thrV d L) ↦{fullShare} g) ∗ ((tV).view.loc (thrV d L) ↦{qt0} m (tLoc d))
          ∗ semVal (thrV d L, sem6) 0 ∗ semVal (thrV d L, sem7) 0))
    ∗ ((xV).view.loc (thrV d L) ↦{qx1} m (xLoc d)) ∗ ((tV).view.loc (thrV d L) ↦{qt1} m (tLoc d))
    ∗ (∃ g, (b2).view.loc (thrV d L) ↦{fullShare} g) ∗ (∃ g, (b3).view.loc (thrV d L) ↦{fullShare} g)
    ∗ semVal (thrV d L, sem8) 0 ∗ semVal (thrV d L, sem9) 0
    ∗ (∃ W', ⌜∀ p ∈ W', p ∈ W ∨ p.2 = none⌝ ∗ owes (thrV d L) O W')
    ∗ ⌜acc = SpecF.tileF (LX m d L) (LT m d L) (2 * k)⌝)

/-- Inside an inner loop the pair of buffers it reads is held at fixed contents, and the accumulators have consumed
    the chunk's first k trips. -/
def innerInv (bx : Memref sig .scVector .vmem S4x4096 .f32) (bt : Memref sig .scVector .vmem S4x4096 .i32)
    (fx : Buf (Elt F) (View.loc (thrV d L) bx.view)) (ft : Buf (Elt F) (View.loc (thrV d L) bt.view))
    (lx : Fin 4 → Fin 16 → Fin 16 → Vec F S1x16 .f32) (lt : Fin 4 → Fin 16 → Fin 16 → Vec F S1x16 .i32) (init : Carry F)
    (k : ℕ) (acc : Carry F) : sProp 𝕄 :=
  iprop((bx.view.loc (thrV d L) ↦{fullShare} fx) ∗ (bt.view.loc (thrV d L) ↦{fullShare} ft) ∗ ⌜acc = SpecF.chunkF lx lt k init⌝)

set_option maxHeartbeats 64000000 in
/-- The task, from the subcore's holdings: both arrays under two read shares each, its row of each result table, its six
    scratch buffers and six semaphores; everything is handed back, the two rows at the task's sums. -/
theorem tile_run (fs : Buf (Elt F) (sLoc d)) (fc : Buf (Elt F) (cLoc d)) (R : sProp 𝕄)
    (O : CellTallies nD τ sig (HIx 1)) (W : Waits sig (HIx 1)) (hO : ∀ g, O g none = 0) :
    (iprop(levAts (K (F := F)).L (K (F := F)).lev
        ∗ ((xV).view.loc (thrV d L) ↦{qx0} m (xLoc d)) ∗ ((xV).view.loc (thrV d L) ↦{qx1} m (xLoc d))
        ∗ ((tV).view.loc (thrV d L) ↦{qt0} m (tLoc d)) ∗ ((tV).view.loc (thrV d L) ↦{qt1} m (tLoc d))
        ∗ ((sRow L).view.loc (thrV d L) ↦[(sRow L).view.set]{fullShare} fs) ∗ ((cRow L).view.loc (thrV d L) ↦[(cRow L).view.set]{fullShare} fc)
        ∗ (∃ g, (b0).view.loc (thrV d L) ↦{fullShare} g) ∗ (∃ g, (b1).view.loc (thrV d L) ↦{fullShare} g)
        ∗ (∃ g, (b2).view.loc (thrV d L) ↦{fullShare} g) ∗ (∃ g, (b3).view.loc (thrV d L) ↦{fullShare} g)
        ∗ (∃ g, (oF).view.loc (thrV d L) ↦{fullShare} g) ∗ (∃ g, (oI).view.loc (thrV d L) ↦{fullShare} g)
        ∗ semVal (thrV d L, sem6) 0 ∗ semVal (thrV d L, sem7) 0 ∗ semVal (thrV d L, sem8) 0 ∗ semVal (thrV d L, sem9) 0
        ∗ semVal (thrV d L, SemLoc.dma cc0_scoped0.sem) 0 ∗ semVal (thrV d L, SemLoc.dma cc0_scoped1.sem) 0
        ∗ owes (thrV d L) O W ∗ R) : sProp 𝕄)
      ⊢ wp frame (wpE (defs₀ (F := F)) 𝒱₀ (thrV d L) none) Set.univ
          (cc0__sc_body L xV (Memref.isWhole_whole _) tV (Memref.isWhole_whole _) sV (Memref.isWhole_whole _) cV' (Memref.isWhole_whole _)
            b0 (Memref.isWhole_whole _) b1 (Memref.isWhole_whole _) b2 (Memref.isWhole_whole _) b3 (Memref.isWhole_whole _)
            oF (Memref.isWhole_whole _) oI (Memref.isWhole_whole _) cc0_scratch6 cc0_scratch7 cc0_scratch8 cc0_scratch9 cc0_scoped0 cc0_scoped1)
          fun _ => iprop(((xV).view.loc (thrV d L) ↦{qx0} m (xLoc d)) ∗ ((xV).view.loc (thrV d L) ↦{qx1} m (xLoc d))
        ∗ ((tV).view.loc (thrV d L) ↦{qt0} m (tLoc d)) ∗ ((tV).view.loc (thrV d L) ↦{qt1} m (tLoc d))
        ∗ (∃ f4, (sRow L).view.loc (thrV d L) ↦[(sRow L).view.set]{fullShare}
            (sRow L).view.writes (Elt F) fs [⟨Rect.whole S16, outF d L f4 (SpecF.sumF (SpecF.tileF (LX m d L) (LT m d L) 24))⟩])
        ∗ (∃ f5, (cRow L).view.loc (thrV d L) ↦[(cRow L).view.set]{fullShare}
            (cRow L).view.writes (Elt F) fc [⟨Rect.whole S16, outI d L f5 (SpecF.sumI (SpecF.tileF (LX m d L) (LT m d L) 24))⟩])
        ∗ (∃ g, (b0).view.loc (thrV d L) ↦{fullShare} g) ∗ (∃ g, (b1).view.loc (thrV d L) ↦{fullShare} g)
        ∗ (∃ g, (b2).view.loc (thrV d L) ↦{fullShare} g) ∗ (∃ g, (b3).view.loc (thrV d L) ↦{fullShare} g)
        ∗ (∃ g, (oF).view.loc (thrV d L) ↦{fullShare} g) ∗ (∃ g, (oI).view.loc (thrV d L) ↦{fullShare} g)
        ∗ semVal (thrV d L, sem6) 0 ∗ semVal (thrV d L, sem7) 0 ∗ semVal (thrV d L, sem8) 0 ∗ semVal (thrV d L, sem9) 0
        ∗ semVal (thrV d L, SemLoc.dma cc0_scoped0.sem) 0 ∗ semVal (thrV d L, SemLoc.dma cc0_scoped1.sem) 0
        ∗ (∃ W', ⌜∀ p ∈ W', p ∈ W ∨ p.2 = none⌝ ∗ owes (thrV d L) O W') ∗ R) := by
  rw [cc0__sc_body_eq_skeleton]; unfold cc0__sc_body_skel
  iintro ⟨#Hlv, Hx0, Hx1, Ht0, Ht1, Hs, Hc, ⟨%f0, H0⟩, ⟨%f1, H1⟩, ⟨%f2, H2⟩, ⟨%f3, H3⟩, ⟨%f4, H4⟩, ⟨%f5, H5⟩, Hm6, Hm7, Hm8, Hm9, Hms0, Hms1, HO, HR⟩
  ihave Hmw := ((K (F := F)).mayWaits_none (thr := thrV d L) hO) $$ Hlv
  sl_exec_parts
  sl_for (inv m d L qx0 qx1 qt0 qt1 O W) $$ [Hmw Hm6 Hx0 Hm7 Ht0 Hx1 Ht1 H2 H3 Hm8 Hm9 HO]
  case region =>
    intro k acc
    have hk : k.val < 12 := trips1 ▸ k.isLt
    unfold inv
    rw [if_pos hk]
    unfold flX flT
    iintro ⟨Hmw, ⟨⟨%ox, %hx, %g0, %ex, Hm6, Hx0⟩, ⟨%ot, %ht, %g1, %et, Hm7, Ht0⟩⟩, Hx1, Ht1, ⟨%g2, H2⟩, ⟨%g3, H3⟩, Hm8, Hm9, ⟨%W', %hW', HO⟩, %hacc⟩
    by_cases hc : k.val + 1 < 12
    · have k0_h1 : k0_cond1 k = 1#1 := (cond1_iff k).mpr hc
      sl_exec_parts
      sl_for (innerInv (F := F) d L b0 b1 (View.write (Elt F) b0.view g0 (xVal m d ox hx) Finset.univ) (View.write (Elt F) b1.view g1 (tVal m d ot ht) Finset.univ) (lxA d L (View.write (Elt F) b0.view g0 (xVal m d ox hx) Finset.univ)) (ltA d L (View.write (Elt F) b1.view g1 (tVal m d ot ht) Finset.univ)) acc) $$ [Hm6_dst Hm7_dst]
      case region =>
        intro j acc2
        unfold innerInv
        iintro ⟨HB0, HB1, %h2⟩
        sl_exec_parts
        sl_step
        isplitl [HB0]; · iexact HB0
        isplitl [HB1]; · iexact HB1
        ipureintro
        have hj : j.val < 16 := trips2 ▸ j.isLt
        rw [chunkF_succ _ _ _ hj, ← h2]
        rfl
      · unfold innerInv
        isplitl [Hm6_dst]; · iexact Hm6_dst
        isplitl [Hm7_dst]; · iexact Hm7_dst
        ipureintro; rfl
      iintro %acc3 HI
      unfold innerInv
      icases HI with ⟨HB0, HB1, %h3⟩
      sl_exec_parts
      sl_for (innerInv (F := F) d L b2 b3 (View.write (Elt F) b2.view g2 (xVal m d (k0_off2 L k) (k0_off2_inb L k)) Finset.univ) (View.write (Elt F) b3.view g3 (tVal m d (k0_off2 L k) (k0_off2_inb L k)) Finset.univ) (lxB d L (View.write (Elt F) b2.view g2 (xVal m d (k0_off2 L k) (k0_off2_inb L k)) Finset.univ)) (ltB d L (View.write (Elt F) b3.view g3 (tVal m d (k0_off2 L k) (k0_off2_inb L k)) Finset.univ)) acc3) $$ [H2 H3]
      case region =>
        intro j acc2
        unfold innerInv
        iintro ⟨HB2, HB3, %h2⟩
        sl_exec_parts
        sl_step
        isplitl [HB2]; · iexact HB2
        isplitl [HB3]; · iexact HB3
        ipureintro
        have hj : j.val < 16 := trips3 ▸ j.isLt
        rw [chunkF_succ _ _ _ hj, ← h2]
        rfl
      · unfold innerInv
        isplitl [H2]; · iexact H2
        isplitl [H3]; · iexact H3
        ipureintro; rfl
      iintro %acc4 HI
      unfold innerInv
      icases HI with ⟨HB2, HB3, %h4⟩
      sl_exec_parts
      sl_step
      have hval : acc4 = SpecF.tileF (LX m d L) (LT m d L) (2 * (k.val + 1)) := by
        have e2 : Scf.trips k0_t2_loop.lb k0_t2_loop.ub k0_t2_loop.st = 16 := by decide
        have e3 : Scf.trips k0_t3_loop.lb k0_t3_loop.ub k0_t3_loop.st = 16 := by decide
        have hn0 : 2 * k.val < 24 := by omega
        have hn1 : 2 * k.val + 1 < 24 := by omega
        rw [e2, lxA_eq m d L ⟨2 * k.val, hn0⟩ ox hx ex g0, ltA_eq m d L ⟨2 * k.val, hn0⟩ ot ht et g1, hacc] at h3
        rw [e3, lxB_eq m d L ⟨2 * k.val + 1, hn1⟩ (k0_off2 L k) (k0_off2_inb L k) (off2_chunk L k) g2,
          ltB_eq m d L ⟨2 * k.val + 1, hn1⟩ (k0_off2 L k) (k0_off2_inb L k) (off2_chunk L k) g3, h3] at h4
        rw [show 2 * (k.val + 1) = 2 * k.val + 1 + 1 by omega, tileF_succ _ _ _ hn1, tileF_succ _ _ _ hn0]
        exact h4
      rw [if_pos hc]
      isplitl [Hmw]; · iexact Hmw
      isplitl [Hm6 Hx0 Hm7 Ht0]
      · isplitl [Hm6 Hx0]
        · iexists (k0_off7 L k), (k0_off7_inb L k k0_h1), _
          isplitr; · ipureintro; exact off7_chunk L k
          isplitl [Hm6]; · iexact Hm6
          iexact Hx0
        · iexists (k0_off7 L k), (k0_off7_inb L k k0_h1), _
          isplitr; · ipureintro; exact off7_chunk L k
          isplitl [Hm7]; · iexact Hm7
          iexact Ht0
      isplitl [Hx1]; · iexact Hx1
      isplitl [Ht1]; · iexact Ht1
      isplitl [HB2]; · iexists _; iexact HB2
      isplitl [HB3]; · iexists _; iexact HB3
      isplitl [Hm8]; · iexact Hm8
      isplitl [Hm9]; · iexact Hm9
      isplitl [HO]
      · iexists (insert (sem9, (default : HIx 1)) (insert (sem8, (default : HIx 1)) (insert (sem7, (default : HIx 1)) (insert (sem6, (default : HIx 1)) W')))); isplitr
        · ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        · iexact HO
      ipureintro; exact hval
    · have k0_h1 : ¬ k0_cond1 k = 1#1 := fun h => hc ((cond1_iff k).mp h)
      sl_exec_parts
      sl_for (innerInv (F := F) d L b0 b1 (View.write (Elt F) b0.view g0 (xVal m d ox hx) Finset.univ) (View.write (Elt F) b1.view g1 (tVal m d ot ht) Finset.univ) (lxA d L (View.write (Elt F) b0.view g0 (xVal m d ox hx) Finset.univ)) (ltA d L (View.write (Elt F) b1.view g1 (tVal m d ot ht) Finset.univ)) acc) $$ [Hm6_dst Hm7_dst]
      case region =>
        intro j acc2
        unfold innerInv
        iintro ⟨HB0, HB1, %h2⟩
        sl_exec_parts
        sl_step
        isplitl [HB0]; · iexact HB0
        isplitl [HB1]; · iexact HB1
        ipureintro
        have hj : j.val < 16 := trips2 ▸ j.isLt
        rw [chunkF_succ _ _ _ hj, ← h2]
        rfl
      · unfold innerInv
        isplitl [Hm6_dst]; · iexact Hm6_dst
        isplitl [Hm7_dst]; · iexact Hm7_dst
        ipureintro; rfl
      iintro %acc3 HI
      unfold innerInv
      icases HI with ⟨HB0, HB1, %h3⟩
      sl_exec_parts
      sl_for (innerInv (F := F) d L b2 b3 (View.write (Elt F) b2.view g2 (xVal m d (k0_off2 L k) (k0_off2_inb L k)) Finset.univ) (View.write (Elt F) b3.view g3 (tVal m d (k0_off2 L k) (k0_off2_inb L k)) Finset.univ) (lxB d L (View.write (Elt F) b2.view g2 (xVal m d (k0_off2 L k) (k0_off2_inb L k)) Finset.univ)) (ltB d L (View.write (Elt F) b3.view g3 (tVal m d (k0_off2 L k) (k0_off2_inb L k)) Finset.univ)) acc3) $$ [H2 H3]
      case region =>
        intro j acc2
        unfold innerInv
        iintro ⟨HB2, HB3, %h2⟩
        sl_exec_parts
        sl_step
        isplitl [HB2]; · iexact HB2
        isplitl [HB3]; · iexact HB3
        ipureintro
        have hj : j.val < 16 := trips3 ▸ j.isLt
        rw [chunkF_succ _ _ _ hj, ← h2]
        rfl
      · unfold innerInv
        isplitl [H2]; · iexact H2
        isplitl [H3]; · iexact H3
        ipureintro; rfl
      iintro %acc4 HI
      unfold innerInv
      icases HI with ⟨HB2, HB3, %h4⟩
      sl_exec_parts
      sl_step
      have hval : acc4 = SpecF.tileF (LX m d L) (LT m d L) (2 * (k.val + 1)) := by
        have e2 : Scf.trips k0_t2_loop.lb k0_t2_loop.ub k0_t2_loop.st = 16 := by decide
        have e3 : Scf.trips k0_t3_loop.lb k0_t3_loop.ub k0_t3_loop.st = 16 := by decide
        have hn0 : 2 * k.val < 24 := by omega
        have hn1 : 2 * k.val + 1 < 24 := by omega
        rw [e2, lxA_eq m d L ⟨2 * k.val, hn0⟩ ox hx ex g0, ltA_eq m d L ⟨2 * k.val, hn0⟩ ot ht et g1, hacc] at h3
        rw [e3, lxB_eq m d L ⟨2 * k.val + 1, hn1⟩ (k0_off2 L k) (k0_off2_inb L k) (off2_chunk L k) g2,
          ltB_eq m d L ⟨2 * k.val + 1, hn1⟩ (k0_off2 L k) (k0_off2_inb L k) (off2_chunk L k) g3, h3] at h4
        rw [show 2 * (k.val + 1) = 2 * k.val + 1 + 1 by omega, tileF_succ _ _ _ hn1, tileF_succ _ _ _ hn0]
        exact h4
      rw [if_neg hc]
      isplitl [Hmw]; · iexact Hmw
      isplitl [HB0 Hx0 HB1 Ht0 Hm6 Hm7]
      · isplitl [HB0]; · iexists _; iexact HB0
        isplitl [Hx0]; · iexact Hx0
        isplitl [HB1]; · iexists _; iexact HB1
        isplitl [Ht0]; · iexact Ht0
        isplitl [Hm6]; · iexact Hm6
        iexact Hm7
      isplitl [Hx1]; · iexact Hx1
      isplitl [Ht1]; · iexact Ht1
      isplitl [HB2]; · iexists _; iexact HB2
      isplitl [HB3]; · iexists _; iexact HB3
      isplitl [Hm8]; · iexact Hm8
      isplitl [Hm9]; · iexact Hm9
      isplitl [HO]
      · iexists (insert (sem9, (default : HIx 1)) (insert (sem8, (default : HIx 1)) (insert (sem7, (default : HIx 1)) (insert (sem6, (default : HIx 1)) W')))); isplitr
        · ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        · iexact HO
      ipureintro; exact hval
  · unfold inv
    rw [if_pos (by omega : (0 : ℕ) < 12)]
    unfold flX flT
    isplitl [Hmw]; · iexact Hmw
    isplitl [Hm6 Hx0 Hm7 Ht0]
    · isplitl [Hm6 Hx0]
      · iexists (k0_off1 L), (k0_off1_inb L), f0
        isplitr; · ipureintro; exact off1_chunk L
        isplitl [Hm6]; · iexact Hm6
        iexact Hx0
      · iexists (k0_off1 L), (k0_off1_inb L), f1
        isplitr; · ipureintro; exact off1_chunk L
        isplitl [Hm7]; · iexact Hm7
        iexact Ht0
    isplitl [Hx1]; · iexact Hx1
    isplitl [Ht1]; · iexact Ht1
    isplitl [H2]; · iexists _; iexact H2
    isplitl [H3]; · iexists _; iexact H3
    isplitl [Hm8]; · iexact Hm8
    isplitl [Hm9]; · iexact Hm9
    isplitl [HO]
    · iexists W; isplitr
      · ipureintro; exact fun p hp => .inl hp
      · iexact HO
    ipureintro; rfl
  iintro %acc HI
  unfold inv
  rw [if_neg (by decide : ¬ Scf.trips k0_t1_loop.lb k0_t1_loop.ub k0_t1_loop.st < 12)]
  icases HI with ⟨-, ⟨⟨%g0, H0⟩, Hx0, ⟨%g1, H1⟩, Ht0, Hm6, Hm7⟩, Hx1, Ht1, ⟨%g2, H2⟩, ⟨%g3, H3⟩, Hm8, Hm9, ⟨%W', %hW', HO⟩, %hacc⟩
  have e1 : 2 * Scf.trips k0_t1_loop.lb k0_t1_loop.ub k0_t1_loop.st = 24 := by decide
  rw [e1] at hacc
  subst hacc
  sl_exec_parts
  sl_step
  isplitl [Hx0]; · iexact Hx0
  isplitl [Hx1]; · iexact Hx1
  isplitl [Ht0]; · iexact Ht0
  isplitl [Ht1]; · iexact Ht1
  isplitl [Hs]; · iexists f4; iexact Hs
  isplitl [Hc]; · iexists f5; iexact Hc
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Hm6]; · iexact Hm6
  isplitl [Hm7]; · iexact Hm7
  isplitl [Hm8]; · iexact Hm8
  isplitl [Hm9]; · iexact Hm9
  isplitl [Hms0]; · iexact Hms0
  isplitl [Hms1]; · iexact Hms1
  isplitl [HO]
  · iexists (insert (SemLoc.dma cc0_scoped1.sem, (default : HIx 1)) (insert (SemLoc.dma cc0_scoped0.sem, (default : HIx 1)) W')); isplitr
    · ipureintro; intro p hp
      rcases Finset.mem_insert.mp hp with rfl | hp
      · exact .inr rfl
      rcases Finset.mem_insert.mp hp with rfl | hp
      · exact .inr rfl
      exact hW' p hp
    · iexact HO
  iexact HR

end Tile

end Cert.Proof.KB

end
-- ==== Proof.KBRows.lean ====
/-
  The rows of the two 32 x 16 result tables. Subcore (c, i) writes row 2 i + c of each; as the kernel slices it (one row
  cut out, the unit axis dropped) that row is the w-th of the 32 equal parts of the table along its first axis, so the
  subcores' rows are pairwise disjoint and together the whole table.
-/
import proofs.«207598_g57604101374094_cont_9to1_m_955_21_alg».proof.Proof.KBAmbient

noncomputable section

namespace Cert.Proof.KB

open Cert.Kernel Cert.Kernel.Gen
open Idealize.ShloMosaic

theorem hdiv32 : 32 ∣ S32x16.size 0 := ⟨1, rfl⟩

/-- Row w of a 32 x 16 table. -/
abbrev rowR (w : Fin 32) : Rect S32x16 := Rect.part (s := S32x16) (a₀ := 0) hdiv32 w

/-- The row subcore L writes. -/
def widx (L : grid0.Coords) : Fin 32 :=
  ⟨2 * (L 1).val + (L 0).val, by have h0 : (L 0).val < 2 := (L 0).isLt; have h1 : (L 1).val < 16 := (L 1).isLt; omega⟩

theorem row_unit (L : grid0.Coords) : Rect.unit (s := S32x16) (k0_off12 L) S1x16.size (k0_off12_inb L) = rowR (widx L) := by
  unfold rowR Rect.part Rect.block
  congr 1 <;> funext a
  · rw [k0_off12_eq]
    match a with
    | 0 => simp [Shape.partIx, Shape.partSize, widx]
    | 1 => simp [Shape.partIx, Shape.partSize, widx]
  · match a with
    | 0 => simp [Shape.partSize]
    | 1 => simp [Shape.partSize]

theorem rows_disjoint {w w' : Fin 32} (h : w ≠ w') : Disjoint (rowR w).set (rowR w').set := Rect.part_disjoint hdiv32 h
theorem rows_cover : (Finset.univ : Finset (Fin 32)).biUnion (fun w => (rowR w).set) = Finset.univ := Rect.biUnion_part hdiv32

end Cert.Proof.KB

end
-- ==== Proof.KBSplit.lean ====
/-
  Sharing out the launch's arrays. An array every subcore reads is held under read shares: the whole share splits into a
  remainder and one share per SparseCore, and a SparseCore's share into a remainder and one per subcore, each of those
  halved once more. A 32 × 16 table every subcore writes one row of is held row by row: subcore (c, i) owns row 2 i + c,
  the rows are pairwise disjoint and together the whole table, so the table's points-to is the separating conjunction,
  over c and i, of the rows' points-tos — at one contents, at contents chosen row by row, or at contents that agree with
  a given one on each row.
-/
import proofs.«207598_g57604101374094_cont_9to1_m_955_21_alg».proof.Proof.KBTileDefs
import proofs.«207598_g57604101374094_cont_9to1_m_955_21_alg».proof.Proof.KBRows
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Read shares -/

/-- A SparseCore's read share of an array. -/
abbrev qC (c : Fin 2) : PosShare TreeShare := Transfers.shareTok fullShare 2 c
/-- A subcore's read share. -/
abbrev qT (c : Fin 2) (i : Fin 16) : PosShare TreeShare := Transfers.shareTok (qC c) 16 i

/-- The whole share is a remainder and one share per SparseCore. -/
theorem core_shares (ℓ : Loc nD τ sig) (f : Buf (Elt F) ℓ) :
    (ℓ ↦{fullShare} f : sProp 𝕄)
      ⊣⊢ iprop((ℓ ↦{Transfers.shareDrop fullShare 2} f) ∗ bigSep Finset.univ fun c : Fin 2 => ℓ ↦{qC c} f) :=
  Transfers.pointsTo_toks fullShare 2

/-- A SparseCore's share is a remainder and, per subcore, the two halves of the subcore's share. -/
theorem tile_shares (ℓ : Loc nD τ sig) (f : Buf (Elt F) ℓ) (c : Fin 2) :
    (ℓ ↦{qC c} f : sProp 𝕄)
      ⊣⊢ iprop((ℓ ↦{Transfers.shareDrop (qC c) 16} f)
          ∗ bigSep Finset.univ fun i : Fin 16 => iprop((ℓ ↦{(qT c i).left} f) ∗ (ℓ ↦{(qT c i).right} f))) := by
  have h2 : (bigSep Finset.univ fun i : Fin 16 => (ℓ ↦{qT c i} f : sProp 𝕄))
      = bigSep Finset.univ fun i : Fin 16 => iprop((ℓ ↦{(qT c i).left} f) ∗ (ℓ ↦{(qT c i).right} f)) :=
    bigSep_congr fun i _ =>
      have hs : (ℓ ↦{qT c i} f : sProp 𝕄) ⊣⊢ iprop((ℓ ↦{(qT c i).left} f) ∗ (ℓ ↦{(qT c i).right} f)) :=
        pointsTo_share (PosShare.mem_left_op_right _)
      BI.equiv_iff.mp ⟨hs.1, hs.2⟩
  rw [← h2]
  exact Transfers.pointsTo_toks (qC c) 16

/-! ## The subcores' rows -/

/-- The row subcore (c, i) writes. -/
def wOf (c : Fin 2) (i : Fin 16) : Fin 32 := ⟨2 * i.val + c.val, by omega⟩

/-- Row 2 i + c ↔ (c, i). -/
def wEquiv : Fin 2 × Fin 16 ≃ Fin 32 where
  toFun p := wOf p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := Fin.ext (by
    show 2 * (w.val / 2) + w.val % 2 = w.val
    omega)

/-- A separating conjunction over the 32 rows, subcore by subcore. -/
theorem bigSep_rows (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]
  rfl

section Rows

variable (ℓ : Loc nD τ sig) (K : Fin 32 → Finset (Idx ℓ))
  (hd : ∀ w w' : Fin 32, w ≠ w' → Disjoint (K w) (K w')) (hc : (Finset.univ : Finset (Fin 32)).biUnion K = Finset.univ)

include hd hc

/-- An array cut into 32 pairwise disjoint pieces that cover it, held piece by piece. -/
theorem rows_split_gen (f : Buf (Elt F) ℓ) :
    (ℓ ↦{fullShare} f : sProp 𝕄)
      = bigSep Finset.univ fun c : Fin 2 => bigSep Finset.univ fun i : Fin 16 => ℓ ↦[K (wOf c i)]{fullShare} f := by
  rw [← bigSep_rows (fun w => (ℓ ↦[K w]{fullShare} f : sProp 𝕄)),
    ← pointsTo_biUnion Finset.univ K (fun w _ w' _ h => hd w w' h), hc]

/-- The pieces, each at some contents, make the array at some contents. -/
theorem rows_join_gen [FloatOps F] :
    (bigSep Finset.univ fun c : Fin 2 => bigSep Finset.univ fun i : Fin 16 =>
        iprop(∃ f, ℓ ↦[K (wOf c i)]{fullShare} f))
      ⊢ (iprop(∃ f, ℓ ↦{fullShare} f) : sProp 𝕄) := by
  rw [← bigSep_rows (fun w => (iprop(∃ f, ℓ ↦[K w]{fullShare} f) : sProp 𝕄))]
  refine (bigSep_exists_pi Finset.univ (fun w (f : Buf (Elt F) ℓ) => (ℓ ↦[K w]{fullShare} f : sProp 𝕄))).trans ?_
  iintro ⟨%fs, H⟩
  ihave H' := (pointsTo_biUnion_join Finset.univ K fs (fs 0) (fun w _ w' _ h => hd w w' h)) $$ H
  icases H' with ⟨%g, -, Hg⟩
  rw [hc]
  iexists g; iexact Hg

/-- The pieces, each at contents that agree on it with G, make the array at G. -/
theorem rows_join_at_gen (G : Buf (Elt F) ℓ) (fs : Fin 2 → Fin 16 → Buf (Elt F) ℓ)
    (h : ∀ c i, ∀ x ∈ K (wOf c i), fs c i x = G x) :
    (bigSep Finset.univ fun c : Fin 2 => bigSep Finset.univ fun i : Fin 16 => ℓ ↦[K (wOf c i)]{fullShare} fs c i)
      ⊢ (ℓ ↦{fullShare} G : sProp 𝕄) := by
  rw [rows_split_gen ℓ K hd hc G]
  exact Entails.of_eq (bigSep_congr fun c _ => bigSep_congr fun i _ => pointsTo_congr (h c i))

end Rows

/-! ## The two result tables -/

theorem sRows_split (d : Dev nD) (f : Buf (Elt F) (sLoc d)) :
    (sLoc d ↦{fullShare} f : sProp 𝕄)
      = bigSep Finset.univ fun c : Fin 2 => bigSep Finset.univ fun i : Fin 16 =>
          sLoc d ↦[(rowR (wOf c i)).set]{fullShare} f :=
  rows_split_gen (sLoc d) (fun w => (rowR w).set) (fun _ _ h => rows_disjoint h) rows_cover f

theorem sRows_join [FloatOps F] (d : Dev nD) :
    (bigSep Finset.univ fun c : Fin 2 => bigSep Finset.univ fun i : Fin 16 =>
        iprop(∃ f, sLoc d ↦[(rowR (wOf c i)).set]{fullShare} f))
      ⊢ (iprop(∃ f, sLoc d ↦{fullShare} f) : sProp 𝕄) :=
  rows_join_gen (sLoc d) (fun w => (rowR w).set) (fun _ _ h => rows_disjoint h) rows_cover

theorem sRows_join_at (d : Dev nD) (G : Buf (Elt F) (sLoc d)) (fs : Fin 2 → Fin 16 → Buf (Elt F) (sLoc d))
    (h : ∀ c i, ∀ x ∈ (rowR (wOf c i)).set, fs c i x = G x) :
    (bigSep Finset.univ fun c : Fin 2 => bigSep Finset.univ fun i : Fin 16 =>
        sLoc d ↦[(rowR (wOf c i)).set]{fullShare} fs c i)
      ⊢ (sLoc d ↦{fullShare} G : sProp 𝕄) :=
  rows_join_at_gen (sLoc d) (fun w => (rowR w).set) (fun _ _ h => rows_disjoint h) rows_cover G fs h

theorem cRows_split (d : Dev nD) (f : Buf (Elt F) (cLoc d)) :
    (cLoc d ↦{fullShare} f : sProp 𝕄)
      = bigSep Finset.univ fun c : Fin 2 => bigSep Finset.univ fun i : Fin 16 =>
          cLoc d ↦[(rowR (wOf c i)).set]{fullShare} f :=
  rows_split_gen (cLoc d) (fun w => (rowR w).set) (fun _ _ h => rows_disjoint h) rows_cover f

theorem cRows_join [FloatOps F] (d : Dev nD) :
    (bigSep Finset.univ fun c : Fin 2 => bigSep Finset.univ fun i : Fin 16 =>
        iprop(∃ f, cLoc d ↦[(rowR (wOf c i)).set]{fullShare} f))
      ⊢ (iprop(∃ f, cLoc d ↦{fullShare} f) : sProp 𝕄) :=
  rows_join_gen (cLoc d) (fun w => (rowR w).set) (fun _ _ h => rows_disjoint h) rows_cover

theorem cRows_join_at (d : Dev nD) (G : Buf (Elt F) (cLoc d)) (fs : Fin 2 → Fin 16 → Buf (Elt F) (cLoc d))
    (h : ∀ c i, ∀ x ∈ (rowR (wOf c i)).set, fs c i x = G x) :
    (bigSep Finset.univ fun c : Fin 2 => bigSep Finset.univ fun i : Fin 16 =>
        cLoc d ↦[(rowR (wOf c i)).set]{fullShare} fs c i)
      ⊢ (cLoc d ↦{fullShare} G : sProp 𝕄) :=
  rows_join_at_gen (cLoc d) (fun w => (rowR w).set) (fun _ _ h => rows_disjoint h) rows_cover G fs h

end Cert.Proof.KB

end
-- ==== Proof.KBOut.lean ====
/-
  The row of a result table a subcore writes, and what it writes there. As the kernel slices it — one row cut out of the
  32 × 16 table, the unit axis dropped — the row's elements are those of row 2 L₁ + L₀ of the table, entry l of the row
  sitting at (2 L₁ + L₀, l). The copy out of the 16-word scratch, taken after the vector v was stored to the whole
  scratch, carries v; written through the row over any prior contents of the table it leaves v (entry l at column l) on
  that row.
-/
import proofs.«207598_g57604101374094_cont_9to1_m_955_21_alg».proof.Proof.KBTileSpec
import proofs.«207598_g57604101374094_cont_9to1_m_955_21_alg».proof.Proof.KBRows
import Idealize.ShloMosaic.Lib.Writes
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## The row's elements -/

omit [FloatOps F] in
theorem set_sRow : (sRow L).view.set = (rowR (widx L)).set := by
  show (((sV : Memref sig .scVector .hbm S32x16 .f32).view.slice
      (Rect.unit (s := S32x16) (k0_off12 L) S1x16.size (k0_off12_inb L))).reshape S16 squeezes_S1x16_S16.numel_eq).set = _
  rw [View.set_reshape]
  show ((View.whole (main_v0_0_scv : Ref sig .scVector)).slice _).set = _
  rw [View.set_slice_whole, row_unit L]

omit [FloatOps F] in
theorem set_cRow : (cRow L).view.set = (rowR (widx L)).set := by
  show (((cV' : Memref sig .scVector .hbm S32x16 .i32).view.slice
      (Rect.unit (s := S32x16) (k0_off12 L) S1x16.size (k0_off12_inb L))).reshape S16 squeezes_S1x16_S16.numel_eq).set = _
  rw [View.set_reshape]
  show ((View.whole (main_v0_1_scv : Ref sig .scVector)).slice _).set = _
  rw [View.set_slice_whole, row_unit L]

omit [FloatOps F] in
/-- The row's points-to, on the subcore's thread, is the table's on that row. -/
theorem pts_sRow (q : PosShare TreeShare) (f : Buf (Elt F) (sLoc d)) :
    ((sRow L).view.loc (thrV d L) ↦[(sRow L).view.set]{q} f : sProp 𝕄) = sLoc d ↦[(rowR (widx L)).set]{q} f := by
  rw [set_sRow]

omit [FloatOps F] in
theorem pts_cRow (q : PosShare TreeShare) (f : Buf (Elt F) (cLoc d)) :
    ((cRow L).view.loc (thrV d L) ↦[(cRow L).view.set]{q} f : sProp 𝕄) = cLoc d ↦[(rowR (widx L)).set]{q} f := by
  rw [set_cRow]

/-! ## Where the row's entries sit -/

omit [FloatOps F] in
/-- The 16-vector's index l, read as a 1 × 16 index, is (0, l). -/
theorem reshape_16 (y : S16.Idx) :
    Shape.reshapeEquiv squeezes_S1x16_S16.numel_eq y = (ValueIdx.ix2 (0 : Fin 1) (y 0) : S1x16.Idx) :=
  Shape.reshapeEquiv_eq_of_rowMajor _ (by
    rw [Shape.rowMajor_val_two, Shape.rowMajor_val_one]
    show 0 * 16 + (y 0).val = (y 0).val
    omega)

omit [FloatOps F] in
/-- Entry l of the row sits at (2 L₁ + L₀, l) of the table. -/
theorem row_emb (y : S16.Idx) :
    (Rect.unit (s := S32x16) (k0_off12 L) S1x16.size (k0_off12_inb L)).emb
        (Shape.reshapeEquiv squeezes_S1x16_S16.numel_eq y)
      = (ValueIdx.ix2 (widx L) (y 0) : S32x16.Idx) := by
  rw [reshape_16]
  funext a
  match a with
  | ⟨0, _⟩ =>
    refine Fin.ext ?_
    show k0_off12 L 0 + 1 * 0 = 2 * (L 1).val + (L 0).val
    rw [k0_off12_eq]
    show 2 * (L 1).val + (L 0).val + 1 * 0 = _
    omega
  | ⟨1, _⟩ =>
    refine Fin.ext ?_
    show k0_off12 L 1 + 1 * (y 0).val = (y 0).val
    rw [k0_off12_eq]
    show 0 + 1 * (y 0).val = _
    omega

omit [FloatOps F] in
theorem sRow_emb (y : S16.Idx) : (sRow L).view.emb y = (ValueIdx.ix2 (widx L) (y 0) : S32x16.Idx) :=
  row_emb L y

omit [FloatOps F] in
theorem cRow_emb (y : S16.Idx) : (cRow L).view.emb y = (ValueIdx.ix2 (widx L) (y 0) : S32x16.Idx) :=
  row_emb L y

omit [FloatOps F] in
theorem col16_lt (x : S32x16.Idx) : (x 1).val < 16 := (x 1).isLt

omit [FloatOps F] in
/-- An element of the subcore's row has that row's number. -/
theorem row_of_mem (x : S32x16.Idx) (hx : x ∈ (rowR (widx L)).set) : (x 0).val = (widx L).val := by
  rw [← row_unit L, Rect.mem_set_unit] at hx
  have h0 := hx 0
  rw [k0_off12_eq] at h0
  have e : (![2 * (L 1).val + (L 0).val, 0] : Fin 2 → ℕ) 0 = (widx L).val := rfl
  rw [e] at h0
  have s1 : S1x16.size 0 = 1 := rfl
  rw [s1] at h0
  omega

omit [FloatOps F] in
/-- An element of the subcore's row is the row's entry at its column. -/
theorem mem_row_eq (x : S32x16.Idx) (hx : x ∈ (rowR (widx L)).set) :
    (ValueIdx.ix2 (widx L) (⟨(x 1).val, col16_lt x⟩ : Fin 16) : S32x16.Idx) = x := by
  funext a
  match a with
  | ⟨0, _⟩ => exact Fin.ext (row_of_mem L x hx).symm
  | ⟨1, _⟩ => rfl

/-! ## What the copy out carries -/

omit [FloatOps F] in
theorem unit16_emb (y : S16.Idx) : (Rect.unit (s := S16) ![0] S16.size inb_S16_S16_0).emb y = y := by
  funext a
  refine Fin.ext ?_
  match a with
  | ⟨0, _⟩ =>
    show 0 + 1 * (y 0).val = (y 0).val
    omega

/-- The scratch read back after the whole-vector store is the vector. -/
theorem outF_eq (f4 : Buf (Elt F) (View.loc (thrV d L) (oF : Memref sig .scVector .vmem S16 .f32).view))
    (v : FVec F S16 .f32) : outF d L f4 v = v := by
  funext y
  have h := View.read_writes_cons_emb (oF : Memref sig .scVector .vmem S16 .f32).view f4
    (Rect.unit (s := S16) ![0] S16.size inb_S16_S16_0) v [] y
  rw [unit16_emb] at h
  exact h

theorem outI_eq (f5 : Buf (Elt F) (View.loc (thrV d L) (oI : Memref sig .scVector .vmem S16 .i32).view))
    (v : IVec S16 32) : outI d L f5 v = v := by
  funext y
  have h := View.read_writes_cons_emb (oI : Memref sig .scVector .vmem S16 .i32).view f5
    (Rect.unit (s := S16) ![0] S16.size inb_S16_S16_0) v [] y
  rw [unit16_emb] at h
  exact h

/-! ## What the row holds afterwards -/

/-- The float table after the subcore's copy out, on the subcore's row: the vector, entry by column; and the row's
    number. -/
theorem sRow_out (fs : Buf (Elt F) (sLoc d))
    (f4 : Buf (Elt F) (View.loc (thrV d L) (oF : Memref sig .scVector .vmem S16 .f32).view)) (v : FVec F S16 .f32)
    (x : S32x16.Idx) (hx : x ∈ (rowR (widx L)).set) :
    ((sRow L).view.writes (Elt F) fs [⟨Rect.whole S16, outF d L f4 v⟩]) x = v (ValueIdx.ix1 ⟨(x 1).val, col16_lt x⟩)
      ∧ (x 0).val = (widx L).val := by
  refine ⟨?_, row_of_mem L x hx⟩
  rw [outF_eq, View.writes_singleton]
  have hemb : ((sRow L).view.slice (Rect.whole S16)).emb (ValueIdx.ix1 ⟨(x 1).val, col16_lt x⟩) = x := by
    show (sRow L).view.emb ((Rect.whole S16).emb (ValueIdx.ix1 ⟨(x 1).val, col16_lt x⟩)) = x
    rw [Rect.emb_whole_apply, sRow_emb]
    exact mem_row_eq L x hx
  have hw := View.write_emb_of_mem (v := (sRow L).view.slice (Rect.whole S16)) (Val := Elt F) fs v
    (Finset.mem_univ (ValueIdx.ix1 ⟨(x 1).val, col16_lt x⟩))
  rw [hemb] at hw
  rw [hw]
  rfl

/-- The count table likewise. -/
theorem cRow_out (fc : Buf (Elt F) (cLoc d))
    (f5 : Buf (Elt F) (View.loc (thrV d L) (oI : Memref sig .scVector .vmem S16 .i32).view)) (v : IVec S16 32)
    (x : S32x16.Idx) (hx : x ∈ (rowR (widx L)).set) :
    ((cRow L).view.writes (Elt F) fc [⟨Rect.whole S16, outI d L f5 v⟩]) x = v (ValueIdx.ix1 ⟨(x 1).val, col16_lt x⟩)
      ∧ (x 0).val = (widx L).val := by
  refine ⟨?_, row_of_mem L x hx⟩
  rw [outI_eq, View.writes_singleton]
  have hemb : ((cRow L).view.slice (Rect.whole S16)).emb (ValueIdx.ix1 ⟨(x 1).val, col16_lt x⟩) = x := by
    show (cRow L).view.emb ((Rect.whole S16).emb (ValueIdx.ix1 ⟨(x 1).val, col16_lt x⟩)) = x
    rw [Rect.emb_whole_apply, cRow_emb]
    exact mem_row_eq L x hx
  have hw := View.write_emb_of_mem (v := (cRow L).view.slice (Rect.whole S16)) (Val := Elt F) fc v
    (Finset.mem_univ (ValueIdx.ix1 ⟨(x 1).val, col16_lt x⟩))
  rw [hemb] at hw
  rw [hw]
  rfl

end Cert.Proof.KB

end
-- ==== Proof.KBObl.lean ====
/-
  The subcore kernel's obligation to the launch: what a call hands each SparseCore and each vector subcore and takes back,
  and the task's run restated over the holdings the launch deals a subcore — all its scratch buffers and all its semaphores,
  of which the kernel uses six and six.

  A SparseCore gets a read token of x and of t and the sixteen rows 2 i + c of the two result tables; a subcore a
  sixteenth of its SparseCore's token, halved for the two pairs of buffers, and its own row. It hands the row back at
  the task's sums: entry (w, l) of the first table is lane l of the eight float accumulators added up after the 24 chunks
  of subcore w, of the second table the same of the counts.
-/
import proofs.«207598_g57604101374094_cont_9to1_m_955_21_alg».proof.Proof.KBTile
import proofs.«207598_g57604101374094_cont_9to1_m_955_21_alg».proof.Proof.KBSplit
import proofs.«207598_g57604101374094_cont_9to1_m_955_21_alg».proof.Proof.KBOut

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The places -/

def coordsV (c : Fin (grid0.bound 0)) (s : Fin (grid0.bound 1)) : grid0.Coords :=
  fun | 0 => c | 1 => s | ⟨_ + 2, h⟩ => absurd h (Nat.not_lt.2 (Nat.le_add_left _ _))

/-- The subcore that writes row w. -/
def Lw (w : Fin 32) : grid0.Coords := coordsV ⟨w.val % 2, Nat.mod_lt _ (by decide)⟩ ⟨w.val / 2, by have := w.isLt; show w.val / 2 < 16; omega⟩

variable [FloatOps F]

/-- The two result tables after the call: row w from subcore w's task. -/
def GS (d : Dev nD) : Buf (Elt F) (sLoc d) :=
  fun x => SpecF.sumF (SpecF.tileF (LX m d (Lw (x 0))) (LT m d (Lw (x 0))) 24) (ValueIdx.ix1 (x 1))
def GC (d : Dev nD) : Buf (Elt F) (cLoc d) :=
  fun x => SpecF.sumI (SpecF.tileF (LX m d (Lw (x 0))) (LT m d (Lw (x 0))) 24) (ValueIdx.ix1 (x 1))

/-! ## What the handshakes carry -/

def goRes (d : Dev nD) (c : Fin 2) (i : Fin 16) : sProp 𝕄 :=
  iprop((xLoc d ↦{(qT c i).left} m (xLoc d)) ∗ (xLoc d ↦{(qT c i).right} m (xLoc d))
    ∗ (tLoc d ↦{(qT c i).left} m (tLoc d)) ∗ (tLoc d ↦{(qT c i).right} m (tLoc d))
    ∗ (sLoc d ↦[(rowR (wOf c i)).set]{fullShare} m (sLoc d)) ∗ (cLoc d ↦[(rowR (wOf c i)).set]{fullShare} m (cLoc d)))
def tdRes (d : Dev nD) (c : Fin 2) (i : Fin 16) : sProp 𝕄 :=
  iprop((xLoc d ↦{(qT c i).left} m (xLoc d)) ∗ (xLoc d ↦{(qT c i).right} m (xLoc d))
    ∗ (tLoc d ↦{(qT c i).left} m (tLoc d)) ∗ (tLoc d ↦{(qT c i).right} m (tLoc d))
    ∗ (sLoc d ↦[(rowR (wOf c i)).set]{fullShare} GS m d) ∗ (cLoc d ↦[(rowR (wOf c i)).set]{fullShare} GC m d))
def stRes (d : Dev nD) (c : Fin 2) : sProp 𝕄 :=
  iprop((xLoc d ↦{qC c} m (xLoc d)) ∗ (tLoc d ↦{qC c} m (tLoc d))
    ∗ (bigSep Finset.univ fun i : Fin 16 => sLoc d ↦[(rowR (wOf c i)).set]{fullShare} m (sLoc d))
    ∗ (bigSep Finset.univ fun i : Fin 16 => cLoc d ↦[(rowR (wOf c i)).set]{fullShare} m (cLoc d)))
def dnRes (d : Dev nD) (c : Fin 2) : sProp 𝕄 :=
  iprop((xLoc d ↦{qC c} m (xLoc d)) ∗ (tLoc d ↦{qC c} m (tLoc d))
    ∗ (bigSep Finset.univ fun i : Fin 16 => sLoc d ↦[(rowR (wOf c i)).set]{fullShare} GS m d)
    ∗ (bigSep Finset.univ fun i : Fin 16 => cLoc d ↦[(rowR (wOf c i)).set]{fullShare} GC m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with | 0 => by show BI.Storable _ (stRes m d _); unfold stRes; infer_instance
  dn q d c := match q with | 0 => by show BI.Storable _ (dnRes m d _); unfold dnRes; infer_instance
  go q d c i := match q with | 0 => by show BI.Storable _ (goRes m d _ _); unfold goRes; infer_instance
  td q d c i := match q with | 0 => by show BI.Storable _ (tdRes m d _ _); unfold tdRes; infer_instance

/-! ## The task over the launch's holdings -/

section Tile

variable (d : Dev nD) (L : grid0.Coords)

abbrev cL (L : grid0.Coords) : Fin 2 := Fin.cast bound0 (L 0)
abbrev iL (L : grid0.Coords) : Fin 16 := Fin.cast bound1 (L 1)

omit [FloatOps F] in
theorem widx_wOf : widx L = wOf (cL L) (iL L) := Fin.ext rfl

omit [FloatOps F] in
theorem Lw_widx : Lw (widx L) = L := by
  have h0 : (L 0).val < 2 := (L 0).isLt
  have h1 : (L 1).val < 16 := (L 1).isLt
  funext a
  match a with
  | ⟨0, _⟩ => exact Fin.ext (show (2 * (L 1).val + (L 0).val) % 2 = (L 0).val by omega)
  | ⟨1, _⟩ => exact Fin.ext (show (2 * (L 1).val + (L 0).val) / 2 = (L 1).val by omega)
  | ⟨_ + 2, h⟩ => exact absurd h (Nat.not_lt.2 (Nat.le_add_left _ _))

omit [FloatOps F] in
/-- The six semaphores the kernel counts its copies on are among the subcore's own. -/
theorem ownSems0_six :
    (ownSems0 (thrV d L) : sProp 𝕄)
      = iprop(semVal (thrV d L, sem6) 0 ∗ semVal (thrV d L, sem7) 0 ∗ semVal (thrV d L, sem8) 0 ∗ semVal (thrV d L, sem9) 0 ∗ semVal (thrV d L, SemLoc.dma cc0_scoped0.sem) 0 ∗ semVal (thrV d L, SemLoc.dma cc0_scoped1.sem) 0
          ∗ bigSep (((((((ownCells (thrV d L)).erase (thrV d L, sem6)).erase (thrV d L, sem7)).erase (thrV d L, sem8)).erase (thrV d L, sem9)).erase (thrV d L, SemLoc.dma cc0_scoped0.sem)).erase (thrV d L, SemLoc.dma cc0_scoped1.sem)) fun g => semVal g 0) := by
  unfold SparseCore.Cfg.ownSems0
  rw [SparseCore.bigSep_erase' ((mem_ownCells (g := (thrV d L, sem6))).mpr ⟨rfl, by show (SemLoc.dma cc0_scratch6.sem : SemLoc sig).isScoped .scVector = true; decide⟩),
    SparseCore.bigSep_erase' (Finset.mem_erase.mpr ⟨(fun e => absurd (congrArg (fun g : GSem nD τ sig => g.2) e) (show (SemLoc.dma cc0_scratch7.sem : SemLoc sig) ≠ SemLoc.dma cc0_scratch6.sem by decide)), ((mem_ownCells (g := (thrV d L, sem7))).mpr ⟨rfl, by show (SemLoc.dma cc0_scratch7.sem : SemLoc sig).isScoped .scVector = true; decide⟩)⟩),
    SparseCore.bigSep_erase' (Finset.mem_erase.mpr ⟨(fun e => absurd (congrArg (fun g : GSem nD τ sig => g.2) e) (show (SemLoc.dma cc0_scratch8.sem : SemLoc sig) ≠ SemLoc.dma cc0_scratch7.sem by decide)), (Finset.mem_erase.mpr ⟨(fun e => absurd (congrArg (fun g : GSem nD τ sig => g.2) e) (show (SemLoc.dma cc0_scratch8.sem : SemLoc sig) ≠ SemLoc.dma cc0_scratch6.sem by decide)), ((mem_ownCells (g := (thrV d L, sem8))).mpr ⟨rfl, by show (SemLoc.dma cc0_scratch8.sem : SemLoc sig).isScoped .scVector = true; decide⟩)⟩)⟩),
    SparseCore.bigSep_erase' (Finset.mem_erase.mpr ⟨(fun e => absurd (congrArg (fun g : GSem nD τ sig => g.2) e) (show (SemLoc.dma cc0_scratch9.sem : SemLoc sig) ≠ SemLoc.dma cc0_scratch8.sem by decide)), (Finset.mem_erase.mpr ⟨(fun e => absurd (congrArg (fun g : GSem nD τ sig => g.2) e) (show (SemLoc.dma cc0_scratch9.sem : SemLoc sig) ≠ SemLoc.dma cc0_scratch7.sem by decide)), (Finset.mem_erase.mpr ⟨(fun e => absurd (congrArg (fun g : GSem nD τ sig => g.2) e) (show (SemLoc.dma cc0_scratch9.sem : SemLoc sig) ≠ SemLoc.dma cc0_scratch6.sem by decide)), ((mem_ownCells (g := (thrV d L, sem9))).mpr ⟨rfl, by show (SemLoc.dma cc0_scratch9.sem : SemLoc sig).isScoped .scVector = true; decide⟩)⟩)⟩)⟩),
    SparseCore.bigSep_erase' (Finset.mem_erase.mpr ⟨(fun e => absurd (congrArg (fun g : GSem nD τ sig => g.2) e) (show (SemLoc.dma cc0_scoped0.sem : SemLoc sig) ≠ SemLoc.dma cc0_scratch9.sem by decide)), (Finset.mem_erase.mpr ⟨(fun e => absurd (congrArg (fun g : GSem nD τ sig => g.2) e) (show (SemLoc.dma cc0_scoped0.sem : SemLoc sig) ≠ SemLoc.dma cc0_scratch8.sem by decide)), (Finset.mem_erase.mpr ⟨(fun e => absurd (congrArg (fun g : GSem nD τ sig => g.2) e) (show (SemLoc.dma cc0_scoped0.sem : SemLoc sig) ≠ SemLoc.dma cc0_scratch7.sem by decide)), (Finset.mem_erase.mpr ⟨(fun e => absurd (congrArg (fun g : GSem nD τ sig => g.2) e) (show (SemLoc.dma cc0_scoped0.sem : SemLoc sig) ≠ SemLoc.dma cc0_scratch6.sem by decide)), ((mem_ownCells (g := (thrV d L, SemLoc.dma cc0_scoped0.sem))).mpr ⟨rfl, by show (SemLoc.dma cc0_scoped0.sem : SemLoc sig).isScoped .scVector = true; decide⟩)⟩)⟩)⟩)⟩),
    SparseCore.bigSep_erase' (Finset.mem_erase.mpr ⟨(fun e => absurd (congrArg (fun g : GSem nD τ sig => g.2) e) (show (SemLoc.dma cc0_scoped1.sem : SemLoc sig) ≠ SemLoc.dma cc0_scoped0.sem by decide)), (Finset.mem_erase.mpr ⟨(fun e => absurd (congrArg (fun g : GSem nD τ sig => g.2) e) (show (SemLoc.dma cc0_scoped1.sem : SemLoc sig) ≠ SemLoc.dma cc0_scratch9.sem by decide)), (Finset.mem_erase.mpr ⟨(fun e => absurd (congrArg (fun g : GSem nD τ sig => g.2) e) (show (SemLoc.dma cc0_scoped1.sem : SemLoc sig) ≠ SemLoc.dma cc0_scratch8.sem by decide)), (Finset.mem_erase.mpr ⟨(fun e => absurd (congrArg (fun g : GSem nD τ sig => g.2) e) (show (SemLoc.dma cc0_scoped1.sem : SemLoc sig) ≠ SemLoc.dma cc0_scratch7.sem by decide)), (Finset.mem_erase.mpr ⟨(fun e => absurd (congrArg (fun g : GSem nD τ sig => g.2) e) (show (SemLoc.dma cc0_scoped1.sem : SemLoc sig) ≠ SemLoc.dma cc0_scratch6.sem by decide)), ((mem_ownCells (g := (thrV d L, SemLoc.dma cc0_scoped1.sem))).mpr ⟨rfl, by show (SemLoc.dma cc0_scoped1.sem : SemLoc sig).isScoped .scVector = true; decide⟩)⟩)⟩)⟩)⟩)⟩)]

omit [FloatOps F] in
/-- The six scratch buffers are among the subcore's own: they are them, at some contents, and the rest. -/
theorem ownBufs_six :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch4 ↦{fullShare} f) ∗ (∃ f, (thrV d L).loc cc0_scratch5 ↦{fullShare} f)
          ∗ bigSep (((((((ownRefs (τ := τ) (.scVector (cC L) (jC L))).erase ((Proc.scVector (cC L) (jC L)).devRef cc0_scratch0)).erase ((Proc.scVector (cC L) (jC L)).devRef cc0_scratch1)).erase ((Proc.scVector (cC L) (jC L)).devRef cc0_scratch2)).erase ((Proc.scVector (cC L) (jC L)).devRef cc0_scratch3)).erase ((Proc.scVector (cC L) (jC L)).devRef cc0_scratch4)).erase ((Proc.scVector (cC L) (jC L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cC L) (jC L)) (b := ((Proc.scVector (cC L) (jC L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cC L) (jC L)) (b := ((Proc.scVector (cC L) (jC L)).devRef cc0_scratch1)) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cC L) (jC L)) (b := ((Proc.scVector (cC L) (jC L)).devRef cc0_scratch2)) rfl)⟩)⟩),
    SparseCore.bigSep_erase' (Finset.mem_erase.mpr ⟨(fun e => absurd (Proc.devRef_injective _ e) (show (cc0_scratch3 : Ref sig .scVector) ≠ cc0_scratch2 by decide)), (Finset.mem_erase.mpr ⟨(fun e => absurd (Proc.devRef_injective _ e) (show (cc0_scratch3 : Ref sig .scVector) ≠ cc0_scratch1 by decide)), (Finset.mem_erase.mpr ⟨(fun e => absurd (Proc.devRef_injective _ e) (show (cc0_scratch3 : Ref sig .scVector) ≠ cc0_scratch0 by decide)), (SparseCore.Cfg.mem_ownRefs_of_owner (p := Proc.scVector (cC L) (jC L)) (b := ((Proc.scVector (cC L) (jC L)).devRef cc0_scratch3)) rfl)⟩)⟩)⟩),
    SparseCore.bigSep_erase' (Finset.mem_erase.mpr ⟨(fun e => absurd (Proc.devRef_injective _ e) (show (cc0_scratch4 : Ref sig .scVector) ≠ cc0_scratch3 by decide)), (Finset.mem_erase.mpr ⟨(fun e => absurd (Proc.devRef_injective _ e) (show (cc0_scratch4 : Ref sig .scVector) ≠ cc0_scratch2 by decide)), (Finset.mem_erase.mpr ⟨(fun e => absurd (Proc.devRef_injective _ e) (show (cc0_scratch4 : Ref sig .scVector) ≠ cc0_scratch1 by decide)), (Finset.mem_erase.mpr ⟨(fun e => absurd (Proc.devRef_injective _ e) (show (cc0_scratch4 : Ref sig .scVector) ≠ cc0_scratch0 by decide)), (SparseCore.Cfg.mem_ownRefs_of_owner (p := Proc.scVector (cC L) (jC L)) (b := ((Proc.scVector (cC L) (jC L)).devRef cc0_scratch4)) rfl)⟩)⟩)⟩)⟩),
    SparseCore.bigSep_erase' (Finset.mem_erase.mpr ⟨(fun e => absurd (Proc.devRef_injective _ e) (show (cc0_scratch5 : Ref sig .scVector) ≠ cc0_scratch4 by decide)), (Finset.mem_erase.mpr ⟨(fun e => absurd (Proc.devRef_injective _ e) (show (cc0_scratch5 : Ref sig .scVector) ≠ cc0_scratch3 by decide)), (Finset.mem_erase.mpr ⟨(fun e => absurd (Proc.devRef_injective _ e) (show (cc0_scratch5 : Ref sig .scVector) ≠ cc0_scratch2 by decide)), (Finset.mem_erase.mpr ⟨(fun e => absurd (Proc.devRef_injective _ e) (show (cc0_scratch5 : Ref sig .scVector) ≠ cc0_scratch1 by decide)), (Finset.mem_erase.mpr ⟨(fun e => absurd (Proc.devRef_injective _ e) (show (cc0_scratch5 : Ref sig .scVector) ≠ cc0_scratch0 by decide)), (SparseCore.Cfg.mem_ownRefs_of_owner (p := Proc.scVector (cC L) (jC L)) (b := ((Proc.scVector (cC L) (jC L)).devRef cc0_scratch5)) rfl)⟩)⟩)⟩)⟩)⟩)]

/-- The subcore's row of each table, once its last copies have landed, is the table of the tasks' sums on that row. -/
theorem sRow_GS (f4 : Buf (Elt F) (View.loc (thrV d L) (oF : Memref sig .scVector .vmem S16 .f32).view)) :
    (sLoc d ↦[(rowR (widx L)).set]{fullShare} (sRow L).view.writes (Elt F) (m (sLoc d)) [⟨Rect.whole S16, outF d L f4 (SpecF.sumF (SpecF.tileF (LX m d L) (LT m d L) 24))⟩] : sProp 𝕄)
      = sLoc d ↦[(rowR (widx L)).set]{fullShare} GS m d :=
  pointsTo_congr fun x hx => by
    obtain ⟨h1, h2⟩ := sRow_out d L (m (sLoc d)) f4 (SpecF.sumF (SpecF.tileF (LX m d L) (LT m d L) 24)) x hx
    have hx0 : x 0 = widx L := Fin.ext h2
    rw [h1]; unfold GS; rw [hx0, Lw_widx]; rfl
theorem cRow_GC (f5 : Buf (Elt F) (View.loc (thrV d L) (oI : Memref sig .scVector .vmem S16 .i32).view)) :
    (cLoc d ↦[(rowR (widx L)).set]{fullShare} (cRow L).view.writes (Elt F) (m (cLoc d)) [⟨Rect.whole S16, outI d L f5 (SpecF.sumI (SpecF.tileF (LX m d L) (LT m d L) 24))⟩] : sProp 𝕄)
      = cLoc d ↦[(rowR (widx L)).set]{fullShare} GC m d :=
  pointsTo_congr fun x hx => by
    obtain ⟨h1, h2⟩ := cRow_out d L (m (cLoc d)) f5 (SpecF.sumI (SpecF.tileF (LX m d L) (LT m d L) 24)) x hx
    have hx0 : x 0 = widx L := Fin.ext h2
    rw [h1]; unfold GC; rw [hx0, Lw_widx]; rfl

set_option maxHeartbeats 4000000 in
theorem tile_body (hF : (K (F := F)).Facts) (O : CellTallies nD τ sig (HIx 1)) (W : Waits sig (HIx 1)) (hO : ∀ g, O g none = 0) :
    (iprop(levAts (K (F := F)).L (K (F := F)).lev ∗ emp ∗ goRes m d (cL L) (iL L)
        ∗ scopedBufs (thrV d L) ∗ scopedSems0 (thrV d L) ∗ owes (thrV d L) O W) : sProp 𝕄)
      ⊢ wp frame (wpE (defs₀ (F := F)) 𝒱₀ (thrV d L) none) Set.univ
          (cc0__sc_body L xV (Memref.isWhole_whole _) tV (Memref.isWhole_whole _) sV (Memref.isWhole_whole _) cV' (Memref.isWhole_whole _)
            b0 (Memref.isWhole_whole _) b1 (Memref.isWhole_whole _) b2 (Memref.isWhole_whole _) b3 (Memref.isWhole_whole _)
            oF (Memref.isWhole_whole _) oI (Memref.isWhole_whole _) cc0_scratch6 cc0_scratch7 cc0_scratch8 cc0_scratch9 cc0_scoped0 cc0_scoped1)
          fun _ => iprop(tdRes m d (cL L) (iL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cC L) (jC L), SparseCore.Cfg.scopedSems0_V (Val := Elt F) d (cC L) (jC L), ownSems0_six, ownBufs_six]
  unfold goRes tdRes
  have h := tile_run m d L (qT (cL L) (iL L)).left (qT (cL L) (iL L)).right (qT (cL L) (iL L)).left (qT (cL L) (iL L)).right
    (m (sLoc d)) (m (cLoc d)) iprop((bigSep (((((((ownRefs (τ := τ) (.scVector (cC L) (jC L))).erase ((Proc.scVector (cC L) (jC L)).devRef cc0_scratch0)).erase ((Proc.scVector (cC L) (jC L)).devRef cc0_scratch1)).erase ((Proc.scVector (cC L) (jC L)).devRef cc0_scratch2)).erase ((Proc.scVector (cC L) (jC L)).devRef cc0_scratch3)).erase ((Proc.scVector (cC L) (jC L)).devRef cc0_scratch4)).erase ((Proc.scVector (cC L) (jC L)).devRef cc0_scratch5)) fun b => iprop(∃ f, ((d, b) : Loc nD τ sig) ↦{fullShare} f))
      ∗ bigSep (((((((ownCells (thrV d L)).erase (thrV d L, sem6)).erase (thrV d L, sem7)).erase (thrV d L, sem8)).erase (thrV d L, sem9)).erase (thrV d L, SemLoc.dma cc0_scoped0.sem)).erase (thrV d L, SemLoc.dma cc0_scoped1.sem)) fun g => semVal g 0) O W hO
  rw [pts_sRow (F := F) d L, pts_cRow (F := F) d L] at h
  simp only [pts_sRow (F := F) d L, pts_cRow (F := F) d L, sRow_GS m d L, cRow_GC m d L] at h
  rw [widx_wOf L] at h
  refine BI.Entails.trans ?_ (h.trans (wp_mono frame _ _ fun _ => ?_))
  · show (iprop(_ ∗ _ ∗ _ ∗ _ ∗ _ ∗ _) : sProp 𝕄) ⊢ (iprop(_ ∗ _) : sProp 𝕄)
    iintro ⟨Hlv, -, ⟨Hx0, Hx1, Ht0, Ht1, Hs, Hc⟩, ⟨H0, H1, H2, H3, H4, H5, Hb⟩, ⟨Hm6, Hm7, Hm8, Hm9, Hms0, Hms1, Hsm⟩, HO⟩
    isplitl [Hlv]; · iexact Hlv
    isplitl [Hx0]; · iexact Hx0
    isplitl [Hx1]; · iexact Hx1
    isplitl [Ht0]; · iexact Ht0
    isplitl [Ht1]; · iexact Ht1
    isplitl [Hs]; · iexact Hs
    isplitl [Hc]; · iexact Hc
    isplitl [H0]; · iexact H0
    isplitl [H1]; · iexact H1
    isplitl [H2]; · iexact H2
    isplitl [H3]; · iexact H3
    isplitl [H4]; · iexact H4
    isplitl [H5]; · iexact H5
    isplitl [Hm6]; · iexact Hm6
    isplitl [Hm7]; · iexact Hm7
    isplitl [Hm8]; · iexact Hm8
    isplitl [Hm9]; · iexact Hm9
    isplitl [Hms0]; · iexact Hms0
    isplitl [Hms1]; · iexact Hms1
    isplitl [HO]; · iexact HO
    isplitl [Hb]; · iexact Hb
    iexact Hsm
  · show (iprop(_ ∗ _) : sProp 𝕄) ⊢ (iprop(_ ∗ _) : sProp 𝕄)
    iintro ⟨Hx0, Hx1, Ht0, Ht1, ⟨%f4, Hs⟩, ⟨%f5, Hc⟩, H0, H1, H2, H3, H4, H5, Hm6, Hm7, Hm8, Hm9, Hms0, Hms1, HW, Hb, Hsm⟩
    isplitl [Hx0 Hx1 Ht0 Ht1 Hs Hc]
    · isplitl [Hx0]; · iexact Hx0
      isplitl [Hx1]; · iexact Hx1
      isplitl [Ht0]; · iexact Ht0
      isplitl [Ht1]; · iexact Ht1
      isplitl [Hs]; · iexact Hs
      iexact Hc
    isplitl [H0 H1 H2 H3 H4 H5 Hb]
    · isplitl [H0]; · iexact H0
      isplitl [H1]; · iexact H1
      isplitl [H2]; · iexact H2
      isplitl [H3]; · iexact H3
      isplitl [H4]; · iexact H4
      isplitl [H5]; · iexact H5
      iexact Hb
    isplitl [Hm6 Hm7 Hm8 Hm9 Hms0 Hms1 Hsm]
    · isplitl [Hm6]; · iexact Hm6
      isplitl [Hm7]; · iexact Hm7
      isplitl [Hm8]; · iexact Hm8
      isplitl [Hm9]; · iexact Hm9
      isplitl [Hms0]; · iexact Hms0
      isplitl [Hms1]; · iexact Hms1
      iexact Hsm
    iexact HW

end Tile

/-! ## The launch theorem's obligation -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) tV (Memref.isWhole_whole _) sV (Memref.isWhole_whole _) cV' (Memref.isWhole_whole _)
          b0 (Memref.isWhole_whole _) b1 (Memref.isWhole_whole _) b2 (Memref.isWhole_whole _) b3 (Memref.isWhole_whole _)
          oF (Memref.isWhole_whole _) oI (Memref.isWhole_whole _) cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KB

end
-- ==== Proof.KBTc.lean ====
/-
  The TensorCore's pipelined region of the kernel: the staging cells' ghost state among the proof's
  resource algebra, the region's proof data (the two scratch words carried from point to point), the body at a
  point, and the region's run from the arrays it reads to the two words it writes.
-/
import proofs.«207598_g57604101374094_cont_9to1_m_955_21_alg».proof.Proof.KBAmbient
import proofs.«207598_g57604101374094_cont_9to1_m_955_21_alg».proof.Proof.Gen.Kernel.Skeleton
import proofs.«207598_g57604101374094_cont_9to1_m_955_21_alg».proof.Proof.Gen.Kernel.Launch
import proofs.«207598_g57604101374094_cont_9to1_m_955_21_alg».proof.Proof.Gen.Kernel.Points
import Idealize.ShloMosaic.Lib.Pipeline.Regions

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The staging cells' rounds: the middle factor of the proof's algebra. -/
def ER : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance ER_landsIn : (ER : Emb UP 𝕄).LandsIn (upEmb : UEmb _ 𝕄) := by unfold ER; infer_instance

/-! ## The blocks the region reads and the two scratch words from point to point -/

abbrev adm : (p : Fin 1) → (pcfgs (F := F) p).Adm := fun p => (cfgs p).toPCfg_adm

-- The two arrays the region reads and, at the region's entry, the two it writes: one contents per device.
variable (X : (c : Dev nD) → Buf (Elt F) ((T c : Thread nD τ).loc main_arg0)) (Tt : (c : Dev nD) → Buf (Elt F) ((T c : Thread nD τ).loc main_arg1))
variable (Y0 : (c : Dev nD) → Buf (Elt F) ((T c : Thread nD τ).loc main_v1_0)) (Y1 : (c : Dev nD) → Buf (Elt F) ((T c : Thread nD τ).loc main_v1_1))

/-- The block of 512 rows of the first array that point `n` reads, -/
def xb (c : Dev nD) (n : Fin cfg1.N) : Vec F S512x4096 .f32 := ((cfg1.win 0).blk n).view.read (Elt F) (X c)
/-- and of the second. -/
def tb (c : Dev nD) (n : Fin cfg1.N) : Vec F S512x4096 .i32 := ((cfg1.win 1).blk n).view.read (Elt F) (Tt c)

/-- The two scratch words before point `n`: both 0.0 before the first point; a point adds its block's two lane sums. -/
def acc (c : Dev nD) : (n : ℕ) → n ≤ cfg1.N → F .f32 × F .f32
  | 0, _ => (Scalar.ofBits .f32 0x00000000#32, Scalar.ofBits .f32 0x00000000#32)
  | n + 1, h => (k1_pay2 (xb X c ⟨n, h⟩) (tb Tt c ⟨n, h⟩) (acc c n (Nat.le_of_succ_le h)).1, k1_pay3 (tb Tt c ⟨n, h⟩) (acc c n (Nat.le_of_succ_le h)).2)

/-- What the first output word ends at: the first scratch word after the last point; -/
def tcSumF (c : Dev nD) : F .f32 := (acc X Tt c cfg1.N le_rfl).1
/-- and the second. -/
def tcCntF (c : Dev nD) : F .f32 := (acc X Tt c cfg1.N le_rfl).2

/-! ## The proof data -/

/-- The two scratch operands as memrefs. -/
abbrev scM0 : Memref sig .tc .smem S1 .f32 := Memref.whole cc1_scratch0
abbrev scM1 : Memref sig .tc .smem S1 .f32 := Memref.whole cc1_scratch1

/-- The recorded pairs the TensorCore may hold through the region: those at or below the level a finished first call leaves. -/
def recB (c : Dev nD) : Set (SemLoc sig × HIx 1) := {p | (K (F := F)).lev ((T c : Thread nD τ), p.1) p.2 ≤ 8}

/-- Between points the two scratch words are held, and after the first point they are the running sums. -/
def Φc (c : Dev nD) (n : Fin (cfg1.N + 1)) : sProp 𝕄 :=
  iprop(∃ f0 f1, owns (c : Thread nD τ) scM0 fullShare f0 ∗ owns (c : Thread nD τ) scM1 fullShare f1
    ∗ ⌜n.val ≠ 0 → f0 = (fun _ => (acc X Tt c n.val (Nat.le_of_lt_succ n.isLt)).1) ∧ f1 = (fun _ => (acc X Tt c n.val (Nat.le_of_lt_succ n.isLt)).2)⌝)

/-- The region's proof data on core `c`: the arrays as the region finds them; after the body at a point the inputs'
    buffers at their blocks, the outputs' at the scratch words the point leaves; the scratch words as the invariant;
    nothing owed; full shares; the recorded pairs bounded as at entry. -/
def dats (_ : Fin 1) (c : Dev nD) : Dat τ (Elt F) (HIx 1) ℕ UU ℕ cfg1 c where
  A w := match w with
    | ⟨0, _⟩ => X c
    | ⟨1, _⟩ => Tt c
    | ⟨2, _⟩ => Y0 c
    | ⟨3, _⟩ => Y1 c
  after w n := match w with
    | ⟨0, _⟩ => xb X c n
    | ⟨1, _⟩ => tb Tt c n
    | ⟨2, _⟩ => fun _ => (acc X Tt c (n.val + 1) n.isLt).1
    | ⟨3, _⟩ => fun _ => (acc X Tt c (n.val + 1) n.isLt).2
  Φ n := Φc X Tt c n
  q _ := fullShare
  owed _ := 0
  recorded _ := recB (F := F) c

/-! ## The region's run -/

/-- What the launch's staging-cell ghost state gives core `c`: the cells' rounds and the duty tokens of the one pipeline. -/
def G_tc (c : Dev nD) : sProp 𝕄 :=
  iprop(Pipeline.cellsGhost (Pipeline.pin (pcfgs (F := F)) adm) ER 0 c ∗ Pipeline.toksInit (Pipeline.pin (pcfgs (F := F)) adm) ER 0 c)

/-- What the TensorCore holds when it enters the region. -/
def regPre (c : Dev nD) : sProp 𝕄 :=
  iprop((((T c : Thread nD τ).loc main_arg0) ↦{fullShare} X c) ∗ (((T c : Thread nD τ).loc main_arg1) ↦{fullShare} Tt c)
    ∗ (((T c : Thread nD τ).loc main_v1_0) ↦{fullShare} Y0 c) ∗ (((T c : Thread nD τ).loc main_v1_1) ↦{fullShare} Y1 c)
    ∗ ∃ W, ⌜(K (F := F)).WBelow (T c) W 8⌝ ∗ owes (T c : Thread nD τ) (0 : CellTallies nD τ sig (HIx 1)) W)

/-- What it holds when it leaves it. -/
def regPost (c : Dev nD) : sProp 𝕄 :=
  iprop((((T c : Thread nD τ).loc main_arg0) ↦{fullShare} X c) ∗ (((T c : Thread nD τ).loc main_arg1) ↦{fullShare} Tt c)
    ∗ (((T c : Thread nD τ).loc main_v1_0) ↦{fullShare} (fun _ => tcSumF X Tt c)) ∗ (((T c : Thread nD τ).loc main_v1_1) ↦{fullShare} (fun _ => tcCntF X Tt c))
    ∗ ∃ W, ⌜(K (F := F)).WBelow (T c) W 8⌝ ∗ owes (T c : Thread nD τ) (0 : CellTallies nD τ sig (HIx 1)) W)

end Cert.Proof.KB.Tc

end
-- ==== Proof.KBTcBody.lean ====
/-
  The TensorCore body of the kernel at one grid point, in each of its three control cases: the first point (both scratch words zeroed, then added to), a middle point (added to), the last point (added to, then copied to the two output words).
-/
import proofs.«207598_g57604101374094_cont_9to1_m_955_21_alg».proof.Proof.KBTc

import Idealize.ShloMosaic.Lib.Pipeline.Value

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem hz1 : (![0] : Fin 1 → Nat) = fun _ => 0 := funext fun a => by fin_cases a; rfl
theorem hz2 : (![0, 0] : Fin 2 → Nat) = fun _ => 0 := funext fun a => by fin_cases a <;> rfl

/-- The condition of the body's first conditional (the point is the first), from the grid coordinates. -/
abbrev cond0 (i : grid1.Coords) : Prop := (Scalar.cmpi .ne (Scalar.extui (Scalar.cmpi .eq (BitVec.ofNat 32 (i 0).val) 0#32)) 0#32) = 1#1

/-- One word stored through the whole one-word shape reads back as that word. -/
theorem read_word1 {sp : Space} (v : View sig .tc sp S1 .f32) (f : v.ty.Contents (Elt F)) (w : S1.Idx → Elt F .f32) :
    v.read (Elt F) (v.writes (Elt F) f [⟨Rect.unit ![0] S1.size inb_S1_S1_0, w⟩]) = w := by
  rw [View.read_writes_eq_canon _ _ _ (fun y => ⟨_, List.mem_singleton_self _, View.mem_set_unit_zero hz1 inb_S1_S1_0 y⟩), View.canon_unit_zero hz1]
theorem read_word2 {sp : Space} (v : View sig .tc sp S1x1 .f32) (f : v.ty.Contents (Elt F)) (w : S1x1.Idx → Elt F .f32) :
    v.read (Elt F) (v.writes (Elt F) f [⟨Rect.unit ![0, 0] S1x1.size inb_S1x1_S1x1_0_0, w⟩]) = w := by
  rw [View.read_writes_eq_canon _ _ _ (fun y => ⟨_, List.mem_singleton_self _, View.mem_set_unit_zero hz2 inb_S1x1_S1x1_0_0 y⟩), View.canon_unit_zero hz2]

/-- A MIDDLE POINT: neither conditional taken; each scratch word has its block's lane sum added. -/
theorem kernel_B (c : Dev nD) (i : grid1.Coords) (arg1 : Memref sig .tc .vmem S512x4096 .f32) (harg1 : arg1.IsWhole) (arg2 : Memref sig .tc .vmem S512x4096 .i32) (harg2 : arg2.IsWhole) (arg3 : Memref sig .tc .smem S1x1 .f32) (harg3 : arg3.IsWhole) (arg4 : Memref sig .tc .smem S1x1 .f32) (harg4 : arg4.IsWhole) (arg5 : Memref sig .tc .smem S1 .f32) (harg5 : arg5.IsWhole) (arg6 : Memref sig .tc .smem S1 .f32) (harg6 : arg6.IsWhole)
    (hc0 : ¬cond0 i) (hc1 : ¬k1_cond2 i = 1#1) (x0 : Vec F S512x4096 .f32) (t0 : Vec F S512x4096 .i32) (a0 a1 : F .f32) (E : Set ℕ) (Kk : PUnit → sProp 𝕄) :
    iprop(owns (c : Thread nD τ) arg1 fullShare x0 ∗ owns (c : Thread nD τ) arg2 fullShare t0
        ∗ owns (c : Thread nD τ) arg5 fullShare (fun _ => a0) ∗ owns (c : Thread nD τ) arg6 fullShare (fun _ => a1)
        ∗ (iprop(owns (c : Thread nD τ) arg1 fullShare x0 ∗ owns (c : Thread nD τ) arg2 fullShare t0
            ∗ owns (c : Thread nD τ) arg5 fullShare (fun _ => k1_pay2 x0 t0 a0) ∗ owns (c : Thread nD τ) arg6 fullShare (fun _ => k1_pay3 t0 a1)) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%f5, %hf5, H5⟩, ⟨%f6, %hf6, H6⟩, Hk⟩
  obtain rfl := harg1.eq_unread hf0; obtain rfl := harg2.eq_unread hf1
  obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr; swap; · iexact H5
    ipureintro
    rw [read_word1]
    sl_unfold_words
    simp only [View.readAt_eq_ld, harg1.read_unread, harg2.read_unread, harg5.read_unread, View.ld_unit_zero (S := S512x4096) hz2]
    rfl
  · iexists _; isplitr; swap; · iexact H6
    ipureintro
    rw [read_word1]
    sl_unfold_words
    simp only [View.readAt_eq_ld, harg2.read_unread, harg6.read_unread, View.ld_unit_zero (S := S512x4096) hz2]
    rfl

/-- The last store through the whole one-word shape decides what it reads, whatever was stored before. -/
theorem read_word1c {sp : Space} (v : View sig .tc sp S1 .f32) (f : v.ty.Contents (Elt F)) (w : S1.Idx → Elt F .f32) (L : List (View.Piece (Elt F) S1 .f32)) :
    v.read (Elt F) (v.writes (Elt F) f (⟨Rect.unit ![0] S1.size inb_S1_S1_0, w⟩ :: L)) = w := by
  rw [View.read_writes_eq_canon _ _ _ (fun y => ⟨_, List.mem_cons_self, View.mem_set_unit_zero hz1 inb_S1_S1_0 y⟩), View.canon_cons_unit_zero hz1]

/-- THE FIRST POINT: both scratch words zeroed, then each has its block's lane sum added. -/
theorem kernel_A (c : Dev nD) (i : grid1.Coords) (arg1 : Memref sig .tc .vmem S512x4096 .f32) (harg1 : arg1.IsWhole) (arg2 : Memref sig .tc .vmem S512x4096 .i32) (harg2 : arg2.IsWhole) (arg3 : Memref sig .tc .smem S1x1 .f32) (harg3 : arg3.IsWhole) (arg4 : Memref sig .tc .smem S1x1 .f32) (harg4 : arg4.IsWhole) (arg5 : Memref sig .tc .smem S1 .f32) (harg5 : arg5.IsWhole) (arg6 : Memref sig .tc .smem S1 .f32) (harg6 : arg6.IsWhole)
    (hc0 : cond0 i) (hc1 : ¬k1_cond2 i = 1#1) (x0 : Vec F S512x4096 .f32) (t0 : Vec F S512x4096 .i32) (E : Set ℕ) (Kk : PUnit → sProp 𝕄) :
    iprop(owns (c : Thread nD τ) arg1 fullShare x0 ∗ owns (c : Thread nD τ) arg2 fullShare t0
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare t0
            ∗ owns (c : Thread nD τ) arg5 fullShare (fun _ => k1_pay2 x0 t0 (Scalar.ofBits .f32 0x00000000#32))
            ∗ owns (c : Thread nD τ) arg6 fullShare (fun _ => k1_pay3 t0 (Scalar.ofBits .f32 0x00000000#32))) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%d5, %f5, %hf5, H5⟩, ⟨%d6, %f6, %hf6, H6⟩, Hk⟩
  obtain rfl := harg1.eq_unread hf0; obtain rfl := harg2.eq_unread hf1
  obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr; swap; · iexact H5
    ipureintro
    rw [read_word1c]
    sl_unfold_words
    simp only [View.readAt_eq_ld, harg1.read_unread, harg2.read_unread, View.ld_unit_zero (S := S512x4096) hz2, View.readCov_unit_zero (S := S1) _ hz1]
    rfl
  · iexists _; isplitr; swap; · iexact H6
    ipureintro
    rw [read_word1c]
    sl_unfold_words
    simp only [View.readAt_eq_ld, harg2.read_unread, View.ld_unit_zero (S := S512x4096) hz2, View.readCov_unit_zero (S := S1) _ hz1]
    rfl

/-- THE LAST POINT: each scratch word has its block's lane sum added, then is copied to its output word. -/
theorem kernel_C (c : Dev nD) (i : grid1.Coords) (arg1 : Memref sig .tc .vmem S512x4096 .f32) (harg1 : arg1.IsWhole) (arg2 : Memref sig .tc .vmem S512x4096 .i32) (harg2 : arg2.IsWhole) (arg3 : Memref sig .tc .smem S1x1 .f32) (harg3 : arg3.IsWhole) (arg4 : Memref sig .tc .smem S1x1 .f32) (harg4 : arg4.IsWhole) (arg5 : Memref sig .tc .smem S1 .f32) (harg5 : arg5.IsWhole) (arg6 : Memref sig .tc .smem S1 .f32) (harg6 : arg6.IsWhole)
    (hc0 : ¬cond0 i) (hc1 : k1_cond2 i = 1#1) (x0 : Vec F S512x4096 .f32) (t0 : Vec F S512x4096 .i32) (a0 a1 : F .f32) (E : Set ℕ) (Kk : PUnit → sProp 𝕄) :
    iprop(owns (c : Thread nD τ) arg1 fullShare x0 ∗ owns (c : Thread nD τ) arg2 fullShare t0
        ∗ (∃ d, owns (c : Thread nD τ) arg3 fullShare d) ∗ (∃ d, owns (c : Thread nD τ) arg4 fullShare d)
        ∗ owns (c : Thread nD τ) arg5 fullShare (fun _ => a0) ∗ owns (c : Thread nD τ) arg6 fullShare (fun _ => a1)
        ∗ (iprop(owns (c : Thread nD τ) arg1 fullShare x0 ∗ owns (c : Thread nD τ) arg2 fullShare t0
            ∗ owns (c : Thread nD τ) arg3 fullShare (fun _ => k1_pay2 x0 t0 a0) ∗ owns (c : Thread nD τ) arg4 fullShare (fun _ => k1_pay3 t0 a1)
            ∗ owns (c : Thread nD τ) arg5 fullShare (fun _ => k1_pay2 x0 t0 a0) ∗ owns (c : Thread nD τ) arg6 fullShare (fun _ => k1_pay3 t0 a1)) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%d3, %f3, %hf3, H3⟩, ⟨%d4, %f4, %hf4, H4⟩, ⟨%f5, %hf5, H5⟩, ⟨%f6, %hf6, H6⟩, Hk⟩
  obtain rfl := harg1.eq_unread hf0; obtain rfl := harg2.eq_unread hf1
  obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; swap; · iexact H3
    ipureintro
    rw [read_word2]
    sl_unfold_words
    simp only [View.readAt_eq_ld, harg1.read_unread, harg2.read_unread, harg5.read_unread, View.ld_unit_zero (S := S512x4096) hz2, View.readCov_unit_zero (S := S1) _ hz1]
    rfl
  isplitl [H4]
  · iexists _; isplitr; swap; · iexact H4
    ipureintro
    rw [read_word2]
    sl_unfold_words
    simp only [View.readAt_eq_ld, harg2.read_unread, harg6.read_unread, View.ld_unit_zero (S := S512x4096) hz2, View.readCov_unit_zero (S := S1) _ hz1]
    rfl
  isplitl [H5]
  · iexists _; isplitr; swap; · iexact H5
    ipureintro
    rw [read_word1c]
    sl_unfold_words
    simp only [View.readAt_eq_ld, harg1.read_unread, harg2.read_unread, harg5.read_unread, View.ld_unit_zero (S := S512x4096) hz2]
    rfl
  · iexists _; isplitr; swap; · iexact H6
    ipureintro
    rw [read_word1c]
    sl_unfold_words
    simp only [View.readAt_eq_ld, harg2.read_unread, harg6.read_unread, View.ld_unit_zero (S := S512x4096) hz2]
    rfl

end Cert.Proof.KB.Tc

end
-- ==== Proof.KBTcObl.lean ====
/-
  The body obligation of the TensorCore's pipelined region: at every grid point the body takes the two scratch words from the sums before the point to the sums after it, and at the last point copies them to the output words.
-/
import proofs.«207598_g57604101374094_cont_9to1_m_955_21_alg».proof.Proof.KBTcBody

import Idealize.ShloMosaic.Lib.Pipeline.Value

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the arrays the region reads and, at its entry, the two it writes: one contents per device
variable (X : (c : Dev nD) → Buf (Elt F) ((T c : Thread nD τ).loc main_arg0)) (Tt : (c : Dev nD) → Buf (Elt F) ((T c : Thread nD τ).loc main_arg1))
variable (Y0 : (c : Dev nD) → Buf (Elt F) ((T c : Thread nD τ).loc main_v1_0)) (Y1 : (c : Dev nD) → Buf (Elt F) ((T c : Thread nD τ).loc main_v1_1))

/-! ## The control cases over the grid -/

/-- The first conditional is taken at the first point only; -/
theorem hcond0 : ∀ n : Fin cfg1.N, cond0 (grid1.coords n) ↔ n.val = 0 :=
  (by decide +kernel : ∀ n : Fin grid1.N, cond0 (grid1.coords n) ↔ n.val = 0)
/-- the second at the last point only. -/
theorem hcond2 : ∀ n : Fin cfg1.N, k1_cond2 (grid1.coords n) = 1#1 ↔ n.val = 25 :=
  (by decide +kernel : ∀ n : Fin grid1.N, k1_cond2 (grid1.coords n) = 1#1 ↔ n.val = 25)

/-- The output windows are idle but at the last point, -/
theorem idle2 : ∀ n : Fin cfg1.N, idle1 2 (grid1.coords n) = !decide (n.val = 25) :=
  (by decide +kernel : ∀ n : Fin grid1.N, idle1 2 (grid1.coords n) = !decide (n.val = 25))
theorem idle3 : ∀ n : Fin cfg1.N, idle1 3 (grid1.coords n) = !decide (n.val = 25) :=
  (by decide +kernel : ∀ n : Fin grid1.N, idle1 3 (grid1.coords n) = !decide (n.val = 25))
/-- where alone they are written back. -/
theorem flush2 : ∀ n : Fin cfg1.N, (win1 2).flush n = decide (n.val = 25) :=
  (by decide +kernel : ∀ n : Fin grid1.N, win1_2.flush n = decide (n.val = 25))
theorem flush3 : ∀ n : Fin cfg1.N, (win1 3).flush n = decide (n.val = 25) :=
  (by decide +kernel : ∀ n : Fin grid1.N, win1_3.flush n = decide (n.val = 25))

/-! ## What the body finds in the inputs' staging buffers -/

theorem before_0 (c : Dev nD) (n : Fin cfg1.N) (d) : (dats X Tt Y0 Y1 0 c).before 0 n d = xb X c n := by
  unfold Dat.before; rw [if_pos (fetch1_0 n)]; rfl
theorem before_1 (c : Dev nD) (n : Fin cfg1.N) (d) : (dats X Tt Y0 Y1 0 c).before 1 n d = tb Tt c n := by
  unfold Dat.before; rw [if_pos (fetch1_1 n)]; rfl

/-! ## The scratch words' recursion, unfolded one step -/

theorem acc_succ (c : Dev nD) (n : Fin cfg1.N) :
    acc X Tt c (n.val + 1) n.isLt
      = (k1_pay2 (xb X c n) (tb Tt c n) (acc X Tt c n.val (Nat.le_of_lt n.isLt)).1, k1_pay3 (tb Tt c n) (acc X Tt c n.val (Nat.le_of_lt n.isLt)).2) := rfl
theorem acc_zero (c : Dev nD) (n : ℕ) (h0 : n = 0) (h : n ≤ cfg1.N) :
    acc X Tt c n h = (Scalar.ofBits .f32 0x00000000#32, Scalar.ofBits .f32 0x00000000#32) := by subst h0; rfl
theorem acc_congr (c : Dev nD) {n n' : ℕ} (e : n = n') (h : n ≤ cfg1.N) (h' : n' ≤ cfg1.N) : acc X Tt c n h = acc X Tt c n' h' := by
  subst e; rfl

/-! ## The body obligation -/

theorem body_obligation (c : Dev nD) : BodyObligation (dats X Tt Y0 Y1 0 c) (defs₀ (F := F)) 𝒱₀ none Set.univ := fun n => by
  rw [bigSep_W1, bigSep_W1]
  simp only [before_0, before_1]
  rw [show (dats X Tt Y0 Y1 0 c).owesAt none n.succ = (dats X Tt Y0 Y1 0 c).owesAt none n.castSucc from rfl,
    show (dats X Tt Y0 Y1 0 c).after 0 n = xb X c n from rfl, show (dats X Tt Y0 Y1 0 c).after 1 n = tb Tt c n from rfl,
    show (dats X Tt Y0 Y1 0 c).Φ n.castSucc = Φc X Tt c n.castSucc from rfl, show (dats X Tt Y0 Y1 0 c).Φ n.succ = Φc X Tt c n.succ from rfl]
  show _ ⊢ wp frame (wpE defs₀ 𝒱₀ c.tc none) Set.univ (bodyAt1 n) _
  unfold bodyAt1 Φc
  rw [idle2 n, flush2 n]
  try rw [idle3 n]
  try rw [flush3 n]
  by_cases h0 : n.val = 0
  · -- the first point
    have h25 : ¬n.val = 25 := by omega
    simp only [decide_eq_false h25, Bool.not_false]
    iintro ⟨⟨%f0, %f1, Hs0, Hs1, -⟩, HO, ⟨%d0, H0⟩, ⟨%d1, H1⟩, H2, H3⟩
    iapply (kernel_A c (grid1.coords n) _ _ _ _ _ _ _ _ _ _ _ _ ((hcond0 n).mpr h0) (fun h => h25 ((hcond2 n).mp h)) (xb X c n) (tb Tt c n) Set.univ _)
    isplitl [H0]; · iexact H0
    isplitl [H1]; · iexact H1
    isplitl [Hs0]; · iexists _; iexact Hs0
    isplitl [Hs1]; · iexists _; iexact Hs1
    iintro ⟨H0, H1, Hs0, Hs1⟩
    isplitl [Hs0 Hs1]
    · iexists _, _; isplitl [Hs0]; · iexact Hs0
      isplitl [Hs1]; · iexact Hs1
      ipureintro; intro _
      rw [show acc X Tt c n.succ.val (Nat.le_of_lt_succ n.succ.isLt) = acc X Tt c (n.val + 1) n.isLt from rfl, acc_succ,
        acc_zero X Tt c n.val h0]
      exact ⟨rfl, rfl⟩
    isplitl [HO]; · iexact HO
    isplitl [H0]; · iexact H0
    isplitl [H1]; · iexact H1
    isplitl [H2]; · iexact H2
    iexact H3
  · by_cases h25 : n.val = 25
    · -- the last point
      simp only [decide_eq_true h25, Bool.not_true]
      rw [show (dats X Tt Y0 Y1 0 c).after 2 n = (fun _ => (acc X Tt c (n.val + 1) n.isLt).1) from rfl,
        show (dats X Tt Y0 Y1 0 c).after 3 n = (fun _ => (acc X Tt c (n.val + 1) n.isLt).2) from rfl, acc_succ]
      iintro ⟨⟨%f0, %f1, Hs0, Hs1, %hf⟩, HO, ⟨%d0, H0⟩, ⟨%d1, H1⟩, ⟨%d2, H2⟩, ⟨%d3, H3⟩⟩
      obtain ⟨rfl, rfl⟩ := hf h0
      iapply (kernel_C c (grid1.coords n) _ _ _ _ _ _ _ _ _ _ _ _ (fun h => h0 ((hcond0 n).mp h)) ((hcond2 n).mpr h25) (xb X c n) (tb Tt c n) _ _ Set.univ _)
      isplitl [H0]; · iexact H0
      isplitl [H1]; · iexact H1
      isplitl [H2]; · iexists _; iexact H2
      isplitl [H3]; · iexists _; iexact H3
      isplitl [Hs0]; · iexact Hs0
      isplitl [Hs1]; · iexact Hs1
      iintro ⟨H0, H1, H2, H3, Hs0, Hs1⟩
      isplitl [Hs0 Hs1]
      · iexists _, _; isplitl [Hs0]; · iexact Hs0
        isplitl [Hs1]; · iexact Hs1
        ipureintro; intro _
        rw [show acc X Tt c n.succ.val (Nat.le_of_lt_succ n.succ.isLt) = acc X Tt c (n.val + 1) n.isLt from rfl, acc_succ]
        exact ⟨rfl, rfl⟩
      isplitl [HO]; · iexact HO
      isplitl [H0]; · iexact H0
      isplitl [H1]; · iexact H1
      isplitl [H2]; · iexact H2
      iexact H3
    · -- a middle point
      simp only [decide_eq_false h25, Bool.not_false]
      iintro ⟨⟨%f0, %f1, Hs0, Hs1, %hf⟩, HO, ⟨%d0, H0⟩, ⟨%d1, H1⟩, H2, H3⟩
      obtain ⟨rfl, rfl⟩ := hf h0
      iapply (kernel_B c (grid1.coords n) _ _ _ _ _ _ _ _ _ _ _ _ (fun h => h0 ((hcond0 n).mp h)) (fun h => h25 ((hcond2 n).mp h)) (xb X c n) (tb Tt c n) _ _ Set.univ _)
      isplitl [H0]; · iexact H0
      isplitl [H1]; · iexact H1
      isplitl [Hs0]; · iexact Hs0
      isplitl [Hs1]; · iexact Hs1
      iintro ⟨H0, H1, Hs0, Hs1⟩
      isplitl [Hs0 Hs1]
      · iexists _, _; isplitl [Hs0]; · iexact Hs0
        isplitl [Hs1]; · iexact Hs1
        ipureintro; intro _
        rw [show acc X Tt c n.succ.val (Nat.le_of_lt_succ n.succ.isLt) = acc X Tt c (n.val + 1) n.isLt from rfl, acc_succ]
        exact ⟨rfl, rfl⟩
      isplitl [HO]; · iexact HO
      isplitl [H0]; · iexact H0
      isplitl [H1]; · iexact H1
      isplitl [H2]; · iexact H2
      iexact H3

end Cert.Proof.KB.Tc

end
-- ==== Proof.KBTcRegion.lean ====
/-
  The TensorCore's pipelined region of the kernel, run: from the two arrays it reads, the two one-word arrays it writes and the staging cells' ghost state, to the same arrays with the two output words at the sums of the 26 points.
-/
import proofs.«207598_g57604101374094_cont_9to1_m_955_21_alg».proof.Proof.KBTcObl

import Idealize.ShloMosaic.Lib.Pipeline.Value

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the arrays the region reads and, at its entry, the two it writes: one contents per device
variable (X : (c : Dev nD) → Buf (Elt F) ((T c : Thread nD τ).loc main_arg0)) (Tt : (c : Dev nD) → Buf (Elt F) ((T c : Thread nD τ).loc main_arg1))
variable (Y0 : (c : Dev nD) → Buf (Elt F) ((T c : Thread nD τ).loc main_v1_0)) (Y1 : (c : Dev nD) → Buf (Elt F) ((T c : Thread nD τ).loc main_v1_1))

/-! ## The arrays after the region -/

theorem hshare (c : Dev nD) (w : Fin cfg1.W) : (dats X Tt Y0 Y1 0 c).share w = fullShare :=
  (dats X Tt Y0 Y1 0 c).share_full (fun _ => rfl) w

/-- The last point, where alone the outputs are written back. -/
abbrev t25 : Fin cfg1.N := ⟨25, by rw [show cfg1.N = 26 from N_1]; decide⟩

theorem val_of_flush2 (n : Fin cfg1.N) (hf : (cfg1.win 2).flush n = true) : n.val = 25 := by
  have := (flush2 n).symm.trans hf; simpa using this
theorem val_of_flush3 (n : Fin cfg1.N) (hf : (cfg1.win 3).flush n = true) : n.val = 25 := by
  have := (flush3 n).symm.trans hf; simpa using this

/-- Every index of a one-word array is in the block the last point writes back. -/
theorem cover2 (c : Dev nD) (i : ((cfg1.win 2).arr.view.loc (c.tc : Thread nD τ)).2.ty.Idx) :
    ∃ n : Fin cfg1.N, (cfg1.win 2).flush n = true ∧ i ∈ ((cfg1.win 2).blk n).view.set :=
  ⟨t25, (flush2 t25).trans (by decide), by
    show i ∈ ((View.whole main_v1_0).slice (win1_2.rect t25)).set
    rw [View.set_slice_whole, Rect.mem_set_unit]
    intro a
    have h0 : (i 0 : Nat) < 1 := (i 0).isLt
    have h1 : (i 1 : Nat) < 1 := (i 1).isLt
    match a with
    | ⟨0, _⟩ => show win1_2.index t25 0 * win1_2.size 0 ≤ (i 0 : Nat) ∧ (i 0 : Nat) < win1_2.index t25 0 * win1_2.size 0 + win1_2.xsize (grid1.coords t25) 0
                rw [show win1_2.index t25 0 * win1_2.size 0 = 0 from by decide +kernel, show win1_2.xsize (grid1.coords t25) 0 = 1 from by decide +kernel]; omega
    | ⟨1, _⟩ => show win1_2.index t25 1 * win1_2.size 1 ≤ (i 1 : Nat) ∧ (i 1 : Nat) < win1_2.index t25 1 * win1_2.size 1 + win1_2.xsize (grid1.coords t25) 1
                rw [show win1_2.index t25 1 * win1_2.size 1 = 0 from by decide +kernel, show win1_2.xsize (grid1.coords t25) 1 = 1 from by decide +kernel]; omega⟩
theorem cover3 (c : Dev nD) (i : ((cfg1.win 3).arr.view.loc (c.tc : Thread nD τ)).2.ty.Idx) :
    ∃ n : Fin cfg1.N, (cfg1.win 3).flush n = true ∧ i ∈ ((cfg1.win 3).blk n).view.set :=
  ⟨t25, (flush3 t25).trans (by decide), by
    show i ∈ ((View.whole main_v1_1).slice (win1_3.rect t25)).set
    rw [View.set_slice_whole, Rect.mem_set_unit]
    intro a
    have h0 : (i 0 : Nat) < 1 := (i 0).isLt
    have h1 : (i 1 : Nat) < 1 := (i 1).isLt
    match a with
    | ⟨0, _⟩ => show win1_3.index t25 0 * win1_3.size 0 ≤ (i 0 : Nat) ∧ (i 0 : Nat) < win1_3.index t25 0 * win1_3.size 0 + win1_3.xsize (grid1.coords t25) 0
                rw [show win1_3.index t25 0 * win1_3.size 0 = 0 from by decide +kernel, show win1_3.xsize (grid1.coords t25) 0 = 1 from by decide +kernel]; omega
    | ⟨1, _⟩ => show win1_3.index t25 1 * win1_3.size 1 ≤ (i 1 : Nat) ∧ (i 1 : Nat) < win1_3.index t25 1 * win1_3.size 1 + win1_3.xsize (grid1.coords t25) 1
                rw [show win1_3.index t25 1 * win1_3.size 1 = 0 from by decide +kernel, show win1_3.xsize (grid1.coords t25) 1 = 1 from by decide +kernel]; omega⟩

/-- The first output array ends holding the first scratch word after the last point, -/
theorem final2 (c : Dev nD) : (dats X Tt Y0 Y1 0 c).arrAt 2 cfg1.N = fun _ => tcSumF X Tt c :=
  (dats X Tt Y0 Y1 0 c).arrAt_eq_of_cover 2 (fun _ => tcSumF X Tt c) (fun n hf => by
    have h := val_of_flush2 n hf
    funext j
    show (acc X Tt c (n.val + 1) n.isLt).1 = (acc X Tt c cfg1.N le_rfl).1
    rw [acc_congr X Tt c (show n.val + 1 = cfg1.N from by rw [h]; exact N_1.symm)]) (cover2 c)
/-- and the second the second. -/
theorem final3 (c : Dev nD) : (dats X Tt Y0 Y1 0 c).arrAt 3 cfg1.N = fun _ => tcCntF X Tt c :=
  (dats X Tt Y0 Y1 0 c).arrAt_eq_of_cover 3 (fun _ => tcCntF X Tt c) (fun n hf => by
    have h := val_of_flush3 n hf
    funext j
    show (acc X Tt c (n.val + 1) n.isLt).2 = (acc X Tt c cfg1.N le_rfl).2
    rw [acc_congr X Tt c (show n.val + 1 = cfg1.N from by rw [h]; exact N_1.symm)]) (cover3 c)

/-! ## The region as a segment of @main -/

variable (lv : GSem nD τ sig → HIx 1 → ℕ)

-- the segment's fields are stated over the pinned configuration, which unfolds to the printed one
set_option backward.isDefEq.respectTransparency.types false in
/-- THE REGION: the generated layout, no semaphore of the kernel's own, the body obligation; entered from the four
    arrays and the TensorCore's tallies, left with the two output words at the sums. Nothing enters the invariant but
    the scratch words, nothing bypasses. -/
def reg0 : Pipeline.RegionSeg (pcfgs (F := F)) adm (dats X Tt Y0 Y1) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation X Tt Y0 Y1 c).loose
  hwaits := Pipeline.hwaits_of_owed_zero _ _ _ _ (K (F := F)).L lv 0 fun _ _ => rfl
  pre c := regPre X Tt Y0 Y1 c
  post c := regPost X Tt c
  X _ := iprop(emp)
  Y _ := iprop(emp)
  Z _ := iprop(emp)
  hentry c := by
    rw [Pipeline.arrays_eq (Pipeline.pin (pcfgs (F := F)) adm) (dats X Tt Y0 Y1) 0 c launch1.arr_whole (hshare X Tt Y0 Y1 c), bigSep_W1]
    unfold regPre
    iintro ⟨⟨Hx, Ht, Hy0, Hy1, %W, %hW, HO⟩, -, -⟩
    imodintro
    isplitl [Hx Ht Hy0 Hy1]
    · isplitl [Hx]; · iexact Hx
      isplitl [Ht]; · iexact Ht
      isplitl [Hy0]; · iexact Hy0
      iexact Hy1
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rw [scopedRest1_eq]
    show _ ⊢ Φc X Tt c 0
    unfold Φc
    simp only [owns_whole]
    iintro ⟨-, -, ⟨%f0, H0⟩, ⟨%f1, H1⟩⟩
    iexists f0, f1
    isplitl [H0]; · iexact H0
    isplitl [H1]; · iexact H1
    ipureintro; intro h; exact absurd (Fin.val_zero _) h
  hout c := by
    rw [Pipeline.ownSems0_none, scopedRest1_eq]
    show Φc X Tt c (Fin.last cfg1.N) ⊢ _
    unfold Φc
    simp only [owns_whole]
    iintro ⟨%f0, %f1, H0, H1, -⟩
    isplitr; · iempintro
    isplitr; · iempintro
    isplitl [H0]; · iexists f0; iexact H0
    iexists f1; iexact H1
  hexit c := by
    rw [Pipeline.arrays_eq (Pipeline.pin (pcfgs (F := F)) adm) (dats X Tt Y0 Y1) 0 c launch1.arr_whole (hshare X Tt Y0 Y1 c), bigSep_W1]
    rw [show (dats X Tt Y0 Y1 0 c).arrAt 0 cfg1.N = X c from (dats X Tt Y0 Y1 0 c).arrAt_in 0 rfl _,
      show (dats X Tt Y0 Y1 0 c).arrAt 1 cfg1.N = Tt c from (dats X Tt Y0 Y1 0 c).arrAt_in 1 rfl _, final2, final3]
    unfold regPost
    iintro ⟨⟨Hx, Ht, Hy0, Hy1⟩, HO, -, -⟩
    imodintro
    isplitl [Hx]; · iexact Hx
    isplitl [Ht]; · iexact Ht
    isplitl [Hy0]; · iexact Hy0
    isplitl [Hy1]; · iexact Hy1
    unfold Pipeline.Dat.owesAt Pipeline.owesWithin
    icases HO with ⟨%W, %hW, HO⟩
    iexists W; isplitr; swap; · iexact HO
    ipureintro
    intro p hp
    rcases hW (Finset.mem_coe.mpr hp) with h | ⟨w, s, rfl⟩
    · exact h
    · exact Nat.zero_le _

/-! ## The region's run -/

-- as for the segment
set_option backward.isDefEq.respectTransparency.types false in
/-- The region in the pipeline's own label signature. -/
theorem region_wp₀ (c : Dev nD) :
    iprop(levAts (K (F := F)).L lv ∗ boundary (T c : Thread nD τ) ∗ regPre X Tt Y0 Y1 c ∗ G_tc (F := F) c)
      ⊢ wp frame (wpE (D (F := F)) 𝒱 (T c) none) Set.univ (Prog.op (TpuEff.customCall (Pipeline.entry 0) ()) fun _ => Prog.ret PUnit.unit)
          fun _ => iprop(boundary (T c : Thread nD τ) ∗ regPost X Tt c) := by
  have h := Pipeline.RegionSeg.wp (pcfgs (F := F)) adm (dats X Tt Y0 Y1) none cellOf_inj ER defs₀ 𝒱₀ (K (F := F)).L lv
    (reg0 X Tt Y0 Y1 lv) c none (fun _ h => nomatch h) (α := PUnit) (fun _ => Prog.ret PUnit.unit) (fun _ => iprop(boundary (T c : Thread nD τ) ∗ regPost X Tt c))
  rw [show (reg0 X Tt Y0 Y1 lv).post c = regPost X Tt c from rfl, show (reg0 X Tt Y0 Y1 lv).pre c = regPre X Tt Y0 Y1 c from rfl] at h
  refine BI.Entails.trans ?_ h
  unfold G_tc
  show (iprop(_ ∗ _ ∗ _ ∗ _ ∗ _) : sProp 𝕄) ⊢ iprop(_ ∗ _ ∗ _ ∗ _ ∗ _ ∗ _)
  iintro ⟨Hl, Hb, Hp, Hg, Ht⟩
  isplitr
  · iintro ⟨Hb, Hp⟩; rw [wp_ret]; imodintro
    isplitl [Hb]; · iexact Hb
    iexact Hp
  isplitl [Hb]; · iexact Hb
  isplitl [Hp]; · iexact Hp
  isplitl [Hl]; · iexact Hl
  isplitl [Hg]; · iexact Hg
  iexact Ht

/-- The lifted call is the call of the lifted label. -/
theorem lift_call : (SparseCore.liftProg (Q := 1) (Prog.op (TpuEff.customCall (Pipeline.entry 0) ()) fun _ => Prog.ret PUnit.unit)
      : Prog (TpuEff nD τ sig (Elt F) (SparseCore.Sig (ΛP (F := F)) 1) .tc) PUnit)
    = Prog.lift (.customCall (SparseCore.inner (Pipeline.entry 0)) ()) := rfl

/-- The TensorCore's second call of @main, from the level facts, the region boundary, the four arrays with the core's
    tallies and the staging cells' ghost state: it terminates at the boundary with the arrays it read unchanged and
    the two output words at the sums. -/
theorem region_wp (c : Dev nD) :
    iprop(levAts (K (F := F)).L lv ∗ boundary (T c : Thread nD τ) ∗ regPre X Tt Y0 Y1 c ∗ G_tc (F := F) c)
      ⊢ wp frame (wpE ((K (F := F)).defs D) 𝒱 (T c) none) Set.univ (Prog.lift (.customCall (SparseCore.inner (Pipeline.entry 0)) ()))
          fun _ => iprop(boundary (T c : Thread nD τ) ∗ regPost X Tt c) := by
  rw [← lift_call]
  exact (region_wp₀ X Tt Y0 Y1 lv c).trans ((K (F := F)).wp_liftProg D 𝒱 (T c) Set.univ none _ _)

end Cert.Proof.KB.Tc

end
-- ==== Proof.KBTcFund.lean ====
/-
  The staging cells' launch element of the kernel's proof, dealt to the cores.
-/
import proofs.«207598_g57604101374094_cont_9to1_m_955_21_alg».proof.Proof.KBTc

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The launch's staging-cell element gives every core its cells' rounds and duty tokens. -/
theorem fund_tc :
    (BI.own ((ER (F := F)) (initOf (Pipeline.cells cfgs cellOf_inj) (Pipeline.launchToks cfgs cellOf_inj))) : sProp 𝕄)
      ⊢ iprop(|==> bigSep Finset.univ fun c : Dev nD => G_tc (F := F) c) := by
  refine (Pipeline.fund_ghost cfgs (ER (F := F)) cellOf_inj).trans (bupd_mono ?_)
  unfold G_tc
  rw [bigSep_sep']
  refine sep_mono (bigSep_mono fun c _ => ?_) (bigSep_mono fun c _ => ?_)
  · rw [show (Finset.univ : Finset (Fin 1)) = {0} from rfl, bigSep_singleton]; exact Idealize.SL.BI.Entails.refl _
  · rw [show (Finset.univ : Finset (Fin 1)) = {0} from rfl, bigSep_singleton]; exact Idealize.SL.BI.Entails.refl _

end Cert.Proof.KB.Tc

end
-- ==== Proof.KBTcAux.lean ====
/-
  What the TensorCore owes after the one SparseCore call: nothing.
-/
import proofs.«207598_g57604101374094_cont_9to1_m_955_21_alg».proof.Proof.KBTc

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- There is one SparseCore call, so after it the TensorCore owes no start signal. -/
theorem Otc_one (d : Dev nD) : (K (F := F)).Otc (nD := nD) d 1 = 0 := by
  unfold SparseCore.Cfg.Otc
  exact Finset.sum_eq_zero fun q _ => if_neg (by have := q.isLt; omega)

end Cert.Proof.KB.Tc

end
-- ==== Proof.KBTcSplitU.lean ====
/-
  The launch element of the kernel's proof, split: owning the triple of the handshakes' rounds, the staging cells' rounds and the counters gives the first two, each through its own embedding.
-/
import proofs.«207598_g57604101374094_cont_9to1_m_955_21_alg».proof.Proof.KBTc

import Idealize.ShloMosaic.Lib.Pipeline.Kit

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Owning the proof's whole user component at a triple is owning the handshakes' rounds and the staging cells' rounds
    apart (the counters' part is let go). -/
theorem ownU_split (a : UH) (b : UP) (c : Counters) :
    (ownU ((a, (b, c)) : UU) : sProp 𝕄) ⊢ iprop(BI.own ((EH (F := F)) a) ∗ BI.own ((ER (F := F)) b)) := by
  iintro Hu
  ihave H := (ownU_pair a (b, c)) $$ Hu
  icases H with ⟨Ha, Hbc⟩
  ihave H2 := (own_pair_emb (embR (nD := nD) (τ := τ) (sig := sig) (Ix := HIx 1) (Val := Elt F) (Name := ℕ) (Lvl := ℕ) (A := UH) (B := UP × Counters)) b c) $$ Hbc
  icases H2 with ⟨Hb, -⟩
  isplitl [Ha]; · iexact Ha
  iexact Hb

end Cert.Proof.KB.Tc

end
-- ==== Proof.KBTail.lean ====
/-
  @main's host tail of the kernel: the twelve host operations after the TensorCore's region as a list, @main as the two calls followed by that list, the list's run within a set of whole buffers, and the result buffer as the operations' composed term of the four buffers they read.
-/
import proofs.«207598_g57604101374094_cont_9to1_m_955_21_alg».proof.Proof.KBAmbient
import Idealize.ShloMosaic.Lib.StableHlo.Run
import Idealize.ShloMosaic.Lib.Pipeline.Frame

noncomputable section

namespace Cert.Proof.KB.Tail

open Cert.Kernel Cert.Kernel.Gen
open Cert.Proof.KB

open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## @main's last twelve operations -/

/-- The host operations after the TensorCore's region, in order, as @main spells them. -/
abbrev tailOps : List (HloOp τ sig (Elt F)) :=
  [ StableHlo.reshape main_v1_0 main_v2 rfl shapeCasts_S1x1_S_,
    StableHlo.nullary main_cst (constant S_ .f32 0x00000000#32),
    StableHlo.binary main_v0_0 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v2 main_v3 main_v4 (addf : (⟨S_, .f32⟩ : BufTy).Contents (Elt F) → (⟨S_, .f32⟩ : BufTy).Contents (Elt F) → (⟨S_, .f32⟩ : BufTy).Contents (Elt F)),
    StableHlo.reshape main_v1_1 main_v5 rfl shapeCasts_S1x1_S_,
    StableHlo.nullary main_c (constantI S_ 32 0#32),
    StableHlo.binary main_v0_1 main_c main_v6 ((fun x v => Host.reduce IntOp.addi x v reducesTo_S32x16_S_d0_1 h_S_) : (⟨S32x16, .i32⟩ : BufTy).Contents (Elt F) → (⟨S_, .i32⟩ : BufTy).Contents (Elt F) → (⟨S_, .i32⟩ : BufTy).Contents (Elt F)),
    StableHlo.unary main_v6 main_v7 (sitofp .f32 : (⟨S_, .i32⟩ : BufTy).Contents (Elt F) → (⟨S_, .f32⟩ : BufTy).Contents (Elt F)),
    StableHlo.binary main_v5 main_v7 main_v8 (addf : (⟨S_, .f32⟩ : BufTy).Contents (Elt F) → (⟨S_, .f32⟩ : BufTy).Contents (Elt F) → (⟨S_, .f32⟩ : BufTy).Contents (Elt F)),
    StableHlo.nullary main_cst_0 (constant S_ .f32 0x3E800000#32),
    StableHlo.binary main_cst_0 main_v4 main_v9 (mulf : (⟨S_, .f32⟩ : BufTy).Contents (Elt F) → (⟨S_, .f32⟩ : BufTy).Contents (Elt F) → (⟨S_, .f32⟩ : BufTy).Contents (Elt F)),
    StableHlo.binary main_v9 main_v8 main_v10 (Host.divf : (⟨S_, .f32⟩ : BufTy).Contents (Elt F) → (⟨S_, .f32⟩ : BufTy).Contents (Elt F) → (⟨S_, .f32⟩ : BufTy).Contents (Elt F)) ]

/-- @main is the SparseCore call, the TensorCore's region, then those twelve. -/
theorem main_eq (d : Dev nD) :
    main (F := F) d = (do
      sc.run d 0
      Prog.lift (.customCall (SparseCore.inner (Pipeline.entry 0)) ())
      StableHlo.seq tailOps) := rfl

/-- Every operation names TensorCore references only, -/
theorem tail_sub : (tailOps : List (HloOp τ sig (Elt F))).Forall fun op => op.bufs ⊆ tcRefs τ sig :=
  ⟨reshape_bufs_sub .., nullary_bufs_sub .., binary_bufs_sub .., binary_bufs_sub .., reshape_bufs_sub .., nullary_bufs_sub .., binary_bufs_sub .., unary_bufs_sub .., binary_bufs_sub .., nullary_bufs_sub .., binary_bufs_sub .., binary_bufs_sub ..⟩
/-- so unscoped ones only; -/
theorem tail_sub_uc : ∀ op ∈ (tailOps : List (HloOp τ sig (Elt F))), op.bufs ⊆ Pipeline.ucRefs τ sig := fun op h =>
  Pipeline.sub_ucRefs op ((List.forall_iff_forall_mem.mp tail_sub) op h)
/-- and none allocates. -/
theorem tail_fresh : ∀ op ∈ (tailOps : List (HloOp τ sig (Elt F))), op.fresh = ∅ := by
  intro _ h; (repeat (cases h with | head => rfl | tail _ h => ?_)); exact nomatch h

/-! ## Their run -/

/-- THE TAIL'S RUN, within any set of whole buffers containing every operation's: from the boundary and the set at `V`
    to the boundary and the set at the operations' fold of `V`. -/
theorem tail_wp_on (d : Dev nD) (S : Finset (DevRef τ sig)) (hS : ∀ op ∈ (tailOps : List (HloOp τ sig (Elt F))), op.bufs ⊆ S)
    (V : Valuation τ sig (Elt F)) {β : Type}
    (k : PUnit → Prog (TpuEff nD τ sig (Elt F) (SparseCore.Sig (ΛP (F := F)) 1) .tc) β) {Kk : β → sProp 𝕄} :
    iprop(boundary (d.tc : Thread nD τ) ∗ (held (d.tc : Thread nD τ) S V : sProp 𝕄))
      ⊢ iprop(((boundary (d.tc : Thread nD τ) ∗ (held (d.tc : Thread nD τ) S (after tailOps V) : sProp 𝕄))
                -∗ wp frame (wpE ((K (F := F)).defs D) 𝒱 d.tc none) Set.univ (k ⟨⟩) Kk)
        -∗ wp frame (wpE ((K (F := F)).defs D) 𝒱 d.tc none) Set.univ (seq tailOps >>= k) Kk) :=
  wp_seq 𝒱 none Set.univ d S k tailOps hS tail_fresh V

/-- The same within the TensorCore's unscoped buffers. -/
theorem tail_wp (d : Dev nD) (V : Valuation τ sig (Elt F)) {β : Type}
    (k : PUnit → Prog (TpuEff nD τ sig (Elt F) (SparseCore.Sig (ΛP (F := F)) 1) .tc) β) {Kk : β → sProp 𝕄} :
    iprop(boundary (d.tc : Thread nD τ) ∗ (held (d.tc : Thread nD τ) (Pipeline.ucRefs τ sig) V : sProp 𝕄))
      ⊢ iprop(((boundary (d.tc : Thread nD τ) ∗ (held (d.tc : Thread nD τ) (Pipeline.ucRefs τ sig) (after tailOps V) : sProp 𝕄))
                -∗ wp frame (wpE ((K (F := F)).defs D) 𝒱 d.tc none) Set.univ (k ⟨⟩) Kk)
        -∗ wp frame (wpE ((K (F := F)).defs D) 𝒱 d.tc none) Set.univ (seq tailOps >>= k) Kk) :=
  tail_wp_on d (Pipeline.ucRefs τ sig) tail_sub_uc V k

/-! ## What they compute -/

/-- The result buffer after the twelve, as the operations' composed term of the four buffers they read. -/
theorem tail_result (V : Valuation τ sig (Elt F)) :
    after tailOps V (Proc.devRef .tc main_v10)
      = Host.divf
          (mulf (constant S_ .f32 0x3E800000#32)
            (addf (shapeCast S_ (V (Proc.devRef .tc main_v1_0)) shapeCasts_S1x1_S_)
              (Host.reduceAdd (V (Proc.devRef .tc main_v0_0)) (constant S_ .f32 0x00000000#32) reducesTo_S32x16_S_d0_1 h_S_)))
          (addf (shapeCast S_ (V (Proc.devRef .tc main_v1_1)) shapeCasts_S1x1_S_)
            (sitofp .f32 (Host.reduce IntOp.addi (V (Proc.devRef .tc main_v0_1)) (constantI S_ 32 0#32) reducesTo_S32x16_S_d0_1 h_S_))) := by
  after_results <;> rfl

/-- The two argument arrays are not written. -/
theorem tail_keeps0 (V : Valuation τ sig (Elt F)) : after tailOps V (Proc.devRef .tc main_arg0) = V (Proc.devRef .tc main_arg0) := by
  after_results <;> rfl
theorem tail_keeps1 (V : Valuation τ sig (Elt F)) : after tailOps V (Proc.devRef .tc main_arg1) = V (Proc.devRef .tc main_arg1) := by
  after_results <;> rfl

end Cert.Proof.KB.Tail

end
-- ==== Proof.KBMain.lean ====
/-
  The kernel's run: the launch theorem applied. A SparseCore's operands split among its sixteen subcores and
  their results gather back; the launch element funds the handshakes and the TensorCore pipeline's staging cells;
  @main on the TensorCore starts the subcore kernel and waits for it, runs the TensorCore kernel's region over rows
  0 … 13311, and the twelve host operations that add the pieces up and divide.
-/
import proofs.«207598_g57604101374094_cont_9to1_m_955_21_alg».proof.Proof.KBObl
import proofs.«207598_g57604101374094_cont_9to1_m_955_21_alg».proof.Proof.KBTcRegion
import proofs.«207598_g57604101374094_cont_9to1_m_955_21_alg».proof.Proof.KBTcFund
import proofs.«207598_g57604101374094_cont_9to1_m_955_21_alg».proof.Proof.KBTcAux
import proofs.«207598_g57604101374094_cont_9to1_m_955_21_alg».proof.Proof.KBTcSplitU
import proofs.«207598_g57604101374094_cont_9to1_m_955_21_alg».proof.Proof.KBTail

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands among its subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun i => goRes m d (Fin.cast nCore_zero c) i), bigSep_tasks (F := F) (fun i => tdRes m d (Fin.cast nCore_zero c) i)]
  generalize Fin.cast nCore_zero c = c'
  have hx := tile_shares (F := F) (xLoc d) (m (xLoc d)) c'
  have ht := tile_shares (F := F) (tLoc d) (m (tLoc d)) c'
  rw [bigSep_sep'] at hx ht
  unfold stRes goRes tdRes dnRes
  simp only [bigSep_sep']
  iintro ⟨Hx, Ht, Hs, Hc⟩
  ihave Hx' := hx.1 $$ Hx
  ihave Ht' := ht.1 $$ Ht
  icases Hx' with ⟨Hxd, Hxl, Hxr⟩
  icases Ht' with ⟨Htd, Htl, Htr⟩
  imodintro
  isplitl [Hxl Hxr Htl Htr Hs Hc]
  · isplitl [Hxl]; · iexact Hxl
    isplitl [Hxr]; · iexact Hxr
    isplitl [Htl]; · iexact Htl
    isplitl [Htr]; · iexact Htr
    isplitl [Hs]; · iexact Hs
    iexact Hc
  iintro ⟨Hxl, Hxr, Htl, Htr, Hs, Hc⟩
  isplitl [Hxd Hxl Hxr]
  · iapply hx.2
    isplitl [Hxd]; · iexact Hxd
    isplitl [Hxl]; · iexact Hxl
    iexact Hxr
  isplitl [Htd Htl Htr]
  · iapply ht.2
    isplitl [Htd]; · iexact Htd
    isplitl [Htl]; · iexact Htl
    iexact Htr
  isplitl [Hs]; · iexact Hs
  iexact Hc

/-! ## @main on the TensorCore: the six buffers the two calls touch -/

abbrev rX : DevRef τ sig := Proc.devRef .tc (main_arg0 : Ref sig .tc)
abbrev rT : DevRef τ sig := Proc.devRef .tc (main_arg1 : Ref sig .tc)
abbrev rS : DevRef τ sig := Proc.devRef .tc (main_v0_0 : Ref sig .tc)
abbrev rC : DevRef τ sig := Proc.devRef .tc (main_v0_1 : Ref sig .tc)
abbrev rY0 : DevRef τ sig := Proc.devRef .tc (main_v1_0 : Ref sig .tc)
abbrev rY1 : DevRef τ sig := Proc.devRef .tc (main_v1_1 : Ref sig .tc)
abbrev rOut : DevRef τ sig := Proc.devRef .tc (main_v10 : Ref sig .tc)
abbrev S6 : Finset (DevRef τ sig) := {rX, rT, rS, rC, rY0, rY1}
abbrev y0Loc (d : Dev nD) : Loc nD τ sig := (SparseCore.T d).loc main_v1_0
abbrev y1Loc (d : Dev nD) : Loc nD τ sig := (SparseCore.T d).loc main_v1_1
abbrev outLoc (d : Dev nD) : Loc nD τ sig := (SparseCore.T d).loc main_v10

omit [FloatOps F] in
theorem S6_sub : S6 ⊆ Pipeline.ucRefs τ sig := by decide

omit [FloatOps F] in
theorem held_S6 (d : Dev nD) (W : Valuation τ sig (Elt F)) :
    (held (SparseCore.T d) S6 W : sProp 𝕄) = iprop((xLoc d ↦{fullShare} W rX) ∗ (tLoc d ↦{fullShare} W rT) ∗ (sLoc d ↦{fullShare} W rS) ∗ (cLoc d ↦{fullShare} W rC)
      ∗ (y0Loc d ↦{fullShare} W rY0) ∗ (y1Loc d ↦{fullShare} W rY1)) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The arrays as families over the device, as the TensorCore kernel's region takes them. -/
abbrev Xf : (c : Dev nD) → Buf (Elt F) (xLoc c) := fun c => m (xLoc c)
abbrev Tf : (c : Dev nD) → Buf (Elt F) (tLoc c) := fun c => m (tLoc c)
abbrev Y0f : (c : Dev nD) → Buf (Elt F) (y0Loc c) := fun c => m (y0Loc c)
abbrev Y1f : (c : Dev nD) → Buf (Elt F) (y1Loc c) := fun c => m (y1Loc c)

/-- The launch valuation, and the valuation after both calls: the four results in place. -/
def V0 (d : Dev nD) : Valuation τ sig (Elt F) := fun b => m (d, b)
def V2 (d : Dev nD) : Valuation τ sig (Elt F) :=
  Function.update (Function.update (Function.update (Function.update (V0 m d) rS (GS m d)) rC (GC m d))
    rY0 (fun _ => Tc.tcSumF (Xf m) (Tf m) d)) rY1 (fun _ => Tc.tcCntF (Xf m) (Tf m) d)

theorem V2_rY1 (d : Dev nD) : V2 m d rY1 = fun _ => Tc.tcCntF (Xf m) (Tf m) d := Function.update_self _ _ _
theorem V2_rY0 (d : Dev nD) : V2 m d rY0 = fun _ => Tc.tcSumF (Xf m) (Tf m) d := by
  unfold V2; rw [Function.update_of_ne (show rY0 ≠ rY1 by decide)]; exact Function.update_self _ _ _
theorem V2_rC (d : Dev nD) : V2 m d rC = GC m d := by
  unfold V2; rw [Function.update_of_ne (show rC ≠ rY1 by decide), Function.update_of_ne (show rC ≠ rY0 by decide)]; exact Function.update_self _ _ _
theorem V2_rS (d : Dev nD) : V2 m d rS = GS m d := by
  unfold V2; rw [Function.update_of_ne (show rS ≠ rY1 by decide), Function.update_of_ne (show rS ≠ rY0 by decide), Function.update_of_ne (show rS ≠ rC by decide)]
  exact Function.update_self _ _ _
theorem V2_other (d : Dev nD) (b : DevRef τ sig) (h1 : b ≠ rY1) (h0 : b ≠ rY0) (hc : b ≠ rC) (hs : b ≠ rS) : V2 m d b = V0 m d b := by
  unfold V2; rw [Function.update_of_ne h1, Function.update_of_ne h0, Function.update_of_ne hc, Function.update_of_ne hs]
theorem V2_rX (d : Dev nD) : V2 m d rX = m (xLoc d) := V2_other m d rX (by decide) (by decide) (by decide) (by decide)
theorem V2_rT (d : Dev nD) : V2 m d rT = m (tLoc d) := V2_other m d rT (by decide) (by decide) (by decide) (by decide)

theorem held_rest (d : Dev nD) :
    (held (SparseCore.T d) (Pipeline.ucRefs τ sig \ S6) (V2 m d) : sProp 𝕄) = held (SparseCore.T d) (Pipeline.ucRefs τ sig \ S6) (V0 m d) :=
  held_congr (SparseCore.T d) fun b hb => by
    have hn : b ∉ S6 := (Finset.mem_sdiff.mp hb).2
    exact V2_other m d b (fun e => hn (e ▸ by decide)) (fun e => hn (e ▸ by decide)) (fun e => hn (e ▸ by decide)) (fun e => hn (e ▸ by decide))

/-! ## The call's operands and results, over both SparseCores -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = iprop((bigSep Finset.univ fun c : Fin 2 => xLoc d ↦{qC c} m (xLoc d)) ∗ (bigSep Finset.univ fun c : Fin 2 => tLoc d ↦{qC c} m (tLoc d))
          ∗ (sLoc d ↦{fullShare} m (sLoc d)) ∗ (cLoc d ↦{fullShare} m (cLoc d))) := by
  show (bigSep Finset.univ fun c : Fin ((K (F := F)).nCore 0) => stRes m d (Fin.cast nCore_zero c)) = _
  rw [bigSep_cores (F := F) (fun c => stRes m d c), sRows_split, cRows_split]
  unfold stRes
  simp only [bigSep_sep']
theorem dn0_eq (d : Dev nD) :
    (bigSep Finset.univ fun c : Fin ((K (F := F)).nCore 0) => (P m).dn 0 d c)
      = iprop((bigSep Finset.univ fun c : Fin 2 => xLoc d ↦{qC c} m (xLoc d)) ∗ (bigSep Finset.univ fun c : Fin 2 => tLoc d ↦{qC c} m (tLoc d))
          ∗ (sLoc d ↦{fullShare} GS m d) ∗ (cLoc d ↦{fullShare} GC m d)) := by
  show (bigSep Finset.univ fun c : Fin ((K (F := F)).nCore 0) => dnRes m d (Fin.cast nCore_zero c)) = _
  rw [bigSep_cores (F := F) (fun c => dnRes m d c), sRows_split, cRows_split]
  unfold dnRes
  simp only [bigSep_sep']

/-! ## The launch element: the handshakes' rounds, the pipeline's staging cells; nothing of the subcore kernel's own -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Tc.G_tc (F := F) d)
        ∗ bigSep Finset.univ fun thr : Thread nD τ => bigSep Finset.univ fun q : Fin 1 => (P m).x q thr) := by
  unfold u₀
  iintro Hu
  ihave H := (Tc.ownU_split (F := F) _ _ _) $$ Hu
  icases H with ⟨HH, HP⟩
  imod (Tc.fund_tc (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

theorem unscoped_held (d : Dev nD) :
    (unscopedBufs d (fun b => m ((SparseCore.T d).loc b)) : sProp 𝕄) = held (SparseCore.T d) (Pipeline.ucRefs τ sig) (V0 m d) :=
  Pipeline.unscopedBufs_held d (V0 m d)

/-- What @main leaves the claim: every array of the TensorCore's, after the twelve host operations. -/
abbrev FIN (d : Dev nD) : sProp 𝕄 := held (SparseCore.T d) (Pipeline.ucRefs τ sig) (StableHlo.after Tail.tailOps (V2 m d))

set_option maxHeartbeats 8000000 in
theorem hmain (κ : GSem nD τ sig → ℕ) (d : Dev nD) :
    iprop((K (F := F)).ctx EH (P m) κ ∗ (K (F := F)).tcSt EH d 0 ∗ (K (F := F)).tcRes m ρ d ∗ Tc.G_tc (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Tail.main_eq, unscoped_held, held_sub_split (SparseCore.T d) S6_sub (V0 m d), held_S6,
    show V0 m d rX = m (xLoc d) from rfl, show V0 m d rT = m (tLoc d) from rfl, show V0 m d rS = m (sLoc d) from rfl,
    show V0 m d rC = m (cLoc d) from rfl, show V0 m d rY0 = m (y0Loc d) from rfl, show V0 m d rY1 = m (y1Loc d) from rfl]
  simp only [wp_bind]
  iintro ⟨#Hctx, Hst, ⟨Hb, ⟨⟨Hx, Ht, Hs, Hc, Hy0, Hy1⟩, Hrest⟩, -, -⟩, HG⟩
  ihave Hx' := (core_shares (F := F) (xLoc d) (m (xLoc d))).1 $$ Hx
  ihave Ht' := (core_shares (F := F) (tLoc d) (m (tLoc d))).1 $$ Ht
  icases Hx' with ⟨Hxd, Hxs⟩
  icases Ht' with ⟨Htd, Hts⟩
  -- the subcore kernel's call
  iapply ((K (F := F)).wp_run (D (F := F)) 𝒱 (EH := EH) (P := P m) κ d 0) $$ [Hst Hxs Hts Hs Hc Hb Hxd Htd Hy0 Hy1 Hrest HG]
  isplitr; · iexact Hctx
  isplitl [Hst]; · iexact Hst
  isplitl [Hxs Hts Hs Hc]
  · rw [st0_eq]
    isplitl [Hxs]; · iexact Hxs
    isplitl [Hts]; · iexact Hts
    isplitl [Hs]; · iexact Hs
    iexact Hc
  iintro ⟨Hst, Hdn⟩
  ihave Hdn' := (Entails.of_eq (dn0_eq m d)) $$ Hdn
  icases Hdn' with ⟨Hxs, Hts, Hs, Hc⟩
  ihave Hx := (core_shares (F := F) (xLoc d) (m (xLoc d))).2 $$ [Hxd Hxs]
  · isplitl [Hxd]; · iexact Hxd
    iexact Hxs
  ihave Ht := (core_shares (F := F) (tLoc d) (m (tLoc d))).2 $$ [Htd Hts]
  · isplitl [Htd]; · iexact Htd
    iexact Hts
  -- the TensorCore kernel's region over rows 0 … 13311
  unfold SparseCore.Cfg.tcSt
  rw [show (K (F := F)).Otc d ((0 : Fin 1).val + 1) = 0 from Tc.Otc_one d, Tc.Otc_one d]
  icases Hst with ⟨⟨%W1, %hW1, HO⟩, Hat, Hrd, Hrs, Htoks⟩
  ihave Hlev := (SparseCore.Cfg.ctx_levAts (K := K (F := F)) (EH := EH) (P := P m) κ) $$ Hctx
  ihave Hreg := (Tc.region_wp (F := F) (Xf m) (Tf m) (Y0f m) (Y1f m) (K (F := F)).lev d) $$ [Hlev Hb Hx Ht Hy0 Hy1 HO HG]
  · unfold Tc.regPre
    isplitl [Hlev]; · iexact Hlev
    isplitl [Hb]; · iexact Hb
    isplitl [Hx Ht Hy0 Hy1 HO]
    · isplitl [Hx]; · iexact Hx
      isplitl [Ht]; · iexact Ht
      isplitl [Hy0]; · iexact Hy0
      isplitl [Hy1]; · iexact Hy1
      iexists W1; isplitr
      · ipureintro; exact hW1
      · iexact HO
    iexact HG
  iapply (wp_wand_r frame _ Set.univ) $$ [Hreg Hs Hc Hrest Hat Hrd Hrs Htoks]
  isplitl [Hreg]; · iexact Hreg
  iintro %_ ⟨Hb, Hpost⟩
  unfold Tc.regPost
  icases Hpost with ⟨Hx, Ht, Hy0, Hy1, %W2, %hW2, HO⟩
  -- the twelve host operations
  rw [← Prog.bind_pure (StableHlo.seq Tail.tailOps)]
  iapply (Tail.tail_wp (F := F) d (V2 m d) (fun u => pure u)) $$ [Hb Hx Ht Hs Hc Hy0 Hy1 Hrest]
  · isplitl [Hb]; · iexact Hb
    rw [held_sub_split (SparseCore.T d) S6_sub (V2 m d), held_S6, V2_rX, V2_rT, V2_rS, V2_rC, V2_rY0, V2_rY1, held_rest]
    isplitl [Hx Ht Hs Hc Hy0 Hy1]
    · isplitl [Hx]; · iexact Hx
      isplitl [Ht]; · iexact Ht
      isplitl [Hs]; · iexact Hs
      isplitl [Hc]; · iexact Hc
      isplitl [Hy0]; · iexact Hy0
      iexact Hy1
    iexact Hrest
  iintro ⟨Hb, Hheld⟩
  rw [show (Pure.pure PUnit.unit : Prog _ PUnit) = Prog.ret PUnit.unit from rfl, wp_ret]; imodintro
  isplitl [HO Hat Hrd Hrs Htoks]
  · isplitl [HO]
    · iexists W2; isplitr
      · ipureintro; exact hW2
      · iexact HO
    isplitl [Hat]; · iexact Hat
    isplitl [Hrd]; · iexact Hrd
    isplitl [Hrs]; · iexact Hrs
    iexact Htoks
  iexact Hheld

/-! ## What the final memory says -/

abbrev S3 : Finset (DevRef τ sig) := {rX, rT, rOut}

omit [FloatOps F] in
theorem S3_sub : S3 ⊆ Pipeline.ucRefs τ sig := by decide

omit [FloatOps F] in
theorem held_S3 (d : Dev nD) (W : Valuation τ sig (Elt F)) :
    (held (SparseCore.T d) S3 W : sProp 𝕄) = iprop((xLoc d ↦{fullShare} W rX) ∗ (tLoc d ↦{fullShare} W rT) ∗ (outLoc d ↦{fullShare} W rOut)) := by
  unfold held S3
  rw [SparseCore.bigSep_insert' (by decide), SparseCore.bigSep_insert' (by decide), bigSep_singleton]

/-- The result, and both arguments unchanged. -/
def fq (d : Dev nD) (s' : Phys nD τ sig (Elt F)) : Prop :=
  s'.mem.mem (xLoc d) = m (xLoc d) ∧ s'.mem.mem (tLoc d) = m (tLoc d)
    ∧ s'.mem.mem (outLoc d) = StableHlo.after Tail.tailOps (V2 m d) rOut

theorem hfin (d : Dev nD) (s' : Phys nD τ sig (Elt F)) : iprop(FIN m d ∗ SI s') ⊢ (⌜fq m d s'⌝ : sProp 𝕄) := by
  show iprop(held (SparseCore.T d) (Pipeline.ucRefs τ sig) (StableHlo.after Tail.tailOps (V2 m d)) ∗ SI s') ⊢ _
  rw [held_sub_split (SparseCore.T d) S3_sub, held_S3, Tail.tail_keeps0, Tail.tail_keeps1, V2_rX, V2_rT]
  iintro ⟨⟨⟨Hx, Ht, Ho⟩, -⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := outLoc d) (I := Finset.univ) (q := fullShare) (f := StableHlo.after Tail.tailOps (V2 m d) rOut)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- On every device: the result buffer at the tail's value over the four pieces, both arguments unchanged. -/
def QC : PUnit × MemSt nD τ sig (Elt F) → Prop := fun r => ∀ c : Dev nD,
  r.2.mem (outLoc c) = StableHlo.after Tail.tailOps (V2 m c) rOut ∧ r.2.mem (xLoc c) = m (xLoc c) ∧ r.2.mem (tLoc c) = m (tLoc c)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => Tc.G_tc (F := F) d) (FIN m) (u₀ (F := F)) (sep_elim_left.trans (hu₀ m)) (hmain m ρ) (fq m) (hfin m) (QC m)
    (fun _ h c => ⟨(h c).2.2, (h c).1, (h c).2.1⟩)

end Cert.Proof.KB

end
-- ==== Proof.KIAmbient.lean ====
/-
  The idealized kernel's program as the SparseCore launch theorem reads it: its label signature (one TensorCore
  pipeline beside the subcore kernel), the launch configuration, the body table, the variants, the configuration's
  side facts, and the ghost state — the launch handshakes' rounds, the TensorCore pipeline's staging cells' rounds,
  and the local transfers' counters.
-/
import proofs.«207598_g57604101374094_cont_9to1_m_955_21_alg».proof.Defs
import Idealize.ShloMosaic.Lib.SparseCore.Launch
import Idealize.ShloMosaic.Lib.StableHlo.Run
import Idealize.ShloMosaic.Lib.Pipeline.Kit
import Idealize.ShloMosaic.Lib.Tactic
import proofs.«207598_g57604101374094_cont_9to1_m_955_21_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels: the kernels' two, and the one pipeline's region and loop. -/
abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's staging cells' rounds, the transfers' counters. -/
abbrev UH : Type := URounds (GSem nD τ sig) ℕ
abbrev UP : Type := URounds (GSem nD τ sig) Unit
abbrev UU : Type := UH × (UP × Counters)

/-- The handshakes' rounds library is the left factor. -/
abbrev EH : Emb UH (MT nD τ sig (HIx 1) (Elt F) ℕ UU ℕ) := embL

end Cert.Proof.KI

end
-- ==== Proof.KITileDefs.lean ====
/-
  One vector subcore's task of the subcore kernel: its place, its buffers, the chunks of four rows it copies in, and
  the 1 x 16 groups its loads read.
-/
import proofs.«207598_g57604101374094_cont_9to1_m_955_21_alg».proof.Proof.KIAmbient
import proofs.«207598_g57604101374094_cont_9to1_m_955_21_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

abbrev xLoc (d : Dev nD) : Loc nD τ sig := (SparseCore.T d).loc main_arg0
abbrev tLoc (d : Dev nD) : Loc nD τ sig := (SparseCore.T d).loc main_arg1
abbrev sLoc (d : Dev nD) : Loc nD τ sig := (SparseCore.T d).loc main_v0_0
abbrev cLoc (d : Dev nD) : Loc nD τ sig := (SparseCore.T d).loc main_v0_1

variable [FloatOps F]

abbrev xV : Memref sig .scVector .hbm S16384x4096 .f32 := Memref.whole main_arg0_scv
abbrev tV : Memref sig .scVector .hbm S16384x4096 .i32 := Memref.whole main_arg1_scv
abbrev sV : Memref sig .scVector .hbm S32x16 .f32 := Memref.whole main_v0_0_scv
abbrev cV' : Memref sig .scVector .hbm S32x16 .i32 := Memref.whole main_v0_1_scv
abbrev b0 : Memref sig .scVector .vmem S4x4096 .f32 := Memref.whole cc0_scratch0
abbrev b1 : Memref sig .scVector .vmem S4x4096 .i32 := Memref.whole cc0_scratch1
abbrev b2 : Memref sig .scVector .vmem S4x4096 .f32 := Memref.whole cc0_scratch2
abbrev b3 : Memref sig .scVector .vmem S4x4096 .i32 := Memref.whole cc0_scratch3
abbrev oF : Memref sig .scVector .vmem S16 .f32 := Memref.whole cc0_scratch4
abbrev oI : Memref sig .scVector .vmem S16 .i32 := Memref.whole cc0_scratch5

section Tile

variable (d : Dev nD) (L : grid0.Coords)

abbrev cC (L : grid0.Coords) : Fin τ.nSC := (L 0).castLE hcore0
abbrev jC (L : grid0.Coords) : Fin τ.nSub := (L 1).castLE hsub0
abbrev thrV (d : Dev nD) (L : grid0.Coords) : Thread nD τ := V d (cC L) (jC L)

/-- The row of the two result tables this subcore writes, as the kernel slices it. -/
abbrev sRow (L : grid0.Coords) : Memref sig .scVector .hbm S16 .f32 :=
  ((sV : Memref sig .scVector .hbm S32x16 .f32).slice (Rect.unit (s := S32x16) (k0_off12 L) S1x16.size (k0_off12_inb L)) (fun _ => rfl)).squeeze S16 squeezes_S1x16_S16
abbrev cRow (L : grid0.Coords) : Memref sig .scVector .hbm S16 .i32 :=
  ((cV' : Memref sig .scVector .hbm S32x16 .i32).slice (Rect.unit (s := S32x16) (k0_off12 L) S1x16.size (k0_off12_inb L)) (fun _ => rfl)).squeeze S16 squeezes_S1x16_S16

/-! ## The chunks: four rows at a time, twenty-four per subcore -/

omit [FloatOps F] in
theorem bound0 : grid0.bound 0 = 2 := rfl
omit [FloatOps F] in
theorem bound1 : grid0.bound 1 = 16 := rfl

/-- Chunk n of this subcore starts at row 13312 + 96 (2 s + c) + 4 n. -/
abbrev chunkOff (L : grid0.Coords) (n : ℕ) : Fin 2 → ℕ := ![192 * (L 1).val + 96 * (L 0).val + 13312 + 4 * n, 0]

omit [FloatOps F] in
theorem chunk_inb (L : grid0.Coords) (n : ℕ) (hn : n < 24) : ∀ a, (chunkOff L n) a + S4x4096.size a ≤ S16384x4096.size a := by
  have h0 : (L 0).val < 2 := (L 0).isLt
  have h1 : (L 1).val < 16 := (L 1).isLt
  intro a
  match a with
  | ⟨0, _⟩ => show 192 * (L 1).val + 96 * (L 0).val + 13312 + 4 * n + 4 ≤ 16384; omega
  | ⟨1, _⟩ => show 0 + 4096 ≤ 4096; omega

abbrev xChunk (L : grid0.Coords) (n : ℕ) (hn : n < 24) : Memref sig .scVector .hbm S4x4096 .f32 :=
  (xV : Memref sig .scVector .hbm S16384x4096 .f32).slice (Rect.unit (s := S16384x4096) (chunkOff L n) S4x4096.size (chunk_inb L n hn)) (fun _ => rfl)
abbrev tChunk (L : grid0.Coords) (n : ℕ) (hn : n < 24) : Memref sig .scVector .hbm S4x4096 .i32 :=
  (tV : Memref sig .scVector .hbm S16384x4096 .i32).slice (Rect.unit (s := S16384x4096) (chunkOff L n) S4x4096.size (chunk_inb L n hn)) (fun _ => rfl)

omit [FloatOps F] in
theorem xslice_congr {o o' : Fin 2 → ℕ} (e : o = o') (h : ∀ a, o a + S4x4096.size a ≤ S16384x4096.size a) (h' : ∀ a, o' a + S4x4096.size a ≤ S16384x4096.size a) :
    (xV : Memref sig .scVector .hbm S16384x4096 .f32).slice (Rect.unit (s := S16384x4096) o S4x4096.size h) (fun _ => rfl)
      = (xV : Memref sig .scVector .hbm S16384x4096 .f32).slice (Rect.unit (s := S16384x4096) o' S4x4096.size h') (fun _ => rfl) := by
  subst e; rfl
omit [FloatOps F] in
theorem tslice_congr {o o' : Fin 2 → ℕ} (e : o = o') (h : ∀ a, o a + S4x4096.size a ≤ S16384x4096.size a) (h' : ∀ a, o' a + S4x4096.size a ≤ S16384x4096.size a) :
    (tV : Memref sig .scVector .hbm S16384x4096 .i32).slice (Rect.unit (s := S16384x4096) o S4x4096.size h) (fun _ => rfl)
      = (tV : Memref sig .scVector .hbm S16384x4096 .i32).slice (Rect.unit (s := S16384x4096) o' S4x4096.size h') (fun _ => rfl) := by
  subst e; rfl

omit [FloatOps F] in
theorem xset_congr {o o' : Fin 2 → ℕ} (e : o = o') (h : ∀ a, o a + S4x4096.size a ≤ S16384x4096.size a) (h' : ∀ a, o' a + S4x4096.size a ≤ S16384x4096.size a) :
    ((xV : Memref sig .scVector .hbm S16384x4096 .f32).slice (Rect.unit (s := S16384x4096) o S4x4096.size h) (fun _ => rfl)).view.set
      = ((xV : Memref sig .scVector .hbm S16384x4096 .f32).slice (Rect.unit (s := S16384x4096) o' S4x4096.size h') (fun _ => rfl)).view.set := by
  subst e; rfl
omit [FloatOps F] in
theorem tset_congr {o o' : Fin 2 → ℕ} (e : o = o') (h : ∀ a, o a + S4x4096.size a ≤ S16384x4096.size a) (h' : ∀ a, o' a + S4x4096.size a ≤ S16384x4096.size a) :
    ((tV : Memref sig .scVector .hbm S16384x4096 .i32).slice (Rect.unit (s := S16384x4096) o S4x4096.size h) (fun _ => rfl)).view.set
      = ((tV : Memref sig .scVector .hbm S16384x4096 .i32).slice (Rect.unit (s := S16384x4096) o' S4x4096.size h') (fun _ => rfl)).view.set := by
  subst e; rfl

omit [FloatOps F] in
theorem off1_chunk (L : grid0.Coords) : k0_off1 L = chunkOff L 0 := by
  rw [k0_off1_eq]
omit [FloatOps F] in
theorem off2_chunk (L : grid0.Coords) (k : Fin k0_t1_loop.trips) : k0_off2 L k = chunkOff L (2 * k.val + 1) := by
  rw [k0_off2_eq]; show ![_, 0] = ![_, 0]; congr 1; omega
omit [FloatOps F] in
theorem off7_chunk (L : grid0.Coords) (k : Fin k0_t1_loop.trips) : k0_off7 L k = chunkOff L (2 * (k.val + 1)) := by
  rw [k0_off7_eq]; show ![_, 0] = ![_, 0]; congr 1; omega

/-! ## The task's resources and the outer loop's invariant -/

omit [FloatOps F] in
theorem trips1 : k0_t1_loop.trips = 12 := by decide
omit [FloatOps F] in
theorem cond1_iff : ∀ k : Fin k0_t1_loop.trips, k0_cond1 k = 1#1 ↔ k.val + 1 < 12 := by decide +kernel

abbrev sem6 : SemLoc sig := SemLoc.dma cc0_scratch6.sem
abbrev sem7 : SemLoc sig := SemLoc.dma cc0_scratch7.sem
abbrev sem8 : SemLoc sig := SemLoc.dma cc0_scratch8.sem
abbrev sem9 : SemLoc sig := SemLoc.dma cc0_scratch9.sem

/-- Four rows of x, of t, from the row offsets o, as the kernel slices them. -/
abbrev xAt (o : Fin 2 → ℕ) (h : ∀ a, o a + S4x4096.size a ≤ S16384x4096.size a) : Memref sig .scVector .hbm S4x4096 .f32 :=
  (xV : Memref sig .scVector .hbm S16384x4096 .f32).slice (Rect.unit (s := S16384x4096) o S4x4096.size h) (fun _ => rfl)
abbrev tAt (o : Fin 2 → ℕ) (h : ∀ a, o a + S4x4096.size a ≤ S16384x4096.size a) : Memref sig .scVector .hbm S4x4096 .i32 :=
  (tV : Memref sig .scVector .hbm S16384x4096 .i32).slice (Rect.unit (s := S16384x4096) o S4x4096.size h) (fun _ => rfl)

/-- Those rows' values as the copy engine reads them off the launch memory. -/
abbrev xVal (o : Fin 2 → ℕ) (h : ∀ a, o a + S4x4096.size a ≤ S16384x4096.size a) : S4x4096.Idx → Elt F .f32 :=
  ReadAs.same.apply (View.read (Elt F) (xAt o h).view (m (xLoc d)))
abbrev tVal (o : Fin 2 → ℕ) (h : ∀ a, o a + S4x4096.size a ≤ S16384x4096.size a) : S4x4096.Idx → Elt F .i32 :=
  ReadAs.same.apply (View.read (Elt F) (tAt o h).view (m (tLoc d)))

/-! ## The groups a trip loads -/

omit [FloatOps F] in
theorem trips2 : k0_t2_loop.trips = 16 := by decide
omit [FloatOps F] in
theorem trips3 : k0_t3_loop.trips = 16 := by decide

/-- Where trip j of an inner loop reads group u of row r of its pair of buffers: the first pair's loop, the second's. -/
def ldOffA (r : Fin 4) (j : Fin k0_t2_loop.trips) (u : Fin 16) : Fin 2 → ℕ :=
  match r with
  | 0 => k0_off3 j (BitVec.ofNat 32 (16 * u.val))
  | 1 => k0_off4 j (BitVec.ofNat 32 (16 * u.val))
  | 2 => k0_off5 j (BitVec.ofNat 32 (16 * u.val))
  | 3 => k0_off6 j (BitVec.ofNat 32 (16 * u.val))
def ldOffB (r : Fin 4) (j : Fin k0_t3_loop.trips) (u : Fin 16) : Fin 2 → ℕ :=
  match r with
  | 0 => k0_off8 j (BitVec.ofNat 32 (16 * u.val))
  | 1 => k0_off9 j (BitVec.ofNat 32 (16 * u.val))
  | 2 => k0_off10 j (BitVec.ofNat 32 (16 * u.val))
  | 3 => k0_off11 j (BitVec.ofNat 32 (16 * u.val))

omit [FloatOps F] in
theorem ldOffA_inb (r : Fin 4) (j : Fin k0_t2_loop.trips) (u : Fin 16) : ∀ a, (ldOffA r j u) a + S1x16.size a ≤ S4x4096.size a := by
  match r with
  | 0 => exact k0_off3_inb j u
  | 1 => exact k0_off4_inb j u
  | 2 => exact k0_off5_inb j u
  | 3 => exact k0_off6_inb j u
omit [FloatOps F] in
theorem ldOffB_inb (r : Fin 4) (j : Fin k0_t3_loop.trips) (u : Fin 16) : ∀ a, (ldOffB r j u) a + S1x16.size a ≤ S4x4096.size a := by
  match r with
  | 0 => exact k0_off8_inb j u
  | 1 => exact k0_off9_inb j u
  | 2 => exact k0_off10_inb j u
  | 3 => exact k0_off11_inb j u

omit [FloatOps F] in
/-- The closed form: row r, columns 256 j + 16 u onward. -/
theorem ldOffA_eq (r : Fin 4) (j : Fin k0_t2_loop.trips) (u : Fin 16) : ldOffA r j u = ![r.val, 256 * j.val + 16 * u.val] := by
  match r with
  | 0 => exact k0_off3_eq j u
  | 1 => exact k0_off4_eq j u
  | 2 => exact k0_off5_eq j u
  | 3 => exact k0_off6_eq j u
omit [FloatOps F] in
theorem ldOffB_eq (r : Fin 4) (j : Fin k0_t3_loop.trips) (u : Fin 16) : ldOffB r j u = ![r.val, 256 * j.val + 16 * u.val] := by
  match r with
  | 0 => exact k0_off8_eq j u
  | 1 => exact k0_off9_eq j u
  | 2 => exact k0_off10_eq j u
  | 3 => exact k0_off11_eq j u

/-- The 1 x 16 group a load returns from a buffer bx at contents fx. -/
abbrev ldA {e : EltTy} (bx : Memref sig .scVector .vmem S4x4096 e) (fx : Buf (Elt F) (View.loc (thrV d L) bx.view))
    (r : Fin 4) (j : Fin k0_t2_loop.trips) (u : Fin 16) : S1x16.Idx → Elt F e :=
  View.readAt (Elt F) bx.view (Rect.unit (s := S4x4096) (ldOffA r j u) S1x16.size (ldOffA_inb r j u)).toLoadRect fx
abbrev ldB {e : EltTy} (bx : Memref sig .scVector .vmem S4x4096 e) (fx : Buf (Elt F) (View.loc (thrV d L) bx.view))
    (r : Fin 4) (j : Fin k0_t3_loop.trips) (u : Fin 16) : S1x16.Idx → Elt F e :=
  View.readAt (Elt F) bx.view (Rect.unit (s := S4x4096) (ldOffB r j u) S1x16.size (ldOffB_inb r j u)).toLoadRect fx

end Tile

end Cert.Proof.KI

end
-- ==== Proof.KILayout.lean ====
/-
  What a subcore's loads read. A chunk's copy leaves a 4 × 4096 buffer holding rows o₀ … o₀ + 3 of the array (whatever the
  buffer held before: the copy writes every element), and a load of the 1 × 16 group at offsets (r, c) of that buffer reads,
  at entry (0, l), the buffer's entry (r, c + l), which is the array's entry (o₀ + r, c + l). For chunk n of the subcore
  at grid point L the first row is 13312 + 192 L₁ + 96 L₀ + 4 n, and group u of trip j of row r sits at column
  256 j + 16 u.
-/
import proofs.«207598_g57604101374094_cont_9to1_m_955_21_alg».proof.Proof.KITileDefs
import Idealize.ShloMosaic.Lib.ValueIdx

noncomputable section

namespace Cert.Proof.KI

open Cert.KernelIdeal Cert.KernelIdeal.Gen
open Idealize.ShloMosaic

variable {F : FTy → Type} [FloatOps F]
variable (m : (ℓ : Loc nD τ sig) → Buf (Elt F) ℓ) (d : Dev nD) (L : grid0.Coords)

/-! ## Any buffer, any offsets -/

/-- A float buffer after a copy of four rows of x from row offsets o, loaded at offsets o', entry (0, l): the array's
    entry (o₀ + o'₀, o₁ + o'₁ + l). -/
theorem ld_gen_x (bx : Memref sig .scVector .vmem S4x4096 .f32)
    (o : Fin 2 → ℕ) (h : ∀ a, o a + S4x4096.size a ≤ S16384x4096.size a)
    (o' : Fin 2 → ℕ) (h' : ∀ a, o' a + S1x16.size a ≤ S4x4096.size a)
    (g : Buf (Elt F) (View.loc (thrV d L) bx.view)) (l : Fin 16)
    (R : Fin 16384) (C : Fin 4096) (hR : R.val = o 0 + o' 0) (hC : C.val = o 1 + (o' 1 + l.val)) :
    View.readAt (Elt F) bx.view (Rect.unit (s := S4x4096) o' S1x16.size h').toLoadRect
        (View.write (Elt F) bx.view g (xVal m d o h) Finset.univ) (ValueIdx.ix2 (0 : Fin 1) l)
      = m (xLoc d) (ValueIdx.ix2 R C) := by
  rw [View.readAt_apply, View.read_write_univ]
  show View.read (Elt F) (xAt o h).view (m (xLoc d)) _ = _
  rw [View.read_apply]
  have key : (xAt o h).view.emb ((Rect.unit (s := S4x4096) o' S1x16.size h').idx (ValueIdx.ix2 (0 : Fin 1) l))
      = (ValueIdx.ix2 R C : S16384x4096.Idx) := by
    funext a
    match a with
    | ⟨0, _⟩ =>
      refine Fin.ext ?_
      show o 0 + 1 * (o' 0 + 1 * 0) = R.val
      omega
    | ⟨1, _⟩ =>
      refine Fin.ext ?_
      show o 1 + 1 * (o' 1 + 1 * l.val) = C.val
      omega
  rw [key]
  rfl

/-- The same for an integer buffer and four rows of t. -/
theorem ld_gen_t (bx : Memref sig .scVector .vmem S4x4096 .i32)
    (o : Fin 2 → ℕ) (h : ∀ a, o a + S4x4096.size a ≤ S16384x4096.size a)
    (o' : Fin 2 → ℕ) (h' : ∀ a, o' a + S1x16.size a ≤ S4x4096.size a)
    (g : Buf (Elt F) (View.loc (thrV d L) bx.view)) (l : Fin 16)
    (R : Fin 16384) (C : Fin 4096) (hR : R.val = o 0 + o' 0) (hC : C.val = o 1 + (o' 1 + l.val)) :
    View.readAt (Elt F) bx.view (Rect.unit (s := S4x4096) o' S1x16.size h').toLoadRect
        (View.write (Elt F) bx.view g (tVal m d o h) Finset.univ) (ValueIdx.ix2 (0 : Fin 1) l)
      = m (tLoc d) (ValueIdx.ix2 R C) := by
  rw [View.readAt_apply, View.read_write_univ]
  show View.read (Elt F) (tAt o h).view (m (tLoc d)) _ = _
  rw [View.read_apply]
  have key : (tAt o h).view.emb ((Rect.unit (s := S4x4096) o' S1x16.size h').idx (ValueIdx.ix2 (0 : Fin 1) l))
      = (ValueIdx.ix2 R C : S16384x4096.Idx) := by
    funext a
    match a with
    | ⟨0, _⟩ =>
      refine Fin.ext ?_
      show o 0 + 1 * (o' 0 + 1 * 0) = R.val
      omega
    | ⟨1, _⟩ =>
      refine Fin.ext ?_
      show o 1 + 1 * (o' 1 + 1 * l.val) = C.val
      omega
  rw [key]
  rfl

/-! ## The subcore's rows and a trip's columns -/

omit [FloatOps F] in
/-- Row r of chunk n of the subcore at L is a row of the array. -/
theorem rowIdx_lt (n : ℕ) (hn : n < 24) (r : Fin 4) :
    192 * (L 1).val + 96 * (L 0).val + 13312 + 4 * n + r.val < 16384 := by
  have h0 : (L 0).val < 2 := (L 0).isLt
  have h1 : (L 1).val < 16 := (L 1).isLt
  omega

omit [FloatOps F] in
/-- Lane l of group u of trip j is a column of the array: the first pair of buffers' loop. -/
theorem colIdxA_lt (j : Fin k0_t2_loop.trips) (u l : Fin 16) : 256 * j.val + 16 * u.val + l.val < 4096 := by
  have hj : j.val < 16 := lt_of_lt_of_eq j.isLt trips2
  omega

omit [FloatOps F] in
/-- The same for the second pair of buffers' loop. -/
theorem colIdxB_lt (j : Fin k0_t3_loop.trips) (u l : Fin 16) : 256 * j.val + 16 * u.val + l.val < 4096 := by
  have hj : j.val < 16 := lt_of_lt_of_eq j.isLt trips3
  omega

omit [FloatOps F] in
theorem ldOffA_row (r : Fin 4) (j : Fin k0_t2_loop.trips) (u : Fin 16) : ldOffA r j u 0 = r.val := by
  rw [ldOffA_eq]
  rfl
omit [FloatOps F] in
theorem ldOffA_col (r : Fin 4) (j : Fin k0_t2_loop.trips) (u : Fin 16) :
    ldOffA r j u 1 = 256 * j.val + 16 * u.val := by
  rw [ldOffA_eq]
  rfl
omit [FloatOps F] in
theorem ldOffB_row (r : Fin 4) (j : Fin k0_t3_loop.trips) (u : Fin 16) : ldOffB r j u 0 = r.val := by
  rw [ldOffB_eq]
  rfl
omit [FloatOps F] in
theorem ldOffB_col (r : Fin 4) (j : Fin k0_t3_loop.trips) (u : Fin 16) :
    ldOffB r j u 1 = 256 * j.val + 16 * u.val := by
  rw [ldOffB_eq]
  rfl

/-! ## The four loads -/

/-- First float buffer, after chunk n's copy of x has landed: group u of trip j of row r, entry (0, l). -/
theorem ldA_x (n : ℕ) (hn : n < 24)
    (g : Buf (Elt F) (View.loc (thrV d L) (b0 : Memref sig .scVector .vmem S4x4096 .f32).view))
    (r : Fin 4) (j : Fin k0_t2_loop.trips) (u l : Fin 16) :
    ldA d L b0 (View.write (Elt F) (b0 : Memref sig .scVector .vmem S4x4096 .f32).view g
        (xVal m d (chunkOff L n) (chunk_inb L n hn)) Finset.univ) r j u (ValueIdx.ix2 0 l)
      = m (xLoc d) (ValueIdx.ix2 ⟨192 * (L 1).val + 96 * (L 0).val + 13312 + 4 * n + r.val, rowIdx_lt L n hn r⟩
          ⟨256 * j.val + 16 * u.val + l.val, colIdxA_lt j u l⟩) :=
  ld_gen_x m d L b0 (chunkOff L n) (chunk_inb L n hn) (ldOffA r j u) (ldOffA_inb r j u) g l _ _
    (by
      show _ = (192 * (L 1).val + 96 * (L 0).val + 13312 + 4 * n) + ldOffA r j u 0
      rw [ldOffA_row])
    (by
      show _ = 0 + (ldOffA r j u 1 + l.val)
      rw [ldOffA_col, Nat.zero_add])

/-- First integer buffer, after chunk n's copy of t has landed. -/
theorem ldA_t (n : ℕ) (hn : n < 24)
    (g : Buf (Elt F) (View.loc (thrV d L) (b1 : Memref sig .scVector .vmem S4x4096 .i32).view))
    (r : Fin 4) (j : Fin k0_t2_loop.trips) (u l : Fin 16) :
    ldA d L b1 (View.write (Elt F) (b1 : Memref sig .scVector .vmem S4x4096 .i32).view g
        (tVal m d (chunkOff L n) (chunk_inb L n hn)) Finset.univ) r j u (ValueIdx.ix2 0 l)
      = m (tLoc d) (ValueIdx.ix2 ⟨192 * (L 1).val + 96 * (L 0).val + 13312 + 4 * n + r.val, rowIdx_lt L n hn r⟩
          ⟨256 * j.val + 16 * u.val + l.val, colIdxA_lt j u l⟩) :=
  ld_gen_t m d L b1 (chunkOff L n) (chunk_inb L n hn) (ldOffA r j u) (ldOffA_inb r j u) g l _ _
    (by
      show _ = (192 * (L 1).val + 96 * (L 0).val + 13312 + 4 * n) + ldOffA r j u 0
      rw [ldOffA_row])
    (by
      show _ = 0 + (ldOffA r j u 1 + l.val)
      rw [ldOffA_col, Nat.zero_add])

/-- Second float buffer, after chunk n's copy of x has landed. -/
theorem ldB_x (n : ℕ) (hn : n < 24)
    (g : Buf (Elt F) (View.loc (thrV d L) (b2 : Memref sig .scVector .vmem S4x4096 .f32).view))
    (r : Fin 4) (j : Fin k0_t3_loop.trips) (u l : Fin 16) :
    ldB d L b2 (View.write (Elt F) (b2 : Memref sig .scVector .vmem S4x4096 .f32).view g
        (xVal m d (chunkOff L n) (chunk_inb L n hn)) Finset.univ) r j u (ValueIdx.ix2 0 l)
      = m (xLoc d) (ValueIdx.ix2 ⟨192 * (L 1).val + 96 * (L 0).val + 13312 + 4 * n + r.val, rowIdx_lt L n hn r⟩
          ⟨256 * j.val + 16 * u.val + l.val, colIdxB_lt j u l⟩) :=
  ld_gen_x m d L b2 (chunkOff L n) (chunk_inb L n hn) (ldOffB r j u) (ldOffB_inb r j u) g l _ _
    (by
      show _ = (192 * (L 1).val + 96 * (L 0).val + 13312 + 4 * n) + ldOffB r j u 0
      rw [ldOffB_row])
    (by
      show _ = 0 + (ldOffB r j u 1 + l.val)
      rw [ldOffB_col, Nat.zero_add])

/-- Second integer buffer, after chunk n's copy of t has landed. -/
theorem ldB_t (n : ℕ) (hn : n < 24)
    (g : Buf (Elt F) (View.loc (thrV d L) (b3 : Memref sig .scVector .vmem S4x4096 .i32).view))
    (r : Fin 4) (j : Fin k0_t3_loop.trips) (u l : Fin 16) :
    ldB d L b3 (View.write (Elt F) (b3 : Memref sig .scVector .vmem S4x4096 .i32).view g
        (tVal m d (chunkOff L n) (chunk_inb L n hn)) Finset.univ) r j u (ValueIdx.ix2 0 l)
      = m (tLoc d) (ValueIdx.ix2 ⟨192 * (L 1).val + 96 * (L 0).val + 13312 + 4 * n + r.val, rowIdx_lt L n hn r⟩
          ⟨256 * j.val + 16 * u.val + l.val, colIdxB_lt j u l⟩) :=
  ld_gen_t m d L b3 (chunkOff L n) (chunk_inb L n hn) (ldOffB r j u) (ldOffB_inb r j u) g l _ _
    (by
      show _ = (192 * (L 1).val + 96 * (L 0).val + 13312 + 4 * n) + ldOffB r j u 0
      rw [ldOffB_row])
    (by
      show _ = 0 + (ldOffB r j u 1 + l.val)
      rw [ldOffB_col, Nat.zero_add])

end Cert.Proof.KI

end
-- ==== Proof.KITileSpec.lean ====
/-
  What one vector subcore's task computes, named: the 1 x 16 groups of x and t its trips read, as entries of the two argument
  arrays (chunk n, row r, trip k, group u is row 13312 + 96 (2 s + c) + 4 n + r, columns 256 k + 16 u onward); the same
  groups as its loads return them from a buffer holding a landed chunk; and the vector its last copy sends out.
-/
import proofs.«207598_g57604101374094_cont_9to1_m_955_21_alg».proof.Proof.KITileDefs
import proofs.«207598_g57604101374094_cont_9to1_m_955_21_alg».proof.Proof.KILayout
import proofs.«207598_g57604101374094_cont_9to1_m_955_21_alg».proof.Proof.SpecF

noncomputable section

namespace Cert.Proof.KI

open Cert.KernelIdeal Cert.KernelIdeal.Gen
open Idealize.ShloMosaic
open Idealize.ShloMosaic.SparseCore (S V T)

variable {F : FTy → Type}
variable (m : (ℓ : Loc nD τ sig) → Buf (Elt F) ℓ) (d : Dev nD) (L : grid0.Coords)

theorem col_lt (k u l : Fin 16) : 256 * k.val + 16 * u.val + l.val < 4096 := by omega

/-- Chunk n, row r, trip k, group u of x and of t: sixteen consecutive entries of a row. -/
def LX (n : Fin 24) (r : Fin 4) (k u : Fin 16) : Vec F S1x16 .f32 :=
  fun i => m (xLoc d) (ValueIdx.ix2 ⟨192 * (L 1).val + 96 * (L 0).val + 13312 + 4 * n.val + r.val, rowIdx_lt L n.val n.isLt r⟩
    ⟨256 * k.val + 16 * u.val + (i 1).val, col_lt k u (i 1)⟩)
def LT (n : Fin 24) (r : Fin 4) (k u : Fin 16) : Vec F S1x16 .i32 :=
  fun i => m (tLoc d) (ValueIdx.ix2 ⟨192 * (L 1).val + 96 * (L 0).val + 13312 + 4 * n.val + r.val, rowIdx_lt L n.val n.isLt r⟩
    ⟨256 * k.val + 16 * u.val + (i 1).val, col_lt k u (i 1)⟩)

variable [FloatOps F]

/-- The groups as the first and the second inner loop load them from their buffers. -/
def lxA (fx : Buf (Elt F) (View.loc (thrV d L) (b0 : Memref sig .scVector .vmem S4x4096 .f32).view)) : Fin 4 → Fin 16 → Fin 16 → Vec F S1x16 .f32 :=
  fun r k u => ldA d L b0 fx r (Fin.cast trips2.symm k) u
def ltA (ft : Buf (Elt F) (View.loc (thrV d L) (b1 : Memref sig .scVector .vmem S4x4096 .i32).view)) : Fin 4 → Fin 16 → Fin 16 → Vec F S1x16 .i32 :=
  fun r k u => ldA d L b1 ft r (Fin.cast trips2.symm k) u
def lxB (fx : Buf (Elt F) (View.loc (thrV d L) (b2 : Memref sig .scVector .vmem S4x4096 .f32).view)) : Fin 4 → Fin 16 → Fin 16 → Vec F S1x16 .f32 :=
  fun r k u => ldB d L b2 fx r (Fin.cast trips3.symm k) u
def ltB (ft : Buf (Elt F) (View.loc (thrV d L) (b3 : Memref sig .scVector .vmem S4x4096 .i32).view)) : Fin 4 → Fin 16 → Fin 16 → Vec F S1x16 .i32 :=
  fun r k u => ldB d L b3 ft r (Fin.cast trips3.symm k) u

theorem idx_1x16 (i : S1x16.Idx) : i = ValueIdx.ix2 (0 : Fin 1) (i 1) := by
  refine (ValueIdx.eq_ix2 i).trans ?_
  congr 1
  exact Fin.ext (Nat.lt_one_iff.mp (i 0).isLt)

/-- From a buffer where chunk n has landed, the loads return the chunk's groups, whatever the buffer held before. -/
theorem lxA_eq (n : Fin 24) (o : Fin 2 → ℕ) (h : ∀ a, o a + S4x4096.size a ≤ S16384x4096.size a) (ho : o = chunkOff L n.val)
    (g : Buf (Elt F) (View.loc (thrV d L) (b0 : Memref sig .scVector .vmem S4x4096 .f32).view)) :
    lxA d L (View.write (Elt F) b0.view g (xVal m d o h) Finset.univ) = LX m d L n := by
  subst ho
  funext r k u i
  rw [idx_1x16 i]
  exact ldA_x m d L n.val n.isLt g r (Fin.cast trips2.symm k) u (i 1)
theorem ltA_eq (n : Fin 24) (o : Fin 2 → ℕ) (h : ∀ a, o a + S4x4096.size a ≤ S16384x4096.size a) (ho : o = chunkOff L n.val)
    (g : Buf (Elt F) (View.loc (thrV d L) (b1 : Memref sig .scVector .vmem S4x4096 .i32).view)) :
    ltA d L (View.write (Elt F) b1.view g (tVal m d o h) Finset.univ) = LT m d L n := by
  subst ho
  funext r k u i
  rw [idx_1x16 i]
  exact ldA_t m d L n.val n.isLt g r (Fin.cast trips2.symm k) u (i 1)
theorem lxB_eq (n : Fin 24) (o : Fin 2 → ℕ) (h : ∀ a, o a + S4x4096.size a ≤ S16384x4096.size a) (ho : o = chunkOff L n.val)
    (g : Buf (Elt F) (View.loc (thrV d L) (b2 : Memref sig .scVector .vmem S4x4096 .f32).view)) :
    lxB d L (View.write (Elt F) b2.view g (xVal m d o h) Finset.univ) = LX m d L n := by
  subst ho
  funext r k u i
  rw [idx_1x16 i]
  exact ldB_x m d L n.val n.isLt g r (Fin.cast trips3.symm k) u (i 1)
theorem ltB_eq (n : Fin 24) (o : Fin 2 → ℕ) (h : ∀ a, o a + S4x4096.size a ≤ S16384x4096.size a) (ho : o = chunkOff L n.val)
    (g : Buf (Elt F) (View.loc (thrV d L) (b3 : Memref sig .scVector .vmem S4x4096 .i32).view)) :
    ltB d L (View.write (Elt F) b3.view g (tVal m d o h) Finset.univ) = LT m d L n := by
  subst ho
  funext r k u i
  rw [idx_1x16 i]
  exact ldB_t m d L n.val n.isLt g r (Fin.cast trips3.symm k) u (i 1)

/-- The fold's recursion, one step at a time. -/
theorem chunkF_succ (lx : Fin 4 → Fin 16 → Fin 16 → Vec F SpecF.S1x16 .f32) (lt : Fin 4 → Fin 16 → Fin 16 → Vec F SpecF.S1x16 .i32)
    (k : ℕ) (hk : k < 16) (c : SpecF.Carry F) :
    SpecF.chunkF lx lt (k + 1) c = SpecF.tripF (fun r u => lx r ⟨k, hk⟩ u) (fun r u => lt r ⟨k, hk⟩ u) (SpecF.chunkF lx lt k c) := by
  rw [SpecF.chunkF, dif_pos hk]
theorem tileF_succ (lx : Fin 24 → Fin 4 → Fin 16 → Fin 16 → Vec F SpecF.S1x16 .f32) (lt : Fin 24 → Fin 4 → Fin 16 → Fin 16 → Vec F SpecF.S1x16 .i32)
    (n : ℕ) (hn : n < 24) :
    SpecF.tileF lx lt (n + 1) = SpecF.chunkF (lx ⟨n, hn⟩) (lt ⟨n, hn⟩) 16 (SpecF.tileF lx lt n) := by
  rw [SpecF.tileF, dif_pos hn]

/-- What the copy out of a 16-word scratch sends once the vector v has been stored to it. -/
abbrev outF (f4 : Buf (Elt F) (View.loc (thrV d L) (oF : Memref sig .scVector .vmem S16 .f32).view)) (v : FVec F S16 .f32) : S16.Idx → Elt F .f32 :=
  ReadAs.same.apply (View.read (Elt F) (oF : Memref sig .scVector .vmem S16 .f32).view
    ((oF : Memref sig .scVector .vmem S16 .f32).view.writes (Elt F) f4 [⟨Rect.unit (s := S16) ![0] S16.size inb_S16_S16_0, v⟩]))
abbrev outI (f5 : Buf (Elt F) (View.loc (thrV d L) (oI : Memref sig .scVector .vmem S16 .i32).view)) (v : IVec S16 32) : S16.Idx → Elt F .i32 :=
  ReadAs.same.apply (View.read (Elt F) (oI : Memref sig .scVector .vmem S16 .i32).view
    ((oI : Memref sig .scVector .vmem S16 .i32).view.writes (Elt F) f5 [⟨Rect.unit (s := S16) ![0] S16.size inb_S16_S16_0, v⟩]))

end Cert.Proof.KI

end
-- ==== Proof.KITile.lean ====
/-
  One vector subcore's task of the subcore kernel, run once at a symbolic place.

  The task copies its 96 rows of x and of t in 24 chunks of four rows, two pairs of buffers alternating: while the
  loads consume one pair, the next chunk is on its way into the other, each buffer's copy counted on a semaphore of its
  own, so a wait is passed only by the copy it waits for and no buffer is read between its copy's start and that wait.
  Two copies out of x (and of t) are outstanding at once, so each array is held under two read shares, one per pair.
  The sixteen accumulators are carried through both loops as the fold of the chunks consumed so far, over the entries of
  x and t themselves; at the end their sums are stored, and copied out to the subcore's row of each result table.
-/
import proofs.«207598_g57604101374094_cont_9to1_m_955_21_alg».proof.Proof.KITileSpec
import proofs.«207598_g57604101374094_cont_9to1_m_955_21_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

variable [FloatOps F]

section Tile

variable (d : Dev nD) (L : grid0.Coords)

/-! ## The resources in flight and the loops' invariants -/

/-- The rows at o of x on their way into the buffer b, counted on the semaphore sm: the buffer already at the rows'
    values, the rows of x lent at the share q — and the rest of x beside it. -/
def flX (q : PosShare TreeShare) (sm : SemLoc sig) (b : Memref sig .scVector .vmem S4x4096 .f32)
    (o : Fin 2 → ℕ) (h : ∀ a, o a + S4x4096.size a ≤ S16384x4096.size a) (g : Buf (Elt F) (View.loc (thrV d L) b.view)) : sProp 𝕄 :=
  iprop(Transfers.Flight countersEmb (thrV d L) sm default 524288
      iprop((b.view.loc (thrV d L) ↦{fullShare} View.write (Elt F) b.view g (xVal m d o h) Finset.univ)
        ∗ (xV).view.loc (thrV d L) ↦[(xAt o h).view.set]{q} m (xLoc d))
    ∗ ((xV).view.loc (thrV d L) ↦[Finset.univ \ (xAt o h).view.set]{q} m (xLoc d)))
def flT (q : PosShare TreeShare) (sm : SemLoc sig) (b : Memref sig .scVector .vmem S4x4096 .i32)
    (o : Fin 2 → ℕ) (h : ∀ a, o a + S4x4096.size a ≤ S16384x4096.size a) (g : Buf (Elt F) (View.loc (thrV d L) b.view)) : sProp 𝕄 :=
  iprop(Transfers.Flight countersEmb (thrV d L) sm default 524288
      iprop((b.view.loc (thrV d L) ↦{fullShare} View.write (Elt F) b.view g (tVal m d o h) Finset.univ)
        ∗ (tV).view.loc (thrV d L) ↦[(tAt o h).view.set]{q} m (tLoc d))
    ∗ ((tV).view.loc (thrV d L) ↦[Finset.univ \ (tAt o h).view.set]{q} m (tLoc d)))

/-- The sixteen carried accumulators. -/
abbrev Carry (F : FTy → Type) : Type :=
  FVec F S16 .f32 × FVec F S16 .f32 × FVec F S16 .f32 × FVec F S16 .f32 × FVec F S16 .f32 × FVec F S16 .f32 × FVec F S16 .f32 × FVec F S16 .f32
    × IVec S16 32 × IVec S16 32 × IVec S16 32 × IVec S16 32 × IVec S16 32 × IVec S16 32 × IVec S16 32 × IVec S16 32

variable (qx0 qx1 qt0 qt1 : PosShare TreeShare)

/-- Before trip k of the outer loop: chunk 2k is on its way into the first pair of buffers (or, after the last
    trip, those buffers are idle); the second pair is idle; x and t are held under two read shares each, the first
    lending chunk 2k's rows; the accumulators have consumed the first 2k chunks. -/
def inv (O : CellTallies nD τ sig (HIx 1)) (W : Waits sig (HIx 1)) (k : ℕ) (acc : Carry F) : sProp 𝕄 :=
  iprop(Transfers.MayWaits (thrV d L) (none : HIx 1) O
    ∗ (if k < 12 then
        iprop((∃ o h g, ⌜o = chunkOff L (2 * k)⌝ ∗ flX m d L qx0 sem6 b0 o h g)
          ∗ (∃ o h g, ⌜o = chunkOff L (2 * k)⌝ ∗ flT m d L qt0 sem7 b1 o h g))
      else
        iprop((∃ g, (b0).view.loc (thrV d L) ↦{fullShare} g) ∗ ((xV).view.loc (thrV d L) ↦{qx0} m (xLoc d))
          ∗ (∃ g, (b1).view.loc (thrV d L) ↦{fullShare} g) ∗ ((tV).view.loc (thrV d L) ↦{qt0} m (tLoc d))
          ∗ semVal (thrV d L, sem6) 0 ∗ semVal (thrV d L, sem7) 0))
    ∗ ((xV).view.loc (thrV d L) ↦{qx1} m (xLoc d)) ∗ ((tV).view.loc (thrV d L) ↦{qt1} m (tLoc d))
    ∗ (∃ g, (b2).view.loc (thrV d L) ↦{fullShare} g) ∗ (∃ g, (b3).view.loc (thrV d L) ↦{fullShare} g)
    ∗ semVal (thrV d L, sem8) 0 ∗ semVal (thrV d L, sem9) 0
    ∗ (∃ W', ⌜∀ p ∈ W', p ∈ W ∨ p.2 = none⌝ ∗ owes (thrV d L) O W')
    ∗ ⌜acc = SpecF.tileF (LX m d L) (LT m d L) (2 * k)⌝)

/-- Inside an inner loop the pair of buffers it reads is held at fixed contents, and the accumulators have consumed
    the chunk's first k trips. -/
def innerInv (bx : Memref sig .scVector .vmem S4x4096 .f32) (bt : Memref sig .scVector .vmem S4x4096 .i32)
    (fx : Buf (Elt F) (View.loc (thrV d L) bx.view)) (ft : Buf (Elt F) (View.loc (thrV d L) bt.view))
    (lx : Fin 4 → Fin 16 → Fin 16 → Vec F S1x16 .f32) (lt : Fin 4 → Fin 16 → Fin 16 → Vec F S1x16 .i32) (init : Carry F)
    (k : ℕ) (acc : Carry F) : sProp 𝕄 :=
  iprop((bx.view.loc (thrV d L) ↦{fullShare} fx) ∗ (bt.view.loc (thrV d L) ↦{fullShare} ft) ∗ ⌜acc = SpecF.chunkF lx lt k init⌝)

set_option maxHeartbeats 64000000 in
/-- The task, from the subcore's holdings: both arrays under two read shares each, its row of each result table, its six
    scratch buffers and six semaphores; everything is handed back, the two rows at the task's sums. -/
theorem tile_run (fs : Buf (Elt F) (sLoc d)) (fc : Buf (Elt F) (cLoc d)) (R : sProp 𝕄)
    (O : CellTallies nD τ sig (HIx 1)) (W : Waits sig (HIx 1)) (hO : ∀ g, O g none = 0) :
    (iprop(levAts (K (F := F)).L (K (F := F)).lev
        ∗ ((xV).view.loc (thrV d L) ↦{qx0} m (xLoc d)) ∗ ((xV).view.loc (thrV d L) ↦{qx1} m (xLoc d))
        ∗ ((tV).view.loc (thrV d L) ↦{qt0} m (tLoc d)) ∗ ((tV).view.loc (thrV d L) ↦{qt1} m (tLoc d))
        ∗ ((sRow L).view.loc (thrV d L) ↦[(sRow L).view.set]{fullShare} fs) ∗ ((cRow L).view.loc (thrV d L) ↦[(cRow L).view.set]{fullShare} fc)
        ∗ (∃ g, (b0).view.loc (thrV d L) ↦{fullShare} g) ∗ (∃ g, (b1).view.loc (thrV d L) ↦{fullShare} g)
        ∗ (∃ g, (b2).view.loc (thrV d L) ↦{fullShare} g) ∗ (∃ g, (b3).view.loc (thrV d L) ↦{fullShare} g)
        ∗ (∃ g, (oF).view.loc (thrV d L) ↦{fullShare} g) ∗ (∃ g, (oI).view.loc (thrV d L) ↦{fullShare} g)
        ∗ semVal (thrV d L, sem6) 0 ∗ semVal (thrV d L, sem7) 0 ∗ semVal (thrV d L, sem8) 0 ∗ semVal (thrV d L, sem9) 0
        ∗ semVal (thrV d L, SemLoc.dma cc0_scoped0.sem) 0 ∗ semVal (thrV d L, SemLoc.dma cc0_scoped1.sem) 0
        ∗ owes (thrV d L) O W ∗ R) : sProp 𝕄)
      ⊢ wp frame (wpE (defs₀ (F := F)) 𝒱₀ (thrV d L) none) Set.univ
          (cc0__sc_body L xV (Memref.isWhole_whole _) tV (Memref.isWhole_whole _) sV (Memref.isWhole_whole _) cV' (Memref.isWhole_whole _)
            b0 (Memref.isWhole_whole _) b1 (Memref.isWhole_whole _) b2 (Memref.isWhole_whole _) b3 (Memref.isWhole_whole _)
            oF (Memref.isWhole_whole _) oI (Memref.isWhole_whole _) cc0_scratch6 cc0_scratch7 cc0_scratch8 cc0_scratch9 cc0_scoped0 cc0_scoped1)
          fun _ => iprop(((xV).view.loc (thrV d L) ↦{qx0} m (xLoc d)) ∗ ((xV).view.loc (thrV d L) ↦{qx1} m (xLoc d))
        ∗ ((tV).view.loc (thrV d L) ↦{qt0} m (tLoc d)) ∗ ((tV).view.loc (thrV d L) ↦{qt1} m (tLoc d))
        ∗ (∃ f4, (sRow L).view.loc (thrV d L) ↦[(sRow L).view.set]{fullShare}
            (sRow L).view.writes (Elt F) fs [⟨Rect.whole S16, outF d L f4 (SpecF.sumF (SpecF.tileF (LX m d L) (LT m d L) 24))⟩])
        ∗ (∃ f5, (cRow L).view.loc (thrV d L) ↦[(cRow L).view.set]{fullShare}
            (cRow L).view.writes (Elt F) fc [⟨Rect.whole S16, outI d L f5 (SpecF.sumI (SpecF.tileF (LX m d L) (LT m d L) 24))⟩])
        ∗ (∃ g, (b0).view.loc (thrV d L) ↦{fullShare} g) ∗ (∃ g, (b1).view.loc (thrV d L) ↦{fullShare} g)
        ∗ (∃ g, (b2).view.loc (thrV d L) ↦{fullShare} g) ∗ (∃ g, (b3).view.loc (thrV d L) ↦{fullShare} g)
        ∗ (∃ g, (oF).view.loc (thrV d L) ↦{fullShare} g) ∗ (∃ g, (oI).view.loc (thrV d L) ↦{fullShare} g)
        ∗ semVal (thrV d L, sem6) 0 ∗ semVal (thrV d L, sem7) 0 ∗ semVal (thrV d L, sem8) 0 ∗ semVal (thrV d L, sem9) 0
        ∗ semVal (thrV d L, SemLoc.dma cc0_scoped0.sem) 0 ∗ semVal (thrV d L, SemLoc.dma cc0_scoped1.sem) 0
        ∗ (∃ W', ⌜∀ p ∈ W', p ∈ W ∨ p.2 = none⌝ ∗ owes (thrV d L) O W') ∗ R) := by
  rw [cc0__sc_body_eq_skeleton]; unfold cc0__sc_body_skel
  iintro ⟨#Hlv, Hx0, Hx1, Ht0, Ht1, Hs, Hc, ⟨%f0, H0⟩, ⟨%f1, H1⟩, ⟨%f2, H2⟩, ⟨%f3, H3⟩, ⟨%f4, H4⟩, ⟨%f5, H5⟩, Hm6, Hm7, Hm8, Hm9, Hms0, Hms1, HO, HR⟩
  ihave Hmw := ((K (F := F)).mayWaits_none (thr := thrV d L) hO) $$ Hlv
  sl_exec_parts
  sl_for (inv m d L qx0 qx1 qt0 qt1 O W) $$ [Hmw Hm6 Hx0 Hm7 Ht0 Hx1 Ht1 H2 H3 Hm8 Hm9 HO]
  case region =>
    intro k acc
    have hk : k.val < 12 := trips1 ▸ k.isLt
    unfold inv
    rw [if_pos hk]
    unfold flX flT
    iintro ⟨Hmw, ⟨⟨%ox, %hx, %g0, %ex, Hm6, Hx0⟩, ⟨%ot, %ht, %g1, %et, Hm7, Ht0⟩⟩, Hx1, Ht1, ⟨%g2, H2⟩, ⟨%g3, H3⟩, Hm8, Hm9, ⟨%W', %hW', HO⟩, %hacc⟩
    by_cases hc : k.val + 1 < 12
    · have k0_h1 : k0_cond1 k = 1#1 := (cond1_iff k).mpr hc
      sl_exec_parts
      sl_for (innerInv (F := F) d L b0 b1 (View.write (Elt F) b0.view g0 (xVal m d ox hx) Finset.univ) (View.write (Elt F) b1.view g1 (tVal m d ot ht) Finset.univ) (lxA d L (View.write (Elt F) b0.view g0 (xVal m d ox hx) Finset.univ)) (ltA d L (View.write (Elt F) b1.view g1 (tVal m d ot ht) Finset.univ)) acc) $$ [Hm6_dst Hm7_dst]
      case region =>
        intro j acc2
        unfold innerInv
        iintro ⟨HB0, HB1, %h2⟩
        sl_exec_parts
        sl_step
        isplitl [HB0]; · iexact HB0
        isplitl [HB1]; · iexact HB1
        ipureintro
        have hj : j.val < 16 := trips2 ▸ j.isLt
        rw [chunkF_succ _ _ _ hj, ← h2]
        rfl
      · unfold innerInv
        isplitl [Hm6_dst]; · iexact Hm6_dst
        isplitl [Hm7_dst]; · iexact Hm7_dst
        ipureintro; rfl
      iintro %acc3 HI
      unfold innerInv
      icases HI with ⟨HB0, HB1, %h3⟩
      sl_exec_parts
      sl_for (innerInv (F := F) d L b2 b3 (View.write (Elt F) b2.view g2 (xVal m d (k0_off2 L k) (k0_off2_inb L k)) Finset.univ) (View.write (Elt F) b3.view g3 (tVal m d (k0_off2 L k) (k0_off2_inb L k)) Finset.univ) (lxB d L (View.write (Elt F) b2.view g2 (xVal m d (k0_off2 L k) (k0_off2_inb L k)) Finset.univ)) (ltB d L (View.write (Elt F) b3.view g3 (tVal m d (k0_off2 L k) (k0_off2_inb L k)) Finset.univ)) acc3) $$ [H2 H3]
      case region =>
        intro j acc2
        unfold innerInv
        iintro ⟨HB2, HB3, %h2⟩
        sl_exec_parts
        sl_step
        isplitl [HB2]; · iexact HB2
        isplitl [HB3]; · iexact HB3
        ipureintro
        have hj : j.val < 16 := trips3 ▸ j.isLt
        rw [chunkF_succ _ _ _ hj, ← h2]
        rfl
      · unfold innerInv
        isplitl [H2]; · iexact H2
        isplitl [H3]; · iexact H3
        ipureintro; rfl
      iintro %acc4 HI
      unfold innerInv
      icases HI with ⟨HB2, HB3, %h4⟩
      sl_exec_parts
      sl_step
      have hval : acc4 = SpecF.tileF (LX m d L) (LT m d L) (2 * (k.val + 1)) := by
        have e2 : Scf.trips k0_t2_loop.lb k0_t2_loop.ub k0_t2_loop.st = 16 := by decide
        have e3 : Scf.trips k0_t3_loop.lb k0_t3_loop.ub k0_t3_loop.st = 16 := by decide
        have hn0 : 2 * k.val < 24 := by omega
        have hn1 : 2 * k.val + 1 < 24 := by omega
        rw [e2, lxA_eq m d L ⟨2 * k.val, hn0⟩ ox hx ex g0, ltA_eq m d L ⟨2 * k.val, hn0⟩ ot ht et g1, hacc] at h3
        rw [e3, lxB_eq m d L ⟨2 * k.val + 1, hn1⟩ (k0_off2 L k) (k0_off2_inb L k) (off2_chunk L k) g2,
          ltB_eq m d L ⟨2 * k.val + 1, hn1⟩ (k0_off2 L k) (k0_off2_inb L k) (off2_chunk L k) g3, h3] at h4
        rw [show 2 * (k.val + 1) = 2 * k.val + 1 + 1 by omega, tileF_succ _ _ _ hn1, tileF_succ _ _ _ hn0]
        exact h4
      rw [if_pos hc]
      isplitl [Hmw]; · iexact Hmw
      isplitl [Hm6 Hx0 Hm7 Ht0]
      · isplitl [Hm6 Hx0]
        · iexists (k0_off7 L k), (k0_off7_inb L k k0_h1), _
          isplitr; · ipureintro; exact off7_chunk L k
          isplitl [Hm6]; · iexact Hm6
          iexact Hx0
        · iexists (k0_off7 L k), (k0_off7_inb L k k0_h1), _
          isplitr; · ipureintro; exact off7_chunk L k
          isplitl [Hm7]; · iexact Hm7
          iexact Ht0
      isplitl [Hx1]; · iexact Hx1
      isplitl [Ht1]; · iexact Ht1
      isplitl [HB2]; · iexists _; iexact HB2
      isplitl [HB3]; · iexists _; iexact HB3
      isplitl [Hm8]; · iexact Hm8
      isplitl [Hm9]; · iexact Hm9
      isplitl [HO]
      · iexists (insert (sem9, (default : HIx 1)) (insert (sem8, (default : HIx 1)) (insert (sem7, (default : HIx 1)) (insert (sem6, (default : HIx 1)) W')))); isplitr
        · ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        · iexact HO
      ipureintro; exact hval
    · have k0_h1 : ¬ k0_cond1 k = 1#1 := fun h => hc ((cond1_iff k).mp h)
      sl_exec_parts
      sl_for (innerInv (F := F) d L b0 b1 (View.write (Elt F) b0.view g0 (xVal m d ox hx) Finset.univ) (View.write (Elt F) b1.view g1 (tVal m d ot ht) Finset.univ) (lxA d L (View.write (Elt F) b0.view g0 (xVal m d ox hx) Finset.univ)) (ltA d L (View.write (Elt F) b1.view g1 (tVal m d ot ht) Finset.univ)) acc) $$ [Hm6_dst Hm7_dst]
      case region =>
        intro j acc2
        unfold innerInv
        iintro ⟨HB0, HB1, %h2⟩
        sl_exec_parts
        sl_step
        isplitl [HB0]; · iexact HB0
        isplitl [HB1]; · iexact HB1
        ipureintro
        have hj : j.val < 16 := trips2 ▸ j.isLt
        rw [chunkF_succ _ _ _ hj, ← h2]
        rfl
      · unfold innerInv
        isplitl [Hm6_dst]; · iexact Hm6_dst
        isplitl [Hm7_dst]; · iexact Hm7_dst
        ipureintro; rfl
      iintro %acc3 HI
      unfold innerInv
      icases HI with ⟨HB0, HB1, %h3⟩
      sl_exec_parts
      sl_for (innerInv (F := F) d L b2 b3 (View.write (Elt F) b2.view g2 (xVal m d (k0_off2 L k) (k0_off2_inb L k)) Finset.univ) (View.write (Elt F) b3.view g3 (tVal m d (k0_off2 L k) (k0_off2_inb L k)) Finset.univ) (lxB d L (View.write (Elt F) b2.view g2 (xVal m d (k0_off2 L k) (k0_off2_inb L k)) Finset.univ)) (ltB d L (View.write (Elt F) b3.view g3 (tVal m d (k0_off2 L k) (k0_off2_inb L k)) Finset.univ)) acc3) $$ [H2 H3]
      case region =>
        intro j acc2
        unfold innerInv
        iintro ⟨HB2, HB3, %h2⟩
        sl_exec_parts
        sl_step
        isplitl [HB2]; · iexact HB2
        isplitl [HB3]; · iexact HB3
        ipureintro
        have hj : j.val < 16 := trips3 ▸ j.isLt
        rw [chunkF_succ _ _ _ hj, ← h2]
        rfl
      · unfold innerInv
        isplitl [H2]; · iexact H2
        isplitl [H3]; · iexact H3
        ipureintro; rfl
      iintro %acc4 HI
      unfold innerInv
      icases HI with ⟨HB2, HB3, %h4⟩
      sl_exec_parts
      sl_step
      have hval : acc4 = SpecF.tileF (LX m d L) (LT m d L) (2 * (k.val + 1)) := by
        have e2 : Scf.trips k0_t2_loop.lb k0_t2_loop.ub k0_t2_loop.st = 16 := by decide
        have e3 : Scf.trips k0_t3_loop.lb k0_t3_loop.ub k0_t3_loop.st = 16 := by decide
        have hn0 : 2 * k.val < 24 := by omega
        have hn1 : 2 * k.val + 1 < 24 := by omega
        rw [e2, lxA_eq m d L ⟨2 * k.val, hn0⟩ ox hx ex g0, ltA_eq m d L ⟨2 * k.val, hn0⟩ ot ht et g1, hacc] at h3
        rw [e3, lxB_eq m d L ⟨2 * k.val + 1, hn1⟩ (k0_off2 L k) (k0_off2_inb L k) (off2_chunk L k) g2,
          ltB_eq m d L ⟨2 * k.val + 1, hn1⟩ (k0_off2 L k) (k0_off2_inb L k) (off2_chunk L k) g3, h3] at h4
        rw [show 2 * (k.val + 1) = 2 * k.val + 1 + 1 by omega, tileF_succ _ _ _ hn1, tileF_succ _ _ _ hn0]
        exact h4
      rw [if_neg hc]
      isplitl [Hmw]; · iexact Hmw
      isplitl [HB0 Hx0 HB1 Ht0 Hm6 Hm7]
      · isplitl [HB0]; · iexists _; iexact HB0
        isplitl [Hx0]; · iexact Hx0
        isplitl [HB1]; · iexists _; iexact HB1
        isplitl [Ht0]; · iexact Ht0
        isplitl [Hm6]; · iexact Hm6
        iexact Hm7
      isplitl [Hx1]; · iexact Hx1
      isplitl [Ht1]; · iexact Ht1
      isplitl [HB2]; · iexists _; iexact HB2
      isplitl [HB3]; · iexists _; iexact HB3
      isplitl [Hm8]; · iexact Hm8
      isplitl [Hm9]; · iexact Hm9
      isplitl [HO]
      · iexists (insert (sem9, (default : HIx 1)) (insert (sem8, (default : HIx 1)) (insert (sem7, (default : HIx 1)) (insert (sem6, (default : HIx 1)) W')))); isplitr
        · ipureintro; intro p hp
          rcases Finset.mem_insert.mp hp with rfl | hp
          · exact .inr rfl
          rcases Finset.mem_insert.mp hp with rfl | hp
          · exact .inr rfl
          rcases Finset.mem_insert.mp hp with rfl | hp
          · exact .inr rfl
          rcases Finset.mem_insert.mp hp with rfl | hp
          · exact .inr rfl
          exact hW' p hp
        · iexact HO
      ipureintro; exact hval
  · unfold inv
    rw [if_pos (by omega : (0 : ℕ) < 12)]
    unfold flX flT
    isplitl [Hmw]; · iexact Hmw
    isplitl [Hm6 Hx0 Hm7 Ht0]
    · isplitl [Hm6 Hx0]
      · iexists (k0_off1 L), (k0_off1_inb L), f0
        isplitr; · ipureintro; exact off1_chunk L
        isplitl [Hm6]; · iexact Hm6
        iexact Hx0
      · iexists (k0_off1 L), (k0_off1_inb L), f1
        isplitr; · ipureintro; exact off1_chunk L
        isplitl [Hm7]; · iexact Hm7
        iexact Ht0
    isplitl [Hx1]; · iexact Hx1
    isplitl [Ht1]; · iexact Ht1
    isplitl [H2]; · iexists _; iexact H2
    isplitl [H3]; · iexists _; iexact H3
    isplitl [Hm8]; · iexact Hm8
    isplitl [Hm9]; · iexact Hm9
    isplitl [HO]
    · iexists W; isplitr
      · ipureintro; exact fun p hp => .inl hp
      · iexact HO
    ipureintro; rfl
  iintro %acc HI
  unfold inv
  rw [if_neg (by decide : ¬ Scf.trips k0_t1_loop.lb k0_t1_loop.ub k0_t1_loop.st < 12)]
  icases HI with ⟨-, ⟨⟨%g0, H0⟩, Hx0, ⟨%g1, H1⟩, Ht0, Hm6, Hm7⟩, Hx1, Ht1, ⟨%g2, H2⟩, ⟨%g3, H3⟩, Hm8, Hm9, ⟨%W', %hW', HO⟩, %hacc⟩
  have e1 : 2 * Scf.trips k0_t1_loop.lb k0_t1_loop.ub k0_t1_loop.st = 24 := by decide
  rw [e1] at hacc
  subst hacc
  sl_exec_parts
  sl_step
  isplitl [Hx0]; · iexact Hx0
  isplitl [Hx1]; · iexact Hx1
  isplitl [Ht0]; · iexact Ht0
  isplitl [Ht1]; · iexact Ht1
  isplitl [Hs]; · iexists f4; iexact Hs
  isplitl [Hc]; · iexists f5; iexact Hc
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [Hm6]; · iexact Hm6
  isplitl [Hm7]; · iexact Hm7
  isplitl [Hm8]; · iexact Hm8
  isplitl [Hm9]; · iexact Hm9
  isplitl [Hms0]; · iexact Hms0
  isplitl [Hms1]; · iexact Hms1
  isplitl [HO]
  · iexists (insert (SemLoc.dma cc0_scoped1.sem, (default : HIx 1)) (insert (SemLoc.dma cc0_scoped0.sem, (default : HIx 1)) W')); isplitr
    · ipureintro; intro p hp
      rcases Finset.mem_insert.mp hp with rfl | hp
      · exact .inr rfl
      rcases Finset.mem_insert.mp hp with rfl | hp
      · exact .inr rfl
      exact hW' p hp
    · iexact HO
  iexact HR

end Tile

end Cert.Proof.KI

end
-- ==== Proof.KIRows.lean ====
/-
  The rows of the two 32 x 16 result tables. Subcore (c, i) writes row 2 i + c of each; as the kernel slices it (one row
  cut out, the unit axis dropped) that row is the w-th of the 32 equal parts of the table along its first axis, so the
  subcores' rows are pairwise disjoint and together the whole table.
-/
import proofs.«207598_g57604101374094_cont_9to1_m_955_21_alg».proof.Proof.KIAmbient

noncomputable section

namespace Cert.Proof.KI

open Cert.KernelIdeal Cert.KernelIdeal.Gen
open Idealize.ShloMosaic

theorem hdiv32 : 32 ∣ S32x16.size 0 := ⟨1, rfl⟩

/-- Row w of a 32 x 16 table. -/
abbrev rowR (w : Fin 32) : Rect S32x16 := Rect.part (s := S32x16) (a₀ := 0) hdiv32 w

/-- The row subcore L writes. -/
def widx (L : grid0.Coords) : Fin 32 :=
  ⟨2 * (L 1).val + (L 0).val, by have h0 : (L 0).val < 2 := (L 0).isLt; have h1 : (L 1).val < 16 := (L 1).isLt; omega⟩

theorem row_unit (L : grid0.Coords) : Rect.unit (s := S32x16) (k0_off12 L) S1x16.size (k0_off12_inb L) = rowR (widx L) := by
  unfold rowR Rect.part Rect.block
  congr 1 <;> funext a
  · rw [k0_off12_eq]
    match a with
    | 0 => simp [Shape.partIx, Shape.partSize, widx]
    | 1 => simp [Shape.partIx, Shape.partSize, widx]
  · match a with
    | 0 => simp [Shape.partSize]
    | 1 => simp [Shape.partSize]

theorem rows_disjoint {w w' : Fin 32} (h : w ≠ w') : Disjoint (rowR w).set (rowR w').set := Rect.part_disjoint hdiv32 h
theorem rows_cover : (Finset.univ : Finset (Fin 32)).biUnion (fun w => (rowR w).set) = Finset.univ := Rect.biUnion_part hdiv32

end Cert.Proof.KI

end
-- ==== Proof.KISplit.lean ====
/-
  Sharing out the launch's arrays. An array every subcore reads is held under read shares: the whole share splits into a
  remainder and one share per SparseCore, and a SparseCore's share into a remainder and one per subcore, each of those
  halved once more. A 32 × 16 table every subcore writes one row of is held row by row: subcore (c, i) owns row 2 i + c,
  the rows are pairwise disjoint and together the whole table, so the table's points-to is the separating conjunction,
  over c and i, of the rows' points-tos — at one contents, at contents chosen row by row, or at contents that agree with
  a given one on each row.
-/
import proofs.«207598_g57604101374094_cont_9to1_m_955_21_alg».proof.Proof.KITileDefs
import proofs.«207598_g57604101374094_cont_9to1_m_955_21_alg».proof.Proof.KIRows
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Read shares -/

/-- A SparseCore's read share of an array. -/
abbrev qC (c : Fin 2) : PosShare TreeShare := Transfers.shareTok fullShare 2 c
/-- A subcore's read share. -/
abbrev qT (c : Fin 2) (i : Fin 16) : PosShare TreeShare := Transfers.shareTok (qC c) 16 i

/-- The whole share is a remainder and one share per SparseCore. -/
theorem core_shares (ℓ : Loc nD τ sig) (f : Buf (Elt F) ℓ) :
    (ℓ ↦{fullShare} f : sProp 𝕄)
      ⊣⊢ iprop((ℓ ↦{Transfers.shareDrop fullShare 2} f) ∗ bigSep Finset.univ fun c : Fin 2 => ℓ ↦{qC c} f) :=
  Transfers.pointsTo_toks fullShare 2

/-- A SparseCore's share is a remainder and, per subcore, the two halves of the subcore's share. -/
theorem tile_shares (ℓ : Loc nD τ sig) (f : Buf (Elt F) ℓ) (c : Fin 2) :
    (ℓ ↦{qC c} f : sProp 𝕄)
      ⊣⊢ iprop((ℓ ↦{Transfers.shareDrop (qC c) 16} f)
          ∗ bigSep Finset.univ fun i : Fin 16 => iprop((ℓ ↦{(qT c i).left} f) ∗ (ℓ ↦{(qT c i).right} f))) := by
  have h2 : (bigSep Finset.univ fun i : Fin 16 => (ℓ ↦{qT c i} f : sProp 𝕄))
      = bigSep Finset.univ fun i : Fin 16 => iprop((ℓ ↦{(qT c i).left} f) ∗ (ℓ ↦{(qT c i).right} f)) :=
    bigSep_congr fun i _ =>
      have hs : (ℓ ↦{qT c i} f : sProp 𝕄) ⊣⊢ iprop((ℓ ↦{(qT c i).left} f) ∗ (ℓ ↦{(qT c i).right} f)) :=
        pointsTo_share (PosShare.mem_left_op_right _)
      BI.equiv_iff.mp ⟨hs.1, hs.2⟩
  rw [← h2]
  exact Transfers.pointsTo_toks (qC c) 16

/-! ## The subcores' rows -/

/-- The row subcore (c, i) writes. -/
def wOf (c : Fin 2) (i : Fin 16) : Fin 32 := ⟨2 * i.val + c.val, by omega⟩

/-- Row 2 i + c ↔ (c, i). -/
def wEquiv : Fin 2 × Fin 16 ≃ Fin 32 where
  toFun p := wOf p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val
      omega
    · show (2 * i.val + c.val) / 2 = i.val
      omega
  right_inv w := Fin.ext (by
    show 2 * (w.val / 2) + w.val % 2 = w.val
    omega)

/-- A separating conjunction over the 32 rows, subcore by subcore. -/
theorem bigSep_rows (Φ : Fin 32 → sProp 𝕄) :
    bigSep Finset.univ Φ = bigSep Finset.univ fun c : Fin 2 => bigSep Finset.univ fun i : Fin 16 => Φ (wOf c i) := by
  rw [bigSep_univ_equiv wEquiv Φ, bigSep_univ_prod]
  rfl

section Rows

variable (ℓ : Loc nD τ sig) (K : Fin 32 → Finset (Idx ℓ))
  (hd : ∀ w w' : Fin 32, w ≠ w' → Disjoint (K w) (K w')) (hc : (Finset.univ : Finset (Fin 32)).biUnion K = Finset.univ)

include hd hc

/-- An array cut into 32 pairwise disjoint pieces that cover it, held piece by piece. -/
theorem rows_split_gen (f : Buf (Elt F) ℓ) :
    (ℓ ↦{fullShare} f : sProp 𝕄)
      = bigSep Finset.univ fun c : Fin 2 => bigSep Finset.univ fun i : Fin 16 => ℓ ↦[K (wOf c i)]{fullShare} f := by
  rw [← bigSep_rows (fun w => (ℓ ↦[K w]{fullShare} f : sProp 𝕄)),
    ← pointsTo_biUnion Finset.univ K (fun w _ w' _ h => hd w w' h), hc]

/-- The pieces, each at some contents, make the array at some contents. -/
theorem rows_join_gen [FloatOps F] :
    (bigSep Finset.univ fun c : Fin 2 => bigSep Finset.univ fun i : Fin 16 =>
        iprop(∃ f, ℓ ↦[K (wOf c i)]{fullShare} f))
      ⊢ (iprop(∃ f, ℓ ↦{fullShare} f) : sProp 𝕄) := by
  rw [← bigSep_rows (fun w => (iprop(∃ f, ℓ ↦[K w]{fullShare} f) : sProp 𝕄))]
  refine (bigSep_exists_pi Finset.univ (fun w (f : Buf (Elt F) ℓ) => (ℓ ↦[K w]{fullShare} f : sProp 𝕄))).trans ?_
  iintro ⟨%fs, H⟩
  ihave H' := (pointsTo_biUnion_join Finset.univ K fs (fs 0) (fun w _ w' _ h => hd w w' h)) $$ H
  icases H' with ⟨%g, -, Hg⟩
  rw [hc]
  iexists g; iexact Hg

/-- The pieces, each at contents that agree on it with G, make the array at G. -/
theorem rows_join_at_gen (G : Buf (Elt F) ℓ) (fs : Fin 2 → Fin 16 → Buf (Elt F) ℓ)
    (h : ∀ c i, ∀ x ∈ K (wOf c i), fs c i x = G x) :
    (bigSep Finset.univ fun c : Fin 2 => bigSep Finset.univ fun i : Fin 16 => ℓ ↦[K (wOf c i)]{fullShare} fs c i)
      ⊢ (ℓ ↦{fullShare} G : sProp 𝕄) := by
  rw [rows_split_gen ℓ K hd hc G]
  exact Entails.of_eq (bigSep_congr fun c _ => bigSep_congr fun i _ => pointsTo_congr (h c i))

end Rows

/-! ## The two result tables -/

theorem sRows_split (d : Dev nD) (f : Buf (Elt F) (sLoc d)) :
    (sLoc d ↦{fullShare} f : sProp 𝕄)
      = bigSep Finset.univ fun c : Fin 2 => bigSep Finset.univ fun i : Fin 16 =>
          sLoc d ↦[(rowR (wOf c i)).set]{fullShare} f :=
  rows_split_gen (sLoc d) (fun w => (rowR w).set) (fun _ _ h => rows_disjoint h) rows_cover f

theorem sRows_join [FloatOps F] (d : Dev nD) :
    (bigSep Finset.univ fun c : Fin 2 => bigSep Finset.univ fun i : Fin 16 =>
        iprop(∃ f, sLoc d ↦[(rowR (wOf c i)).set]{fullShare} f))
      ⊢ (iprop(∃ f, sLoc d ↦{fullShare} f) : sProp 𝕄) :=
  rows_join_gen (sLoc d) (fun w => (rowR w).set) (fun _ _ h => rows_disjoint h) rows_cover

theorem sRows_join_at (d : Dev nD) (G : Buf (Elt F) (sLoc d)) (fs : Fin 2 → Fin 16 → Buf (Elt F) (sLoc d))
    (h : ∀ c i, ∀ x ∈ (rowR (wOf c i)).set, fs c i x = G x) :
    (bigSep Finset.univ fun c : Fin 2 => bigSep Finset.univ fun i : Fin 16 =>
        sLoc d ↦[(rowR (wOf c i)).set]{fullShare} fs c i)
      ⊢ (sLoc d ↦{fullShare} G : sProp 𝕄) :=
  rows_join_at_gen (sLoc d) (fun w => (rowR w).set) (fun _ _ h => rows_disjoint h) rows_cover G fs h

theorem cRows_split (d : Dev nD) (f : Buf (Elt F) (cLoc d)) :
    (cLoc d ↦{fullShare} f : sProp 𝕄)
      = bigSep Finset.univ fun c : Fin 2 => bigSep Finset.univ fun i : Fin 16 =>
          cLoc d ↦[(rowR (wOf c i)).set]{fullShare} f :=
  rows_split_gen (cLoc d) (fun w => (rowR w).set) (fun _ _ h => rows_disjoint h) rows_cover f

theorem cRows_join [FloatOps F] (d : Dev nD) :
    (bigSep Finset.univ fun c : Fin 2 => bigSep Finset.univ fun i : Fin 16 =>
        iprop(∃ f, cLoc d ↦[(rowR (wOf c i)).set]{fullShare} f))
      ⊢ (iprop(∃ f, cLoc d ↦{fullShare} f) : sProp 𝕄) :=
  rows_join_gen (cLoc d) (fun w => (rowR w).set) (fun _ _ h => rows_disjoint h) rows_cover

theorem cRows_join_at (d : Dev nD) (G : Buf (Elt F) (cLoc d)) (fs : Fin 2 → Fin 16 → Buf (Elt F) (cLoc d))
    (h : ∀ c i, ∀ x ∈ (rowR (wOf c i)).set, fs c i x = G x) :
    (bigSep Finset.univ fun c : Fin 2 => bigSep Finset.univ fun i : Fin 16 =>
        cLoc d ↦[(rowR (wOf c i)).set]{fullShare} fs c i)
      ⊢ (cLoc d ↦{fullShare} G : sProp 𝕄) :=
  rows_join_at_gen (cLoc d) (fun w => (rowR w).set) (fun _ _ h => rows_disjoint h) rows_cover G fs h

end Cert.Proof.KI

end
-- ==== Proof.KIOut.lean ====
/-
  The row of a result table a subcore writes, and what it writes there. As the kernel slices it — one row cut out of the
  32 × 16 table, the unit axis dropped — the row's elements are those of row 2 L₁ + L₀ of the table, entry l of the row
  sitting at (2 L₁ + L₀, l). The copy out of the 16-word scratch, taken after the vector v was stored to the whole
  scratch, carries v; written through the row over any prior contents of the table it leaves v (entry l at column l) on
  that row.
-/
import proofs.«207598_g57604101374094_cont_9to1_m_955_21_alg».proof.Proof.KITileSpec
import proofs.«207598_g57604101374094_cont_9to1_m_955_21_alg».proof.Proof.KIRows
import Idealize.ShloMosaic.Lib.Writes
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (d : Dev nD) (L : grid0.Coords)

/-! ## The row's elements -/

omit [FloatOps F] in
theorem set_sRow : (sRow L).view.set = (rowR (widx L)).set := by
  show (((sV : Memref sig .scVector .hbm S32x16 .f32).view.slice
      (Rect.unit (s := S32x16) (k0_off12 L) S1x16.size (k0_off12_inb L))).reshape S16 squeezes_S1x16_S16.numel_eq).set = _
  rw [View.set_reshape]
  show ((View.whole (main_v0_0_scv : Ref sig .scVector)).slice _).set = _
  rw [View.set_slice_whole, row_unit L]

omit [FloatOps F] in
theorem set_cRow : (cRow L).view.set = (rowR (widx L)).set := by
  show (((cV' : Memref sig .scVector .hbm S32x16 .i32).view.slice
      (Rect.unit (s := S32x16) (k0_off12 L) S1x16.size (k0_off12_inb L))).reshape S16 squeezes_S1x16_S16.numel_eq).set = _
  rw [View.set_reshape]
  show ((View.whole (main_v0_1_scv : Ref sig .scVector)).slice _).set = _
  rw [View.set_slice_whole, row_unit L]

omit [FloatOps F] in
/-- The row's points-to, on the subcore's thread, is the table's on that row. -/
theorem pts_sRow (q : PosShare TreeShare) (f : Buf (Elt F) (sLoc d)) :
    ((sRow L).view.loc (thrV d L) ↦[(sRow L).view.set]{q} f : sProp 𝕄) = sLoc d ↦[(rowR (widx L)).set]{q} f := by
  rw [set_sRow]

omit [FloatOps F] in
theorem pts_cRow (q : PosShare TreeShare) (f : Buf (Elt F) (cLoc d)) :
    ((cRow L).view.loc (thrV d L) ↦[(cRow L).view.set]{q} f : sProp 𝕄) = cLoc d ↦[(rowR (widx L)).set]{q} f := by
  rw [set_cRow]

/-! ## Where the row's entries sit -/

omit [FloatOps F] in
/-- The 16-vector's index l, read as a 1 × 16 index, is (0, l). -/
theorem reshape_16 (y : S16.Idx) :
    Shape.reshapeEquiv squeezes_S1x16_S16.numel_eq y = (ValueIdx.ix2 (0 : Fin 1) (y 0) : S1x16.Idx) :=
  Shape.reshapeEquiv_eq_of_rowMajor _ (by
    rw [Shape.rowMajor_val_two, Shape.rowMajor_val_one]
    show 0 * 16 + (y 0).val = (y 0).val
    omega)

omit [FloatOps F] in
/-- Entry l of the row sits at (2 L₁ + L₀, l) of the table. -/
theorem row_emb (y : S16.Idx) :
    (Rect.unit (s := S32x16) (k0_off12 L) S1x16.size (k0_off12_inb L)).emb
        (Shape.reshapeEquiv squeezes_S1x16_S16.numel_eq y)
      = (ValueIdx.ix2 (widx L) (y 0) : S32x16.Idx) := by
  rw [reshape_16]
  funext a
  match a with
  | ⟨0, _⟩ =>
    refine Fin.ext ?_
    show k0_off12 L 0 + 1 * 0 = 2 * (L 1).val + (L 0).val
    rw [k0_off12_eq]
    show 2 * (L 1).val + (L 0).val + 1 * 0 = _
    omega
  | ⟨1, _⟩ =>
    refine Fin.ext ?_
    show k0_off12 L 1 + 1 * (y 0).val = (y 0).val
    rw [k0_off12_eq]
    show 0 + 1 * (y 0).val = _
    omega

omit [FloatOps F] in
theorem sRow_emb (y : S16.Idx) : (sRow L).view.emb y = (ValueIdx.ix2 (widx L) (y 0) : S32x16.Idx) :=
  row_emb L y

omit [FloatOps F] in
theorem cRow_emb (y : S16.Idx) : (cRow L).view.emb y = (ValueIdx.ix2 (widx L) (y 0) : S32x16.Idx) :=
  row_emb L y

omit [FloatOps F] in
theorem col16_lt (x : S32x16.Idx) : (x 1).val < 16 := (x 1).isLt

omit [FloatOps F] in
/-- An element of the subcore's row has that row's number. -/
theorem row_of_mem (x : S32x16.Idx) (hx : x ∈ (rowR (widx L)).set) : (x 0).val = (widx L).val := by
  rw [← row_unit L, Rect.mem_set_unit] at hx
  have h0 := hx 0
  rw [k0_off12_eq] at h0
  have e : (![2 * (L 1).val + (L 0).val, 0] : Fin 2 → ℕ) 0 = (widx L).val := rfl
  rw [e] at h0
  have s1 : S1x16.size 0 = 1 := rfl
  rw [s1] at h0
  omega

omit [FloatOps F] in
/-- An element of the subcore's row is the row's entry at its column. -/
theorem mem_row_eq (x : S32x16.Idx) (hx : x ∈ (rowR (widx L)).set) :
    (ValueIdx.ix2 (widx L) (⟨(x 1).val, col16_lt x⟩ : Fin 16) : S32x16.Idx) = x := by
  funext a
  match a with
  | ⟨0, _⟩ => exact Fin.ext (row_of_mem L x hx).symm
  | ⟨1, _⟩ => rfl

/-! ## What the copy out carries -/

omit [FloatOps F] in
theorem unit16_emb (y : S16.Idx) : (Rect.unit (s := S16) ![0] S16.size inb_S16_S16_0).emb y = y := by
  funext a
  refine Fin.ext ?_
  match a with
  | ⟨0, _⟩ =>
    show 0 + 1 * (y 0).val = (y 0).val
    omega

/-- The scratch read back after the whole-vector store is the vector. -/
theorem outF_eq (f4 : Buf (Elt F) (View.loc (thrV d L) (oF : Memref sig .scVector .vmem S16 .f32).view))
    (v : FVec F S16 .f32) : outF d L f4 v = v := by
  funext y
  have h := View.read_writes_cons_emb (oF : Memref sig .scVector .vmem S16 .f32).view f4
    (Rect.unit (s := S16) ![0] S16.size inb_S16_S16_0) v [] y
  rw [unit16_emb] at h
  exact h

theorem outI_eq (f5 : Buf (Elt F) (View.loc (thrV d L) (oI : Memref sig .scVector .vmem S16 .i32).view))
    (v : IVec S16 32) : outI d L f5 v = v := by
  funext y
  have h := View.read_writes_cons_emb (oI : Memref sig .scVector .vmem S16 .i32).view f5
    (Rect.unit (s := S16) ![0] S16.size inb_S16_S16_0) v [] y
  rw [unit16_emb] at h
  exact h

/-! ## What the row holds afterwards -/

/-- The float table after the subcore's copy out, on the subcore's row: the vector, entry by column; and the row's
    number. -/
theorem sRow_out (fs : Buf (Elt F) (sLoc d))
    (f4 : Buf (Elt F) (View.loc (thrV d L) (oF : Memref sig .scVector .vmem S16 .f32).view)) (v : FVec F S16 .f32)
    (x : S32x16.Idx) (hx : x ∈ (rowR (widx L)).set) :
    ((sRow L).view.writes (Elt F) fs [⟨Rect.whole S16, outF d L f4 v⟩]) x = v (ValueIdx.ix1 ⟨(x 1).val, col16_lt x⟩)
      ∧ (x 0).val = (widx L).val := by
  refine ⟨?_, row_of_mem L x hx⟩
  rw [outF_eq, View.writes_singleton]
  have hemb : ((sRow L).view.slice (Rect.whole S16)).emb (ValueIdx.ix1 ⟨(x 1).val, col16_lt x⟩) = x := by
    show (sRow L).view.emb ((Rect.whole S16).emb (ValueIdx.ix1 ⟨(x 1).val, col16_lt x⟩)) = x
    rw [Rect.emb_whole_apply, sRow_emb]
    exact mem_row_eq L x hx
  have hw := View.write_emb_of_mem (v := (sRow L).view.slice (Rect.whole S16)) (Val := Elt F) fs v
    (Finset.mem_univ (ValueIdx.ix1 ⟨(x 1).val, col16_lt x⟩))
  rw [hemb] at hw
  rw [hw]
  rfl

/-- The count table likewise. -/
theorem cRow_out (fc : Buf (Elt F) (cLoc d))
    (f5 : Buf (Elt F) (View.loc (thrV d L) (oI : Memref sig .scVector .vmem S16 .i32).view)) (v : IVec S16 32)
    (x : S32x16.Idx) (hx : x ∈ (rowR (widx L)).set) :
    ((cRow L).view.writes (Elt F) fc [⟨Rect.whole S16, outI d L f5 v⟩]) x = v (ValueIdx.ix1 ⟨(x 1).val, col16_lt x⟩)
      ∧ (x 0).val = (widx L).val := by
  refine ⟨?_, row_of_mem L x hx⟩
  rw [outI_eq, View.writes_singleton]
  have hemb : ((cRow L).view.slice (Rect.whole S16)).emb (ValueIdx.ix1 ⟨(x 1).val, col16_lt x⟩) = x := by
    show (cRow L).view.emb ((Rect.whole S16).emb (ValueIdx.ix1 ⟨(x 1).val, col16_lt x⟩)) = x
    rw [Rect.emb_whole_apply, cRow_emb]
    exact mem_row_eq L x hx
  have hw := View.write_emb_of_mem (v := (cRow L).view.slice (Rect.whole S16)) (Val := Elt F) fc v
    (Finset.mem_univ (ValueIdx.ix1 ⟨(x 1).val, col16_lt x⟩))
  rw [hemb] at hw
  rw [hw]
  rfl

end Cert.Proof.KI

end
-- ==== Proof.KIObl.lean ====
/-
  The subcore kernel's obligation to the launch: what a call hands each SparseCore and each vector subcore and takes back,
  and the task's run restated over the holdings the launch deals a subcore — all its scratch buffers and all its semaphores,
  of which the kernel uses six and six.

  A SparseCore gets a read token of x and of t and the sixteen rows 2 i + c of the two result tables; a subcore a
  sixteenth of its SparseCore's token, halved for the two pairs of buffers, and its own row. It hands the row back at
  the task's sums: entry (w, l) of the first table is lane l of the eight float accumulators added up after the 24 chunks
  of subcore w, of the second table the same of the counts.
-/
import proofs.«207598_g57604101374094_cont_9to1_m_955_21_alg».proof.Proof.KITile
import proofs.«207598_g57604101374094_cont_9to1_m_955_21_alg».proof.Proof.KISplit
import proofs.«207598_g57604101374094_cont_9to1_m_955_21_alg».proof.Proof.KIOut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The places -/

def coordsV (c : Fin (grid0.bound 0)) (s : Fin (grid0.bound 1)) : grid0.Coords :=
  fun | 0 => c | 1 => s | ⟨_ + 2, h⟩ => absurd h (Nat.not_lt.2 (Nat.le_add_left _ _))

/-- The subcore that writes row w. -/
def Lw (w : Fin 32) : grid0.Coords := coordsV ⟨w.val % 2, Nat.mod_lt _ (by decide)⟩ ⟨w.val / 2, by have := w.isLt; show w.val / 2 < 16; omega⟩

variable [FloatOps F]

/-- The two result tables after the call: row w from subcore w's task. -/
def GS (d : Dev nD) : Buf (Elt F) (sLoc d) :=
  fun x => SpecF.sumF (SpecF.tileF (LX m d (Lw (x 0))) (LT m d (Lw (x 0))) 24) (ValueIdx.ix1 (x 1))
def GC (d : Dev nD) : Buf (Elt F) (cLoc d) :=
  fun x => SpecF.sumI (SpecF.tileF (LX m d (Lw (x 0))) (LT m d (Lw (x 0))) 24) (ValueIdx.ix1 (x 1))

/-! ## What the handshakes carry -/

def goRes (d : Dev nD) (c : Fin 2) (i : Fin 16) : sProp 𝕄 :=
  iprop((xLoc d ↦{(qT c i).left} m (xLoc d)) ∗ (xLoc d ↦{(qT c i).right} m (xLoc d))
    ∗ (tLoc d ↦{(qT c i).left} m (tLoc d)) ∗ (tLoc d ↦{(qT c i).right} m (tLoc d))
    ∗ (sLoc d ↦[(rowR (wOf c i)).set]{fullShare} m (sLoc d)) ∗ (cLoc d ↦[(rowR (wOf c i)).set]{fullShare} m (cLoc d)))
def tdRes (d : Dev nD) (c : Fin 2) (i : Fin 16) : sProp 𝕄 :=
  iprop((xLoc d ↦{(qT c i).left} m (xLoc d)) ∗ (xLoc d ↦{(qT c i).right} m (xLoc d))
    ∗ (tLoc d ↦{(qT c i).left} m (tLoc d)) ∗ (tLoc d ↦{(qT c i).right} m (tLoc d))
    ∗ (sLoc d ↦[(rowR (wOf c i)).set]{fullShare} GS m d) ∗ (cLoc d ↦[(rowR (wOf c i)).set]{fullShare} GC m d))
def stRes (d : Dev nD) (c : Fin 2) : sProp 𝕄 :=
  iprop((xLoc d ↦{qC c} m (xLoc d)) ∗ (tLoc d ↦{qC c} m (tLoc d))
    ∗ (bigSep Finset.univ fun i : Fin 16 => sLoc d ↦[(rowR (wOf c i)).set]{fullShare} m (sLoc d))
    ∗ (bigSep Finset.univ fun i : Fin 16 => cLoc d ↦[(rowR (wOf c i)).set]{fullShare} m (cLoc d)))
def dnRes (d : Dev nD) (c : Fin 2) : sProp 𝕄 :=
  iprop((xLoc d ↦{qC c} m (xLoc d)) ∗ (tLoc d ↦{qC c} m (tLoc d))
    ∗ (bigSep Finset.univ fun i : Fin 16 => sLoc d ↦[(rowR (wOf c i)).set]{fullShare} GS m d)
    ∗ (bigSep Finset.univ fun i : Fin 16 => cLoc d ↦[(rowR (wOf c i)).set]{fullShare} GC m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with | 0 => by show BI.Storable _ (stRes m d _); unfold stRes; infer_instance
  dn q d c := match q with | 0 => by show BI.Storable _ (dnRes m d _); unfold dnRes; infer_instance
  go q d c i := match q with | 0 => by show BI.Storable _ (goRes m d _ _); unfold goRes; infer_instance
  td q d c i := match q with | 0 => by show BI.Storable _ (tdRes m d _ _); unfold tdRes; infer_instance

/-! ## The task over the launch's holdings -/

section Tile

variable (d : Dev nD) (L : grid0.Coords)

abbrev cL (L : grid0.Coords) : Fin 2 := Fin.cast bound0 (L 0)
abbrev iL (L : grid0.Coords) : Fin 16 := Fin.cast bound1 (L 1)

omit [FloatOps F] in
theorem widx_wOf : widx L = wOf (cL L) (iL L) := Fin.ext rfl

omit [FloatOps F] in
theorem Lw_widx : Lw (widx L) = L := by
  have h0 : (L 0).val < 2 := (L 0).isLt
  have h1 : (L 1).val < 16 := (L 1).isLt
  funext a
  match a with
  | ⟨0, _⟩ => exact Fin.ext (show (2 * (L 1).val + (L 0).val) % 2 = (L 0).val by omega)
  | ⟨1, _⟩ => exact Fin.ext (show (2 * (L 1).val + (L 0).val) / 2 = (L 1).val by omega)
  | ⟨_ + 2, h⟩ => exact absurd h (Nat.not_lt.2 (Nat.le_add_left _ _))

omit [FloatOps F] in
/-- The six semaphores the kernel counts its copies on are among the subcore's own. -/
theorem ownSems0_six :
    (ownSems0 (thrV d L) : sProp 𝕄)
      = iprop(semVal (thrV d L, sem6) 0 ∗ semVal (thrV d L, sem7) 0 ∗ semVal (thrV d L, sem8) 0 ∗ semVal (thrV d L, sem9) 0 ∗ semVal (thrV d L, SemLoc.dma cc0_scoped0.sem) 0 ∗ semVal (thrV d L, SemLoc.dma cc0_scoped1.sem) 0
          ∗ bigSep (((((((ownCells (thrV d L)).erase (thrV d L, sem6)).erase (thrV d L, sem7)).erase (thrV d L, sem8)).erase (thrV d L, sem9)).erase (thrV d L, SemLoc.dma cc0_scoped0.sem)).erase (thrV d L, SemLoc.dma cc0_scoped1.sem)) fun g => semVal g 0) := by
  unfold SparseCore.Cfg.ownSems0
  rw [SparseCore.bigSep_erase' ((mem_ownCells (g := (thrV d L, sem6))).mpr ⟨rfl, by show (SemLoc.dma cc0_scratch6.sem : SemLoc sig).isScoped .scVector = true; decide⟩),
    SparseCore.bigSep_erase' (Finset.mem_erase.mpr ⟨(fun e => absurd (congrArg (fun g : GSem nD τ sig => g.2) e) (show (SemLoc.dma cc0_scratch7.sem : SemLoc sig) ≠ SemLoc.dma cc0_scratch6.sem by decide)), ((mem_ownCells (g := (thrV d L, sem7))).mpr ⟨rfl, by show (SemLoc.dma cc0_scratch7.sem : SemLoc sig).isScoped .scVector = true; decide⟩)⟩),
    SparseCore.bigSep_erase' (Finset.mem_erase.mpr ⟨(fun e => absurd (congrArg (fun g : GSem nD τ sig => g.2) e) (show (SemLoc.dma cc0_scratch8.sem : SemLoc sig) ≠ SemLoc.dma cc0_scratch7.sem by decide)), (Finset.mem_erase.mpr ⟨(fun e => absurd (congrArg (fun g : GSem nD τ sig => g.2) e) (show (SemLoc.dma cc0_scratch8.sem : SemLoc sig) ≠ SemLoc.dma cc0_scratch6.sem by decide)), ((mem_ownCells (g := (thrV d L, sem8))).mpr ⟨rfl, by show (SemLoc.dma cc0_scratch8.sem : SemLoc sig).isScoped .scVector = true; decide⟩)⟩)⟩),
    SparseCore.bigSep_erase' (Finset.mem_erase.mpr ⟨(fun e => absurd (congrArg (fun g : GSem nD τ sig => g.2) e) (show (SemLoc.dma cc0_scratch9.sem : SemLoc sig) ≠ SemLoc.dma cc0_scratch8.sem by decide)), (Finset.mem_erase.mpr ⟨(fun e => absurd (congrArg (fun g : GSem nD τ sig => g.2) e) (show (SemLoc.dma cc0_scratch9.sem : SemLoc sig) ≠ SemLoc.dma cc0_scratch7.sem by decide)), (Finset.mem_erase.mpr ⟨(fun e => absurd (congrArg (fun g : GSem nD τ sig => g.2) e) (show (SemLoc.dma cc0_scratch9.sem : SemLoc sig) ≠ SemLoc.dma cc0_scratch6.sem by decide)), ((mem_ownCells (g := (thrV d L, sem9))).mpr ⟨rfl, by show (SemLoc.dma cc0_scratch9.sem : SemLoc sig).isScoped .scVector = true; decide⟩)⟩)⟩)⟩),
    SparseCore.bigSep_erase' (Finset.mem_erase.mpr ⟨(fun e => absurd (congrArg (fun g : GSem nD τ sig => g.2) e) (show (SemLoc.dma cc0_scoped0.sem : SemLoc sig) ≠ SemLoc.dma cc0_scratch9.sem by decide)), (Finset.mem_erase.mpr ⟨(fun e => absurd (congrArg (fun g : GSem nD τ sig => g.2) e) (show (SemLoc.dma cc0_scoped0.sem : SemLoc sig) ≠ SemLoc.dma cc0_scratch8.sem by decide)), (Finset.mem_erase.mpr ⟨(fun e => absurd (congrArg (fun g : GSem nD τ sig => g.2) e) (show (SemLoc.dma cc0_scoped0.sem : SemLoc sig) ≠ SemLoc.dma cc0_scratch7.sem by decide)), (Finset.mem_erase.mpr ⟨(fun e => absurd (congrArg (fun g : GSem nD τ sig => g.2) e) (show (SemLoc.dma cc0_scoped0.sem : SemLoc sig) ≠ SemLoc.dma cc0_scratch6.sem by decide)), ((mem_ownCells (g := (thrV d L, SemLoc.dma cc0_scoped0.sem))).mpr ⟨rfl, by show (SemLoc.dma cc0_scoped0.sem : SemLoc sig).isScoped .scVector = true; decide⟩)⟩)⟩)⟩)⟩),
    SparseCore.bigSep_erase' (Finset.mem_erase.mpr ⟨(fun e => absurd (congrArg (fun g : GSem nD τ sig => g.2) e) (show (SemLoc.dma cc0_scoped1.sem : SemLoc sig) ≠ SemLoc.dma cc0_scoped0.sem by decide)), (Finset.mem_erase.mpr ⟨(fun e => absurd (congrArg (fun g : GSem nD τ sig => g.2) e) (show (SemLoc.dma cc0_scoped1.sem : SemLoc sig) ≠ SemLoc.dma cc0_scratch9.sem by decide)), (Finset.mem_erase.mpr ⟨(fun e => absurd (congrArg (fun g : GSem nD τ sig => g.2) e) (show (SemLoc.dma cc0_scoped1.sem : SemLoc sig) ≠ SemLoc.dma cc0_scratch8.sem by decide)), (Finset.mem_erase.mpr ⟨(fun e => absurd (congrArg (fun g : GSem nD τ sig => g.2) e) (show (SemLoc.dma cc0_scoped1.sem : SemLoc sig) ≠ SemLoc.dma cc0_scratch7.sem by decide)), (Finset.mem_erase.mpr ⟨(fun e => absurd (congrArg (fun g : GSem nD τ sig => g.2) e) (show (SemLoc.dma cc0_scoped1.sem : SemLoc sig) ≠ SemLoc.dma cc0_scratch6.sem by decide)), ((mem_ownCells (g := (thrV d L, SemLoc.dma cc0_scoped1.sem))).mpr ⟨rfl, by show (SemLoc.dma cc0_scoped1.sem : SemLoc sig).isScoped .scVector = true; decide⟩)⟩)⟩)⟩)⟩)⟩)]

omit [FloatOps F] in
/-- The six scratch buffers are among the subcore's own: they are them, at some contents, and the rest. -/
theorem ownBufs_six :
    (ownBufs (thrV d L) : sProp 𝕄)
      = iprop((∃ f, (thrV d L).loc cc0_scratch0 ↦{fullShare} f) ∗ (∃ f, (thrV d L).loc cc0_scratch1 ↦{fullShare} f) ∗ (∃ f, (thrV d L).loc cc0_scratch2 ↦{fullShare} f) ∗ (∃ f, (thrV d L).loc cc0_scratch3 ↦{fullShare} f) ∗ (∃ f, (thrV d L).loc cc0_scratch4 ↦{fullShare} f) ∗ (∃ f, (thrV d L).loc cc0_scratch5 ↦{fullShare} f)
          ∗ bigSep (((((((ownRefs (τ := τ) (.scVector (cC L) (jC L))).erase ((Proc.scVector (cC L) (jC L)).devRef cc0_scratch0)).erase ((Proc.scVector (cC L) (jC L)).devRef cc0_scratch1)).erase ((Proc.scVector (cC L) (jC L)).devRef cc0_scratch2)).erase ((Proc.scVector (cC L) (jC L)).devRef cc0_scratch3)).erase ((Proc.scVector (cC L) (jC L)).devRef cc0_scratch4)).erase ((Proc.scVector (cC L) (jC L)).devRef cc0_scratch5)) fun b => iprop(∃ f, ((d, b) : Loc nD τ sig) ↦{fullShare} f)) := by
  unfold SparseCore.Cfg.ownBufs
  refine (SparseCore.bigSep_erase' (SparseCore.Cfg.mem_ownRefs_of_owner (p := Proc.scVector (cC L) (jC L)) (b := ((Proc.scVector (cC L) (jC L)).devRef cc0_scratch0)) rfl)).trans ?_
  rw [SparseCore.bigSep_erase' (Finset.mem_erase.mpr ⟨(fun e => absurd (Proc.devRef_injective _ e) (show (cc0_scratch1 : Ref sig .scVector) ≠ cc0_scratch0 by decide)), (SparseCore.Cfg.mem_ownRefs_of_owner (p := Proc.scVector (cC L) (jC L)) (b := ((Proc.scVector (cC L) (jC L)).devRef cc0_scratch1)) rfl)⟩),
    SparseCore.bigSep_erase' (Finset.mem_erase.mpr ⟨(fun e => absurd (Proc.devRef_injective _ e) (show (cc0_scratch2 : Ref sig .scVector) ≠ cc0_scratch1 by decide)), (Finset.mem_erase.mpr ⟨(fun e => absurd (Proc.devRef_injective _ e) (show (cc0_scratch2 : Ref sig .scVector) ≠ cc0_scratch0 by decide)), (SparseCore.Cfg.mem_ownRefs_of_owner (p := Proc.scVector (cC L) (jC L)) (b := ((Proc.scVector (cC L) (jC L)).devRef cc0_scratch2)) rfl)⟩)⟩),
    SparseCore.bigSep_erase' (Finset.mem_erase.mpr ⟨(fun e => absurd (Proc.devRef_injective _ e) (show (cc0_scratch3 : Ref sig .scVector) ≠ cc0_scratch2 by decide)), (Finset.mem_erase.mpr ⟨(fun e => absurd (Proc.devRef_injective _ e) (show (cc0_scratch3 : Ref sig .scVector) ≠ cc0_scratch1 by decide)), (Finset.mem_erase.mpr ⟨(fun e => absurd (Proc.devRef_injective _ e) (show (cc0_scratch3 : Ref sig .scVector) ≠ cc0_scratch0 by decide)), (SparseCore.Cfg.mem_ownRefs_of_owner (p := Proc.scVector (cC L) (jC L)) (b := ((Proc.scVector (cC L) (jC L)).devRef cc0_scratch3)) rfl)⟩)⟩)⟩),
    SparseCore.bigSep_erase' (Finset.mem_erase.mpr ⟨(fun e => absurd (Proc.devRef_injective _ e) (show (cc0_scratch4 : Ref sig .scVector) ≠ cc0_scratch3 by decide)), (Finset.mem_erase.mpr ⟨(fun e => absurd (Proc.devRef_injective _ e) (show (cc0_scratch4 : Ref sig .scVector) ≠ cc0_scratch2 by decide)), (Finset.mem_erase.mpr ⟨(fun e => absurd (Proc.devRef_injective _ e) (show (cc0_scratch4 : Ref sig .scVector) ≠ cc0_scratch1 by decide)), (Finset.mem_erase.mpr ⟨(fun e => absurd (Proc.devRef_injective _ e) (show (cc0_scratch4 : Ref sig .scVector) ≠ cc0_scratch0 by decide)), (SparseCore.Cfg.mem_ownRefs_of_owner (p := Proc.scVector (cC L) (jC L)) (b := ((Proc.scVector (cC L) (jC L)).devRef cc0_scratch4)) rfl)⟩)⟩)⟩)⟩),
    SparseCore.bigSep_erase' (Finset.mem_erase.mpr ⟨(fun e => absurd (Proc.devRef_injective _ e) (show (cc0_scratch5 : Ref sig .scVector) ≠ cc0_scratch4 by decide)), (Finset.mem_erase.mpr ⟨(fun e => absurd (Proc.devRef_injective _ e) (show (cc0_scratch5 : Ref sig .scVector) ≠ cc0_scratch3 by decide)), (Finset.mem_erase.mpr ⟨(fun e => absurd (Proc.devRef_injective _ e) (show (cc0_scratch5 : Ref sig .scVector) ≠ cc0_scratch2 by decide)), (Finset.mem_erase.mpr ⟨(fun e => absurd (Proc.devRef_injective _ e) (show (cc0_scratch5 : Ref sig .scVector) ≠ cc0_scratch1 by decide)), (Finset.mem_erase.mpr ⟨(fun e => absurd (Proc.devRef_injective _ e) (show (cc0_scratch5 : Ref sig .scVector) ≠ cc0_scratch0 by decide)), (SparseCore.Cfg.mem_ownRefs_of_owner (p := Proc.scVector (cC L) (jC L)) (b := ((Proc.scVector (cC L) (jC L)).devRef cc0_scratch5)) rfl)⟩)⟩)⟩)⟩)⟩)]

/-- The subcore's row of each table, once its last copies have landed, is the table of the tasks' sums on that row. -/
theorem sRow_GS (f4 : Buf (Elt F) (View.loc (thrV d L) (oF : Memref sig .scVector .vmem S16 .f32).view)) :
    (sLoc d ↦[(rowR (widx L)).set]{fullShare} (sRow L).view.writes (Elt F) (m (sLoc d)) [⟨Rect.whole S16, outF d L f4 (SpecF.sumF (SpecF.tileF (LX m d L) (LT m d L) 24))⟩] : sProp 𝕄)
      = sLoc d ↦[(rowR (widx L)).set]{fullShare} GS m d :=
  pointsTo_congr fun x hx => by
    obtain ⟨h1, h2⟩ := sRow_out d L (m (sLoc d)) f4 (SpecF.sumF (SpecF.tileF (LX m d L) (LT m d L) 24)) x hx
    have hx0 : x 0 = widx L := Fin.ext h2
    rw [h1]; unfold GS; rw [hx0, Lw_widx]; rfl
theorem cRow_GC (f5 : Buf (Elt F) (View.loc (thrV d L) (oI : Memref sig .scVector .vmem S16 .i32).view)) :
    (cLoc d ↦[(rowR (widx L)).set]{fullShare} (cRow L).view.writes (Elt F) (m (cLoc d)) [⟨Rect.whole S16, outI d L f5 (SpecF.sumI (SpecF.tileF (LX m d L) (LT m d L) 24))⟩] : sProp 𝕄)
      = cLoc d ↦[(rowR (widx L)).set]{fullShare} GC m d :=
  pointsTo_congr fun x hx => by
    obtain ⟨h1, h2⟩ := cRow_out d L (m (cLoc d)) f5 (SpecF.sumI (SpecF.tileF (LX m d L) (LT m d L) 24)) x hx
    have hx0 : x 0 = widx L := Fin.ext h2
    rw [h1]; unfold GC; rw [hx0, Lw_widx]; rfl

set_option maxHeartbeats 4000000 in
theorem tile_body (hF : (K (F := F)).Facts) (O : CellTallies nD τ sig (HIx 1)) (W : Waits sig (HIx 1)) (hO : ∀ g, O g none = 0) :
    (iprop(levAts (K (F := F)).L (K (F := F)).lev ∗ emp ∗ goRes m d (cL L) (iL L)
        ∗ scopedBufs (thrV d L) ∗ scopedSems0 (thrV d L) ∗ owes (thrV d L) O W) : sProp 𝕄)
      ⊢ wp frame (wpE (defs₀ (F := F)) 𝒱₀ (thrV d L) none) Set.univ
          (cc0__sc_body L xV (Memref.isWhole_whole _) tV (Memref.isWhole_whole _) sV (Memref.isWhole_whole _) cV' (Memref.isWhole_whole _)
            b0 (Memref.isWhole_whole _) b1 (Memref.isWhole_whole _) b2 (Memref.isWhole_whole _) b3 (Memref.isWhole_whole _)
            oF (Memref.isWhole_whole _) oI (Memref.isWhole_whole _) cc0_scratch6 cc0_scratch7 cc0_scratch8 cc0_scratch9 cc0_scoped0 cc0_scoped1)
          fun _ => iprop(tdRes m d (cL L) (iL L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cC L) (jC L), SparseCore.Cfg.scopedSems0_V (Val := Elt F) d (cC L) (jC L), ownSems0_six, ownBufs_six]
  unfold goRes tdRes
  have h := tile_run m d L (qT (cL L) (iL L)).left (qT (cL L) (iL L)).right (qT (cL L) (iL L)).left (qT (cL L) (iL L)).right
    (m (sLoc d)) (m (cLoc d)) iprop((bigSep (((((((ownRefs (τ := τ) (.scVector (cC L) (jC L))).erase ((Proc.scVector (cC L) (jC L)).devRef cc0_scratch0)).erase ((Proc.scVector (cC L) (jC L)).devRef cc0_scratch1)).erase ((Proc.scVector (cC L) (jC L)).devRef cc0_scratch2)).erase ((Proc.scVector (cC L) (jC L)).devRef cc0_scratch3)).erase ((Proc.scVector (cC L) (jC L)).devRef cc0_scratch4)).erase ((Proc.scVector (cC L) (jC L)).devRef cc0_scratch5)) fun b => iprop(∃ f, ((d, b) : Loc nD τ sig) ↦{fullShare} f))
      ∗ bigSep (((((((ownCells (thrV d L)).erase (thrV d L, sem6)).erase (thrV d L, sem7)).erase (thrV d L, sem8)).erase (thrV d L, sem9)).erase (thrV d L, SemLoc.dma cc0_scoped0.sem)).erase (thrV d L, SemLoc.dma cc0_scoped1.sem)) fun g => semVal g 0) O W hO
  rw [pts_sRow (F := F) d L, pts_cRow (F := F) d L] at h
  simp only [pts_sRow (F := F) d L, pts_cRow (F := F) d L, sRow_GS m d L, cRow_GC m d L] at h
  rw [widx_wOf L] at h
  refine BI.Entails.trans ?_ (h.trans (wp_mono frame _ _ fun _ => ?_))
  · show (iprop(_ ∗ _ ∗ _ ∗ _ ∗ _ ∗ _) : sProp 𝕄) ⊢ (iprop(_ ∗ _) : sProp 𝕄)
    iintro ⟨Hlv, -, ⟨Hx0, Hx1, Ht0, Ht1, Hs, Hc⟩, ⟨H0, H1, H2, H3, H4, H5, Hb⟩, ⟨Hm6, Hm7, Hm8, Hm9, Hms0, Hms1, Hsm⟩, HO⟩
    isplitl [Hlv]; · iexact Hlv
    isplitl [Hx0]; · iexact Hx0
    isplitl [Hx1]; · iexact Hx1
    isplitl [Ht0]; · iexact Ht0
    isplitl [Ht1]; · iexact Ht1
    isplitl [Hs]; · iexact Hs
    isplitl [Hc]; · iexact Hc
    isplitl [H0]; · iexact H0
    isplitl [H1]; · iexact H1
    isplitl [H2]; · iexact H2
    isplitl [H3]; · iexact H3
    isplitl [H4]; · iexact H4
    isplitl [H5]; · iexact H5
    isplitl [Hm6]; · iexact Hm6
    isplitl [Hm7]; · iexact Hm7
    isplitl [Hm8]; · iexact Hm8
    isplitl [Hm9]; · iexact Hm9
    isplitl [Hms0]; · iexact Hms0
    isplitl [Hms1]; · iexact Hms1
    isplitl [HO]; · iexact HO
    isplitl [Hb]; · iexact Hb
    iexact Hsm
  · show (iprop(_ ∗ _) : sProp 𝕄) ⊢ (iprop(_ ∗ _) : sProp 𝕄)
    iintro ⟨Hx0, Hx1, Ht0, Ht1, ⟨%f4, Hs⟩, ⟨%f5, Hc⟩, H0, H1, H2, H3, H4, H5, Hm6, Hm7, Hm8, Hm9, Hms0, Hms1, HW, Hb, Hsm⟩
    isplitl [Hx0 Hx1 Ht0 Ht1 Hs Hc]
    · isplitl [Hx0]; · iexact Hx0
      isplitl [Hx1]; · iexact Hx1
      isplitl [Ht0]; · iexact Ht0
      isplitl [Ht1]; · iexact Ht1
      isplitl [Hs]; · iexact Hs
      iexact Hc
    isplitl [H0 H1 H2 H3 H4 H5 Hb]
    · isplitl [H0]; · iexact H0
      isplitl [H1]; · iexact H1
      isplitl [H2]; · iexact H2
      isplitl [H3]; · iexact H3
      isplitl [H4]; · iexact H4
      isplitl [H5]; · iexact H5
      iexact Hb
    isplitl [Hm6 Hm7 Hm8 Hm9 Hms0 Hms1 Hsm]
    · isplitl [Hm6]; · iexact Hm6
      isplitl [Hm7]; · iexact Hm7
      isplitl [Hm8]; · iexact Hm8
      isplitl [Hm9]; · iexact Hm9
      isplitl [Hms0]; · iexact Hms0
      isplitl [Hms1]; · iexact Hms1
      iexact Hsm
    iexact HW

end Tile

/-! ## The launch theorem's obligation -/

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) tV (Memref.isWhole_whole _) sV (Memref.isWhole_whole _) cV' (Memref.isWhole_whole _)
          b0 (Memref.isWhole_whole _) b1 (Memref.isWhole_whole _) b2 (Memref.isWhole_whole _) b3 (Memref.isWhole_whole _)
          oF (Memref.isWhole_whole _) oI (Memref.isWhole_whole _) cc0_scratch6 cc0_scratch7 cc0_scratch8 cc0_scratch9 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF O W hO).trans (wp_mono frame _ _ fun _ => obl_post)

end Cert.Proof.KI

end
-- ==== Proof.KITc.lean ====
/-
  The TensorCore's pipelined region of the idealized kernel: the staging cells' ghost state among the proof's
  resource algebra, the region's proof data (the two scratch words carried from point to point), the body at a
  point, and the region's run from the arrays it reads to the two words it writes.
-/
import proofs.«207598_g57604101374094_cont_9to1_m_955_21_alg».proof.Proof.KIAmbient
import proofs.«207598_g57604101374094_cont_9to1_m_955_21_alg».proof.Proof.Gen.KernelIdeal.Skeleton
import proofs.«207598_g57604101374094_cont_9to1_m_955_21_alg».proof.Proof.Gen.KernelIdeal.Launch
import proofs.«207598_g57604101374094_cont_9to1_m_955_21_alg».proof.Proof.Gen.KernelIdeal.Points
import Idealize.ShloMosaic.Lib.Pipeline.Regions

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The staging cells' rounds: the middle factor of the proof's algebra. -/
def ER : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance ER_landsIn : (ER : Emb UP 𝕄).LandsIn (upEmb : UEmb _ 𝕄) := by unfold ER; infer_instance

/-! ## The blocks the region reads and the two scratch words from point to point -/

abbrev adm : (p : Fin 1) → (pcfgs (F := F) p).Adm := fun p => (cfgs p).toPCfg_adm

-- The two arrays the region reads and, at the region's entry, the two it writes: one contents per device.
variable (X : (c : Dev nD) → Buf (Elt F) ((T c : Thread nD τ).loc main_arg0)) (Tt : (c : Dev nD) → Buf (Elt F) ((T c : Thread nD τ).loc main_arg1))
variable (Y0 : (c : Dev nD) → Buf (Elt F) ((T c : Thread nD τ).loc main_v1_0)) (Y1 : (c : Dev nD) → Buf (Elt F) ((T c : Thread nD τ).loc main_v1_1))

/-- The block of 512 rows of the first array that point `n` reads, -/
def xb (c : Dev nD) (n : Fin cfg1.N) : Vec F S512x4096 .f32 := ((cfg1.win 0).blk n).view.read (Elt F) (X c)
/-- and of the second. -/
def tb (c : Dev nD) (n : Fin cfg1.N) : Vec F S512x4096 .i32 := ((cfg1.win 1).blk n).view.read (Elt F) (Tt c)

/-- The two scratch words before point `n`: both 0.0 before the first point; a point adds its block's two lane sums. -/
def acc (c : Dev nD) : (n : ℕ) → n ≤ cfg1.N → F .f32 × F .f32
  | 0, _ => (Scalar.ofBits .f32 0x00000000#32, Scalar.ofBits .f32 0x00000000#32)
  | n + 1, h => (k1_pay2 (xb X c ⟨n, h⟩) (tb Tt c ⟨n, h⟩) (acc c n (Nat.le_of_succ_le h)).1, k1_pay3 (tb Tt c ⟨n, h⟩) (acc c n (Nat.le_of_succ_le h)).2)

/-- What the first output word ends at: the first scratch word after the last point; -/
def tcSumF (c : Dev nD) : F .f32 := (acc X Tt c cfg1.N le_rfl).1
/-- and the second. -/
def tcCntF (c : Dev nD) : F .f32 := (acc X Tt c cfg1.N le_rfl).2

/-! ## The proof data -/

/-- The two scratch operands as memrefs. -/
abbrev scM0 : Memref sig .tc .smem S1 .f32 := Memref.whole cc1_scratch0
abbrev scM1 : Memref sig .tc .smem S1 .f32 := Memref.whole cc1_scratch1

/-- The recorded pairs the TensorCore may hold through the region: those at or below the level a finished first call leaves. -/
def recB (c : Dev nD) : Set (SemLoc sig × HIx 1) := {p | (K (F := F)).lev ((T c : Thread nD τ), p.1) p.2 ≤ 8}

/-- Between points the two scratch words are held, and after the first point they are the running sums. -/
def Φc (c : Dev nD) (n : Fin (cfg1.N + 1)) : sProp 𝕄 :=
  iprop(∃ f0 f1, owns (c : Thread nD τ) scM0 fullShare f0 ∗ owns (c : Thread nD τ) scM1 fullShare f1
    ∗ ⌜n.val ≠ 0 → f0 = (fun _ => (acc X Tt c n.val (Nat.le_of_lt_succ n.isLt)).1) ∧ f1 = (fun _ => (acc X Tt c n.val (Nat.le_of_lt_succ n.isLt)).2)⌝)

/-- The region's proof data on core `c`: the arrays as the region finds them; after the body at a point the inputs'
    buffers at their blocks, the outputs' at the scratch words the point leaves; the scratch words as the invariant;
    nothing owed; full shares; the recorded pairs bounded as at entry. -/
def dats (_ : Fin 1) (c : Dev nD) : Dat τ (Elt F) (HIx 1) ℕ UU ℕ cfg1 c where
  A w := match w with
    | ⟨0, _⟩ => X c
    | ⟨1, _⟩ => Tt c
    | ⟨2, _⟩ => Y0 c
    | ⟨3, _⟩ => Y1 c
  after w n := match w with
    | ⟨0, _⟩ => xb X c n
    | ⟨1, _⟩ => tb Tt c n
    | ⟨2, _⟩ => fun _ => (acc X Tt c (n.val + 1) n.isLt).1
    | ⟨3, _⟩ => fun _ => (acc X Tt c (n.val + 1) n.isLt).2
  Φ n := Φc X Tt c n
  q _ := fullShare
  owed _ := 0
  recorded _ := recB (F := F) c

/-! ## The region's run -/

/-- What the launch's staging-cell ghost state gives core `c`: the cells' rounds and the duty tokens of the one pipeline. -/
def G_tc (c : Dev nD) : sProp 𝕄 :=
  iprop(Pipeline.cellsGhost (Pipeline.pin (pcfgs (F := F)) adm) ER 0 c ∗ Pipeline.toksInit (Pipeline.pin (pcfgs (F := F)) adm) ER 0 c)

/-- What the TensorCore holds when it enters the region. -/
def regPre (c : Dev nD) : sProp 𝕄 :=
  iprop((((T c : Thread nD τ).loc main_arg0) ↦{fullShare} X c) ∗ (((T c : Thread nD τ).loc main_arg1) ↦{fullShare} Tt c)
    ∗ (((T c : Thread nD τ).loc main_v1_0) ↦{fullShare} Y0 c) ∗ (((T c : Thread nD τ).loc main_v1_1) ↦{fullShare} Y1 c)
    ∗ ∃ W, ⌜(K (F := F)).WBelow (T c) W 8⌝ ∗ owes (T c : Thread nD τ) (0 : CellTallies nD τ sig (HIx 1)) W)

/-- What it holds when it leaves it. -/
def regPost (c : Dev nD) : sProp 𝕄 :=
  iprop((((T c : Thread nD τ).loc main_arg0) ↦{fullShare} X c) ∗ (((T c : Thread nD τ).loc main_arg1) ↦{fullShare} Tt c)
    ∗ (((T c : Thread nD τ).loc main_v1_0) ↦{fullShare} (fun _ => tcSumF X Tt c)) ∗ (((T c : Thread nD τ).loc main_v1_1) ↦{fullShare} (fun _ => tcCntF X Tt c))
    ∗ ∃ W, ⌜(K (F := F)).WBelow (T c) W 8⌝ ∗ owes (T c : Thread nD τ) (0 : CellTallies nD τ sig (HIx 1)) W)

end Cert.Proof.KI.Tc

end
-- ==== Proof.KITcBody.lean ====
/-
  The TensorCore body of the idealized kernel at one grid point, in each of its three control cases: the first point (both scratch words zeroed, then added to), a middle point (added to), the last point (added to, then copied to the two output words).
-/
import proofs.«207598_g57604101374094_cont_9to1_m_955_21_alg».proof.Proof.KITc

import Idealize.ShloMosaic.Lib.Pipeline.Value

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

theorem hz1 : (![0] : Fin 1 → Nat) = fun _ => 0 := funext fun a => by fin_cases a; rfl
theorem hz2 : (![0, 0] : Fin 2 → Nat) = fun _ => 0 := funext fun a => by fin_cases a <;> rfl

/-- The condition of the body's first conditional (the point is the first), from the grid coordinates. -/
abbrev cond0 (i : grid1.Coords) : Prop := (Scalar.cmpi .ne (Scalar.extui (Scalar.cmpi .eq (BitVec.ofNat 32 (i 0).val) 0#32)) 0#32) = 1#1

/-- One word stored through the whole one-word shape reads back as that word. -/
theorem read_word1 {sp : Space} (v : View sig .tc sp S1 .f32) (f : v.ty.Contents (Elt F)) (w : S1.Idx → Elt F .f32) :
    v.read (Elt F) (v.writes (Elt F) f [⟨Rect.unit ![0] S1.size inb_S1_S1_0, w⟩]) = w := by
  rw [View.read_writes_eq_canon _ _ _ (fun y => ⟨_, List.mem_singleton_self _, View.mem_set_unit_zero hz1 inb_S1_S1_0 y⟩), View.canon_unit_zero hz1]
theorem read_word2 {sp : Space} (v : View sig .tc sp S1x1 .f32) (f : v.ty.Contents (Elt F)) (w : S1x1.Idx → Elt F .f32) :
    v.read (Elt F) (v.writes (Elt F) f [⟨Rect.unit ![0, 0] S1x1.size inb_S1x1_S1x1_0_0, w⟩]) = w := by
  rw [View.read_writes_eq_canon _ _ _ (fun y => ⟨_, List.mem_singleton_self _, View.mem_set_unit_zero hz2 inb_S1x1_S1x1_0_0 y⟩), View.canon_unit_zero hz2]

/-- A MIDDLE POINT: neither conditional taken; each scratch word has its block's lane sum added. -/
theorem kernel_B (c : Dev nD) (i : grid1.Coords) (arg1 : Memref sig .tc .vmem S512x4096 .f32) (harg1 : arg1.IsWhole) (arg2 : Memref sig .tc .vmem S512x4096 .i32) (harg2 : arg2.IsWhole) (arg3 : Memref sig .tc .smem S1x1 .f32) (harg3 : arg3.IsWhole) (arg4 : Memref sig .tc .smem S1x1 .f32) (harg4 : arg4.IsWhole) (arg5 : Memref sig .tc .smem S1 .f32) (harg5 : arg5.IsWhole) (arg6 : Memref sig .tc .smem S1 .f32) (harg6 : arg6.IsWhole)
    (hc0 : ¬cond0 i) (hc1 : ¬k1_cond2 i = 1#1) (x0 : Vec F S512x4096 .f32) (t0 : Vec F S512x4096 .i32) (a0 a1 : F .f32) (E : Set ℕ) (Kk : PUnit → sProp 𝕄) :
    iprop(owns (c : Thread nD τ) arg1 fullShare x0 ∗ owns (c : Thread nD τ) arg2 fullShare t0
        ∗ owns (c : Thread nD τ) arg5 fullShare (fun _ => a0) ∗ owns (c : Thread nD τ) arg6 fullShare (fun _ => a1)
        ∗ (iprop(owns (c : Thread nD τ) arg1 fullShare x0 ∗ owns (c : Thread nD τ) arg2 fullShare t0
            ∗ owns (c : Thread nD τ) arg5 fullShare (fun _ => k1_pay2 x0 t0 a0) ∗ owns (c : Thread nD τ) arg6 fullShare (fun _ => k1_pay3 t0 a1)) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%f5, %hf5, H5⟩, ⟨%f6, %hf6, H6⟩, Hk⟩
  obtain rfl := harg1.eq_unread hf0; obtain rfl := harg2.eq_unread hf1
  obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr; swap; · iexact H5
    ipureintro
    rw [read_word1]
    sl_unfold_words
    simp only [View.readAt_eq_ld, harg1.read_unread, harg2.read_unread, harg5.read_unread, View.ld_unit_zero (S := S512x4096) hz2]
    rfl
  · iexists _; isplitr; swap; · iexact H6
    ipureintro
    rw [read_word1]
    sl_unfold_words
    simp only [View.readAt_eq_ld, harg2.read_unread, harg6.read_unread, View.ld_unit_zero (S := S512x4096) hz2]
    rfl

/-- The last store through the whole one-word shape decides what it reads, whatever was stored before. -/
theorem read_word1c {sp : Space} (v : View sig .tc sp S1 .f32) (f : v.ty.Contents (Elt F)) (w : S1.Idx → Elt F .f32) (L : List (View.Piece (Elt F) S1 .f32)) :
    v.read (Elt F) (v.writes (Elt F) f (⟨Rect.unit ![0] S1.size inb_S1_S1_0, w⟩ :: L)) = w := by
  rw [View.read_writes_eq_canon _ _ _ (fun y => ⟨_, List.mem_cons_self, View.mem_set_unit_zero hz1 inb_S1_S1_0 y⟩), View.canon_cons_unit_zero hz1]

/-- THE FIRST POINT: both scratch words zeroed, then each has its block's lane sum added. -/
theorem kernel_A (c : Dev nD) (i : grid1.Coords) (arg1 : Memref sig .tc .vmem S512x4096 .f32) (harg1 : arg1.IsWhole) (arg2 : Memref sig .tc .vmem S512x4096 .i32) (harg2 : arg2.IsWhole) (arg3 : Memref sig .tc .smem S1x1 .f32) (harg3 : arg3.IsWhole) (arg4 : Memref sig .tc .smem S1x1 .f32) (harg4 : arg4.IsWhole) (arg5 : Memref sig .tc .smem S1 .f32) (harg5 : arg5.IsWhole) (arg6 : Memref sig .tc .smem S1 .f32) (harg6 : arg6.IsWhole)
    (hc0 : cond0 i) (hc1 : ¬k1_cond2 i = 1#1) (x0 : Vec F S512x4096 .f32) (t0 : Vec F S512x4096 .i32) (E : Set ℕ) (Kk : PUnit → sProp 𝕄) :
    iprop(owns (c : Thread nD τ) arg1 fullShare x0 ∗ owns (c : Thread nD τ) arg2 fullShare t0
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare t0
            ∗ owns (c : Thread nD τ) arg5 fullShare (fun _ => k1_pay2 x0 t0 (Scalar.ofBits .f32 0x00000000#32))
            ∗ owns (c : Thread nD τ) arg6 fullShare (fun _ => k1_pay3 t0 (Scalar.ofBits .f32 0x00000000#32))) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%d5, %f5, %hf5, H5⟩, ⟨%d6, %f6, %hf6, H6⟩, Hk⟩
  obtain rfl := harg1.eq_unread hf0; obtain rfl := harg2.eq_unread hf1
  obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr; swap; · iexact H5
    ipureintro
    rw [read_word1c]
    sl_unfold_words
    simp only [View.readAt_eq_ld, harg1.read_unread, harg2.read_unread, View.ld_unit_zero (S := S512x4096) hz2, View.readCov_unit_zero (S := S1) _ hz1]
    rfl
  · iexists _; isplitr; swap; · iexact H6
    ipureintro
    rw [read_word1c]
    sl_unfold_words
    simp only [View.readAt_eq_ld, harg2.read_unread, View.ld_unit_zero (S := S512x4096) hz2, View.readCov_unit_zero (S := S1) _ hz1]
    rfl

/-- THE LAST POINT: each scratch word has its block's lane sum added, then is copied to its output word. -/
theorem kernel_C (c : Dev nD) (i : grid1.Coords) (arg1 : Memref sig .tc .vmem S512x4096 .f32) (harg1 : arg1.IsWhole) (arg2 : Memref sig .tc .vmem S512x4096 .i32) (harg2 : arg2.IsWhole) (arg3 : Memref sig .tc .smem S1x1 .f32) (harg3 : arg3.IsWhole) (arg4 : Memref sig .tc .smem S1x1 .f32) (harg4 : arg4.IsWhole) (arg5 : Memref sig .tc .smem S1 .f32) (harg5 : arg5.IsWhole) (arg6 : Memref sig .tc .smem S1 .f32) (harg6 : arg6.IsWhole)
    (hc0 : ¬cond0 i) (hc1 : k1_cond2 i = 1#1) (x0 : Vec F S512x4096 .f32) (t0 : Vec F S512x4096 .i32) (a0 a1 : F .f32) (E : Set ℕ) (Kk : PUnit → sProp 𝕄) :
    iprop(owns (c : Thread nD τ) arg1 fullShare x0 ∗ owns (c : Thread nD τ) arg2 fullShare t0
        ∗ (∃ d, owns (c : Thread nD τ) arg3 fullShare d) ∗ (∃ d, owns (c : Thread nD τ) arg4 fullShare d)
        ∗ owns (c : Thread nD τ) arg5 fullShare (fun _ => a0) ∗ owns (c : Thread nD τ) arg6 fullShare (fun _ => a1)
        ∗ (iprop(owns (c : Thread nD τ) arg1 fullShare x0 ∗ owns (c : Thread nD τ) arg2 fullShare t0
            ∗ owns (c : Thread nD τ) arg3 fullShare (fun _ => k1_pay2 x0 t0 a0) ∗ owns (c : Thread nD τ) arg4 fullShare (fun _ => k1_pay3 t0 a1)
            ∗ owns (c : Thread nD τ) arg5 fullShare (fun _ => k1_pay2 x0 t0 a0) ∗ owns (c : Thread nD τ) arg6 fullShare (fun _ => k1_pay3 t0 a1)) -∗ Kk ⟨⟩))
      ⊢ wp frame (wpE (defs₀ (F := F)) Variants.none c none) E (cc1__tc_body i arg1 harg1 arg2 harg2 arg3 harg3 arg4 harg4 arg5 harg5 arg6 harg6) Kk := by
  simp only [cc1__tc_body_eq_skeleton]; unfold cc1__tc_body_skel
  unfold owns
  iintro ⟨⟨%f0, %hf0, H0⟩, ⟨%f1, %hf1, H1⟩, ⟨%d3, %f3, %hf3, H3⟩, ⟨%d4, %f4, %hf4, H4⟩, ⟨%f5, %hf5, H5⟩, ⟨%f6, %hf6, H6⟩, Hk⟩
  obtain rfl := harg1.eq_unread hf0; obtain rfl := harg2.eq_unread hf1
  obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr; swap; · iexact H3
    ipureintro
    rw [read_word2]
    sl_unfold_words
    simp only [View.readAt_eq_ld, harg1.read_unread, harg2.read_unread, harg5.read_unread, View.ld_unit_zero (S := S512x4096) hz2, View.readCov_unit_zero (S := S1) _ hz1]
    rfl
  isplitl [H4]
  · iexists _; isplitr; swap; · iexact H4
    ipureintro
    rw [read_word2]
    sl_unfold_words
    simp only [View.readAt_eq_ld, harg2.read_unread, harg6.read_unread, View.ld_unit_zero (S := S512x4096) hz2, View.readCov_unit_zero (S := S1) _ hz1]
    rfl
  isplitl [H5]
  · iexists _; isplitr; swap; · iexact H5
    ipureintro
    rw [read_word1c]
    sl_unfold_words
    simp only [View.readAt_eq_ld, harg1.read_unread, harg2.read_unread, harg5.read_unread, View.ld_unit_zero (S := S512x4096) hz2]
    rfl
  · iexists _; isplitr; swap; · iexact H6
    ipureintro
    rw [read_word1c]
    sl_unfold_words
    simp only [View.readAt_eq_ld, harg2.read_unread, harg6.read_unread, View.ld_unit_zero (S := S512x4096) hz2]
    rfl

end Cert.Proof.KI.Tc

end
-- ==== Proof.KITcObl.lean ====
/-
  The body obligation of the TensorCore's pipelined region: at every grid point the body takes the two scratch words from the sums before the point to the sums after it, and at the last point copies them to the output words.
-/
import proofs.«207598_g57604101374094_cont_9to1_m_955_21_alg».proof.Proof.KITcBody

import Idealize.ShloMosaic.Lib.Pipeline.Value

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the arrays the region reads and, at its entry, the two it writes: one contents per device
variable (X : (c : Dev nD) → Buf (Elt F) ((T c : Thread nD τ).loc main_arg0)) (Tt : (c : Dev nD) → Buf (Elt F) ((T c : Thread nD τ).loc main_arg1))
variable (Y0 : (c : Dev nD) → Buf (Elt F) ((T c : Thread nD τ).loc main_v1_0)) (Y1 : (c : Dev nD) → Buf (Elt F) ((T c : Thread nD τ).loc main_v1_1))

/-! ## The control cases over the grid -/

/-- The first conditional is taken at the first point only; -/
theorem hcond0 : ∀ n : Fin cfg1.N, cond0 (grid1.coords n) ↔ n.val = 0 :=
  (by decide +kernel : ∀ n : Fin grid1.N, cond0 (grid1.coords n) ↔ n.val = 0)
/-- the second at the last point only. -/
theorem hcond2 : ∀ n : Fin cfg1.N, k1_cond2 (grid1.coords n) = 1#1 ↔ n.val = 25 :=
  (by decide +kernel : ∀ n : Fin grid1.N, k1_cond2 (grid1.coords n) = 1#1 ↔ n.val = 25)

/-- The output windows are idle but at the last point, -/
theorem idle2 : ∀ n : Fin cfg1.N, idle1 2 (grid1.coords n) = !decide (n.val = 25) :=
  (by decide +kernel : ∀ n : Fin grid1.N, idle1 2 (grid1.coords n) = !decide (n.val = 25))
theorem idle3 : ∀ n : Fin cfg1.N, idle1 3 (grid1.coords n) = !decide (n.val = 25) :=
  (by decide +kernel : ∀ n : Fin grid1.N, idle1 3 (grid1.coords n) = !decide (n.val = 25))
/-- where alone they are written back. -/
theorem flush2 : ∀ n : Fin cfg1.N, (win1 2).flush n = decide (n.val = 25) :=
  (by decide +kernel : ∀ n : Fin grid1.N, win1_2.flush n = decide (n.val = 25))
theorem flush3 : ∀ n : Fin cfg1.N, (win1 3).flush n = decide (n.val = 25) :=
  (by decide +kernel : ∀ n : Fin grid1.N, win1_3.flush n = decide (n.val = 25))

/-! ## What the body finds in the inputs' staging buffers -/

theorem before_0 (c : Dev nD) (n : Fin cfg1.N) (d) : (dats X Tt Y0 Y1 0 c).before 0 n d = xb X c n := by
  unfold Dat.before; rw [if_pos (fetch1_0 n)]; rfl
theorem before_1 (c : Dev nD) (n : Fin cfg1.N) (d) : (dats X Tt Y0 Y1 0 c).before 1 n d = tb Tt c n := by
  unfold Dat.before; rw [if_pos (fetch1_1 n)]; rfl

/-! ## The scratch words' recursion, unfolded one step -/

theorem acc_succ (c : Dev nD) (n : Fin cfg1.N) :
    acc X Tt c (n.val + 1) n.isLt
      = (k1_pay2 (xb X c n) (tb Tt c n) (acc X Tt c n.val (Nat.le_of_lt n.isLt)).1, k1_pay3 (tb Tt c n) (acc X Tt c n.val (Nat.le_of_lt n.isLt)).2) := rfl
theorem acc_zero (c : Dev nD) (n : ℕ) (h0 : n = 0) (h : n ≤ cfg1.N) :
    acc X Tt c n h = (Scalar.ofBits .f32 0x00000000#32, Scalar.ofBits .f32 0x00000000#32) := by subst h0; rfl
theorem acc_congr (c : Dev nD) {n n' : ℕ} (e : n = n') (h : n ≤ cfg1.N) (h' : n' ≤ cfg1.N) : acc X Tt c n h = acc X Tt c n' h' := by
  subst e; rfl

/-! ## The body obligation -/

theorem body_obligation (c : Dev nD) : BodyObligation (dats X Tt Y0 Y1 0 c) (defs₀ (F := F)) 𝒱₀ none Set.univ := fun n => by
  rw [bigSep_W1, bigSep_W1]
  simp only [before_0, before_1]
  rw [show (dats X Tt Y0 Y1 0 c).owesAt none n.succ = (dats X Tt Y0 Y1 0 c).owesAt none n.castSucc from rfl,
    show (dats X Tt Y0 Y1 0 c).after 0 n = xb X c n from rfl, show (dats X Tt Y0 Y1 0 c).after 1 n = tb Tt c n from rfl,
    show (dats X Tt Y0 Y1 0 c).Φ n.castSucc = Φc X Tt c n.castSucc from rfl, show (dats X Tt Y0 Y1 0 c).Φ n.succ = Φc X Tt c n.succ from rfl]
  show _ ⊢ wp frame (wpE defs₀ 𝒱₀ c.tc none) Set.univ (bodyAt1 n) _
  unfold bodyAt1 Φc
  rw [idle2 n, flush2 n]
  try rw [idle3 n]
  try rw [flush3 n]
  by_cases h0 : n.val = 0
  · -- the first point
    have h25 : ¬n.val = 25 := by omega
    simp only [decide_eq_false h25, Bool.not_false]
    iintro ⟨⟨%f0, %f1, Hs0, Hs1, -⟩, HO, ⟨%d0, H0⟩, ⟨%d1, H1⟩, H2, H3⟩
    iapply (kernel_A c (grid1.coords n) _ _ _ _ _ _ _ _ _ _ _ _ ((hcond0 n).mpr h0) (fun h => h25 ((hcond2 n).mp h)) (xb X c n) (tb Tt c n) Set.univ _)
    isplitl [H0]; · iexact H0
    isplitl [H1]; · iexact H1
    isplitl [Hs0]; · iexists _; iexact Hs0
    isplitl [Hs1]; · iexists _; iexact Hs1
    iintro ⟨H0, H1, Hs0, Hs1⟩
    isplitl [Hs0 Hs1]
    · iexists _, _; isplitl [Hs0]; · iexact Hs0
      isplitl [Hs1]; · iexact Hs1
      ipureintro; intro _
      rw [show acc X Tt c n.succ.val (Nat.le_of_lt_succ n.succ.isLt) = acc X Tt c (n.val + 1) n.isLt from rfl, acc_succ,
        acc_zero X Tt c n.val h0]
      exact ⟨rfl, rfl⟩
    isplitl [HO]; · iexact HO
    isplitl [H0]; · iexact H0
    isplitl [H1]; · iexact H1
    isplitl [H2]; · iexact H2
    iexact H3
  · by_cases h25 : n.val = 25
    · -- the last point
      simp only [decide_eq_true h25, Bool.not_true]
      rw [show (dats X Tt Y0 Y1 0 c).after 2 n = (fun _ => (acc X Tt c (n.val + 1) n.isLt).1) from rfl,
        show (dats X Tt Y0 Y1 0 c).after 3 n = (fun _ => (acc X Tt c (n.val + 1) n.isLt).2) from rfl, acc_succ]
      iintro ⟨⟨%f0, %f1, Hs0, Hs1, %hf⟩, HO, ⟨%d0, H0⟩, ⟨%d1, H1⟩, ⟨%d2, H2⟩, ⟨%d3, H3⟩⟩
      obtain ⟨rfl, rfl⟩ := hf h0
      iapply (kernel_C c (grid1.coords n) _ _ _ _ _ _ _ _ _ _ _ _ (fun h => h0 ((hcond0 n).mp h)) ((hcond2 n).mpr h25) (xb X c n) (tb Tt c n) _ _ Set.univ _)
      isplitl [H0]; · iexact H0
      isplitl [H1]; · iexact H1
      isplitl [H2]; · iexists _; iexact H2
      isplitl [H3]; · iexists _; iexact H3
      isplitl [Hs0]; · iexact Hs0
      isplitl [Hs1]; · iexact Hs1
      iintro ⟨H0, H1, H2, H3, Hs0, Hs1⟩
      isplitl [Hs0 Hs1]
      · iexists _, _; isplitl [Hs0]; · iexact Hs0
        isplitl [Hs1]; · iexact Hs1
        ipureintro; intro _
        rw [show acc X Tt c n.succ.val (Nat.le_of_lt_succ n.succ.isLt) = acc X Tt c (n.val + 1) n.isLt from rfl, acc_succ]
        exact ⟨rfl, rfl⟩
      isplitl [HO]; · iexact HO
      isplitl [H0]; · iexact H0
      isplitl [H1]; · iexact H1
      isplitl [H2]; · iexact H2
      iexact H3
    · -- a middle point
      simp only [decide_eq_false h25, Bool.not_false]
      iintro ⟨⟨%f0, %f1, Hs0, Hs1, %hf⟩, HO, ⟨%d0, H0⟩, ⟨%d1, H1⟩, H2, H3⟩
      obtain ⟨rfl, rfl⟩ := hf h0
      iapply (kernel_B c (grid1.coords n) _ _ _ _ _ _ _ _ _ _ _ _ (fun h => h0 ((hcond0 n).mp h)) (fun h => h25 ((hcond2 n).mp h)) (xb X c n) (tb Tt c n) _ _ Set.univ _)
      isplitl [H0]; · iexact H0
      isplitl [H1]; · iexact H1
      isplitl [Hs0]; · iexact Hs0
      isplitl [Hs1]; · iexact Hs1
      iintro ⟨H0, H1, Hs0, Hs1⟩
      isplitl [Hs0 Hs1]
      · iexists _, _; isplitl [Hs0]; · iexact Hs0
        isplitl [Hs1]; · iexact Hs1
        ipureintro; intro _
        rw [show acc X Tt c n.succ.val (Nat.le_of_lt_succ n.succ.isLt) = acc X Tt c (n.val + 1) n.isLt from rfl, acc_succ]
        exact ⟨rfl, rfl⟩
      isplitl [HO]; · iexact HO
      isplitl [H0]; · iexact H0
      isplitl [H1]; · iexact H1
      isplitl [H2]; · iexact H2
      iexact H3

end Cert.Proof.KI.Tc

end
-- ==== Proof.KITcRegion.lean ====
/-
  The TensorCore's pipelined region of the idealized kernel, run: from the two arrays it reads, the two one-word arrays it writes and the staging cells' ghost state, to the same arrays with the two output words at the sums of the 26 points.
-/
import proofs.«207598_g57604101374094_cont_9to1_m_955_21_alg».proof.Proof.KITcObl

import Idealize.ShloMosaic.Lib.Pipeline.Value

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

-- the arrays the region reads and, at its entry, the two it writes: one contents per device
variable (X : (c : Dev nD) → Buf (Elt F) ((T c : Thread nD τ).loc main_arg0)) (Tt : (c : Dev nD) → Buf (Elt F) ((T c : Thread nD τ).loc main_arg1))
variable (Y0 : (c : Dev nD) → Buf (Elt F) ((T c : Thread nD τ).loc main_v1_0)) (Y1 : (c : Dev nD) → Buf (Elt F) ((T c : Thread nD τ).loc main_v1_1))

/-! ## The arrays after the region -/

theorem hshare (c : Dev nD) (w : Fin cfg1.W) : (dats X Tt Y0 Y1 0 c).share w = fullShare :=
  (dats X Tt Y0 Y1 0 c).share_full (fun _ => rfl) w

/-- The last point, where alone the outputs are written back. -/
abbrev t25 : Fin cfg1.N := ⟨25, by rw [show cfg1.N = 26 from N_1]; decide⟩

theorem val_of_flush2 (n : Fin cfg1.N) (hf : (cfg1.win 2).flush n = true) : n.val = 25 := by
  have := (flush2 n).symm.trans hf; simpa using this
theorem val_of_flush3 (n : Fin cfg1.N) (hf : (cfg1.win 3).flush n = true) : n.val = 25 := by
  have := (flush3 n).symm.trans hf; simpa using this

/-- Every index of a one-word array is in the block the last point writes back. -/
theorem cover2 (c : Dev nD) (i : ((cfg1.win 2).arr.view.loc (c.tc : Thread nD τ)).2.ty.Idx) :
    ∃ n : Fin cfg1.N, (cfg1.win 2).flush n = true ∧ i ∈ ((cfg1.win 2).blk n).view.set :=
  ⟨t25, (flush2 t25).trans (by decide), by
    show i ∈ ((View.whole main_v1_0).slice (win1_2.rect t25)).set
    rw [View.set_slice_whole, Rect.mem_set_unit]
    intro a
    have h0 : (i 0 : Nat) < 1 := (i 0).isLt
    have h1 : (i 1 : Nat) < 1 := (i 1).isLt
    match a with
    | ⟨0, _⟩ => show win1_2.index t25 0 * win1_2.size 0 ≤ (i 0 : Nat) ∧ (i 0 : Nat) < win1_2.index t25 0 * win1_2.size 0 + win1_2.xsize (grid1.coords t25) 0
                rw [show win1_2.index t25 0 * win1_2.size 0 = 0 from by decide +kernel, show win1_2.xsize (grid1.coords t25) 0 = 1 from by decide +kernel]; omega
    | ⟨1, _⟩ => show win1_2.index t25 1 * win1_2.size 1 ≤ (i 1 : Nat) ∧ (i 1 : Nat) < win1_2.index t25 1 * win1_2.size 1 + win1_2.xsize (grid1.coords t25) 1
                rw [show win1_2.index t25 1 * win1_2.size 1 = 0 from by decide +kernel, show win1_2.xsize (grid1.coords t25) 1 = 1 from by decide +kernel]; omega⟩
theorem cover3 (c : Dev nD) (i : ((cfg1.win 3).arr.view.loc (c.tc : Thread nD τ)).2.ty.Idx) :
    ∃ n : Fin cfg1.N, (cfg1.win 3).flush n = true ∧ i ∈ ((cfg1.win 3).blk n).view.set :=
  ⟨t25, (flush3 t25).trans (by decide), by
    show i ∈ ((View.whole main_v1_1).slice (win1_3.rect t25)).set
    rw [View.set_slice_whole, Rect.mem_set_unit]
    intro a
    have h0 : (i 0 : Nat) < 1 := (i 0).isLt
    have h1 : (i 1 : Nat) < 1 := (i 1).isLt
    match a with
    | ⟨0, _⟩ => show win1_3.index t25 0 * win1_3.size 0 ≤ (i 0 : Nat) ∧ (i 0 : Nat) < win1_3.index t25 0 * win1_3.size 0 + win1_3.xsize (grid1.coords t25) 0
                rw [show win1_3.index t25 0 * win1_3.size 0 = 0 from by decide +kernel, show win1_3.xsize (grid1.coords t25) 0 = 1 from by decide +kernel]; omega
    | ⟨1, _⟩ => show win1_3.index t25 1 * win1_3.size 1 ≤ (i 1 : Nat) ∧ (i 1 : Nat) < win1_3.index t25 1 * win1_3.size 1 + win1_3.xsize (grid1.coords t25) 1
                rw [show win1_3.index t25 1 * win1_3.size 1 = 0 from by decide +kernel, show win1_3.xsize (grid1.coords t25) 1 = 1 from by decide +kernel]; omega⟩

/-- The first output array ends holding the first scratch word after the last point, -/
theorem final2 (c : Dev nD) : (dats X Tt Y0 Y1 0 c).arrAt 2 cfg1.N = fun _ => tcSumF X Tt c :=
  (dats X Tt Y0 Y1 0 c).arrAt_eq_of_cover 2 (fun _ => tcSumF X Tt c) (fun n hf => by
    have h := val_of_flush2 n hf
    funext j
    show (acc X Tt c (n.val + 1) n.isLt).1 = (acc X Tt c cfg1.N le_rfl).1
    rw [acc_congr X Tt c (show n.val + 1 = cfg1.N from by rw [h]; exact N_1.symm)]) (cover2 c)
/-- and the second the second. -/
theorem final3 (c : Dev nD) : (dats X Tt Y0 Y1 0 c).arrAt 3 cfg1.N = fun _ => tcCntF X Tt c :=
  (dats X Tt Y0 Y1 0 c).arrAt_eq_of_cover 3 (fun _ => tcCntF X Tt c) (fun n hf => by
    have h := val_of_flush3 n hf
    funext j
    show (acc X Tt c (n.val + 1) n.isLt).2 = (acc X Tt c cfg1.N le_rfl).2
    rw [acc_congr X Tt c (show n.val + 1 = cfg1.N from by rw [h]; exact N_1.symm)]) (cover3 c)

/-! ## The region as a segment of @main -/

variable (lv : GSem nD τ sig → HIx 1 → ℕ)

-- the segment's fields are stated over the pinned configuration, which unfolds to the printed one
set_option backward.isDefEq.respectTransparency.types false in
/-- THE REGION: the generated layout, no semaphore of the kernel's own, the body obligation; entered from the four
    arrays and the TensorCore's tallies, left with the two output words at the sums. Nothing enters the invariant but
    the scratch words, nothing bypasses. -/
def reg0 : Pipeline.RegionSeg (pcfgs (F := F)) adm (dats X Tt Y0 Y1) none defs₀ 𝒱₀ (K (F := F)).L lv 0 where
  win := launch1.win.to₀
  block_pos := launch1.block_pos
  stage_whole := launch1.stage_whole
  K := PEmpty
  osem := fun k => k.elim
  ho := Pipeline.OwnSemFacts.none _
  hbody c := (body_obligation X Tt Y0 Y1 c).loose
  hwaits := Pipeline.hwaits_of_owed_zero _ _ _ _ (K (F := F)).L lv 0 fun _ _ => rfl
  pre c := regPre X Tt Y0 Y1 c
  post c := regPost X Tt c
  X _ := iprop(emp)
  Y _ := iprop(emp)
  Z _ := iprop(emp)
  hentry c := by
    rw [Pipeline.arrays_eq (Pipeline.pin (pcfgs (F := F)) adm) (dats X Tt Y0 Y1) 0 c launch1.arr_whole (hshare X Tt Y0 Y1 c), bigSep_W1]
    unfold regPre
    iintro ⟨⟨Hx, Ht, Hy0, Hy1, %W, %hW, HO⟩, -, -⟩
    imodintro
    isplitl [Hx Ht Hy0 Hy1]
    · isplitl [Hx]; · iexact Hx
      isplitl [Ht]; · iexact Ht
      isplitl [Hy0]; · iexact Hy0
      iexact Hy1
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p (Finset.mem_coe.mp hp))
      iexact HO
    isplitr <;> iempintro
  hin c := by
    rw [scopedRest1_eq]
    show _ ⊢ Φc X Tt c 0
    unfold Φc
    simp only [owns_whole]
    iintro ⟨-, -, ⟨%f0, H0⟩, ⟨%f1, H1⟩⟩
    iexists f0, f1
    isplitl [H0]; · iexact H0
    isplitl [H1]; · iexact H1
    ipureintro; intro h; exact absurd (Fin.val_zero _) h
  hout c := by
    rw [Pipeline.ownSems0_none, scopedRest1_eq]
    show Φc X Tt c (Fin.last cfg1.N) ⊢ _
    unfold Φc
    simp only [owns_whole]
    iintro ⟨%f0, %f1, H0, H1, -⟩
    isplitr; · iempintro
    isplitr; · iempintro
    isplitl [H0]; · iexists f0; iexact H0
    iexists f1; iexact H1
  hexit c := by
    rw [Pipeline.arrays_eq (Pipeline.pin (pcfgs (F := F)) adm) (dats X Tt Y0 Y1) 0 c launch1.arr_whole (hshare X Tt Y0 Y1 c), bigSep_W1]
    rw [show (dats X Tt Y0 Y1 0 c).arrAt 0 cfg1.N = X c from (dats X Tt Y0 Y1 0 c).arrAt_in 0 rfl _,
      show (dats X Tt Y0 Y1 0 c).arrAt 1 cfg1.N = Tt c from (dats X Tt Y0 Y1 0 c).arrAt_in 1 rfl _, final2, final3]
    unfold regPost
    iintro ⟨⟨Hx, Ht, Hy0, Hy1⟩, HO, -, -⟩
    imodintro
    isplitl [Hx]; · iexact Hx
    isplitl [Ht]; · iexact Ht
    isplitl [Hy0]; · iexact Hy0
    isplitl [Hy1]; · iexact Hy1
    unfold Pipeline.Dat.owesAt Pipeline.owesWithin
    icases HO with ⟨%W, %hW, HO⟩
    iexists W; isplitr; swap; · iexact HO
    ipureintro
    intro p hp
    rcases hW (Finset.mem_coe.mpr hp) with h | ⟨w, s, rfl⟩
    · exact h
    · exact Nat.zero_le _

/-! ## The region's run -/

-- as for the segment
set_option backward.isDefEq.respectTransparency.types false in
/-- The region in the pipeline's own label signature. -/
theorem region_wp₀ (c : Dev nD) :
    iprop(levAts (K (F := F)).L lv ∗ boundary (T c : Thread nD τ) ∗ regPre X Tt Y0 Y1 c ∗ G_tc (F := F) c)
      ⊢ wp frame (wpE (D (F := F)) 𝒱 (T c) none) Set.univ (Prog.op (TpuEff.customCall (Pipeline.entry 0) ()) fun _ => Prog.ret PUnit.unit)
          fun _ => iprop(boundary (T c : Thread nD τ) ∗ regPost X Tt c) := by
  have h := Pipeline.RegionSeg.wp (pcfgs (F := F)) adm (dats X Tt Y0 Y1) none cellOf_inj ER defs₀ 𝒱₀ (K (F := F)).L lv
    (reg0 X Tt Y0 Y1 lv) c none (fun _ h => nomatch h) (α := PUnit) (fun _ => Prog.ret PUnit.unit) (fun _ => iprop(boundary (T c : Thread nD τ) ∗ regPost X Tt c))
  rw [show (reg0 X Tt Y0 Y1 lv).post c = regPost X Tt c from rfl, show (reg0 X Tt Y0 Y1 lv).pre c = regPre X Tt Y0 Y1 c from rfl] at h
  refine BI.Entails.trans ?_ h
  unfold G_tc
  show (iprop(_ ∗ _ ∗ _ ∗ _ ∗ _) : sProp 𝕄) ⊢ iprop(_ ∗ _ ∗ _ ∗ _ ∗ _ ∗ _)
  iintro ⟨Hl, Hb, Hp, Hg, Ht⟩
  isplitr
  · iintro ⟨Hb, Hp⟩; rw [wp_ret]; imodintro
    isplitl [Hb]; · iexact Hb
    iexact Hp
  isplitl [Hb]; · iexact Hb
  isplitl [Hp]; · iexact Hp
  isplitl [Hl]; · iexact Hl
  isplitl [Hg]; · iexact Hg
  iexact Ht

/-- The lifted call is the call of the lifted label. -/
theorem lift_call : (SparseCore.liftProg (Q := 1) (Prog.op (TpuEff.customCall (Pipeline.entry 0) ()) fun _ => Prog.ret PUnit.unit)
      : Prog (TpuEff nD τ sig (Elt F) (SparseCore.Sig (ΛP (F := F)) 1) .tc) PUnit)
    = Prog.lift (.customCall (SparseCore.inner (Pipeline.entry 0)) ()) := rfl

/-- The TensorCore's second call of @main, from the level facts, the region boundary, the four arrays with the core's
    tallies and the staging cells' ghost state: it terminates at the boundary with the arrays it read unchanged and
    the two output words at the sums. -/
theorem region_wp (c : Dev nD) :
    iprop(levAts (K (F := F)).L lv ∗ boundary (T c : Thread nD τ) ∗ regPre X Tt Y0 Y1 c ∗ G_tc (F := F) c)
      ⊢ wp frame (wpE ((K (F := F)).defs D) 𝒱 (T c) none) Set.univ (Prog.lift (.customCall (SparseCore.inner (Pipeline.entry 0)) ()))
          fun _ => iprop(boundary (T c : Thread nD τ) ∗ regPost X Tt c) := by
  rw [← lift_call]
  exact (region_wp₀ X Tt Y0 Y1 lv c).trans ((K (F := F)).wp_liftProg D 𝒱 (T c) Set.univ none _ _)

end Cert.Proof.KI.Tc

end
-- ==== Proof.KITcFund.lean ====
/-
  The staging cells' launch element of the idealized kernel's proof, dealt to the cores.
-/
import proofs.«207598_g57604101374094_cont_9to1_m_955_21_alg».proof.Proof.KITc

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The launch's staging-cell element gives every core its cells' rounds and duty tokens. -/
theorem fund_tc :
    (BI.own ((ER (F := F)) (initOf (Pipeline.cells cfgs cellOf_inj) (Pipeline.launchToks cfgs cellOf_inj))) : sProp 𝕄)
      ⊢ iprop(|==> bigSep Finset.univ fun c : Dev nD => G_tc (F := F) c) := by
  refine (Pipeline.fund_ghost cfgs (ER (F := F)) cellOf_inj).trans (bupd_mono ?_)
  unfold G_tc
  rw [bigSep_sep']
  refine sep_mono (bigSep_mono fun c _ => ?_) (bigSep_mono fun c _ => ?_)
  · rw [show (Finset.univ : Finset (Fin 1)) = {0} from rfl, bigSep_singleton]; exact Idealize.SL.BI.Entails.refl _
  · rw [show (Finset.univ : Finset (Fin 1)) = {0} from rfl, bigSep_singleton]; exact Idealize.SL.BI.Entails.refl _

end Cert.Proof.KI.Tc

end
-- ==== Proof.KITcAux.lean ====
/-
  What the TensorCore owes after the one SparseCore call: nothing.
-/
import proofs.«207598_g57604101374094_cont_9to1_m_955_21_alg».proof.Proof.KITc

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- There is one SparseCore call, so after it the TensorCore owes no start signal. -/
theorem Otc_one (d : Dev nD) : (K (F := F)).Otc (nD := nD) d 1 = 0 := by
  unfold SparseCore.Cfg.Otc
  exact Finset.sum_eq_zero fun q _ => if_neg (by have := q.isLt; omega)

end Cert.Proof.KI.Tc

end
-- ==== Proof.KITcSplitU.lean ====
/-
  The launch element of the idealized kernel's proof, split: owning the triple of the handshakes' rounds, the staging cells' rounds and the counters gives the first two, each through its own embedding.
-/
import proofs.«207598_g57604101374094_cont_9to1_m_955_21_alg».proof.Proof.KITc

import Idealize.ShloMosaic.Lib.Pipeline.Kit

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- Owning the proof's whole user component at a triple is owning the handshakes' rounds and the staging cells' rounds
    apart (the counters' part is let go). -/
theorem ownU_split (a : UH) (b : UP) (c : Counters) :
    (ownU ((a, (b, c)) : UU) : sProp 𝕄) ⊢ iprop(BI.own ((EH (F := F)) a) ∗ BI.own ((ER (F := F)) b)) := by
  iintro Hu
  ihave H := (ownU_pair a (b, c)) $$ Hu
  icases H with ⟨Ha, Hbc⟩
  ihave H2 := (own_pair_emb (embR (nD := nD) (τ := τ) (sig := sig) (Ix := HIx 1) (Val := Elt F) (Name := ℕ) (Lvl := ℕ) (A := UH) (B := UP × Counters)) b c) $$ Hbc
  icases H2 with ⟨Hb, -⟩
  isplitl [Ha]; · iexact Ha
  iexact Hb

end Cert.Proof.KI.Tc

end
-- ==== Proof.KITail.lean ====
/-
  @main's host tail of the idealized kernel: the twelve host operations after the TensorCore's region as a list, @main as the two calls followed by that list, the list's run within a set of whole buffers, and the result buffer as the operations' composed term of the four buffers they read.
-/
import proofs.«207598_g57604101374094_cont_9to1_m_955_21_alg».proof.Proof.KIAmbient
import Idealize.ShloMosaic.Lib.StableHlo.Run
import Idealize.ShloMosaic.Lib.Pipeline.Frame

noncomputable section

namespace Cert.Proof.KI.Tail

open Cert.KernelIdeal Cert.KernelIdeal.Gen
open Cert.Proof.KI

open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## @main's last twelve operations -/

/-- The host operations after the TensorCore's region, in order, as @main spells them. -/
abbrev tailOps : List (HloOp τ sig (Elt F)) :=
  [ StableHlo.reshape main_v1_0 main_v2 rfl shapeCasts_S1x1_S_,
    StableHlo.nullary main_cst (constant S_ .f32 0x00000000#32),
    StableHlo.binary main_v0_0 main_cst main_v3 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
    StableHlo.binary main_v2 main_v3 main_v4 (addf : (⟨S_, .f32⟩ : BufTy).Contents (Elt F) → (⟨S_, .f32⟩ : BufTy).Contents (Elt F) → (⟨S_, .f32⟩ : BufTy).Contents (Elt F)),
    StableHlo.reshape main_v1_1 main_v5 rfl shapeCasts_S1x1_S_,
    StableHlo.nullary main_c (constantI S_ 32 0#32),
    StableHlo.binary main_v0_1 main_c main_v6 ((fun x v => Host.reduce IntOp.addi x v reducesTo_S32x16_S_d0_1 h_S_) : (⟨S32x16, .i32⟩ : BufTy).Contents (Elt F) → (⟨S_, .i32⟩ : BufTy).Contents (Elt F) → (⟨S_, .i32⟩ : BufTy).Contents (Elt F)),
    StableHlo.unary main_v6 main_v7 (sitofp .f32 : (⟨S_, .i32⟩ : BufTy).Contents (Elt F) → (⟨S_, .f32⟩ : BufTy).Contents (Elt F)),
    StableHlo.binary main_v5 main_v7 main_v8 (addf : (⟨S_, .f32⟩ : BufTy).Contents (Elt F) → (⟨S_, .f32⟩ : BufTy).Contents (Elt F) → (⟨S_, .f32⟩ : BufTy).Contents (Elt F)),
    StableHlo.nullary main_cst_0 (constant S_ .f32 0x3E800000#32),
    StableHlo.binary main_cst_0 main_v4 main_v9 (mulf : (⟨S_, .f32⟩ : BufTy).Contents (Elt F) → (⟨S_, .f32⟩ : BufTy).Contents (Elt F) → (⟨S_, .f32⟩ : BufTy).Contents (Elt F)),
    StableHlo.binary main_v9 main_v8 main_v10 (Host.divf : (⟨S_, .f32⟩ : BufTy).Contents (Elt F) → (⟨S_, .f32⟩ : BufTy).Contents (Elt F) → (⟨S_, .f32⟩ : BufTy).Contents (Elt F)) ]

/-- @main is the SparseCore call, the TensorCore's region, then those twelve. -/
theorem main_eq (d : Dev nD) :
    main (F := F) d = (do
      sc.run d 0
      Prog.lift (.customCall (SparseCore.inner (Pipeline.entry 0)) ())
      StableHlo.seq tailOps) := rfl

/-- Every operation names TensorCore references only, -/
theorem tail_sub : (tailOps : List (HloOp τ sig (Elt F))).Forall fun op => op.bufs ⊆ tcRefs τ sig :=
  ⟨reshape_bufs_sub .., nullary_bufs_sub .., binary_bufs_sub .., binary_bufs_sub .., reshape_bufs_sub .., nullary_bufs_sub .., binary_bufs_sub .., unary_bufs_sub .., binary_bufs_sub .., nullary_bufs_sub .., binary_bufs_sub .., binary_bufs_sub ..⟩
/-- so unscoped ones only; -/
theorem tail_sub_uc : ∀ op ∈ (tailOps : List (HloOp τ sig (Elt F))), op.bufs ⊆ Pipeline.ucRefs τ sig := fun op h =>
  Pipeline.sub_ucRefs op ((List.forall_iff_forall_mem.mp tail_sub) op h)
/-- and none allocates. -/
theorem tail_fresh : ∀ op ∈ (tailOps : List (HloOp τ sig (Elt F))), op.fresh = ∅ := by
  intro _ h; (repeat (cases h with | head => rfl | tail _ h => ?_)); exact nomatch h

/-! ## Their run -/

/-- THE TAIL'S RUN, within any set of whole buffers containing every operation's: from the boundary and the set at `V`
    to the boundary and the set at the operations' fold of `V`. -/
theorem tail_wp_on (d : Dev nD) (S : Finset (DevRef τ sig)) (hS : ∀ op ∈ (tailOps : List (HloOp τ sig (Elt F))), op.bufs ⊆ S)
    (V : Valuation τ sig (Elt F)) {β : Type}
    (k : PUnit → Prog (TpuEff nD τ sig (Elt F) (SparseCore.Sig (ΛP (F := F)) 1) .tc) β) {Kk : β → sProp 𝕄} :
    iprop(boundary (d.tc : Thread nD τ) ∗ (held (d.tc : Thread nD τ) S V : sProp 𝕄))
      ⊢ iprop(((boundary (d.tc : Thread nD τ) ∗ (held (d.tc : Thread nD τ) S (after tailOps V) : sProp 𝕄))
                -∗ wp frame (wpE ((K (F := F)).defs D) 𝒱 d.tc none) Set.univ (k ⟨⟩) Kk)
        -∗ wp frame (wpE ((K (F := F)).defs D) 𝒱 d.tc none) Set.univ (seq tailOps >>= k) Kk) :=
  wp_seq 𝒱 none Set.univ d S k tailOps hS tail_fresh V

/-- The same within the TensorCore's unscoped buffers. -/
theorem tail_wp (d : Dev nD) (V : Valuation τ sig (Elt F)) {β : Type}
    (k : PUnit → Prog (TpuEff nD τ sig (Elt F) (SparseCore.Sig (ΛP (F := F)) 1) .tc) β) {Kk : β → sProp 𝕄} :
    iprop(boundary (d.tc : Thread nD τ) ∗ (held (d.tc : Thread nD τ) (Pipeline.ucRefs τ sig) V : sProp 𝕄))
      ⊢ iprop(((boundary (d.tc : Thread nD τ) ∗ (held (d.tc : Thread nD τ) (Pipeline.ucRefs τ sig) (after tailOps V) : sProp 𝕄))
                -∗ wp frame (wpE ((K (F := F)).defs D) 𝒱 d.tc none) Set.univ (k ⟨⟩) Kk)
        -∗ wp frame (wpE ((K (F := F)).defs D) 𝒱 d.tc none) Set.univ (seq tailOps >>= k) Kk) :=
  tail_wp_on d (Pipeline.ucRefs τ sig) tail_sub_uc V k

/-! ## What they compute -/

/-- The result buffer after the twelve, as the operations' composed term of the four buffers they read. -/
theorem tail_result (V : Valuation τ sig (Elt F)) :
    after tailOps V (Proc.devRef .tc main_v10)
      = Host.divf
          (mulf (constant S_ .f32 0x3E800000#32)
            (addf (shapeCast S_ (V (Proc.devRef .tc main_v1_0)) shapeCasts_S1x1_S_)
              (Host.reduceAdd (V (Proc.devRef .tc main_v0_0)) (constant S_ .f32 0x00000000#32) reducesTo_S32x16_S_d0_1 h_S_)))
          (addf (shapeCast S_ (V (Proc.devRef .tc main_v1_1)) shapeCasts_S1x1_S_)
            (sitofp .f32 (Host.reduce IntOp.addi (V (Proc.devRef .tc main_v0_1)) (constantI S_ 32 0#32) reducesTo_S32x16_S_d0_1 h_S_))) := by
  after_results <;> rfl

/-- The two argument arrays are not written. -/
theorem tail_keeps0 (V : Valuation τ sig (Elt F)) : after tailOps V (Proc.devRef .tc main_arg0) = V (Proc.devRef .tc main_arg0) := by
  after_results <;> rfl
theorem tail_keeps1 (V : Valuation τ sig (Elt F)) : after tailOps V (Proc.devRef .tc main_arg1) = V (Proc.devRef .tc main_arg1) := by
  after_results <;> rfl

end Cert.Proof.KI.Tail

end
-- ==== Proof.KIMain.lean ====
/-
  The idealized kernel's run: the launch theorem applied. A SparseCore's operands split among its sixteen subcores and
  their results gather back; the launch element funds the handshakes and the TensorCore pipeline's staging cells;
  @main on the TensorCore starts the subcore kernel and waits for it, runs the TensorCore kernel's region over rows
  0 … 13311, and the twelve host operations that add the pieces up and divide.
-/
import proofs.«207598_g57604101374094_cont_9to1_m_955_21_alg».proof.Proof.KIObl
import proofs.«207598_g57604101374094_cont_9to1_m_955_21_alg».proof.Proof.KITcRegion
import proofs.«207598_g57604101374094_cont_9to1_m_955_21_alg».proof.Proof.KITcFund
import proofs.«207598_g57604101374094_cont_9to1_m_955_21_alg».proof.Proof.KITcAux
import proofs.«207598_g57604101374094_cont_9to1_m_955_21_alg».proof.Proof.KITcSplitU
import proofs.«207598_g57604101374094_cont_9to1_m_955_21_alg».proof.Proof.KITail

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## A SparseCore's operands among its subcores -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun i => goRes m d (Fin.cast nCore_zero c) i), bigSep_tasks (F := F) (fun i => tdRes m d (Fin.cast nCore_zero c) i)]
  generalize Fin.cast nCore_zero c = c'
  have hx := tile_shares (F := F) (xLoc d) (m (xLoc d)) c'
  have ht := tile_shares (F := F) (tLoc d) (m (tLoc d)) c'
  rw [bigSep_sep'] at hx ht
  unfold stRes goRes tdRes dnRes
  simp only [bigSep_sep']
  iintro ⟨Hx, Ht, Hs, Hc⟩
  ihave Hx' := hx.1 $$ Hx
  ihave Ht' := ht.1 $$ Ht
  icases Hx' with ⟨Hxd, Hxl, Hxr⟩
  icases Ht' with ⟨Htd, Htl, Htr⟩
  imodintro
  isplitl [Hxl Hxr Htl Htr Hs Hc]
  · isplitl [Hxl]; · iexact Hxl
    isplitl [Hxr]; · iexact Hxr
    isplitl [Htl]; · iexact Htl
    isplitl [Htr]; · iexact Htr
    isplitl [Hs]; · iexact Hs
    iexact Hc
  iintro ⟨Hxl, Hxr, Htl, Htr, Hs, Hc⟩
  isplitl [Hxd Hxl Hxr]
  · iapply hx.2
    isplitl [Hxd]; · iexact Hxd
    isplitl [Hxl]; · iexact Hxl
    iexact Hxr
  isplitl [Htd Htl Htr]
  · iapply ht.2
    isplitl [Htd]; · iexact Htd
    isplitl [Htl]; · iexact Htl
    iexact Htr
  isplitl [Hs]; · iexact Hs
  iexact Hc

/-! ## @main on the TensorCore: the six buffers the two calls touch -/

abbrev rX : DevRef τ sig := Proc.devRef .tc (main_arg0 : Ref sig .tc)
abbrev rT : DevRef τ sig := Proc.devRef .tc (main_arg1 : Ref sig .tc)
abbrev rS : DevRef τ sig := Proc.devRef .tc (main_v0_0 : Ref sig .tc)
abbrev rC : DevRef τ sig := Proc.devRef .tc (main_v0_1 : Ref sig .tc)
abbrev rY0 : DevRef τ sig := Proc.devRef .tc (main_v1_0 : Ref sig .tc)
abbrev rY1 : DevRef τ sig := Proc.devRef .tc (main_v1_1 : Ref sig .tc)
abbrev rOut : DevRef τ sig := Proc.devRef .tc (main_v10 : Ref sig .tc)
abbrev S6 : Finset (DevRef τ sig) := {rX, rT, rS, rC, rY0, rY1}
abbrev y0Loc (d : Dev nD) : Loc nD τ sig := (SparseCore.T d).loc main_v1_0
abbrev y1Loc (d : Dev nD) : Loc nD τ sig := (SparseCore.T d).loc main_v1_1
abbrev outLoc (d : Dev nD) : Loc nD τ sig := (SparseCore.T d).loc main_v10

omit [FloatOps F] in
theorem S6_sub : S6 ⊆ Pipeline.ucRefs τ sig := by decide

omit [FloatOps F] in
theorem held_S6 (d : Dev nD) (W : Valuation τ sig (Elt F)) :
    (held (SparseCore.T d) S6 W : sProp 𝕄) = iprop((xLoc d ↦{fullShare} W rX) ∗ (tLoc d ↦{fullShare} W rT) ∗ (sLoc d ↦{fullShare} W rS) ∗ (cLoc d ↦{fullShare} W rC)
      ∗ (y0Loc d ↦{fullShare} W rY0) ∗ (y1Loc d ↦{fullShare} W rY1)) := by
  unfold held S6
  rw [SparseCore.bigSep_insert' (by decide), SparseCore.bigSep_insert' (by decide), SparseCore.bigSep_insert' (by decide),
    SparseCore.bigSep_insert' (by decide), SparseCore.bigSep_insert' (by decide), bigSep_singleton]

/-- The arrays as families over the device, as the TensorCore kernel's region takes them. -/
abbrev Xf : (c : Dev nD) → Buf (Elt F) (xLoc c) := fun c => m (xLoc c)
abbrev Tf : (c : Dev nD) → Buf (Elt F) (tLoc c) := fun c => m (tLoc c)
abbrev Y0f : (c : Dev nD) → Buf (Elt F) (y0Loc c) := fun c => m (y0Loc c)
abbrev Y1f : (c : Dev nD) → Buf (Elt F) (y1Loc c) := fun c => m (y1Loc c)

/-- The launch valuation, and the valuation after both calls: the four results in place. -/
def V0 (d : Dev nD) : Valuation τ sig (Elt F) := fun b => m (d, b)
def V2 (d : Dev nD) : Valuation τ sig (Elt F) :=
  Function.update (Function.update (Function.update (Function.update (V0 m d) rS (GS m d)) rC (GC m d))
    rY0 (fun _ => Tc.tcSumF (Xf m) (Tf m) d)) rY1 (fun _ => Tc.tcCntF (Xf m) (Tf m) d)

theorem V2_rY1 (d : Dev nD) : V2 m d rY1 = fun _ => Tc.tcCntF (Xf m) (Tf m) d := Function.update_self _ _ _
theorem V2_rY0 (d : Dev nD) : V2 m d rY0 = fun _ => Tc.tcSumF (Xf m) (Tf m) d := by
  unfold V2; rw [Function.update_of_ne (show rY0 ≠ rY1 by decide)]; exact Function.update_self _ _ _
theorem V2_rC (d : Dev nD) : V2 m d rC = GC m d := by
  unfold V2; rw [Function.update_of_ne (show rC ≠ rY1 by decide), Function.update_of_ne (show rC ≠ rY0 by decide)]; exact Function.update_self _ _ _
theorem V2_rS (d : Dev nD) : V2 m d rS = GS m d := by
  unfold V2; rw [Function.update_of_ne (show rS ≠ rY1 by decide), Function.update_of_ne (show rS ≠ rY0 by decide), Function.update_of_ne (show rS ≠ rC by decide)]
  exact Function.update_self _ _ _
theorem V2_other (d : Dev nD) (b : DevRef τ sig) (h1 : b ≠ rY1) (h0 : b ≠ rY0) (hc : b ≠ rC) (hs : b ≠ rS) : V2 m d b = V0 m d b := by
  unfold V2; rw [Function.update_of_ne h1, Function.update_of_ne h0, Function.update_of_ne hc, Function.update_of_ne hs]
theorem V2_rX (d : Dev nD) : V2 m d rX = m (xLoc d) := V2_other m d rX (by decide) (by decide) (by decide) (by decide)
theorem V2_rT (d : Dev nD) : V2 m d rT = m (tLoc d) := V2_other m d rT (by decide) (by decide) (by decide) (by decide)

theorem held_rest (d : Dev nD) :
    (held (SparseCore.T d) (Pipeline.ucRefs τ sig \ S6) (V2 m d) : sProp 𝕄) = held (SparseCore.T d) (Pipeline.ucRefs τ sig \ S6) (V0 m d) :=
  held_congr (SparseCore.T d) fun b hb => by
    have hn : b ∉ S6 := (Finset.mem_sdiff.mp hb).2
    exact V2_other m d b (fun e => hn (e ▸ by decide)) (fun e => hn (e ▸ by decide)) (fun e => hn (e ▸ by decide)) (fun e => hn (e ▸ by decide))

/-! ## The call's operands and results, over both SparseCores -/

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st0_eq (d : Dev nD) :
    (bigSep Finset.univ fun c : Fin ((K (F := F)).nCore 0) => (P m).st 0 d c)
      = iprop((bigSep Finset.univ fun c : Fin 2 => xLoc d ↦{qC c} m (xLoc d)) ∗ (bigSep Finset.univ fun c : Fin 2 => tLoc d ↦{qC c} m (tLoc d))
          ∗ (sLoc d ↦{fullShare} m (sLoc d)) ∗ (cLoc d ↦{fullShare} m (cLoc d))) := by
  show (bigSep Finset.univ fun c : Fin ((K (F := F)).nCore 0) => stRes m d (Fin.cast nCore_zero c)) = _
  rw [bigSep_cores (F := F) (fun c => stRes m d c), sRows_split, cRows_split]
  unfold stRes
  simp only [bigSep_sep']
theorem dn0_eq (d : Dev nD) :
    (bigSep Finset.univ fun c : Fin ((K (F := F)).nCore 0) => (P m).dn 0 d c)
      = iprop((bigSep Finset.univ fun c : Fin 2 => xLoc d ↦{qC c} m (xLoc d)) ∗ (bigSep Finset.univ fun c : Fin 2 => tLoc d ↦{qC c} m (tLoc d))
          ∗ (sLoc d ↦{fullShare} GS m d) ∗ (cLoc d ↦{fullShare} GC m d)) := by
  show (bigSep Finset.univ fun c : Fin ((K (F := F)).nCore 0) => dnRes m d (Fin.cast nCore_zero c)) = _
  rw [bigSep_cores (F := F) (fun c => dnRes m d c), sRows_split, cRows_split]
  unfold dnRes
  simp only [bigSep_sep']

/-! ## The launch element: the handshakes' rounds, the pipeline's staging cells; nothing of the subcore kernel's own -/

def u₀ : UU := (initOf (K (F := F)).hsCells (K (F := F)).hsToks, (initOf (Pipeline.cells cfgs cellOf_inj) (Pipeline.launchToks cfgs cellOf_inj), 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Tc.G_tc (F := F) d)
        ∗ bigSep Finset.univ fun thr : Thread nD τ => bigSep Finset.univ fun q : Fin 1 => (P m).x q thr) := by
  unfold u₀
  iintro Hu
  ihave H := (Tc.ownU_split (F := F) _ _ _) $$ Hu
  icases H with ⟨HH, HP⟩
  imod (Tc.fund_tc (F := F)) $$ HP with HG
  imodintro
  isplitl [HH]; · iexact HH
  isplitl [HG]; · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main -/

theorem unscoped_held (d : Dev nD) :
    (unscopedBufs d (fun b => m ((SparseCore.T d).loc b)) : sProp 𝕄) = held (SparseCore.T d) (Pipeline.ucRefs τ sig) (V0 m d) :=
  Pipeline.unscopedBufs_held d (V0 m d)

/-- What @main leaves the claim: every array of the TensorCore's, after the twelve host operations. -/
abbrev FIN (d : Dev nD) : sProp 𝕄 := held (SparseCore.T d) (Pipeline.ucRefs τ sig) (StableHlo.after Tail.tailOps (V2 m d))

set_option maxHeartbeats 8000000 in
theorem hmain (κ : GSem nD τ sig → ℕ) (d : Dev nD) :
    iprop((K (F := F)).ctx EH (P m) κ ∗ (K (F := F)).tcSt EH d 0 ∗ (K (F := F)).tcRes m ρ d ∗ Tc.G_tc (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [Tail.main_eq, unscoped_held, held_sub_split (SparseCore.T d) S6_sub (V0 m d), held_S6,
    show V0 m d rX = m (xLoc d) from rfl, show V0 m d rT = m (tLoc d) from rfl, show V0 m d rS = m (sLoc d) from rfl,
    show V0 m d rC = m (cLoc d) from rfl, show V0 m d rY0 = m (y0Loc d) from rfl, show V0 m d rY1 = m (y1Loc d) from rfl]
  simp only [wp_bind]
  iintro ⟨#Hctx, Hst, ⟨Hb, ⟨⟨Hx, Ht, Hs, Hc, Hy0, Hy1⟩, Hrest⟩, -, -⟩, HG⟩
  ihave Hx' := (core_shares (F := F) (xLoc d) (m (xLoc d))).1 $$ Hx
  ihave Ht' := (core_shares (F := F) (tLoc d) (m (tLoc d))).1 $$ Ht
  icases Hx' with ⟨Hxd, Hxs⟩
  icases Ht' with ⟨Htd, Hts⟩
  -- the subcore kernel's call
  iapply ((K (F := F)).wp_run (D (F := F)) 𝒱 (EH := EH) (P := P m) κ d 0) $$ [Hst Hxs Hts Hs Hc Hb Hxd Htd Hy0 Hy1 Hrest HG]
  isplitr; · iexact Hctx
  isplitl [Hst]; · iexact Hst
  isplitl [Hxs Hts Hs Hc]
  · rw [st0_eq]
    isplitl [Hxs]; · iexact Hxs
    isplitl [Hts]; · iexact Hts
    isplitl [Hs]; · iexact Hs
    iexact Hc
  iintro ⟨Hst, Hdn⟩
  ihave Hdn' := (Entails.of_eq (dn0_eq m d)) $$ Hdn
  icases Hdn' with ⟨Hxs, Hts, Hs, Hc⟩
  ihave Hx := (core_shares (F := F) (xLoc d) (m (xLoc d))).2 $$ [Hxd Hxs]
  · isplitl [Hxd]; · iexact Hxd
    iexact Hxs
  ihave Ht := (core_shares (F := F) (tLoc d) (m (tLoc d))).2 $$ [Htd Hts]
  · isplitl [Htd]; · iexact Htd
    iexact Hts
  -- the TensorCore kernel's region over rows 0 … 13311
  unfold SparseCore.Cfg.tcSt
  rw [show (K (F := F)).Otc d ((0 : Fin 1).val + 1) = 0 from Tc.Otc_one d, Tc.Otc_one d]
  icases Hst with ⟨⟨%W1, %hW1, HO⟩, Hat, Hrd, Hrs, Htoks⟩
  ihave Hlev := (SparseCore.Cfg.ctx_levAts (K := K (F := F)) (EH := EH) (P := P m) κ) $$ Hctx
  ihave Hreg := (Tc.region_wp (F := F) (Xf m) (Tf m) (Y0f m) (Y1f m) (K (F := F)).lev d) $$ [Hlev Hb Hx Ht Hy0 Hy1 HO HG]
  · unfold Tc.regPre
    isplitl [Hlev]; · iexact Hlev
    isplitl [Hb]; · iexact Hb
    isplitl [Hx Ht Hy0 Hy1 HO]
    · isplitl [Hx]; · iexact Hx
      isplitl [Ht]; · iexact Ht
      isplitl [Hy0]; · iexact Hy0
      isplitl [Hy1]; · iexact Hy1
      iexists W1; isplitr
      · ipureintro; exact hW1
      · iexact HO
    iexact HG
  iapply (wp_wand_r frame _ Set.univ) $$ [Hreg Hs Hc Hrest Hat Hrd Hrs Htoks]
  isplitl [Hreg]; · iexact Hreg
  iintro %_ ⟨Hb, Hpost⟩
  unfold Tc.regPost
  icases Hpost with ⟨Hx, Ht, Hy0, Hy1, %W2, %hW2, HO⟩
  -- the twelve host operations
  rw [← Prog.bind_pure (StableHlo.seq Tail.tailOps)]
  iapply (Tail.tail_wp (F := F) d (V2 m d) (fun u => pure u)) $$ [Hb Hx Ht Hs Hc Hy0 Hy1 Hrest]
  · isplitl [Hb]; · iexact Hb
    rw [held_sub_split (SparseCore.T d) S6_sub (V2 m d), held_S6, V2_rX, V2_rT, V2_rS, V2_rC, V2_rY0, V2_rY1, held_rest]
    isplitl [Hx Ht Hs Hc Hy0 Hy1]
    · isplitl [Hx]; · iexact Hx
      isplitl [Ht]; · iexact Ht
      isplitl [Hs]; · iexact Hs
      isplitl [Hc]; · iexact Hc
      isplitl [Hy0]; · iexact Hy0
      iexact Hy1
    iexact Hrest
  iintro ⟨Hb, Hheld⟩
  rw [show (Pure.pure PUnit.unit : Prog _ PUnit) = Prog.ret PUnit.unit from rfl, wp_ret]; imodintro
  isplitl [HO Hat Hrd Hrs Htoks]
  · isplitl [HO]
    · iexists W2; isplitr
      · ipureintro; exact hW2
      · iexact HO
    isplitl [Hat]; · iexact Hat
    isplitl [Hrd]; · iexact Hrd
    isplitl [Hrs]; · iexact Hrs
    iexact Htoks
  iexact Hheld

/-! ## What the final memory says -/

abbrev S3 : Finset (DevRef τ sig) := {rX, rT, rOut}

omit [FloatOps F] in
theorem S3_sub : S3 ⊆ Pipeline.ucRefs τ sig := by decide

omit [FloatOps F] in
theorem held_S3 (d : Dev nD) (W : Valuation τ sig (Elt F)) :
    (held (SparseCore.T d) S3 W : sProp 𝕄) = iprop((xLoc d ↦{fullShare} W rX) ∗ (tLoc d ↦{fullShare} W rT) ∗ (outLoc d ↦{fullShare} W rOut)) := by
  unfold held S3
  rw [SparseCore.bigSep_insert' (by decide), SparseCore.bigSep_insert' (by decide), bigSep_singleton]

/-- The result, and both arguments unchanged. -/
def fq (d : Dev nD) (s' : Phys nD τ sig (Elt F)) : Prop :=
  s'.mem.mem (xLoc d) = m (xLoc d) ∧ s'.mem.mem (tLoc d) = m (tLoc d)
    ∧ s'.mem.mem (outLoc d) = StableHlo.after Tail.tailOps (V2 m d) rOut

theorem hfin (d : Dev nD) (s' : Phys nD τ sig (Elt F)) : iprop(FIN m d ∗ SI s') ⊢ (⌜fq m d s'⌝ : sProp 𝕄) := by
  show iprop(held (SparseCore.T d) (Pipeline.ucRefs τ sig) (StableHlo.after Tail.tailOps (V2 m d)) ∗ SI s') ⊢ _
  rw [held_sub_split (SparseCore.T d) S3_sub, held_S3, Tail.tail_keeps0, Tail.tail_keeps1, V2_rX, V2_rT]
  iintro ⟨⟨⟨Hx, Ht, Ho⟩, -⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := tLoc d) (I := Finset.univ) (q := fullShare) (f := m (tLoc d)))) $$ [HSI Ht]
  · isplitl [HSI] <;> iassumption
  icases H with ⟨%h2, HSI, -⟩
  ihave H := (SI_pointsTo_agree (st := s') (ℓ := outLoc d) (I := Finset.univ) (q := fullShare) (f := StableHlo.after Tail.tailOps (V2 m d) rOut)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- On every device: the result buffer at the tail's value over the four pieces, both arguments unchanged. -/
def QC : PUnit × MemSt nD τ sig (Elt F) → Prop := fun r => ∀ c : Dev nD,
  r.2.mem (outLoc c) = StableHlo.after Tail.tailOps (V2 m c) rOut ∧ r.2.mem (xLoc c) = m (xLoc c) ∧ r.2.mem (tLoc c) = m (tLoc c)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts)
    (fun q _ => match q with | 0 => SparseCore.Cfg.VecSplit.of_plain (vecSplit m))
    m ρ main (fun d => Tc.G_tc (F := F) d) (FIN m) (u₀ (F := F)) (sep_elim_left.trans (hu₀ m)) (hmain m ρ) (fq m) (hfin m) (QC m)
    (fun _ h c => ⟨(h c).2.2, (h c).1, (h c).2.1⟩)

end Cert.Proof.KI

end
-- ==== Proof.Spec.lean ====
/-
  What the kernel's pieces hold, at the ideal instance, as plain finite sums over the two argument arrays
  x : f32[16384, 4096] and t : i32[16384, 4096].

  Rows 0 … 13311 are summed on the TensorCore, 512 rows at a time: an entry contributes (1 − x)² where t = 1 and 0
  elsewhere, and the count adds the comparison's bit read as a float. Rows 13312 … 16383 are summed on the 32 vector
  subcores, 96 rows each, lane by lane: subcore w, lane l, takes the columns 16 q + l of its rows; an entry contributes
  (float t · (1 − x))², and the count adds t as a 32-bit word. The host then adds the pieces, scales the sum by 1/4
  and divides by the count.
-/
import Idealize.ShloMosaic.PureOps.Ideal
import Idealize.ShloMosaic.Lib.ValueIdx
import Mathlib.Data.BitVec

noncomputable section

namespace Cert.Proof.Spec

open Idealize.ShloMosaic

abbrev SA : Shape := ⟨2, ![16384, 4096]⟩
abbrev SW : Shape := ⟨2, ![32, 16]⟩

/-- The float 1.0, 0.0 and 0.25 as the programs spell them. -/
abbrev one : EReal := Ideal.ofBits .f32 0x3F800000#32
abbrev zero : EReal := Ideal.ofBits .f32 0x00000000#32
abbrev quarter : EReal := Ideal.ofBits .f32 0x3E800000#32

/-- Entry (i, j) of a 16384 × 4096 array. -/
abbrev at2 {α : Type} (a : SA.Idx → α) (i : Fin 16384) (j : Fin 4096) : α := a (ValueIdx.ix2 i j)

/-- A subcore's term at one entry: (float t · (1 − x))². -/
def scTerm (x : EReal) (t : BitVec 32) : EReal :=
  (FloatOps.sitofp (F := Ideal) .f32 t * (one - x)) * (FloatOps.sitofp (F := Ideal) .f32 t * (one - x))

/-- The TensorCore's term at one entry: (1 − x)² where t = 1, else 0. -/
def tcTerm (x : EReal) (t : BitVec 32) : EReal :=
  Scalar.select (Scalar.cmpi .eq t 1#32) ((one - x) * (one - x)) zero

/-- The TensorCore's count term at one entry: the comparison's bit, widened, as a float. -/
def tcCntTerm (t : BitVec 32) : EReal :=
  FloatOps.sitofp (F := Ideal) .f32 ((Scalar.cmpi .eq t 1#32).setWidth 32)

theorem row_lt (w : Fin 32) (r : Fin 96) : 13312 + 96 * w.val + r.val < 16384 := by omega
theorem col_lt (q : Fin 256) (l : Fin 16) : 16 * q.val + l.val < 4096 := by omega
theorem tcrow_lt (i : Fin 13312) : i.val < 16384 := by omega

/-- Row r of subcore w, and column 16 q + l. -/
abbrev scRow (w : Fin 32) (r : Fin 96) : Fin 16384 := ⟨13312 + 96 * w.val + r.val, row_lt w r⟩
abbrev scCol (q : Fin 256) (l : Fin 16) : Fin 4096 := ⟨16 * q.val + l.val, col_lt q l⟩

/-- Subcore w's lane l of the partial sums: its 96 rows, the 256 columns congruent to l. -/
def scSum (x : SA.Idx → EReal) (t : SA.Idx → BitVec 32) (w : Fin 32) (l : Fin 16) : EReal :=
  ∑ r : Fin 96, ∑ q : Fin 256, scTerm (at2 x (scRow w r) (scCol q l)) (at2 t (scRow w r) (scCol q l))

/-- Subcore w's lane l of the partial counts, in 32-bit arithmetic. -/
def scCnt (t : SA.Idx → BitVec 32) (w : Fin 32) (l : Fin 16) : BitVec 32 :=
  ∑ r : Fin 96, ∑ q : Fin 256, at2 t (scRow w r) (scCol q l)

/-- The TensorCore's sum and count over rows 0 … 13311. -/
def tcSum (x : SA.Idx → EReal) (t : SA.Idx → BitVec 32) : EReal :=
  ∑ i : Fin 13312, ∑ j : Fin 4096, tcTerm (at2 x ⟨i.val, tcrow_lt i⟩ j) (at2 t ⟨i.val, tcrow_lt i⟩ j)
def tcCnt (t : SA.Idx → BitVec 32) : EReal :=
  ∑ i : Fin 13312, ∑ j : Fin 4096, tcCntTerm (at2 t ⟨i.val, tcrow_lt i⟩ j)

/-- The host's last steps over the four pieces: add the subcores' 32 × 16 partial sums (from 0.0) to the TensorCore's
    sum, add the subcores' partial counts (in 32-bit arithmetic from 0, then as a float) to the TensorCore's count,
    scale the sum by 1/4, divide. -/
def tail (x : SA.Idx → EReal) (t : SA.Idx → BitVec 32) : EReal :=
  Ideal.div (quarter * (tcSum x t + (zero + ∑ w : Fin 32, ∑ l : Fin 16, scSum x t w l)))
    (tcCnt t + FloatOps.sitofp (F := Ideal) .f32 (0#32 + ∑ w : Fin 32, ∑ l : Fin 16, scCnt t w l))

end Cert.Proof.Spec

end
-- ==== Proof.KITcValue.lean ====
/-
  What the region's two output words are at the ideal instance: the plain finite sums, over the 13312 rows the TensorCore takes and the 4096 columns, of an entry's squared-difference term and of its count term.
-/
import proofs.«207598_g57604101374094_cont_9to1_m_955_21_alg».proof.Proof.KITc
import proofs.«207598_g57604101374094_cont_9to1_m_955_21_alg».proof.Proof.Spec

import Idealize.ShloMosaic.PureOps.Ideal.Laws
import Idealize.ShloMosaic.Lib.ValueIdx
import Idealize.ShloMosaic.Lib.Pipeline.Value

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx
open Cert.Proof.Spec (tcTerm tcCntTerm at2)

/-- Every axis of the one-word shape has size one. -/
theorem S1_unit : ∀ b : Fin S1.rank, S1.size b = 1 := fun b => by fin_cases b; rfl

/-- A point's first lane sum at the ideal instance: the word before plus the block's sum of terms. -/
theorem pay2_ideal (v3 : Vec Ideal S512x4096 .f32) (v7 : Vec Ideal S512x4096 .i32) (v10 : EReal) :
    k1_pay2 (F := Ideal) v3 v7 v10 = v10 + ∑ a : Fin 512, ∑ b : Fin 4096, tcTerm (v3 (ix2 a b)) (v7 (ix2 a b)) := by
  unfold k1_pay2 k1_pay1
  show v10 + _ = _
  congr 1
  unfold extractAt
  unfold shapeCast
  refine (Ideal.multiReduction_add_total _ _ reduces_S1x512x4096_S1 S1_unit _ _ _).trans ?_
  refine (Equiv.sum_comp (Shape.reshapeEquiv shapeCasts_S512x4096_S1x512x4096) _).trans ?_
  rw [sum_idx2]
  rfl

/-- A point's second lane sum at the ideal instance: the word before plus the block's sum of count terms. -/
theorem pay3_ideal (v7 : Vec Ideal S512x4096 .i32) (v19 : EReal) :
    k1_pay3 (F := Ideal) v7 v19 = v19 + ∑ a : Fin 512, ∑ b : Fin 4096, tcCntTerm (v7 (ix2 a b)) := by
  unfold k1_pay3 k1_pay1
  show v19 + _ = _
  refine congrArg (fun z => v19 + z) ?_
  unfold extractAt
  unfold shapeCast
  refine (Ideal.multiReduction_add_total _ _ reduces_S1x512x4096_S1 S1_unit _ _ _).trans ?_
  refine (Equiv.sum_comp (Shape.reshapeEquiv shapeCasts_S512x4096_S1x512x4096) _).trans ?_
  rw [sum_idx2]
  rfl

/-! ## A block's entries are the arrays' -/

variable (X : (c : Dev nD) → Buf (Elt Ideal) ((T c : Thread nD τ).loc main_arg0)) (Tt : (c : Dev nD) → Buf (Elt Ideal) ((T c : Thread nD τ).loc main_arg1))

/-- Point `k` reads block `(k, 0)` of either array. -/
theorem idx_facts : ∀ k : Fin cfg1.N, win1_0.index k 0 = k.val ∧ win1_0.index k 1 = 0 ∧ win1_1.index k 0 = k.val ∧ win1_1.index k 1 = 0 :=
  (by decide +kernel : ∀ k : Fin grid1.N, win1_0.index k 0 = k.val ∧ win1_0.index k 1 = 0 ∧ win1_1.index k 0 = k.val ∧ win1_1.index k 1 = 0)

theorem row_lt (k : Fin cfg1.N) (a : Fin 512) : 512 * k.val + a.val < 16384 := by
  have := k.isLt; have : cfg1.N = 26 := N_1; have := a.isLt; omega

/-- Row `a` of point `k`'s block is row `512 k + a` of the array. -/
theorem xb_apply (c : Dev nD) (k : Fin cfg1.N) (a : Fin 512) (b : Fin 4096) :
    xb X c k (ix2 a b) = at2 (X c) ⟨512 * k.val + a.val, row_lt k a⟩ b := by
  unfold xb
  rw [View.read_apply]
  show X c _ = X c _
  congr 1
  funext ax
  apply Fin.ext
  match ax with
  | ⟨0, _⟩ => show win1_0.index k 0 * 512 + 1 * a.val = 512 * k.val + a.val; rw [(idx_facts k).1]; omega
  | ⟨1, _⟩ => show win1_0.index k 1 * 4096 + 1 * b.val = b.val; rw [(idx_facts k).2.1]; omega
theorem tb_apply (c : Dev nD) (k : Fin cfg1.N) (a : Fin 512) (b : Fin 4096) :
    tb Tt c k (ix2 a b) = at2 (Tt c) ⟨512 * k.val + a.val, row_lt k a⟩ b := by
  unfold tb
  rw [View.read_apply]
  show Tt c _ = Tt c _
  congr 1
  funext ax
  apply Fin.ext
  match ax with
  | ⟨0, _⟩ => show win1_1.index k 0 * 512 + 1 * a.val = 512 * k.val + a.val; rw [(idx_facts k).2.2.1]; omega
  | ⟨1, _⟩ => show win1_1.index k 1 * 4096 + 1 * b.val = b.val; rw [(idx_facts k).2.2.2]; omega

/-! ## The fold over the points is the sum over the rows -/

/-- Row `i`'s sum of terms, and of count terms (0 past the array's rows). -/
def rowS (c : Dev nD) (i : ℕ) : EReal :=
  if h : i < 16384 then ∑ b : Fin 4096, tcTerm (at2 (X c) ⟨i, h⟩ b) (at2 (Tt c) ⟨i, h⟩ b) else 0
def rowC (c : Dev nD) (i : ℕ) : EReal :=
  if h : i < 16384 then ∑ b : Fin 4096, tcCntTerm (at2 (Tt c) ⟨i, h⟩ b) else 0

/-- The two scratch words before point `n` are the sums over the rows of the points before it. -/
theorem acc_ideal (c : Dev nD) : ∀ (n : ℕ) (h : n ≤ cfg1.N),
    acc (F := Ideal) X Tt c n h
      = (∑ k ∈ Finset.range n, ∑ a : Fin 512, rowS X Tt c (512 * k + a.val), ∑ k ∈ Finset.range n, ∑ a : Fin 512, rowC Tt c (512 * k + a.val))
  | 0, _ => by
    show ((Ideal.ofBits .f32 0x00000000#32, Ideal.ofBits .f32 0x00000000#32) : EReal × EReal) = _
    rw [Finset.range_zero, Finset.sum_empty, Finset.sum_empty, Ideal.ofBits_zero_f32]
  | n + 1, h => by
    show (k1_pay2 (F := Ideal) (xb X c ⟨n, h⟩) (tb Tt c ⟨n, h⟩) (acc X Tt c n (Nat.le_of_succ_le h)).1,
      k1_pay3 (F := Ideal) (tb Tt c ⟨n, h⟩) (acc X Tt c n (Nat.le_of_succ_le h)).2) = _
    rw [pay2_ideal, pay3_ideal, acc_ideal c n (Nat.le_of_succ_le h), Finset.sum_range_succ, Finset.sum_range_succ]
    refine Prod.ext ?_ ?_
    · dsimp only
      refine congrArg (HAdd.hAdd _) (Finset.sum_congr rfl fun a _ => ?_)
      unfold rowS; rw [dif_pos (row_lt ⟨n, h⟩ a)]
      exact Finset.sum_congr rfl fun b _ => by rw [xb_apply, tb_apply]
    · dsimp only
      refine congrArg (HAdd.hAdd _) (Finset.sum_congr rfl fun a _ => ?_)
      unfold rowC; rw [dif_pos (row_lt ⟨n, h⟩ a)]
      exact Finset.sum_congr rfl fun b _ => by rw [tb_apply]

/-- 26 blocks of 512 rows tile rows 0 … 13311. -/
theorem sum_blocks (g : ℕ → EReal) : ∑ k ∈ Finset.range 26, ∑ a : Fin 512, g (512 * k + a.val) = ∑ i : Fin 13312, g i.val := by
  rw [← Fin.sum_univ_eq_sum_range (fun k => ∑ a : Fin 512, g (512 * k + a.val)) 26, ← Fintype.sum_prod_type']
  exact Fintype.sum_equiv ((finProdFinEquiv (m := 26) (n := 512)).trans (finCongr (by norm_num))) _ _ fun p => by
    show g (512 * p.1.val + p.2.val) = g (p.2.val + 512 * p.1.val)
    rw [Nat.add_comm]

/-- THE FIRST OUTPUT WORD at the ideal instance: the sum of the terms over rows 0 … 13311. -/
theorem tcSumF_eq (c : Dev nD) : tcSumF (F := Ideal) X Tt c = Cert.Proof.Spec.tcSum (X c) (Tt c) := by
  unfold tcSumF Cert.Proof.Spec.tcSum
  rw [acc_ideal]
  show ∑ k ∈ Finset.range cfg1.N, ∑ a : Fin 512, rowS X Tt c (512 * k + a.val) = _
  rw [show cfg1.N = 26 from N_1, sum_blocks]
  exact Finset.sum_congr rfl fun i _ => by unfold rowS; rw [dif_pos (Cert.Proof.Spec.tcrow_lt i)]

/-- THE SECOND at the ideal instance: the sum of the count terms over the same rows. -/
theorem tcCntF_eq (c : Dev nD) : tcCntF (F := Ideal) X Tt c = Cert.Proof.Spec.tcCnt (Tt c) := by
  unfold tcCntF Cert.Proof.Spec.tcCnt
  rw [acc_ideal]
  show ∑ k ∈ Finset.range cfg1.N, ∑ a : Fin 512, rowC Tt c (512 * k + a.val) = _
  rw [show cfg1.N = 26 from N_1, sum_blocks]
  exact Finset.sum_congr rfl fun i _ => by unfold rowC; rw [dif_pos (Cert.Proof.Spec.tcrow_lt i)]

end Cert.Proof.KI.Tc

end
-- ==== Proof.KITailValue.lean ====
/-
  @main's host tail at the ideal instance: the result is the quotient of a quarter of the total sum of terms by the total count.
-/
import proofs.«207598_g57604101374094_cont_9to1_m_955_21_alg».proof.Proof.KITail
import proofs.«207598_g57604101374094_cont_9to1_m_955_21_alg».proof.Proof.Spec
import Idealize.ShloMosaic.PureOps.Ideal.Laws
import Idealize.ShloMosaic.Lib.ValueIdx
import Idealize.ShloMosaic.PureOps.Reduce

noncomputable section

namespace Cert.Proof.KI.Tail

open Cert.KernelIdeal Cert.KernelIdeal.Gen
open Cert.Proof.KI

open Idealize.ShloMosaic Idealize.ShloMosaic.TcCoe Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

open Idealize.ShloMosaic.ValueIdx

/-- A 32-bit add-reduction into a shape with one index is the initial word plus the sum of every operand word. -/
theorem reduce_addi_total {s t u : Shape} {axes : List (Fin s.rank)} [Subsingleton t.Idx] (x : s.Idx → BitVec 32)
    (init : u.Idx → BitVec 32) (h : s.ReducesTo axes t) (hu : 0 < u.numel) (j : t.Idx) :
    Host.reduce IntOp.addi x init h hu j = init (Shape.Idx.first hu) + ∑ i : s.Idx, x i := by
  rw [Host.reduce_eq_fold, Finset.filter_true_of_mem fun i _ => Subsingleton.elim _ _]
  generalize init (Shape.Idx.first hu) = b
  induction (Finset.univ : Finset s.Idx) using Finset.cons_induction with
  | empty => simp
  | cons a S ha ih =>
    rw [Finset.fold_cons, Finset.sum_cons, ih]
    exact add_left_comm _ _ _

/-- The rank-0 shape has one index. -/
instance subsingleton_scalarIdx : Subsingleton S_.Idx := ⟨fun _ _ => funext fun d => d.elim0⟩

/-- THE TAIL at the ideal instance: from the TensorCore's two words at its sums and the subcores' partial sums and
    counts at theirs, the result is the quotient of the scaled total sum by the total count. -/
theorem tail_ideal (x : Spec.SA.Idx → EReal) (t : Spec.SA.Idx → BitVec 32) (V : Valuation τ sig (Elt Ideal))
    (h10 : V (Proc.devRef .tc main_v1_0) = fun _ => Spec.tcSum x t) (h11 : V (Proc.devRef .tc main_v1_1) = fun _ => Spec.tcCnt t)
    (h00 : ∀ (w : Fin 32) (l : Fin 16), V (Proc.devRef .tc main_v0_0) (ix2 w l) = Spec.scSum x t w l)
    (h01 : ∀ (w : Fin 32) (l : Fin 16), V (Proc.devRef .tc main_v0_1) (ix2 w l) = Spec.scCnt t w l) :
    after tailOps V (Proc.devRef .tc main_v10) = fun _ => Spec.tail x t := by
  rw [tail_result]
  funext i
  unfold Spec.tail
  show Ideal.div (Spec.quarter * (_ + _)) (_ + _) = _
  refine congrArg₂ Ideal.div (congrArg₂ (· * ·) rfl (congrArg₂ (· + ·) ?_ ?_)) (congrArg₂ (· + ·) ?_ (congrArg (FloatOps.sitofp (F := Ideal) .f32) ?_))
  · unfold shapeCast; rw [h10]
  · unfold Host.reduceAdd
    rw [Ideal.hostReduceAdd_def, Ideal.hostReduceAdd_total _ (fun b => b.elim0)]
    exact congrArg₂ (· + ·) rfl ((sum_idx2 (n0 := 32) (n1 := 16) _).trans (Finset.sum_congr rfl fun w _ => Finset.sum_congr rfl fun l _ => h00 w l))
  · unfold shapeCast; rw [h11]
  · rw [reduce_addi_total (t := S_)]
    exact congrArg₂ (· + ·) rfl ((sum_idx2 (n0 := 32) (n1 := 16) _).trans (Finset.sum_congr rfl fun w _ => Finset.sum_congr rfl fun l _ => h01 w l))

end Cert.Proof.KI.Tail

end
-- ==== Proof.FoldIndex.lean ====
/-
  The accumulation order's index sets against the plain ones. The 96 rows of a block are 24 chunks of 4 (row 4 n + r),
  and the 256 column groups are 16 trips of 16 (group 16 k + u). A sum over chunks, trips, rows of the chunk and groups
  of the trip, in any commutative monoid, is the sum over the 96 rows and the 256 groups. A sum over the first k
  members of a finite range, written over the natural numbers with the terms past the range zero, is taken one member
  at a time.
-/
import Mathlib.Algebra.BigOperators.Fin
import Mathlib.Tactic.Abel

noncomputable section

namespace Cert.Proof.Fold

/-- Row 4 n + r ↔ (n, r). -/
def rowEquiv : Fin 24 × Fin 4 ≃ Fin 96 where
  toFun p := ⟨4 * p.1.val + p.2.val, by omega⟩
  invFun i := (⟨i.val / 4, by omega⟩, ⟨i.val % 4, by omega⟩)
  left_inv p := by
    obtain ⟨n, r⟩ := p
    refine Prod.ext (Fin.ext ?_) (Fin.ext ?_)
    · show (4 * n.val + r.val) / 4 = n.val
      omega
    · show (4 * n.val + r.val) % 4 = r.val
      omega
  right_inv i := Fin.ext (by
    show 4 * (i.val / 4) + i.val % 4 = i.val
    omega)

/-- Group 16 k + u ↔ (k, u). -/
def groupEquiv : Fin 16 × Fin 16 ≃ Fin 256 where
  toFun p := ⟨16 * p.1.val + p.2.val, by omega⟩
  invFun i := (⟨i.val / 16, by omega⟩, ⟨i.val % 16, by omega⟩)
  left_inv p := by
    obtain ⟨k, u⟩ := p
    refine Prod.ext (Fin.ext ?_) (Fin.ext ?_)
    · show (16 * k.val + u.val) / 16 = k.val
      omega
    · show (16 * k.val + u.val) % 16 = u.val
      omega
  right_inv i := Fin.ext (by
    show 16 * (i.val / 16) + i.val % 16 = i.val
    omega)

/-- Chunks, trips, rows of the chunk, groups of the trip: the 96 rows and the 256 groups. -/
theorem sum_order {M : Type*} [AddCommMonoid M] (f : Fin 96 → Fin 256 → M) :
    ∑ n : Fin 24, ∑ k : Fin 16, ∑ r : Fin 4, ∑ u : Fin 16,
        f ⟨4 * n.val + r.val, by omega⟩ ⟨16 * k.val + u.val, by omega⟩
      = ∑ i : Fin 96, ∑ q : Fin 256, f i q := by
  rw [← Equiv.sum_comp rowEquiv (fun i => ∑ q : Fin 256, f i q), Fintype.sum_prod_type]
  refine Finset.sum_congr rfl fun n _ => ?_
  rw [Finset.sum_comm]
  refine Finset.sum_congr rfl fun r _ => ?_
  rw [← Equiv.sum_comp groupEquiv (fun q => f (rowEquiv (n, r)) q), Fintype.sum_prod_type]
  rfl

/-- A term function on a finite range, continued by zero over the natural numbers. -/
def ext0 {M : Type*} [Zero M] (N : ℕ) (G : Fin N → M) (k : ℕ) : M := if h : k < N then G ⟨k, h⟩ else 0

theorem ext0_pos {M : Type*} [Zero M] {N : ℕ} (G : Fin N → M) {k : ℕ} (h : k < N) : ext0 N G k = G ⟨k, h⟩ :=
  dif_pos h

theorem ext0_neg {M : Type*} [Zero M] {N : ℕ} (G : Fin N → M) {k : ℕ} (h : ¬ k < N) : ext0 N G k = 0 :=
  dif_neg h

/-- Over the whole range the continued sum is the sum over the range. -/
theorem sum_range_ext0 {M : Type*} [AddCommMonoid M] (N : ℕ) (G : Fin N → M) :
    ∑ k ∈ Finset.range N, ext0 N G k = ∑ k : Fin N, G k := by
  rw [← Fin.sum_univ_eq_sum_range (fun k => ext0 N G k) N]
  exact Finset.sum_congr rfl fun i _ => ext0_pos G i.isLt

/-- Sixteen terms, paired u with u + 8. -/
theorem sum16 {M : Type*} [AddCommMonoid M] (g : Fin 16 → M) :
    ∑ u : Fin 16, g u = (g 0 + g 8) + (g 1 + g 9) + (g 2 + g 10) + (g 3 + g 11) + (g 4 + g 12) + (g 5 + g 13)
      + (g 6 + g 14) + (g 7 + g 15) := by
  have h := Fin.sum_univ_add (a := 8) (b := 8) g
  rw [Fin.sum_univ_eight, Fin.sum_univ_eight] at h
  refine h.trans ?_
  show g 0 + g 1 + g 2 + g 3 + g 4 + g 5 + g 6 + g 7 + (g 8 + g 9 + g 10 + g 11 + g 12 + g 13 + g 14 + g 15) = _
  abel

end Cert.Proof.Fold

end
-- ==== Proof.FoldStep.lean ====
/-
  One trip of a subcore's accumulation, read at a lane. At lane l a float step adds the group's term
  (float t · (1 − x))² at entry (0, l) of the two loaded 1 × 16 blocks, and a count step adds the word t there. So over
  a trip accumulator j gains its two groups' terms of each of the four rows, and the eight accumulators together gain
  the terms of all 4 × 16 groups: the sum of the accumulators after a trip is the sum before plus the trip's terms.
  Only commutativity and associativity of addition are used.
-/
import proofs.«207598_g57604101374094_cont_9to1_m_955_21_alg».proof.Proof.SpecF
import proofs.«207598_g57604101374094_cont_9to1_m_955_21_alg».proof.Proof.Spec
import proofs.«207598_g57604101374094_cont_9to1_m_955_21_alg».proof.Proof.FoldIndex
import Idealize.ShloMosaic.Lib.ValueLayout
import Idealize.ShloMosaic.PureOps.Ideal.Laws

noncomputable section

namespace Cert.Proof.Fold

open Idealize.ShloMosaic Idealize.ShloMosaic.ValueIdx

/-- A loaded group's float term at lane l. -/
def termF (xv : Vec Ideal SpecF.S1x16 .f32) (tv : Vec Ideal SpecF.S1x16 .i32) (l : Fin 16) : EReal :=
  Spec.scTerm (xv (ix2 (0 : Fin 1) l)) (tv (ix2 (0 : Fin 1) l))

/-- A loaded group's count term at lane l. -/
def termI (tv : Vec Ideal SpecF.S1x16 .i32) (l : Fin 16) : BitVec 32 := tv (ix2 (0 : Fin 1) l)

theorem stepF_apply (a : FVec Ideal SpecF.S16 .f32) (xv : Vec Ideal SpecF.S1x16 .f32) (tv : Vec Ideal SpecF.S1x16 .i32)
    (l : Fin 16) : SpecF.stepF a xv tv (ix1 l) = a (ix1 l) + termF xv tv l := by
  unfold SpecF.stepF termF Spec.scTerm
  show a (ix1 l) + (FloatOps.sitofp (F := Ideal) .f32 (shapeCast SpecF.S16 tv SpecF.casts (ix1 l))
      * (Spec.one - shapeCast SpecF.S16 xv SpecF.casts (ix1 l)))
    * (FloatOps.sitofp (F := Ideal) .f32 (shapeCast SpecF.S16 tv SpecF.casts (ix1 l))
      * (Spec.one - shapeCast SpecF.S16 xv SpecF.casts (ix1 l))) = _
  rw [shapeCast_1a_a_apply, shapeCast_1a_a_apply]

theorem stepI_apply (c : IVec SpecF.S16 32) (tv : Vec Ideal SpecF.S1x16 .i32) (l : Fin 16) :
    SpecF.stepI (F := Ideal) c tv (ix1 l) = c (ix1 l) + termI tv l := by
  unfold SpecF.stepI termI
  show c (ix1 l) + shapeCast SpecF.S16 tv SpecF.casts (ix1 l) = _
  rw [shapeCast_1a_a_apply]

section Trip

variable (lx : Fin 4 → Fin 16 → Vec Ideal SpecF.S1x16 .f32) (lt : Fin 4 → Fin 16 → Vec Ideal SpecF.S1x16 .i32)

/-- Accumulator j over a trip: what it held plus its two groups' terms of each row. -/
theorem accF_apply (j j' : Fin 16) (a : FVec Ideal SpecF.S16 .f32) (l : Fin 16) :
    SpecF.accF lx lt j j' a (ix1 l)
      = a (ix1 l) + ∑ r : Fin 4, (termF (lx r j) (lt r j) l + termF (lx r j') (lt r j') l) := by
  unfold SpecF.accF
  simp only [stepF_apply]
  rw [Fin.sum_univ_four]
  abel

theorem accI_apply (j j' : Fin 16) (c : IVec SpecF.S16 32) (l : Fin 16) :
    SpecF.accI (F := Ideal) lt j j' c (ix1 l) = c (ix1 l) + ∑ r : Fin 4, (termI (lt r j) l + termI (lt r j') l) := by
  unfold SpecF.accI
  simp only [stepI_apply]
  rw [Fin.sum_univ_four]
  abel

end Trip

/-- The eight float accumulators added up, at a lane. -/
theorem sumF_apply (a0 a1 a2 a3 a4 a5 a6 a7 : FVec Ideal SpecF.S16 .f32) (c0 c1 c2 c3 c4 c5 c6 c7 : IVec SpecF.S16 32)
    (l : Fin 16) :
    SpecF.sumF (F := Ideal) (a0, a1, a2, a3, a4, a5, a6, a7, c0, c1, c2, c3, c4, c5, c6, c7) (ix1 l)
      = a0 (ix1 l) + a1 (ix1 l) + a2 (ix1 l) + a3 (ix1 l) + a4 (ix1 l) + a5 (ix1 l) + a6 (ix1 l) + a7 (ix1 l) := by
  show shapeCast SpecF.S16 (addf (addf (addf (addf (addf (addf (addf a0 a1) a2) a3) a4) a5) a6) a7) SpecF.casts16 (ix1 l) = _
  rw [shapeCast_self]
  rfl

/-- The eight counts added up, at a lane. -/
theorem sumI_apply (a0 a1 a2 a3 a4 a5 a6 a7 : FVec Ideal SpecF.S16 .f32) (c0 c1 c2 c3 c4 c5 c6 c7 : IVec SpecF.S16 32)
    (l : Fin 16) :
    SpecF.sumI (F := Ideal) (a0, a1, a2, a3, a4, a5, a6, a7, c0, c1, c2, c3, c4, c5, c6, c7) (ix1 l)
      = c0 (ix1 l) + c1 (ix1 l) + c2 (ix1 l) + c3 (ix1 l) + c4 (ix1 l) + c5 (ix1 l) + c6 (ix1 l) + c7 (ix1 l) := by
  show shapeCast SpecF.S16 (addi (addi (addi (addi (addi (addi (addi c0 c1) c2) c3) c4) c5) c6) c7) SpecF.casts16 (ix1 l) = _
  rw [shapeCast_self]
  rfl

section Trip

variable (lx : Fin 4 → Fin 16 → Vec Ideal SpecF.S1x16 .f32) (lt : Fin 4 → Fin 16 → Vec Ideal SpecF.S1x16 .i32)

/-- A trip adds its 4 × 16 float terms to the sum of the accumulators. -/
theorem sumF_tripF (c : SpecF.Carry Ideal) (l : Fin 16) :
    SpecF.sumF (SpecF.tripF lx lt c) (ix1 l)
      = SpecF.sumF c (ix1 l) + ∑ r : Fin 4, ∑ u : Fin 16, termF (lx r u) (lt r u) l := by
  obtain ⟨a0, a1, a2, a3, a4, a5, a6, a7, c0, c1, c2, c3, c4, c5, c6, c7⟩ := c
  rw [show SpecF.tripF lx lt (a0, a1, a2, a3, a4, a5, a6, a7, c0, c1, c2, c3, c4, c5, c6, c7)
      = (SpecF.accF lx lt 0 8 a0, SpecF.accF lx lt 1 9 a1, SpecF.accF lx lt 2 10 a2, SpecF.accF lx lt 3 11 a3,
          SpecF.accF lx lt 4 12 a4, SpecF.accF lx lt 5 13 a5, SpecF.accF lx lt 6 14 a6, SpecF.accF lx lt 7 15 a7,
          SpecF.accI lt 0 8 c0, SpecF.accI lt 1 9 c1, SpecF.accI lt 2 10 c2, SpecF.accI lt 3 11 c3,
          SpecF.accI lt 4 12 c4, SpecF.accI lt 5 13 c5, SpecF.accI lt 6 14 c6, SpecF.accI lt 7 15 c7) from rfl,
    sumF_apply, sumF_apply]
  simp only [accF_apply, sum16, Finset.sum_add_distrib]
  abel

/-- A trip adds its 4 × 16 count terms to the sum of the counts. -/
theorem sumI_tripF (c : SpecF.Carry Ideal) (l : Fin 16) :
    SpecF.sumI (SpecF.tripF lx lt c) (ix1 l)
      = SpecF.sumI c (ix1 l) + ∑ r : Fin 4, ∑ u : Fin 16, termI (lt r u) l := by
  obtain ⟨a0, a1, a2, a3, a4, a5, a6, a7, c0, c1, c2, c3, c4, c5, c6, c7⟩ := c
  rw [show SpecF.tripF lx lt (a0, a1, a2, a3, a4, a5, a6, a7, c0, c1, c2, c3, c4, c5, c6, c7)
      = (SpecF.accF lx lt 0 8 a0, SpecF.accF lx lt 1 9 a1, SpecF.accF lx lt 2 10 a2, SpecF.accF lx lt 3 11 a3,
          SpecF.accF lx lt 4 12 a4, SpecF.accF lx lt 5 13 a5, SpecF.accF lx lt 6 14 a6, SpecF.accF lx lt 7 15 a7,
          SpecF.accI lt 0 8 c0, SpecF.accI lt 1 9 c1, SpecF.accI lt 2 10 c2, SpecF.accI lt 3 11 c3,
          SpecF.accI lt 4 12 c4, SpecF.accI lt 5 13 c5, SpecF.accI lt 6 14 c6, SpecF.accI lt 7 15 c7) from rfl,
    sumI_apply, sumI_apply]
  simp only [accI_apply, sum16, Finset.sum_add_distrib]
  abel

end Trip

/-- The zero accumulators add up to zero. -/
theorem sumF_zeroC (l : Fin 16) : SpecF.sumF (SpecF.zeroC (F := Ideal)) (ix1 l) = 0 := by
  unfold SpecF.zeroC
  rw [sumF_apply]
  show Ideal.ofBits .f32 0x00000000#32 + Ideal.ofBits .f32 0x00000000#32 + Ideal.ofBits .f32 0x00000000#32
    + Ideal.ofBits .f32 0x00000000#32 + Ideal.ofBits .f32 0x00000000#32 + Ideal.ofBits .f32 0x00000000#32
    + Ideal.ofBits .f32 0x00000000#32 + Ideal.ofBits .f32 0x00000000#32 = 0
  rw [Ideal.ofBits_zero_f32]
  simp only [add_zero]

theorem sumI_zeroC (l : Fin 16) : SpecF.sumI (SpecF.zeroC (F := Ideal)) (ix1 l) = 0 := by
  unfold SpecF.zeroC
  rw [sumI_apply]
  show (0#32 + 0#32 + 0#32 + 0#32 + 0#32 + 0#32 + 0#32 + 0#32 : BitVec 32) = 0
  decide

end Cert.Proof.Fold

end
-- ==== Proof.FoldLoop.lean ====
/-
  The trips of a chunk and the chunks of a subcore's task, by induction on how many have run: the sum of the eight
  accumulators after the first k trips (the first n chunks) is the sum before plus the terms of those trips (chunks).
  From the zero accumulators the whole task therefore leaves, at each lane, the sum of every group's term.
-/
import proofs.«207598_g57604101374094_cont_9to1_m_955_21_alg».proof.Proof.FoldStep

noncomputable section

namespace Cert.Proof.Fold

open Idealize.ShloMosaic Idealize.ShloMosaic.ValueIdx

section Chunk

variable (lx : Fin 4 → Fin 16 → Fin 16 → Vec Ideal SpecF.S1x16 .f32)
  (lt : Fin 4 → Fin 16 → Fin 16 → Vec Ideal SpecF.S1x16 .i32)

/-- A trip's float terms at lane l. -/
def tripTermF (l : Fin 16) (k : Fin 16) : EReal := ∑ r : Fin 4, ∑ u : Fin 16, termF (lx r k u) (lt r k u) l

/-- A trip's count terms at lane l. -/
def tripTermI (l : Fin 16) (k : Fin 16) : BitVec 32 := ∑ r : Fin 4, ∑ u : Fin 16, termI (lt r k u) l

theorem chunkF_succ (k : ℕ) (c : SpecF.Carry Ideal) :
    SpecF.chunkF lx lt (k + 1) c
      = if h : k < 16 then SpecF.tripF (fun r u => lx r ⟨k, h⟩ u) (fun r u => lt r ⟨k, h⟩ u) (SpecF.chunkF lx lt k c)
        else SpecF.chunkF lx lt k c := rfl

/-- After the first k trips of a chunk. -/
theorem sumF_chunkF (c : SpecF.Carry Ideal) (l : Fin 16) : ∀ k : ℕ,
    SpecF.sumF (SpecF.chunkF lx lt k c) (ix1 l)
      = SpecF.sumF c (ix1 l) + ∑ kk ∈ Finset.range k, ext0 16 (tripTermF lx lt l) kk
  | 0 => by
    rw [Finset.range_zero, Finset.sum_empty, add_zero]
    rfl
  | k + 1 => by
    have ih := sumF_chunkF c l k
    rw [chunkF_succ, Finset.sum_range_succ]
    by_cases h : k < 16
    · rw [dif_pos h, sumF_tripF, ih, ext0_pos _ h, add_assoc]
      rfl
    · rw [dif_neg h, ih, ext0_neg _ h, add_zero]

theorem sumI_chunkF (c : SpecF.Carry Ideal) (l : Fin 16) : ∀ k : ℕ,
    SpecF.sumI (SpecF.chunkF lx lt k c) (ix1 l)
      = SpecF.sumI c (ix1 l) + ∑ kk ∈ Finset.range k, ext0 16 (tripTermI lt l) kk
  | 0 => by
    rw [Finset.range_zero, Finset.sum_empty, add_zero]
    rfl
  | k + 1 => by
    have ih := sumI_chunkF c l k
    rw [chunkF_succ, Finset.sum_range_succ]
    by_cases h : k < 16
    · rw [dif_pos h, sumI_tripF, ih, ext0_pos _ h, add_assoc]
      rfl
    · rw [dif_neg h, ih, ext0_neg _ h, add_zero]

end Chunk

section Tile

variable (lx : Fin 24 → Fin 4 → Fin 16 → Fin 16 → Vec Ideal SpecF.S1x16 .f32)
  (lt : Fin 24 → Fin 4 → Fin 16 → Fin 16 → Vec Ideal SpecF.S1x16 .i32)

/-- A chunk's float terms at lane l: its sixteen trips'. -/
def chunkTermF (l : Fin 16) (n : Fin 24) : EReal := ∑ k : Fin 16, tripTermF (lx n) (lt n) l k

/-- A chunk's count terms at lane l. -/
def chunkTermI (l : Fin 16) (n : Fin 24) : BitVec 32 := ∑ k : Fin 16, tripTermI (lt n) l k

theorem tileF_succ (n : ℕ) :
    SpecF.tileF lx lt (n + 1)
      = if h : n < 24 then SpecF.chunkF (lx ⟨n, h⟩) (lt ⟨n, h⟩) 16 (SpecF.tileF lx lt n) else SpecF.tileF lx lt n := rfl

/-- After the first n chunks. -/
theorem sumF_tileF (l : Fin 16) : ∀ n : ℕ,
    SpecF.sumF (SpecF.tileF lx lt n) (ix1 l) = ∑ nn ∈ Finset.range n, ext0 24 (chunkTermF lx lt l) nn
  | 0 => by
    rw [Finset.range_zero, Finset.sum_empty]
    exact sumF_zeroC l
  | n + 1 => by
    have ih := sumF_tileF l n
    rw [tileF_succ, Finset.sum_range_succ]
    by_cases h : n < 24
    · rw [dif_pos h, sumF_chunkF, ih, ext0_pos _ h, sum_range_ext0]
      rfl
    · rw [dif_neg h, ih, ext0_neg _ h, add_zero]

theorem sumI_tileF (l : Fin 16) : ∀ n : ℕ,
    SpecF.sumI (SpecF.tileF lx lt n) (ix1 l) = ∑ nn ∈ Finset.range n, ext0 24 (chunkTermI lt l) nn
  | 0 => by
    rw [Finset.range_zero, Finset.sum_empty]
    exact sumI_zeroC l
  | n + 1 => by
    have ih := sumI_tileF l n
    rw [tileF_succ, Finset.sum_range_succ]
    by_cases h : n < 24
    · rw [dif_pos h, sumI_chunkF, ih, ext0_pos _ h, sum_range_ext0]
      rfl
    · rw [dif_neg h, ih, ext0_neg _ h, add_zero]

/-- The whole task, at lane l: every group's float term, chunk by chunk, trip by trip. -/
theorem sumF_task (l : Fin 16) :
    SpecF.sumF (SpecF.tileF lx lt 24) (ix1 l)
      = ∑ n : Fin 24, ∑ k : Fin 16, ∑ r : Fin 4, ∑ u : Fin 16, termF (lx n r k u) (lt n r k u) l := by
  rw [sumF_tileF, sum_range_ext0]
  rfl

/-- The whole task, at lane l: every group's count term. -/
theorem sumI_task (l : Fin 16) :
    SpecF.sumI (SpecF.tileF lx lt 24) (ix1 l)
      = ∑ n : Fin 24, ∑ k : Fin 16, ∑ r : Fin 4, ∑ u : Fin 16, termI (lt n r k u) l := by
  rw [sumI_tileF, sum_range_ext0]
  rfl

end Tile

end Cert.Proof.Fold

end
-- ==== Proof.Fold.lean ====
/-
  A subcore's accumulation is its lane sums. When the loaded 1 × 16 block of chunk n, row r, trip k, group u holds, at
  entry (0, l), the array entry at row 4 n + r of the subcore's 96 rows and column 16 (16 k + u) + l, the sum of the
  eight float accumulators at lane l is the sum, over the 96 rows and the 256 columns congruent to l, of the entry terms,
  and the sum of the eight counts is the 32-bit sum of the words t there: the chunks' rows are the 96 rows and the trips'
  groups the 256 column groups, and a finite sum may be taken in any order.
-/
import proofs.«207598_g57604101374094_cont_9to1_m_955_21_alg».proof.Proof.FoldLoop

noncomputable section

namespace Cert.Proof.Fold

open Idealize.ShloMosaic Idealize.ShloMosaic.ValueIdx

theorem fold_sum (x : Spec.SA.Idx → EReal) (t : Spec.SA.Idx → BitVec 32) (w : Fin 32)
    (lx : Fin 24 → Fin 4 → Fin 16 → Fin 16 → Vec Ideal SpecF.S1x16 .f32)
    (lt : Fin 24 → Fin 4 → Fin 16 → Fin 16 → Vec Ideal SpecF.S1x16 .i32)
    (hx : ∀ (n : Fin 24) (r : Fin 4) (k u l : Fin 16), lx n r k u (ValueIdx.ix2 0 l)
      = Spec.at2 x (Spec.scRow w ⟨4 * n.val + r.val, by omega⟩) (Spec.scCol ⟨16 * k.val + u.val, by omega⟩ l))
    (ht : ∀ (n : Fin 24) (r : Fin 4) (k u l : Fin 16), lt n r k u (ValueIdx.ix2 0 l)
      = Spec.at2 t (Spec.scRow w ⟨4 * n.val + r.val, by omega⟩) (Spec.scCol ⟨16 * k.val + u.val, by omega⟩ l)) :
    (∀ l : Fin 16, SpecF.sumF (SpecF.tileF lx lt 24) (ValueIdx.ix1 l) = Spec.scSum x t w l)
    ∧ (∀ l : Fin 16, SpecF.sumI (F := Ideal) (SpecF.tileF lx lt 24) (ValueIdx.ix1 l) = Spec.scCnt t w l) := by
  refine ⟨fun l => ?_, fun l => ?_⟩
  · rw [sumF_task]
    unfold Spec.scSum
    rw [← sum_order fun i q => Spec.scTerm (Spec.at2 x (Spec.scRow w i) (Spec.scCol q l))
      (Spec.at2 t (Spec.scRow w i) (Spec.scCol q l))]
    refine Finset.sum_congr rfl fun n _ => Finset.sum_congr rfl fun k _ => Finset.sum_congr rfl fun r _ =>
      Finset.sum_congr rfl fun u _ => ?_
    unfold termF
    rw [hx, ht]
  · rw [sumI_task]
    unfold Spec.scCnt
    rw [← sum_order fun i q => Spec.at2 t (Spec.scRow w i) (Spec.scCol q l)]
    refine Finset.sum_congr rfl fun n _ => Finset.sum_congr rfl fun k _ => Finset.sum_congr rfl fun r _ =>
      Finset.sum_congr rfl fun u _ => ?_
    unfold termI
    rw [ht]

end Cert.Proof.Fold

end
-- ==== Proof.ClosingSplit.lean ====
/-
  The two arrangements of the 16384 × 4096 entries. The rows split as 13312 + 32 · 96: rows 0 … 13311, then for each
  w < 32 the 96 rows 13312 + 96 w + r. The columns split as 256 · 16: column 16 q + l for q < 256, l < 16. A sum over
  all entries, in any commutative monoid, is therefore the sum over the first 13312 rows plus the sum, over w and l, of
  the sums over r and q.
-/
import proofs.«207598_g57604101374094_cont_9to1_m_955_21_alg».proof.Proof.Spec

noncomputable section

namespace Cert.Proof.RefSide

open Idealize.ShloMosaic

/-- Column 16 q + l ↔ (q, l). -/
def colEquiv : Fin 256 × Fin 16 ≃ Fin 4096 where
  toFun p := Spec.scCol p.1 p.2
  invFun j := (⟨j.val / 16, by omega⟩, ⟨j.val % 16, by omega⟩)
  left_inv p := by
    obtain ⟨q, l⟩ := p
    refine Prod.ext (Fin.ext ?_) (Fin.ext ?_)
    · show (16 * q.val + l.val) / 16 = q.val
      omega
    · show (16 * q.val + l.val) % 16 = l.val
      omega
  right_inv j := Fin.ext (by
    show 16 * (j.val / 16) + j.val % 16 = j.val
    omega)

/-- A row from its piece: one of the first 13312, or row r of block w. -/
def rowOf : Fin 13312 ⊕ (Fin 32 × Fin 96) → Fin 16384
  | .inl i => ⟨i.val, Spec.tcrow_lt i⟩
  | .inr p => Spec.scRow p.1 p.2

/-- The piece a row lies in. -/
def pieceOf (i : Fin 16384) : Fin 13312 ⊕ (Fin 32 × Fin 96) :=
  if h : i.val < 13312 then .inl ⟨i.val, h⟩
  else .inr (⟨(i.val - 13312) / 96, by omega⟩, ⟨(i.val - 13312) % 96, by omega⟩)

theorem pieceOf_rowOf (s : Fin 13312 ⊕ (Fin 32 × Fin 96)) : pieceOf (rowOf s) = s := by
  rcases s with i | ⟨w, r⟩
  · unfold pieceOf rowOf
    rw [dif_pos i.isLt]
  · unfold pieceOf rowOf
    have hn : ¬ (Spec.scRow w r).val < 13312 := by
      show ¬ 13312 + 96 * w.val + r.val < 13312
      omega
    rw [dif_neg hn]
    refine congrArg Sum.inr (Prod.ext (Fin.ext ?_) (Fin.ext ?_))
    · show (13312 + 96 * w.val + r.val - 13312) / 96 = w.val
      omega
    · show (13312 + 96 * w.val + r.val - 13312) % 96 = r.val
      omega

theorem rowOf_pieceOf (i : Fin 16384) : rowOf (pieceOf i) = i := by
  unfold pieceOf
  by_cases h : i.val < 13312
  · rw [dif_pos h]
    rfl
  · rw [dif_neg h]
    refine Fin.ext ?_
    show 13312 + 96 * ((i.val - 13312) / 96) + (i.val - 13312) % 96 = i.val
    omega

/-- Rows 0 … 13311, then 32 blocks of 96 rows. -/
def rowEquiv : Fin 13312 ⊕ (Fin 32 × Fin 96) ≃ Fin 16384 where
  toFun := rowOf
  invFun := pieceOf
  left_inv := pieceOf_rowOf
  right_inv := rowOf_pieceOf

/-- A sum over the 4096 columns, lane by lane: over l, then over the 256 columns 16 q + l. -/
theorem sum_cols {M : Type*} [AddCommMonoid M] (g : Fin 4096 → M) :
    ∑ j : Fin 4096, g j = ∑ l : Fin 16, ∑ q : Fin 256, g (Spec.scCol q l) := by
  rw [← Equiv.sum_comp colEquiv g, Fintype.sum_prod_type, Finset.sum_comm]
  rfl

/-- A sum over all entries is the sum over the first 13312 rows plus, over blocks w and lanes l, the sums over the
    block's 96 rows and the lane's 256 columns. -/
theorem sum_split {M : Type*} [AddCommMonoid M] (f : Fin 16384 → Fin 4096 → M) :
    ∑ i : Fin 16384, ∑ j : Fin 4096, f i j
      = (∑ i : Fin 13312, ∑ j : Fin 4096, f ⟨i.val, Spec.tcrow_lt i⟩ j)
        + ∑ w : Fin 32, ∑ l : Fin 16, ∑ r : Fin 96, ∑ q : Fin 256, f (Spec.scRow w r) (Spec.scCol q l) := by
  rw [← Equiv.sum_comp rowEquiv (fun i => ∑ j : Fin 4096, f i j), Fintype.sum_sum_type, Fintype.sum_prod_type]
  refine congrArg₂ (· + ·) rfl (Finset.sum_congr rfl fun w _ => ?_)
  exact (Finset.sum_congr rfl fun r _ => sum_cols (f (Spec.scRow w r))).trans Finset.sum_comm

end Cert.Proof.RefSide

end
-- ==== Proof.RefSpec.lean ====
/-
  The reference's result, at the ideal instance, as a quotient of plain finite sums over the two argument arrays
  x : f32[16384, 4096] and t : i32[16384, 4096]: the sum over all entries of 0.25 · (1 − x)^2.0 where t = 1 (0.0
  elsewhere), from 0.0, divided by the float of the 32-bit sum, from 0, of the comparison bits t = 1 widened to words.
-/
import proofs.«207598_g57604101374094_cont_9to1_m_955_21_alg».proof.Proof.Spec

noncomputable section

namespace Cert.Proof.RefSide

open Idealize.ShloMosaic

/-- The float 2.0 as the reference spells it. -/
abbrev two : EReal := Ideal.ofBits .f32 0x40000000#32

/-- The reference's term at one entry: 0.25 · (1 − x)^2.0 where t = 1, else 0.0. -/
def refTerm (x : EReal) (t : BitVec 32) : EReal :=
  Scalar.select (Scalar.cmpi .eq t 1#32) (Spec.quarter * Ideal.pow (Spec.one - x) two) Spec.zero

/-- The reference's count term at one entry: the comparison's bit, widened to a 32-bit word. -/
def refCntTerm (t : BitVec 32) : BitVec 32 := (Scalar.cmpi .eq t 1#32).setWidth 32

/-- The reference's result: the sum of the entry terms from 0.0, over the float of the 32-bit sum of the count terms
    from 0. -/
def refResult (x : Spec.SA.Idx → EReal) (t : Spec.SA.Idx → BitVec 32) : EReal :=
  Ideal.div (Spec.zero + ∑ i : Fin 16384, ∑ j : Fin 4096, refTerm (Spec.at2 x i j) (Spec.at2 t i j))
    (FloatOps.sitofp (F := Ideal) .f32 (0#32 + ∑ i : Fin 16384, ∑ j : Fin 4096, refCntTerm (Spec.at2 t i j)))

end Cert.Proof.RefSide

end
-- ==== Proof.ClosingEntry.lean ====
/-
  One entry at a time. With x a real number and t the word 0 or 1, the three entry terms are values of one real
  number a = [t = 1] · (1 − x)²: the term (1 − x)² selected where t = 1, the term (float t · (1 − x))², and, scaled by
  1/4, the reference's 0.25 · (1 − x)^2.0 selected where t = 1 (a real number to the real power 2 is its square, for
  every real base). The count terms are the natural number [t = 1], as a word and as a float.
-/
import proofs.«207598_g57604101374094_cont_9to1_m_955_21_alg».proof.Proof.RefSpec
import Idealize.ShloMosaic.Lib.ValueIdx
import Idealize.ShloMosaic.PureOps.Ideal.Laws

noncomputable section

namespace Cert.Proof.RefSide

open Idealize.ShloMosaic

/-! ## The four float literals -/

theorem one_val : Spec.one = ((1 : ℝ) : EReal) := by
  simp [Ideal.ofBits, Ideal.ieee]
  exact_mod_cast (by norm_num : (8388608 : ℝ) * (2 ^ 23)⁻¹ = 1)

theorem two_val : two = ((2 : ℝ) : EReal) := by
  simp [Ideal.ofBits, Ideal.ieee]
  exact_mod_cast (by norm_num : (8388608 : ℝ) * (2 ^ 22)⁻¹ = 2)

theorem quarter_val : Spec.quarter = ((1 / 4 : ℝ) : EReal) := by
  simp [Ideal.ofBits, Ideal.ieee]
  exact_mod_cast (by norm_num : (8388608 : ℝ) * (2 ^ 25)⁻¹ = 4⁻¹)

theorem zero_val : Spec.zero = ((0 : ℝ) : EReal) := by
  rw [show Spec.zero = (0 : EReal) from Ideal.ofBits_zero_f32]
  rfl

/-! ## The comparison bit and the conversions at the two words -/

theorem cmp_zero : Scalar.cmpi .eq (0#32 : BitVec 32) 1#32 = 0#1 := by decide
theorem cmp_one : Scalar.cmpi .eq (1#32 : BitVec 32) 1#32 = 1#1 := by decide

theorem sitofp_zero : FloatOps.sitofp (F := Ideal) .f32 (0#32 : BitVec 32) = ((0 : ℝ) : EReal) := by
  show ((((0#32 : BitVec 32).toInt : ℤ) : ℝ) : EReal) = _
  rw [show (0#32 : BitVec 32).toInt = 0 from by decide, Int.cast_zero]

theorem sitofp_one : FloatOps.sitofp (F := Ideal) .f32 (1#32 : BitVec 32) = ((1 : ℝ) : EReal) := by
  show ((((1#32 : BitVec 32).toInt : ℤ) : ℝ) : EReal) = _
  rw [show (1#32 : BitVec 32).toInt = 1 from by decide, Int.cast_one]

/-- The ideal power of two real numbers is the real power. -/
theorem pow_coe (a b : ℝ) : Ideal.pow (a : EReal) (b : EReal) = ((Real.rpow a b : ℝ) : EReal) := rfl

/-! ## The sum's terms at one entry -/

/-- The three entry terms over one real number. -/
theorem entry (x : EReal) (t : BitVec 32) (hx : ∃ r : ℝ, x = (r : EReal)) (ht : t = 0#32 ∨ t = 1#32) :
    ∃ a : ℝ, Spec.tcTerm x t = (a : EReal) ∧ Spec.scTerm x t = (a : EReal)
      ∧ refTerm x t = ((1 / 4 * a : ℝ) : EReal) := by
  obtain ⟨r, rfl⟩ := hx
  rcases ht with rfl | rfl
  · refine ⟨0, ?_, ?_, ?_⟩
    · unfold Spec.tcTerm
      rw [cmp_zero, ValueIdx.select_zero, zero_val]
    · unfold Spec.scTerm
      rw [sitofp_zero, one_val]
      norm_cast
      ring
    · unfold refTerm
      rw [cmp_zero, ValueIdx.select_zero, zero_val]
      norm_num
  · refine ⟨(1 - r) * (1 - r), ?_, ?_, ?_⟩
    · unfold Spec.tcTerm
      rw [cmp_one, ValueIdx.select_one, one_val]
      norm_cast
    · unfold Spec.scTerm
      rw [sitofp_one, one_val]
      norm_cast
      ring
    · unfold refTerm
      rw [cmp_one, ValueIdx.select_one, one_val, two_val, quarter_val, ← EReal.coe_sub, pow_coe, ← EReal.coe_mul]
      refine congrArg Real.toEReal (congrArg (1 / 4 * ·) ?_)
      show (1 - r) ^ (2 : ℝ) = (1 - r) * (1 - r)
      rw [Real.rpow_two, sq]

/-! ## The count's terms at one entry -/

/-- The entry's count: the natural number [t = 1], which is the word t itself, the reference's widened comparison bit,
    and, as a float, the widened bit's conversion. -/
theorem cnt_entry (t : BitVec 32) (ht : t = 0#32 ∨ t = 1#32) :
    ∃ n : ℕ, n ≤ 1 ∧ t = BitVec.ofNat 32 n ∧ refCntTerm t = BitVec.ofNat 32 n
      ∧ Spec.tcCntTerm t = (((n : ℕ) : ℝ) : EReal) := by
  rcases ht with rfl | rfl
  · refine ⟨0, by omega, rfl, by decide, ?_⟩
    show (((((Scalar.cmpi .eq (0#32 : BitVec 32) 1#32).setWidth 32).toInt : ℤ) : ℝ) : EReal) = _
    rw [show ((Scalar.cmpi .eq (0#32 : BitVec 32) 1#32).setWidth 32).toInt = 0 from by decide, Int.cast_zero,
      Nat.cast_zero]
  · refine ⟨1, by omega, rfl, by decide, ?_⟩
    show (((((Scalar.cmpi .eq (1#32 : BitVec 32) 1#32).setWidth 32).toInt : ℤ) : ℝ) : EReal) = _
    rw [show ((Scalar.cmpi .eq (1#32 : BitVec 32) 1#32).setWidth 32).toInt = 1 from by decide, Int.cast_one,
      Nat.cast_one]

end Cert.Proof.RefSide

end
-- ==== Proof.ClosingSums.lean ====
/-
  Finite sums through the three coercions the closing step meets: a sum of real numbers read as extended reals is
  the real sum read as an extended real (there is no infinity among the terms); the same for natural numbers read as
  reals; and a 32-bit sum of words that are natural numbers is the word of the natural sum, which reads back, signed,
  as that sum when it lies below 2³¹.
-/
import Idealize.ShloMosaic.PureOps.Ideal
import Mathlib.Data.BitVec

noncomputable section

namespace Cert.Proof.RefSide

open Idealize.ShloMosaic

/-- A finite sum of real numbers, read term by term in the extended reals, is the real sum. -/
theorem coe_sum {ι : Type*} (s : Finset ι) (f : ι → ℝ) :
    ∑ k ∈ s, ((f k : ℝ) : EReal) = ((∑ k ∈ s, f k : ℝ) : EReal) := by
  induction s using Finset.cons_induction with
  | empty => simp
  | cons a s ha ih => rw [Finset.sum_cons, Finset.sum_cons, ih, EReal.coe_add]

/-- A finite sum of natural numbers, read term by term as extended reals, is the natural sum. -/
theorem coe_nat_sum {ι : Type*} (s : Finset ι) (f : ι → ℕ) :
    ∑ k ∈ s, (((f k : ℕ) : ℝ) : EReal) = (((∑ k ∈ s, f k : ℕ) : ℝ) : EReal) := by
  rw [coe_sum, Nat.cast_sum]

/-- A 32-bit sum of words of natural numbers is the word of the natural sum. -/
theorem ofNat_sum {ι : Type*} (s : Finset ι) (f : ι → ℕ) :
    ∑ k ∈ s, BitVec.ofNat 32 (f k) = BitVec.ofNat 32 (∑ k ∈ s, f k) := by
  induction s using Finset.cons_induction with
  | empty => rfl
  | cons a s ha ih => rw [Finset.sum_cons, Finset.sum_cons, ih, BitVec.ofNat_add]

/-- The word of a natural number below 2³¹, converted signed to a float, is that number. -/
theorem sitofp_ofNat (N : ℕ) (h : N < 2 ^ 31) :
    FloatOps.sitofp (F := Ideal) .f32 (BitVec.ofNat 32 N) = (((N : ℕ) : ℝ) : EReal) := by
  show ((((BitVec.ofNat 32 N).toInt : ℤ) : ℝ) : EReal) = _
  have hN : (BitVec.ofNat 32 N).toNat = N := by
    rw [BitVec.toNat_ofNat]
    exact Nat.mod_eq_of_lt (by omega)
  rw [BitVec.toInt_eq_toNat_of_lt (by rw [hN]; omega), hN, Int.cast_natCast]

end Cert.Proof.RefSide

end
-- ==== Proof.Closing.lean ====
/-
  The closing step: the kernel's host tail over its four pieces equals the reference's quotient, when every entry of
  x is a real number and every entry of t is the word 0 or 1.

  Numerators. Each entry's three terms are one real number a (the entry lemma), so the pieces' sums are real sums, and
  the real sum over all entries is the sum over rows 0 … 13311 plus the sum over the 32 × 16 lane sums (the two
  arrangements of the index set). The factor 1/4 then moves through the finite real sum: this is where the entries
  being real is used, since multiplication does not distribute over sums of extended reals at the infinities.

  Denominators. Each entry's count is a natural number n ≤ 1, so every 32-bit sum is the word of a natural sum of
  at most 16384 · 4096 = 2²⁶ < 2³¹ and reads back, signed, as that sum; the float counts add as real numbers.
-/
import proofs.«207598_g57604101374094_cont_9to1_m_955_21_alg».proof.Proof.ClosingSplit
import proofs.«207598_g57604101374094_cont_9to1_m_955_21_alg».proof.Proof.ClosingEntry
import proofs.«207598_g57604101374094_cont_9to1_m_955_21_alg».proof.Proof.ClosingSums

noncomputable section

namespace Cert.Proof.RefSide

open Idealize.ShloMosaic

/-- The scale 1/4 through the sum of the two real pieces. -/
theorem scale_pieces (A B : ℝ) :
    ((1 / 4 : ℝ) : EReal) * ((A : EReal) + (((0 : ℝ) : EReal) + (B : EReal)))
      = ((0 : ℝ) : EReal) + ((1 / 4 * (A + B) : ℝ) : EReal) := by
  norm_cast
  ring

/-- The two natural counts add as extended reals. -/
theorem add_counts (A B : ℕ) :
    (((A : ℕ) : ℝ) : EReal) + (((B : ℕ) : ℝ) : EReal) = (((A + B : ℕ) : ℝ) : EReal) := by
  norm_cast

theorem closing (x : Spec.SA.Idx → EReal) (t : Spec.SA.Idx → BitVec 32)
    (hx : ∀ i, ∃ r : ℝ, x i = (r : EReal)) (ht : ∀ i, t i = 0#32 ∨ t i = 1#32) :
    Spec.tail x t = refResult x t := by
  choose a ha_tc ha_sc ha_ref using fun k => entry (x k) (t k) (hx k) (ht k)
  choose n hn1 hnt hnref hntc using fun k => cnt_entry (t k) (ht k)
  unfold Spec.tail refResult
  refine congrArg₂ Ideal.div ?_ ?_
  · have hsplit : ∑ i : Fin 16384, ∑ j : Fin 4096, a (ValueIdx.ix2 i j)
        = (∑ i : Fin 13312, ∑ j : Fin 4096, a (ValueIdx.ix2 ⟨i.val, Spec.tcrow_lt i⟩ j))
          + ∑ w : Fin 32, ∑ l : Fin 16, ∑ r : Fin 96, ∑ q : Fin 256,
              a (ValueIdx.ix2 (Spec.scRow w r) (Spec.scCol q l)) :=
      sum_split (M := ℝ) fun i j => a (ValueIdx.ix2 i j)
    have htc : Spec.tcSum x t
        = ((∑ i : Fin 13312, ∑ j : Fin 4096, a (ValueIdx.ix2 ⟨i.val, Spec.tcrow_lt i⟩ j) : ℝ) : EReal) := by
      unfold Spec.tcSum
      simp only [Spec.at2, ha_tc, coe_sum]
    have hsc : ∑ w : Fin 32, ∑ l : Fin 16, Spec.scSum x t w l
        = ((∑ w : Fin 32, ∑ l : Fin 16, ∑ r : Fin 96, ∑ q : Fin 256,
              a (ValueIdx.ix2 (Spec.scRow w r) (Spec.scCol q l)) : ℝ) : EReal) := by
      simp only [Spec.scSum, Spec.at2, ha_sc, coe_sum]
    have href : ∑ i : Fin 16384, ∑ j : Fin 4096, refTerm (Spec.at2 x i j) (Spec.at2 t i j)
        = ((1 / 4 * ∑ i : Fin 16384, ∑ j : Fin 4096, a (ValueIdx.ix2 i j) : ℝ) : EReal) := by
      simp only [Spec.at2, ha_ref, coe_sum, Finset.mul_sum]
    rw [htc, hsc, href, hsplit, quarter_val, zero_val]
    exact scale_pieces _ _
  · have hsplit : ∑ i : Fin 16384, ∑ j : Fin 4096, n (ValueIdx.ix2 i j)
        = (∑ i : Fin 13312, ∑ j : Fin 4096, n (ValueIdx.ix2 ⟨i.val, Spec.tcrow_lt i⟩ j))
          + ∑ w : Fin 32, ∑ l : Fin 16, ∑ r : Fin 96, ∑ q : Fin 256,
              n (ValueIdx.ix2 (Spec.scRow w r) (Spec.scCol q l)) :=
      sum_split (M := ℕ) fun i j => n (ValueIdx.ix2 i j)
    have hbound : ∑ i : Fin 16384, ∑ j : Fin 4096, n (ValueIdx.ix2 i j) ≤ 16384 * 4096 := by
      calc ∑ i : Fin 16384, ∑ j : Fin 4096, n (ValueIdx.ix2 i j)
          ≤ ∑ _i : Fin 16384, ∑ _j : Fin 4096, 1 :=
            Finset.sum_le_sum fun i _ => Finset.sum_le_sum fun j _ => hn1 _
        _ = 16384 * 4096 := by simp
    have htc : Spec.tcCnt t
        = (((∑ i : Fin 13312, ∑ j : Fin 4096, n (ValueIdx.ix2 ⟨i.val, Spec.tcrow_lt i⟩ j) : ℕ) : ℝ) : EReal) := by
      unfold Spec.tcCnt
      simp only [Spec.at2, hntc, coe_nat_sum]
    have hsc : ∑ w : Fin 32, ∑ l : Fin 16, Spec.scCnt t w l
        = BitVec.ofNat 32 (∑ w : Fin 32, ∑ l : Fin 16, ∑ r : Fin 96, ∑ q : Fin 256,
            n (ValueIdx.ix2 (Spec.scRow w r) (Spec.scCol q l))) := by
      simp only [Spec.scCnt, Spec.at2, hnt, ofNat_sum]
    have href : ∑ i : Fin 16384, ∑ j : Fin 4096, refCntTerm (Spec.at2 t i j)
        = BitVec.ofNat 32 (∑ i : Fin 16384, ∑ j : Fin 4096, n (ValueIdx.ix2 i j)) := by
      simp only [Spec.at2, hnref, ofNat_sum]
    rw [htc, hsc, href, BitVec.zero_add, BitVec.zero_add, sitofp_ofNat _ (by omega), sitofp_ofNat _ (by omega),
      hsplit]
    exact add_counts _ _

end Cert.Proof.RefSide

end
-- ==== Proof.KIValue.lean ====
/-
  At the ideal instance, the idealized kernel's result is the reference's quotient of plain sums: the TensorCore's two
  words are the sums over rows 0 … 13311, entry (w, l) of the subcores' two tables the sums over subcore w's 96 rows and
  the 256 columns congruent to l mod 16 (a subcore's rows start at 13312 + 96 w, since 192 (w / 2) + 96 (w mod 2) = 96 w),
  and the host's last steps over those four pieces are the reference's quotient, the inputs finite and t in {0, 1}.
-/
import proofs.«207598_g57604101374094_cont_9to1_m_955_21_alg».proof.Proof.KIMain
import proofs.«207598_g57604101374094_cont_9to1_m_955_21_alg».proof.Proof.KITcValue
import proofs.«207598_g57604101374094_cont_9to1_m_955_21_alg».proof.Proof.KITailValue
import proofs.«207598_g57604101374094_cont_9to1_m_955_21_alg».proof.Proof.Fold
import proofs.«207598_g57604101374094_cont_9to1_m_955_21_alg».proof.Proof.Closing

noncomputable section

namespace Cert.Proof.KI

open Cert.KernelIdeal Cert.KernelIdeal.Gen
open Idealize.ShloMosaic
open Idealize.ShloMosaic.SparseCore (S V T)

variable (m : (ℓ : Loc nD τ sig) → Buf (Elt Ideal) ℓ) (c : Dev nD)

theorem Lw_row (w : Fin 32) : 192 * ((Lw w) 1).val + 96 * ((Lw w) 0).val = 96 * w.val := by
  show 192 * (w.val / 2) + 96 * (w.val % 2) = 96 * w.val
  omega

theorem LX_at (w : Fin 32) (n : Fin 24) (r : Fin 4) (k u l : Fin 16) :
    LX (F := Ideal) m c (Lw w) n r k u (ValueIdx.ix2 0 l)
      = Spec.at2 (m (xLoc c)) (Spec.scRow w ⟨4 * n.val + r.val, by omega⟩) (Spec.scCol ⟨16 * k.val + u.val, by omega⟩ l) := by
  have h := Lw_row w
  unfold LX Spec.at2
  congr 2
  · apply Fin.ext
    show 192 * ((Lw w) 1).val + 96 * ((Lw w) 0).val + 13312 + 4 * n.val + r.val = 13312 + 96 * w.val + (4 * n.val + r.val)
    omega
  · apply Fin.ext
    show 256 * k.val + 16 * u.val + l.val = 16 * (16 * k.val + u.val) + l.val
    omega
theorem LT_at (w : Fin 32) (n : Fin 24) (r : Fin 4) (k u l : Fin 16) :
    LT (F := Ideal) m c (Lw w) n r k u (ValueIdx.ix2 0 l)
      = Spec.at2 (m (tLoc c)) (Spec.scRow w ⟨4 * n.val + r.val, by omega⟩) (Spec.scCol ⟨16 * k.val + u.val, by omega⟩ l) := by
  have h := Lw_row w
  unfold LT Spec.at2
  congr 2
  · apply Fin.ext
    show 192 * ((Lw w) 1).val + 96 * ((Lw w) 0).val + 13312 + 4 * n.val + r.val = 13312 + 96 * w.val + (4 * n.val + r.val)
    omega
  · apply Fin.ext
    show 256 * k.val + 16 * u.val + l.val = 16 * (16 * k.val + u.val) + l.val
    omega

/-- The kernel's result buffer, at the ideal instance, is the reference's quotient. -/
theorem kernel_result (hx : ∀ i, ∃ r : ℝ, m (xLoc c) i = (r : EReal)) (ht : ∀ i, m (tLoc c) i = 0#32 ∨ m (tLoc c) i = 1#32) :
    StableHlo.after Tail.tailOps (V2 (F := Ideal) m c) rOut = fun _ => RefSide.refResult (m (xLoc c)) (m (tLoc c)) := by
  rw [Tail.tail_ideal (m (xLoc c)) (m (tLoc c)) (V2 m c) ?h10 ?h11 ?h00 ?h01, RefSide.closing _ _ hx ht]
  case h10 => rw [V2_rY0, Tc.tcSumF_eq]
  case h11 => rw [V2_rY1, Tc.tcCntF_eq]
  case h00 =>
    intro w l
    rw [V2_rS]
    exact (Fold.fold_sum (m (xLoc c)) (m (tLoc c)) w (LX m c (Lw w)) (LT m c (Lw w)) (LX_at m c w) (LT_at m c w)).1 l
  case h01 =>
    intro w l
    rw [V2_rC]
    exact (Fold.fold_sum (m (xLoc c)) (m (tLoc c)) w (LX m c (Lw w)) (LT m c (Lw w)) (LX_at m c w) (LT_at m c w)).2 l

end Cert.Proof.KI

end
-- ==== Proof.RefRead.lean ====
/-
  The reference's run, read back as the closed form. The run ends with the result at the composed term of the two
  argument arrays; read one operation at a time that term is, at its single index, the quotient of two sums: the float
  sum from 0.0, over every entry, of the selected term 0.25 · (1 − x)^2.0, and the float of the 32-bit sum from 0, over
  every entry, of the widened comparison bit. A sum over the rank-2 index set is the double sum over rows and columns.
-/
import proofs.«207598_g57604101374094_cont_9to1_m_955_21_alg».proof.Proof.Gen.ReferenceIdeal.Read
import proofs.«207598_g57604101374094_cont_9to1_m_955_21_alg».proof.Proof.RefSpec
import Idealize.ShloMosaic.Lib.ValueIdx
import Idealize.ShloMosaic.PureOps.Reduce

noncomputable section

namespace Cert.Proof.RefSide

open Idealize.ShloMosaic Idealize.ShloMosaic.TcCoe Idealize.SL.Sem Cert.ReferenceIdeal

/-- A 32-bit add-reduction into a shape with one index is the initial word plus the sum of every operand word. -/
theorem reduce_addi_total {s t u : Shape} {axes : List (Fin s.rank)} [Subsingleton t.Idx] (x : s.Idx → BitVec 32)
    (init : u.Idx → BitVec 32) (h : s.ReducesTo axes t) (hu : 0 < u.numel) (j : t.Idx) :
    Host.reduce IntOp.addi x init h hu j = init (Shape.Idx.first hu) + ∑ i : s.Idx, x i := by
  rw [Host.reduce_eq_fold, Finset.filter_true_of_mem fun i _ => Subsingleton.elim _ _]
  generalize init (Shape.Idx.first hu) = b
  induction (Finset.univ : Finset s.Idx) using Finset.cons_induction with
  | empty => simp
  | cons a S ha ih =>
    rw [Finset.fold_cons, Finset.sum_cons, ih]
    exact add_left_comm _ _ _

/-- The rank-0 shape has one index. -/
instance subsingleton_refScalarIdx : Subsingleton Cert.ReferenceIdeal.S_.Idx :=
  ⟨fun _ _ => funext fun d => d.elim0⟩

/-- The reference's last stage is, at its one index, the closed form. -/
theorem ref_value [Cert.ReferenceIdeal.Facts] (x0 : S16384x4096.Idx → EReal) (x1 : S16384x4096.Idx → BitVec 32) :
    Read.val_main_v13 (F := Ideal) x0 x1 = fun _ => refResult x0 x1 := by
  funext i
  rw [Read.val_main_v13_apply, Read.val_main_v9_apply, Read.val_main_v12_apply]
  unfold refResult
  refine congrArg₂ Ideal.div ?_ ?_
  · rw [ValueIdx.sum_idx2]
    refine congrArg₂ (· + ·) rfl (Finset.sum_congr rfl fun a _ => Finset.sum_congr rfl fun b _ => ?_)
    rw [Read.val_main_v8_apply, Read.val_main_v1_apply, Read.val_main_v0_apply, Read.val_main_c_apply,
      Read.val_main_v7_apply, Read.val_main_v6_apply, Read.val_main_cst_1_apply, Read.val_main_v5_apply,
      Read.val_main_v3_apply, Read.val_main_v2_apply, Read.val_main_cst_apply, Read.val_main_v4_apply,
      Read.val_main_cst_0_apply, Read.val_main_call0_v1_apply, Read.val_main_call0_v0_apply,
      Read.val_main_cst_2_apply]
    rfl
  · refine congrArg (FloatOps.sitofp (F := Ideal) .f32) ?_
    unfold Read.val_main_v11
    rw [reduce_addi_total (t := S_), ValueIdx.sum_idx2]
    refine congrArg₂ (· + ·) rfl (Finset.sum_congr rfl fun a _ => Finset.sum_congr rfl fun b _ => ?_)
    rw [Read.val_main_v10_apply, Read.val_main_v1_apply, Read.val_main_v0_apply, Read.val_main_c_apply]
    rfl

/-- Every weakly fair execution of the reference terminates with its result at the closed form of the two argument
    arrays, and the arguments unchanged. -/
theorem ref_run [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread _ _).loc Cert.ReferenceIdeal.main_v13)
            = (fun _ => refResult (m ((c.tc : Thread _ _).loc Cert.ReferenceIdeal.main_arg0))
                (m ((c.tc : Thread _ _).loc Cert.ReferenceIdeal.main_arg1)))
          ∧ r.2.mem ((c.tc : Thread _ _).loc Cert.ReferenceIdeal.main_arg0)
            = m ((c.tc : Thread _ _).loc Cert.ReferenceIdeal.main_arg0)
          ∧ r.2.mem ((c.tc : Thread _ _).loc Cert.ReferenceIdeal.main_arg1)
            = m ((c.tc : Thread _ _).loc Cert.ReferenceIdeal.main_arg1)) :=
  (θ_run (Cert.ReferenceIdeal.defs (F := Ideal)) _ _).mono
    (fun _ h c => ⟨((h c).1.trans (Read.val_main_v13_eq _ _)).trans (ref_value _ _), (h c).2⟩)
    (Cert.ReferenceIdeal.Value.run (F := Ideal) m ρ)

end Cert.Proof.RefSide

end
-- ==== Proof.PreDecode.lean ====
/-
  The precondition read back. The input-domain predicate is the conjunction of two "all entries" tests,
  |x| < +∞ for every entry of x and 0 ≤ t ≤ 1 (signed) for every entry of t, each an and-reduction of a
  comparison array over both axes. When the predicate's one result bit is 1, every comparison bit is 1:
  every entry of x is then a real number (an extended real whose absolute value lies below +∞ is neither
  infinity), and every entry of t, read signed, lies in [0, 1], so it is the word 0 or the word 1.
-/
import proofs.«207598_g57604101374094_cont_9to1_m_955_21_alg».proof.Pre_input_domain
import proofs.«207598_g57604101374094_cont_9to1_m_955_21_alg».proof.Proof.Spec
import Idealize.ShloMosaic.Lib.ReduceAll
import Idealize.ShloMosaic.Lib.ValueIdx
import Idealize.ShloMosaic.PureOps.Ideal.Laws

noncomputable section

namespace Cert.Proof.RefSide

open Idealize.ShloMosaic

/-- The rank-0 shape has one index. -/
instance subsingleton_scalarIdx : Subsingleton Cert.Pre_input_domain.S_.Idx :=
  ⟨fun _ _ => funext fun d => d.elim0⟩

/-- The f32 word 0x7F800000 is +∞. -/
theorem ofBits_inf_f32 : Ideal.ofBits .f32 0x7F800000#32 = (⊤ : EReal) := by
  simp [Ideal.ofBits, Ideal.ieee]

/-- An extended real whose absolute value max(a, −a) lies below +∞ is a real number. -/
theorem real_of_abs_lt_top (a : EReal) (h : max a (-a) < (⊤ : EReal)) : ∃ r : ℝ, a = (r : EReal) := by
  induction a using EReal.rec with
  | bot => simp at h
  | coe r => exact ⟨r, rfl⟩
  | top => simp at h

/-- A truth value whose one-bit word is 1 is true. -/
theorem true_of_ofBool_eq_one {b : Bool} (h : BitVec.ofBool b = 1#1) : b = true := by
  cases b
  · exact absurd h (by decide)
  · rfl

/-- A 32-bit word that reads, signed, between 0 and 1 is the word 0 or the word 1. -/
theorem word_zero_or_one (b : BitVec 32) (h0 : (0#32 : BitVec 32).toInt ≤ b.toInt)
    (h1 : b.toInt ≤ (1#32 : BitVec 32).toInt) : b = 0#32 ∨ b = 1#32 := by
  have e0 : (0#32 : BitVec 32).toInt = 0 := by decide
  have e1 : (1#32 : BitVec 32).toInt = 1 := by decide
  rw [e0] at h0
  rw [e1] at h1
  rcases (by omega : b.toInt = 0 ∨ b.toInt = 1) with h | h
  · exact Or.inl (BitVec.eq_of_toInt_eq (h.trans e0.symm))
  · exact Or.inr (BitVec.eq_of_toInt_eq (h.trans e1.symm))

/-- Where the precondition's result bit is 1, every entry of x is a real number and every entry of t is the word 0
    or the word 1. -/
theorem pre_decode [Cert.Pre_input_domain.Facts] (x : FVec Ideal Spec.SA .f32) (t : IVec Spec.SA 32)
    (h : Cert.Pre_input_domain.fn (F := Ideal) x t = fun _ => 1#1) :
    (∀ i, ∃ r : ℝ, x i = (r : EReal)) ∧ (∀ i, t i = 0#32 ∨ t i = 1#32) := by
  have h0 := congrFun h ValueIdx.ix0
  dsimp only [Cert.Pre_input_domain.fn] at h0
  obtain ⟨hx, ht⟩ := IntOp.andi_eq_one.1 h0
  refine ⟨fun i => ?_, fun i => ?_⟩
  · have hi := Host.reduce_andi_all _ _ _ _ _ hx i
    have hb : Ideal.cmp .olt (max (x i) (-(x i))) (Ideal.ofBits .f32 0x7F800000#32) = 1#1 := hi
    have hlt : max (x i) (-(x i)) < Ideal.ofBits .f32 0x7F800000#32 :=
      of_decide_eq_true (true_of_ofBool_eq_one hb)
    rw [ofBits_inf_f32] at hlt
    exact real_of_abs_lt_top _ hlt
  · have hi := Host.reduce_andi_all _ _ _ _ _ ht i
    obtain ⟨hge, hle⟩ := IntOp.andi_eq_one.1 hi
    exact word_zero_or_one (t i) (IntOp.cmpi_sge.1 hge) (IntOp.cmpi_sle.1 hle)

end Cert.Proof.RefSide

end
-- ==== Proof.lean ====
/-
  The kernel computes mean-of-selected: over x : f32[16384, 4096] and t : i32[16384, 4096] with every x finite and every
  t in {0, 1}, the sum of 0.25 · (1 − x)² over the entries where t = 1, divided by the number of such entries.

  It splits the rows. Rows 0 … 13311 go through a TensorCore kernel, 512 rows at a time: each block adds the sum of
  (1 − x)² where t = 1 to one scratch word and the sum of the comparison's bit, as a float, to another; the last block
  copies the two words out. Rows 13312 … 16383 go to the 32 vector subcores, 96 rows each, fetched four rows at a time
  into two alternating pairs of buffers (the next chunk's copy runs while the current one is summed; each buffer's copy
  is counted on a semaphore of its own and no buffer is touched between its copy's start and the wait for it); a subcore
  keeps eight 16-lane float accumulators of (float t · (1 − x))² and eight of t, adds them up, and writes its row of two
  32 x 16 tables. The host adds the tables' entries to the TensorCore's words, scales the sum by 1/4 and divides.

  Why this is the reference's quotient, at the ideal instance. The reference raises 1 − x to the float power 2.0, which on
  finite reals is x ↦ x², negative bases included. With t in {0, 1}, (float t · d)² is d² where t = 1 and 0 elsewhere,
  and t itself is the comparison's bit. The 32-bit counts cannot wrap (at most 2^26 ones). Finite sums of extended reals
  may be regrouped freely, so the block sums, the lane sums and the eight accumulators add up to one sum over the rows and
  columns they tile; the factor 1/4 moves through the sum because every term is finite. Both sides then divide the same
  numerator by the same count, whatever the quotient by zero is taken to be.

  The three frames: the reference's from its run; the kernel's, at both instances, from one run of the whole family of
  threads (TensorCore, two sequencers, thirty-two subcores) in which each subcore's task is proved once at a symbolic
  place, the TensorCore's region once per control case at a symbolic block, and the host operations as a list. The ideal
  pass rewrote nothing, so the idealized kernel is the kernel's own text read at the ideal instance.
-/
import proofs.«207598_g57604101374094_cont_9to1_m_955_21_alg».proof.Defs
import proofs.«207598_g57604101374094_cont_9to1_m_955_21_alg».proof.Proof.Gen.Kernel
import proofs.«207598_g57604101374094_cont_9to1_m_955_21_alg».proof.Proof.Gen.Kernel.Skeleton
import proofs.«207598_g57604101374094_cont_9to1_m_955_21_alg».proof.Proof.Gen.Kernel.Launch
import proofs.«207598_g57604101374094_cont_9to1_m_955_21_alg».proof.Proof.Gen.Kernel.Points
import proofs.«207598_g57604101374094_cont_9to1_m_955_21_alg».proof.Proof.Gen.KernelIdeal
import proofs.«207598_g57604101374094_cont_9to1_m_955_21_alg».proof.Proof.Gen.KernelIdeal.Skeleton
import proofs.«207598_g57604101374094_cont_9to1_m_955_21_alg».proof.Proof.Gen.KernelIdeal.Launch
import proofs.«207598_g57604101374094_cont_9to1_m_955_21_alg».proof.Proof.Gen.KernelIdeal.Points
import proofs.«207598_g57604101374094_cont_9to1_m_955_21_alg».proof.Proof.Gen.ReferenceIdeal
import proofs.«207598_g57604101374094_cont_9to1_m_955_21_alg».proof.Proof.Gen.Pre_input_domain
import proofs.«207598_g57604101374094_cont_9to1_m_955_21_alg».proof.Proof.Gen.ReferenceIdeal.Run
import proofs.«207598_g57604101374094_cont_9to1_m_955_21_alg».proof.Proof.Gen.ReferenceIdeal.Read
import proofs.«207598_g57604101374094_cont_9to1_m_955_21_alg».proof.Proof.KBMain
import proofs.«207598_g57604101374094_cont_9to1_m_955_21_alg».proof.Proof.KIValue
import proofs.«207598_g57604101374094_cont_9to1_m_955_21_alg».proof.Proof.RefRead
import proofs.«207598_g57604101374094_cont_9to1_m_955_21_alg».proof.Proof.PreDecode
import Idealize.ShloMosaic.Adequacy
import Idealize.ShloMosaic.Init

noncomputable section

namespace Cert.Proof

open Idealize.ShloMosaic Idealize.SL.Sem

/-- The kernel as printed: its run with the result forgotten. -/
theorem frame_p : Cert.frame_Kernel := fun m ρ _ =>
  (θ_run (Cert.Kernel.defs (F := Bits)) _ _).mono (fun _ h c => ⟨(h c).2.1, (h c).2.2⟩) (KB.run_main (F := Bits) m ρ)

/-- The idealized kernel: the same run at the ideal instance. -/
theorem frame_pi : Cert.frame_KernelIdeal := fun m ρ _ =>
  (θ_run (Cert.KernelIdeal.defs (F := Ideal)) _ _).mono (fun _ h c => ⟨(h c).2.1, (h c).2.2⟩) (KI.run_main (F := Ideal) m ρ)

/-- The reference: its run with the result forgotten. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote no operation. -/
theorem preserves : Cert.preserves_Kernel_KernelIdeal := trivial

/-- Both programs end at the quotient of the selected entries' sum of 0.25 · (1 − x)^2.0 by their count: the kernel by its
    run and the algebra of its four pieces under the precondition, the reference by its run, on arguments that agree. -/
theorem algebraic : Cert.algebraic_KernelIdeal_ReferenceIdeal := by
  intro m ρ m' ρ' hpre hagree
  refine ⟨fun c => fun _ => RefSide.refResult (m (KI.xLoc c)) (m (KI.tLoc c)), ?_, ?_⟩
  · refine (θ_run (Cert.KernelIdeal.defs (F := Ideal)) _ _).mono (fun r h c => ?_) (KI.run_main (F := Ideal) m ρ)
    obtain ⟨hx, ht⟩ := RefSide.pre_decode (m (KI.xLoc c)) (m (KI.tLoc c)) (hpre c)
    exact ⟨(h c).1.trans (KI.kernel_result m c hx ht), (h c).2.1, (h c).2.2⟩
  · refine (θ_run (Cert.ReferenceIdeal.defs (F := Ideal)) _ _).mono (fun r h c => ?_) (RefSide.ref_run m' ρ')
    refine ⟨(h c).1.trans ?_, (h c).2.1, (h c).2.2⟩
    rw [(hagree c).1, (hagree c).2]
    rfl

theorem claim : Cert.Claim :=
  ⟨Cert.Kernel.Gen.facts, Cert.KernelIdeal.Gen.facts, Cert.ReferenceIdeal.Gen.facts, Cert.Pre_input_domain.Gen.facts,
    frame_p, frame_pi, frame_ri, preserves, algebraic⟩

end Cert.Proof

end
